-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v84)) (v1 : (c : Dev Cert.KernelIdeal.nD) → Buf (Elt Ideal) ((c.tc : Thread Cert.KernelIdeal.nD Cert.KernelIdeal.τ).loc Cert.KernelIdeal.main_v88)) (v2 : (c : Dev Cert.KernelIdeal.nD) → Buf (Elt Ideal) ((c.tc : Thread Cert.KernelIdeal.nD Cert.KernelIdeal.τ).loc Cert.KernelIdeal.main_v89)) (v3 : (c : Dev Cert.KernelIdeal.nD) → Buf (Elt Ideal) ((c.tc : Thread Cert.KernelIdeal.nD Cert.KernelIdeal.τ).loc Cert.KernelIdeal.main_v90)) (v4 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v84) = v0 c
          ∧ r.2.mem ((c.tc : Thread Cert.KernelIdeal.nD Cert.KernelIdeal.τ).loc Cert.KernelIdeal.main_v88) = v1 c
          ∧ r.2.mem ((c.tc : Thread Cert.KernelIdeal.nD Cert.KernelIdeal.τ).loc Cert.KernelIdeal.main_v89) = v2 c
          ∧ r.2.mem ((c.tc : Thread Cert.KernelIdeal.nD Cert.KernelIdeal.τ).loc Cert.KernelIdeal.main_v90) = v3 c
          ∧ r.2.mem ((c.tc : Thread Cert.KernelIdeal.nD Cert.KernelIdeal.τ).loc Cert.KernelIdeal.main_v9) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_v85) = v1 c
          ∧ r.2.mem ((c.tc : Thread Cert.ReferenceIdeal.nD Cert.ReferenceIdeal.τ).loc Cert.ReferenceIdeal.main_v86) = v2 c
          ∧ r.2.mem ((c.tc : Thread Cert.ReferenceIdeal.nD Cert.ReferenceIdeal.τ).loc Cert.ReferenceIdeal.main_v87) = v3 c
          ∧ r.2.mem ((c.tc : Thread Cert.ReferenceIdeal.nD Cert.ReferenceIdeal.τ).loc Cert.ReferenceIdeal.main_v9) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x9 : Shape := ⟨2, ![1, 9]⟩
abbrev S1x3 : Shape := ⟨2, ![1, 3]⟩
abbrev S1x1 : Shape := ⟨2, ![1, 1]⟩
abbrev S1x1x512 : Shape := ⟨3, ![1, 1, 512]⟩
abbrev S100000x64 : Shape := ⟨2, ![100000, 64]⟩
abbrev S100000x512 : Shape := ⟨2, ![100000, 512]⟩
abbrev S32x9 : Shape := ⟨2, ![32, 9]⟩
abbrev S32 : Shape := ⟨1, ![32]⟩
abbrev S64x32 : Shape := ⟨2, ![64, 32]⟩
abbrev S64 : Shape := ⟨1, ![64]⟩
abbrev S2560x68 : Shape := ⟨2, ![2560, 68]⟩
abbrev S2560x512 : Shape := ⟨2, ![2560, 512]⟩
abbrev S2560 : Shape := ⟨1, ![2560]⟩
abbrev S3x512 : Shape := ⟨2, ![3, 512]⟩
abbrev S3 : Shape := ⟨1, ![3]⟩
abbrev S1x512 : Shape := ⟨2, ![1, 512]⟩
abbrev S1 : Shape := ⟨1, ![1]⟩
abbrev S_ : Shape := ⟨0, ![]⟩

class Facts : Prop where
  bcast_S_S1x9 : S_.BroadcastsInDim S1x9 (![] : Fin 0 → Fin S1x9.rank)
  reducesTo_S1x9_S_d0_1 : S1x9.ReducesTo [0, 1] S_
  h_S_ : 0 < S_.numel
  bcast_S_S1x3 : S_.BroadcastsInDim S1x3 (![] : Fin 0 → Fin S1x3.rank)
  reducesTo_S1x3_S_d0_1 : S1x3.ReducesTo [0, 1] S_
  bcast_S_S1x1 : S_.BroadcastsInDim S1x1 (![] : Fin 0 → Fin S1x1.rank)
  reducesTo_S1x1_S_d0_1 : S1x1.ReducesTo [0, 1] S_
  bcast_S_S1x1x512 : S_.BroadcastsInDim S1x1x512 (![] : Fin 0 → Fin S1x1x512.rank)
  reducesTo_S1x1x512_S_d0_1_2 : S1x1x512.ReducesTo [0, 1, 2] S_
  bcast_S_S100000x64 : S_.BroadcastsInDim S100000x64 (![] : Fin 0 → Fin S100000x64.rank)
  reducesTo_S100000x64_S_d0_1 : S100000x64.ReducesTo [0, 1] S_
  bcast_S_S100000x512 : S_.BroadcastsInDim S100000x512 (![] : Fin 0 → Fin S100000x512.rank)
  reducesTo_S100000x512_S_d0_1 : S100000x512.ReducesTo [0, 1] S_
  bcast_S_S32x9 : S_.BroadcastsInDim S32x9 (![] : Fin 0 → Fin S32x9.rank)
  reducesTo_S32x9_S_d0_1 : S32x9.ReducesTo [0, 1] S_
  bcast_S_S32 : S_.BroadcastsInDim S32 (![] : Fin 0 → Fin S32.rank)
  reducesTo_S32_S_d0 : S32.ReducesTo [0] S_
  bcast_S_S64x32 : S_.BroadcastsInDim S64x32 (![] : Fin 0 → Fin S64x32.rank)
  reducesTo_S64x32_S_d0_1 : S64x32.ReducesTo [0, 1] S_
  bcast_S_S64 : S_.BroadcastsInDim S64 (![] : Fin 0 → Fin S64.rank)
  reducesTo_S64_S_d0 : S64.ReducesTo [0] S_
  bcast_S_S2560x68 : S_.BroadcastsInDim S2560x68 (![] : Fin 0 → Fin S2560x68.rank)
  reducesTo_S2560x68_S_d0_1 : S2560x68.ReducesTo [0, 1] S_
  bcast_S_S2560x512 : S_.BroadcastsInDim S2560x512 (![] : Fin 0 → Fin S2560x512.rank)
  reducesTo_S2560x512_S_d0_1 : S2560x512.ReducesTo [0, 1] S_
  bcast_S_S2560 : S_.BroadcastsInDim S2560 (![] : Fin 0 → Fin S2560.rank)
  reducesTo_S2560_S_d0 : S2560.ReducesTo [0] S_
  bcast_S_S3x512 : S_.BroadcastsInDim S3x512 (![] : Fin 0 → Fin S3x512.rank)
  reducesTo_S3x512_S_d0_1 : S3x512.ReducesTo [0, 1] S_
  bcast_S_S3 : S_.BroadcastsInDim S3 (![] : Fin 0 → Fin S3.rank)
  reducesTo_S3_S_d0 : S3.ReducesTo [0] S_
  bcast_S_S1x512 : S_.BroadcastsInDim S1x512 (![] : Fin 0 → Fin S1x512.rank)
  reducesTo_S1x512_S_d0_1 : S1x512.ReducesTo [0, 1] S_
  bcast_S_S1 : S_.BroadcastsInDim S1 (![] : Fin 0 → Fin S1.rank)
  reducesTo_S1_S_d0 : S1.ReducesTo [0] S_

variable [Facts]

def fn_part5 {F : FTy → Type} [FloatOps F] (main_arg18 : FVec F S1 .f32) (main_v83 : IVec S_ 1) (main_v84 : FVec F S1x512 .f32) (main_cst_32 : FVec F S_ .f32) : IVec S_ 1 :=
  let main_v85 : FVec F S1x512 .f32 := broadcastInDim S1x512 ![] bcast_S_S1x512 main_cst_32
  let main_v86 : IVec S1x512 1 := cmpf .olt main_v84 main_v85
  let main_c_33 : IVec S_ 1 := constantI S_ 1 1#1
  let main_v87 : IVec S_ 1 := (fun x v => Host.reduce IntOp.andi x v reducesTo_S1x512_S_d0_1 h_S_) main_v86 main_c_33
  let main_v88 : IVec S_ 1 := andi main_v83 main_v87
  let main_v89 : FVec F S1 .f32 := Host.absf main_arg18
  let main_cst_34 : FVec F S_ .f32 := constant S_ .f32 0x7F800000#32
  let main_v90 : FVec F S1 .f32 := broadcastInDim S1 ![] bcast_S_S1 main_cst_34
  let main_v91 : IVec S1 1 := cmpf .olt main_v89 main_v90
  let main_c_35 : IVec S_ 1 := constantI S_ 1 1#1
  let main_v92 : IVec S_ 1 := (fun x v => Host.reduce IntOp.andi x v reducesTo_S1_S_d0 h_S_) main_v91 main_c_35
  let main_v93 : IVec S_ 1 := andi main_v88 main_v92
  main_v93

def fn_part4 {F : FTy → Type} [FloatOps F] (main_arg14 : FVec F S2560 .f32) (main_arg15 : FVec F S3x512 .f32) (main_arg16 : FVec F S3 .f32) (main_arg17 : FVec F S1x512 .f32) (main_arg18 : FVec F S1 .f32) (main_v63 : IVec S_ 1) (main_v67 : IVec S_ 1) : IVec S_ 1 :=
  let main_v68 : IVec S_ 1 := andi main_v63 main_v67
  let main_v69 : FVec F S2560 .f32 := Host.absf main_arg14
  let main_cst_26 : FVec F S_ .f32 := constant S_ .f32 0x7F800000#32
  let main_v70 : FVec F S2560 .f32 := broadcastInDim S2560 ![] bcast_S_S2560 main_cst_26
  let main_v71 : IVec S2560 1 := cmpf .olt main_v69 main_v70
  let main_c_27 : IVec S_ 1 := constantI S_ 1 1#1
  let main_v72 : IVec S_ 1 := (fun x v => Host.reduce IntOp.andi x v reducesTo_S2560_S_d0 h_S_) main_v71 main_c_27
  let main_v73 : IVec S_ 1 := andi main_v68 main_v72
  let main_v74 : FVec F S3x512 .f32 := Host.absf main_arg15
  let main_cst_28 : FVec F S_ .f32 := constant S_ .f32 0x7F800000#32
  let main_v75 : FVec F S3x512 .f32 := broadcastInDim S3x512 ![] bcast_S_S3x512 main_cst_28
  let main_v76 : IVec S3x512 1 := cmpf .olt main_v74 main_v75
  let main_c_29 : IVec S_ 1 := constantI S_ 1 1#1
  let main_v77 : IVec S_ 1 := (fun x v => Host.reduce IntOp.andi x v reducesTo_S3x512_S_d0_1 h_S_) main_v76 main_c_29
  let main_v78 : IVec S_ 1 := andi main_v73 main_v77
  let main_v79 : FVec F S3 .f32 := Host.absf main_arg16
  let main_cst_30 : FVec F S_ .f32 := constant S_ .f32 0x7F800000#32
  let main_v80 : FVec F S3 .f32 := broadcastInDim S3 ![] bcast_S_S3 main_cst_30
  let main_v81 : IVec S3 1 := cmpf .olt main_v79 main_v80
  let main_c_31 : IVec S_ 1 := constantI S_ 1 1#1
  let main_v82 : IVec S_ 1 := (fun x v => Host.reduce IntOp.andi x v reducesTo_S3_S_d0 h_S_) main_v81 main_c_31
  let main_v83 : IVec S_ 1 := andi main_v78 main_v82
  let main_v84 : FVec F S1x512 .f32 := Host.absf main_arg17
  let main_cst_32 : FVec F S_ .f32 := constant S_ .f32 0x7F800000#32
  fn_part5 (F := F) main_arg18 main_v83 main_v84 main_cst_32

def fn_part3 {F : FTy → Type} [FloatOps F] (main_arg11 : FVec F S2560x68 .f32) (main_arg12 : FVec F S2560x512 .f32) (main_arg13 : FVec F S2560 .f32) (main_arg14 : FVec F S2560 .f32) (main_arg15 : FVec F S3x512 .f32) (main_arg16 : FVec F S3 .f32) (main_arg17 : FVec F S1x512 .f32) (main_arg18 : FVec F S1 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S2560x68 .f32 := Host.absf main_arg11
  let main_cst_20 : FVec F S_ .f32 := constant S_ .f32 0x7F800000#32
  let main_v55 : FVec F S2560x68 .f32 := broadcastInDim S2560x68 ![] bcast_S_S2560x68 main_cst_20
  let main_v56 : IVec S2560x68 1 := cmpf .olt main_v54 main_v55
  let main_c_21 : IVec S_ 1 := constantI S_ 1 1#1
  let main_v57 : IVec S_ 1 := (fun x v => Host.reduce IntOp.andi x v reducesTo_S2560x68_S_d0_1 h_S_) main_v56 main_c_21
  let main_v58 : IVec S_ 1 := andi main_v53 main_v57
  let main_v59 : FVec F S2560x512 .f32 := Host.absf main_arg12
  let main_cst_22 : FVec F S_ .f32 := constant S_ .f32 0x7F800000#32
  let main_v60 : FVec F S2560x512 .f32 := broadcastInDim S2560x512 ![] bcast_S_S2560x512 main_cst_22
  let main_v61 : IVec S2560x512 1 := cmpf .olt main_v59 main_v60
  let main_c_23 : IVec S_ 1 := constantI S_ 1 1#1
  let main_v62 : IVec S_ 1 := (fun x v => Host.reduce IntOp.andi x v reducesTo_S2560x512_S_d0_1 h_S_) main_v61 main_c_23
  let main_v63 : IVec S_ 1 := andi main_v58 main_v62
  let main_v64 : FVec F S2560 .f32 := Host.absf main_arg13
  let main_cst_24 : FVec F S_ .f32 := constant S_ .f32 0x7F800000#32
  let main_v65 : FVec F S2560 .f32 := broadcastInDim S2560 ![] bcast_S_S2560 main_cst_24
  let main_v66 : IVec S2560 1 := cmpf .olt main_v64 main_v65
  let main_c_25 : IVec S_ 1 := constantI S_ 1 1#1
  let main_v67 : IVec S_ 1 := (fun x v => Host.reduce IntOp.andi x v reducesTo_S2560_S_d0 h_S_) main_v66 main_c_25
  fn_part4 (F := F) main_arg14 main_arg15 main_arg16 main_arg17 main_arg18 main_v63 main_v67

def fn_part2 {F : FTy → Type} [FloatOps F] (main_arg7 : FVec F S32x9 .f32) (main_arg8 : FVec F S32 .f32) (main_arg9 : FVec F S64x32 .f32) (main_arg10 : FVec F S64 .f32) (main_arg11 : FVec F S2560x68 .f32) (main_arg12 : FVec F S2560x512 .f32) (main_arg13 : FVec F S2560 .f32) (main_arg14 : FVec F S2560 .f32) (main_arg15 : FVec F S3x512 .f32) (main_arg16 : FVec F S3 .f32) (main_arg17 : FVec F S1x512 .f32) (main_arg18 : FVec F S1 .f32) (main_v33 : IVec S_ 1) : IVec S_ 1 :=
  let main_v34 : FVec F S32x9 .f32 := Host.absf main_arg7
  let main_cst_12 : FVec F S_ .f32 := constant S_ .f32 0x7F800000#32
  let main_v35 : FVec F S32x9 .f32 := broadcastInDim S32x9 ![] bcast_S_S32x9 main_cst_12
  let main_v36 : IVec S32x9 1 := cmpf .olt main_v34 main_v35
  let main_c_13 : IVec S_ 1 := constantI S_ 1 1#1
  let main_v37 : IVec S_ 1 := (fun x v => Host.reduce IntOp.andi x v reducesTo_S32x9_S_d0_1 h_S_) main_v36 main_c_13
  let main_v38 : IVec S_ 1 := andi main_v33 main_v37
  let main_v39 : FVec F S32 .f32 := Host.absf main_arg8
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S64x32 .f32 := Host.absf main_arg9
  let main_cst_16 : FVec F S_ .f32 := constant S_ .f32 0x7F800000#32
  let main_v45 : FVec F S64x32 .f32 := broadcastInDim S64x32 ![] bcast_S_S64x32 main_cst_16
  let main_v46 : IVec S64x32 1 := cmpf .olt main_v44 main_v45
  let main_c_17 : IVec S_ 1 := constantI S_ 1 1#1
  let main_v47 : IVec S_ 1 := (fun x v => Host.reduce IntOp.andi x v reducesTo_S64x32_S_d0_1 h_S_) main_v46 main_c_17
  let main_v48 : IVec S_ 1 := andi main_v43 main_v47
  let main_v49 : FVec F S64 .f32 := Host.absf main_arg10
  let main_cst_18 : FVec F S_ .f32 := constant S_ .f32 0x7F800000#32
  let main_v50 : FVec F S64 .f32 := broadcastInDim S64 ![] bcast_S_S64 main_cst_18
  fn_part3 (F := F) main_arg11 main_arg12 main_arg13 main_arg14 main_arg15 main_arg16 main_arg17 main_arg18 main_v48 main_v49 main_v50

def fn_part1 {F : FTy → Type} [FloatOps F] (main_arg4 : FVec F S1x1x512 .f32) (main_arg5 : FVec F S100000x64 .f32) (main_arg6 : FVec F S100000x512 .f32) (main_arg7 : FVec F S32x9 .f32) (main_arg8 : FVec F S32 .f32) (main_arg9 : FVec F S64x32 .f32) (main_arg10 : FVec F S64 .f32) (main_arg11 : FVec F S2560x68 .f32) (main_arg12 : FVec F S2560x512 .f32) (main_arg13 : FVec F S2560 .f32) (main_arg14 : FVec F S2560 .f32) (main_arg15 : FVec F S3x512 .f32) (main_arg16 : FVec F S3 .f32) (main_arg17 : FVec F S1x512 .f32) (main_arg18 : FVec F S1 .f32) (main_v13 : IVec S_ 1) (main_v16 : IVec S1x1x512 1) : IVec S_ 1 :=
  let main_c_5 : IVec S_ 1 := constantI S_ 1 1#1
  let main_v17 : IVec S_ 1 := (fun x v => Host.reduce IntOp.andi x v reducesTo_S1x1x512_S_d0_1_2 h_S_) main_v16 main_c_5
  let main_v18 : IVec S_ 1 := andi main_v13 main_v17
  let main_v19 : FVec F S1x1x512 .f32 := Host.absf main_arg4
  let main_cst_6 : FVec F S_ .f32 := constant S_ .f32 0x7F800000#32
  let main_v20 : FVec F S1x1x512 .f32 := broadcastInDim S1x1x512 ![] bcast_S_S1x1x512 main_cst_6
  let main_v21 : IVec S1x1x512 1 := cmpf .olt main_v19 main_v20
  let main_c_7 : IVec S_ 1 := constantI S_ 1 1#1
  let main_v22 : IVec S_ 1 := (fun x v => Host.reduce IntOp.andi x v reducesTo_S1x1x512_S_d0_1_2 h_S_) main_v21 main_c_7
  let main_v23 : IVec S_ 1 := andi main_v18 main_v22
  let main_v24 : FVec F S100000x64 .f32 := Host.absf main_arg5
  let main_cst_8 : FVec F S_ .f32 := constant S_ .f32 0x7F800000#32
  let main_v25 : FVec F S100000x64 .f32 := broadcastInDim S100000x64 ![] bcast_S_S100000x64 main_cst_8
  let main_v26 : IVec S100000x64 1 := cmpf .olt main_v24 main_v25
  let main_c_9 : IVec S_ 1 := constantI S_ 1 1#1
  let main_v27 : IVec S_ 1 := (fun x v => Host.reduce IntOp.andi x v reducesTo_S100000x64_S_d0_1 h_S_) main_v26 main_c_9
  let main_v28 : IVec S_ 1 := andi main_v23 main_v27
  let main_v29 : FVec F S100000x512 .f32 := Host.absf main_arg6
  let main_cst_10 : FVec F S_ .f32 := constant S_ .f32 0x7F800000#32
  let main_v30 : FVec F S100000x512 .f32 := broadcastInDim S100000x512 ![] bcast_S_S100000x512 main_cst_10
  let main_v31 : IVec S100000x512 1 := cmpf .olt main_v29 main_v30
  let main_c_11 : IVec S_ 1 := constantI S_ 1 1#1
  let main_v32 : IVec S_ 1 := (fun x v => Host.reduce IntOp.andi x v reducesTo_S100000x512_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_v33

def fn {F : FTy → Type} [FloatOps F] (main_arg0 : FVec F S1x9 .f32) (main_arg1 : FVec F S1x3 .f32) (main_arg2 : FVec F S1x1 .f32) (main_arg3 : FVec F S1x1x512 .f32) (main_arg4 : FVec F S1x1x512 .f32) (main_arg5 : FVec F S100000x64 .f32) (main_arg6 : FVec F S100000x512 .f32) (main_arg7 : FVec F S32x9 .f32) (main_arg8 : FVec F S32 .f32) (main_arg9 : FVec F S64x32 .f32) (main_arg10 : FVec F S64 .f32) (main_arg11 : FVec F S2560x68 .f32) (main_arg12 : FVec F S2560x512 .f32) (main_arg13 : FVec F S2560 .f32) (main_arg14 : FVec F S2560 .f32) (main_arg15 : FVec F S3x512 .f32) (main_arg16 : FVec F S3 .f32) (main_arg17 : FVec F S1x512 .f32) (main_arg18 : FVec F S1 .f32) : IVec S_ 1 :=
  let main_v0 : FVec F S1x9 .f32 := Host.absf main_arg0
  let main_cst : FVec F S_ .f32 := constant S_ .f32 0x7F800000#32
  let main_v1 : FVec F S1x9 .f32 := broadcastInDim S1x9 ![] bcast_S_S1x9 main_cst
  let main_v2 : IVec S1x9 1 := cmpf .olt main_v0 main_v1
  let main_c : IVec S_ 1 := constantI S_ 1 1#1
  let main_v3 : IVec S_ 1 := (fun x v => Host.reduce IntOp.andi x v reducesTo_S1x9_S_d0_1 h_S_) main_v2 main_c
  let main_v4 : FVec F S1x3 .f32 := Host.absf main_arg1
  let main_cst_0 : FVec F S_ .f32 := constant S_ .f32 0x7F800000#32
  let main_v5 : FVec F S1x3 .f32 := broadcastInDim S1x3 ![] bcast_S_S1x3 main_cst_0
  let main_v6 : IVec S1x3 1 := cmpf .olt main_v4 main_v5
  let main_c_1 : IVec S_ 1 := constantI S_ 1 1#1
  let main_v7 : IVec S_ 1 := (fun x v => Host.reduce IntOp.andi x v reducesTo_S1x3_S_d0_1 h_S_) main_v6 main_c_1
  let main_v8 : IVec S_ 1 := andi main_v3 main_v7
  let main_v9 : FVec F S1x1 .f32 := Host.absf main_arg2
  let main_cst_2 : FVec F S_ .f32 := constant S_ .f32 0x7F800000#32
  let main_v10 : FVec F S1x1 .f32 := broadcastInDim S1x1 ![] bcast_S_S1x1 main_cst_2
  let main_v11 : IVec S1x1 1 := cmpf .olt main_v9 main_v10
  let main_c_3 : IVec S_ 1 := constantI S_ 1 1#1
  let main_v12 : IVec S_ 1 := (fun x v => Host.reduce IntOp.andi x v reducesTo_S1x1_S_d0_1 h_S_) main_v11 main_c_3
  let main_v13 : IVec S_ 1 := andi main_v8 main_v12
  let main_v14 : FVec F S1x1x512 .f32 := Host.absf main_arg3
  let main_cst_4 : FVec F S_ .f32 := constant S_ .f32 0x7F800000#32
  let main_v15 : FVec F S1x1x512 .f32 := broadcastInDim S1x1x512 ![] bcast_S_S1x1x512 main_cst_4
  let main_v16 : IVec S1x1x512 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_v13 main_v16
-- ==== Kernel.lean ====
abbrev S1x9 : Shape := ⟨2, ![1, 9]⟩
abbrev S1x3 : Shape := ⟨2, ![1, 3]⟩
abbrev S1x1 : Shape := ⟨2, ![1, 1]⟩
abbrev S1x1x512 : Shape := ⟨3, ![1, 1, 512]⟩
abbrev S100000x64 : Shape := ⟨2, ![100000, 64]⟩
abbrev S100000x512 : Shape := ⟨2, ![100000, 512]⟩
abbrev S32x9 : Shape := ⟨2, ![32, 9]⟩
abbrev S32 : Shape := ⟨1, ![32]⟩
abbrev S64x32 : Shape := ⟨2, ![64, 32]⟩
abbrev S64 : Shape := ⟨1, ![64]⟩
abbrev S2560x68 : Shape := ⟨2, ![2560, 68]⟩
abbrev S2560x512 : Shape := ⟨2, ![2560, 512]⟩
abbrev S2560 : Shape := ⟨1, ![2560]⟩
abbrev S3x512 : Shape := ⟨2, ![3, 512]⟩
abbrev S3 : Shape := ⟨1, ![3]⟩
abbrev S1x512 : Shape := ⟨2, ![1, 512]⟩
abbrev S1 : Shape := ⟨1, ![1]⟩
abbrev S9x32 : Shape := ⟨2, ![9, 32]⟩
abbrev S1x32 : Shape := ⟨2, ![1, 32]⟩
abbrev S_ : Shape := ⟨0, ![]⟩
abbrev S32x64 : Shape := ⟨2, ![32, 64]⟩
abbrev S1x64 : Shape := ⟨2, ![1, 64]⟩
abbrev S1x68 : Shape := ⟨2, ![1, 68]⟩
abbrev S1x1024 : Shape := ⟨2, ![1, 1024]⟩
abbrev S1x256 : Shape := ⟨2, ![1, 256]⟩
abbrev S5000x64 : Shape := ⟨2, ![5000, 64]⟩
abbrev S5000x512 : Shape := ⟨2, ![5000, 512]⟩
abbrev S1x128 : Shape := ⟨2, ![1, 128]⟩
abbrev S64x5000 : Shape := ⟨2, ![64, 5000]⟩
abbrev S1x5000 : Shape := ⟨2, ![1, 5000]⟩
abbrev S68x2560 : Shape := ⟨2, ![68, 2560]⟩
abbrev S1x2560 : Shape := ⟨2, ![1, 2560]⟩
abbrev S512x2560 : Shape := ⟨2, ![512, 2560]⟩
abbrev S512x3 : Shape := ⟨2, ![512, 3]⟩
abbrev S512x1 : Shape := ⟨2, ![512, 1]⟩

abbrev nBuf : Space → Nat
  | .hbm => 124
  | .vmem => 14
  | .smem => 0
  | _ => 0

abbrev bufTy : (tb : Table) → Fin (tcTables nBuf tb) → BufTy
  | .hbm, ⟨0, _⟩ => ⟨S1x9, .f32⟩
  | .hbm, ⟨1, _⟩ => ⟨S1x3, .f32⟩
  | .hbm, ⟨2, _⟩ => ⟨S1x1, .f32⟩
  | .hbm, ⟨3, _⟩ => ⟨S1x1x512, .f32⟩
  | .hbm, ⟨4, _⟩ => ⟨S1x1x512, .f32⟩
  | .hbm, ⟨5, _⟩ => ⟨S100000x64, .f32⟩
  | .hbm, ⟨6, _⟩ => ⟨S100000x512, .f32⟩
  | .hbm, ⟨7, _⟩ => ⟨S32x9, .f32⟩
  | .hbm, ⟨8, _⟩ => ⟨S32, .f32⟩
  | .hbm, ⟨9, _⟩ => ⟨S64x32, .f32⟩
  | .hbm, ⟨10, _⟩ => ⟨S64, .f32⟩
  | .hbm, ⟨11, _⟩ => ⟨S2560x68, .f32⟩
  | .hbm, ⟨12, _⟩ => ⟨S2560x512, .f32⟩
  | .hbm, ⟨13, _⟩ => ⟨S2560, .f32⟩
  | .hbm, ⟨14, _⟩ => ⟨S2560, .f32⟩
  | .hbm, ⟨15, _⟩ => ⟨S3x512, .f32⟩
  | .hbm, ⟨16, _⟩ => ⟨S3, .f32⟩
  | .hbm, ⟨17, _⟩ => ⟨S1x512, .f32⟩
  | .hbm, ⟨18, _⟩ => ⟨S1, .f32⟩
  | .hbm, ⟨19, _⟩ => ⟨S9x32, .f32⟩
  | .hbm, ⟨20, _⟩ => ⟨S1x32, .f32⟩
  | .hbm, ⟨21, _⟩ => ⟨S1x32, .f32⟩
  | .hbm, ⟨22, _⟩ => ⟨S1x32, .f32⟩
  | .hbm, ⟨23, _⟩ => ⟨S_, .f32⟩
  | .hbm, ⟨24, _⟩ => ⟨S1x32, .f32⟩
  | .hbm, ⟨25, _⟩ => ⟨S1x32, .f32⟩
  | .hbm, ⟨26, _⟩ => ⟨S32x64, .f32⟩
  | .hbm, ⟨27, _⟩ => ⟨S1x64, .f32⟩
  | .hbm, ⟨28, _⟩ => ⟨S1x64, .f32⟩
  | .hbm, ⟨29, _⟩ => ⟨S1x64, .f32⟩
  | .hbm, ⟨30, _⟩ => ⟨S_, .f32⟩
  | .hbm, ⟨31, _⟩ => ⟨S1x64, .f32⟩
  | .hbm, ⟨32, _⟩ => ⟨S1x64, .f32⟩
  | .hbm, ⟨33, _⟩ => ⟨S1x68, .f32⟩
  | .hbm, ⟨34, _⟩ => ⟨S1x1024, .f32⟩
  | .hbm, ⟨35, _⟩ => ⟨S1x256, .f32⟩
  | .hbm, ⟨36, _⟩ => ⟨S1x256, .f32⟩
  | .hbm, ⟨37, _⟩ => ⟨S1x512, .f32⟩
  | .hbm, ⟨38, _⟩ => ⟨S1x512, .f32⟩
  | .hbm, ⟨39, _⟩ => ⟨S1x1, .f32⟩
  | .hbm, ⟨40, _⟩ => ⟨S1x1, .f32⟩
  | .hbm, ⟨41, _⟩ => ⟨S1x1, .f32⟩
  | .hbm, ⟨42, _⟩ => ⟨S1x1, .f32⟩
  | .hbm, ⟨43, _⟩ => ⟨S1x1, .f32⟩
  | .hbm, ⟨44, _⟩ => ⟨S1x1, .f32⟩
  | .hbm, ⟨45, _⟩ => ⟨S1x1, .f32⟩
  | .hbm, ⟨46, _⟩ => ⟨S1x1, .f32⟩
  | .hbm, ⟨47, _⟩ => ⟨S1x1, .f32⟩
  | .hbm, ⟨48, _⟩ => ⟨S1x1, .f32⟩
  | .hbm, ⟨49, _⟩ => ⟨S1x1, .f32⟩
  | .hbm, ⟨50, _⟩ => ⟨S1x1, .f32⟩
  | .hbm, ⟨51, _⟩ => ⟨S1x512, .f32⟩
  | .hbm, ⟨52, _⟩ => ⟨S1x512, .f32⟩
  | .hbm, ⟨53, _⟩ => ⟨S1x512, .f32⟩
  | .hbm, ⟨54, _⟩ => ⟨S1x512, .f32⟩
  | .hbm, ⟨55, _⟩ => ⟨S1x512, .f32⟩
  | .hbm, ⟨56, _⟩ => ⟨S1x512, .f32⟩
  | .hbm, ⟨57, _⟩ => ⟨S1x512, .f32⟩
  | .hbm, ⟨58, _⟩ => ⟨S1x512, .f32⟩
  | .hbm, ⟨59, _⟩ => ⟨S1x512, .f32⟩
  | .hbm, ⟨60, _⟩ => ⟨S68x2560, .f32⟩
  | .hbm, ⟨61, _⟩ => ⟨S1x2560, .f32⟩
  | .hbm, ⟨62, _⟩ => ⟨S1x2560, .f32⟩
  | .hbm, ⟨63, _⟩ => ⟨S1x2560, .f32⟩
  | .hbm, ⟨64, _⟩ => ⟨S512x2560, .f32⟩
  | .hbm, ⟨65, _⟩ => ⟨S1x2560, .f32⟩
  | .hbm, ⟨66, _⟩ => ⟨S1x2560, .f32⟩
  | .hbm, ⟨67, _⟩ => ⟨S1x2560, .f32⟩
  | .hbm, ⟨68, _⟩ => ⟨S1x2560, .f32⟩
  | .hbm, ⟨69, _⟩ => ⟨S1x512, .f32⟩
  | .hbm, ⟨70, _⟩ => ⟨S1x512, .f32⟩
  | .hbm, ⟨71, _⟩ => ⟨S1x512, .f32⟩
  | .hbm, ⟨72, _⟩ => ⟨S1x512, .f32⟩
  | .hbm, ⟨73, _⟩ => ⟨S1x512, .f32⟩
  | .hbm, ⟨74, _⟩ => ⟨S1x512, .f32⟩
  | .hbm, ⟨75, _⟩ => ⟨S1x512, .f32⟩
  | .hbm, ⟨76, _⟩ => ⟨S_, .f32⟩
  | .hbm, ⟨77, _⟩ => ⟨S1x512, .f32⟩
  | .hbm, ⟨78, _⟩ => ⟨S1x512, .f32⟩
  | .hbm, ⟨79, _⟩ => ⟨S_, .f32⟩
  | .hbm, ⟨80, _⟩ => ⟨S1x512, .f32⟩
  | .hbm, ⟨81, _⟩ => ⟨S1x512, .f32⟩
  | .hbm, ⟨82, _⟩ => ⟨S1x512, .f32⟩
  | .hbm, ⟨83, _⟩ => ⟨S1x512, .f32⟩
  | .hbm, ⟨84, _⟩ => ⟨S1x512, .f32⟩
  | .hbm, ⟨85, _⟩ => ⟨S_, .f32⟩
  | .hbm, ⟨86, _⟩ => ⟨S1x512, .f32⟩
  | .hbm, ⟨87, _⟩ => ⟨S1x512, .f32⟩
  | .hbm, ⟨88, _⟩ => ⟨S_, .f32⟩
  | .hbm, ⟨89, _⟩ => ⟨S1x512, .f32⟩
  | .hbm, ⟨90, _⟩ => ⟨S1x512, .f32⟩
  | .hbm, ⟨91, _⟩ => ⟨S1x512, .f32⟩
  | .hbm, ⟨92, _⟩ => ⟨S1x512, .f32⟩
  | .hbm, ⟨93, _⟩ => ⟨S1x512, .f32⟩
  | .hbm, ⟨94, _⟩ => ⟨S1x512, .f32⟩
  | .hbm, ⟨95, _⟩ => ⟨S1x512, .f32⟩
  | .hbm, ⟨96, _⟩ => ⟨S_, .f32⟩
  | .hbm, ⟨97, _⟩ => ⟨S1x512, .f32⟩
  | .hbm, ⟨98, _⟩ => ⟨S1x512, .f32⟩
  | .hbm, ⟨99, _⟩ => ⟨S_, .f32⟩
  | .hbm, ⟨100, _⟩ => ⟨S1x512, .f32⟩
  | .hbm, ⟨101, _⟩ => ⟨S1x512, .f32⟩
  | .hbm, ⟨102, _⟩ => ⟨S1x512, .f32⟩
  | .hbm, ⟨103, _⟩ => ⟨S1x512, .f32⟩
  | .hbm, ⟨104, _⟩ => ⟨S1x512, .f32⟩
  | .hbm, ⟨105, _⟩ => ⟨S1x512, .f32⟩
  | .hbm, ⟨106, _⟩ => ⟨S_, .f32⟩
  | .hbm, ⟨107, _⟩ => ⟨S1x512, .f32⟩
  | .hbm, ⟨108, _⟩ => ⟨S1x512, .f32⟩
  | .hbm, ⟨109, _⟩ => ⟨S_, .f32⟩
  | .hbm, ⟨110, _⟩ => ⟨S1x512, .f32⟩
  | .hbm, ⟨111, _⟩ => ⟨S1x512, .f32⟩
  | .hbm, ⟨112, _⟩ => ⟨S1x512, .f32⟩
  | .hbm, ⟨113, _⟩ => ⟨S1x512, .f32⟩
  | .hbm, ⟨114, _⟩ => ⟨S512x3, .f32⟩
  | .hbm, ⟨115, _⟩ => ⟨S1x3, .f32⟩
  | .hbm, ⟨116, _⟩ => ⟨S1x3, .f32⟩
  | .hbm, ⟨117, _⟩ => ⟨S1x3, .f32⟩
  | .hbm, ⟨118, _⟩ => ⟨S512x1, .f32⟩
  | .hbm, ⟨119, _⟩ => ⟨S1x1, .f32⟩
  | .hbm, ⟨120, _⟩ => ⟨S1x1, .f32⟩
  | .hbm, ⟨121, _⟩ => ⟨S1x1, .f32⟩
  | .hbm, ⟨122, _⟩ => ⟨S1x1x512, .f32⟩
  | .hbm, ⟨123, _⟩ => ⟨S1x1x512, .f32⟩
  | .local _ .vmem, ⟨0, _⟩ => ⟨S1x64, .f32⟩
  | .local _ .vmem, ⟨1, _⟩ => ⟨S5000x64, .f32⟩
  | .local _ .vmem, ⟨2, _⟩ => ⟨S5000x64, .f32⟩
  | .local _ .vmem, ⟨3, _⟩ => ⟨S5000x512, .f32⟩
  | .local _ .vmem, ⟨4, _⟩ => ⟨S5000x512, .f32⟩
  | .local _ .vmem, ⟨5, _⟩ => ⟨S1x512, .f32⟩
  | .local _ .vmem, ⟨6, _⟩ => ⟨S1x512, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x1, .f32⟩
  | .local _ .vmem, ⟨12, _⟩ => ⟨S1x1, .f32⟩
  | .local _ .vmem, ⟨13, _⟩ => ⟨S1x512, .f32⟩
  | _, _ => ⟨S1x9, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_call0_cst : Ref sig .tc := ⟨.hbm, 23, rfl⟩
abbrev main_call0_v0 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_call1_cst : Ref sig .tc := ⟨.hbm, 30, rfl⟩
abbrev main_call1_v0 : Ref sig .tc := ⟨.hbm, 31, rfl⟩
abbrev main_v9 : Ref sig .tc := ⟨.hbm, 32, rfl⟩
abbrev main_v10 : Ref sig .tc := ⟨.hbm, 33, rfl⟩
abbrev main_v11_0 : Ref sig .tc := ⟨.hbm, 34, rfl⟩
abbrev main_v11_1 : Ref sig .tc := ⟨.hbm, 35, rfl⟩
abbrev main_v11_2 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_cst : Ref sig .tc := ⟨.hbm, 76, rfl⟩
abbrev main_v51 : Ref sig .tc := ⟨.hbm, 77, rfl⟩
abbrev main_v52 : Ref sig .tc := ⟨.hbm, 78, rfl⟩
abbrev main_cst_0 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_cst_1 : Ref sig .tc := ⟨.hbm, 85, rfl⟩
abbrev main_v58 : Ref sig .tc := ⟨.hbm, 86, rfl⟩
abbrev main_v59 : Ref sig .tc := ⟨.hbm, 87, rfl⟩
abbrev main_cst_2 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_cst_3 : Ref sig .tc := ⟨.hbm, 96, rfl⟩
abbrev main_v67 : Ref sig .tc := ⟨.hbm, 97, rfl⟩
abbrev main_v68 : Ref sig .tc := ⟨.hbm, 98, rfl⟩
abbrev main_cst_4 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_cst_5 : Ref sig .tc := ⟨.hbm, 106, rfl⟩
abbrev main_v75 : Ref sig .tc := ⟨.hbm, 107, rfl⟩
abbrev main_v76 : Ref sig .tc := ⟨.hbm, 108, rfl⟩
abbrev main_cst_6 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![2, 10], ![false, false]⟩

def k0_cond2 (i : grid0.Coords) : BitVec 1 :=
  let arg1 : BitVec 32 := BitVec.ofNat 32 (i 1).val
  let c9_i32 : BitVec 32 := 9#32
  let v46 : BitVec 1 := Scalar.cmpi .eq arg1 c9_i32
  let v47 : BitVec 32 := Scalar.extui v46
  let c0_i32_24 : BitVec 32 := 0#32
  let v48 : BitVec 1 := Scalar.cmpi .ne v47 c0_i32_24
  v48

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .vmem S1x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S5000x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  transposes_S32x9_S9x32_1_0 : S32x9.Transposes [1, 0] S9x32
  bcast_S32_S1x32_1 : S32.BroadcastsInDim S1x32 (![1] : Fin 1 → Fin S1x32.rank)
  bcast_S_S1x32 : S_.BroadcastsInDim S1x32 (![] : Fin 0 → Fin S1x32.rank)
  transposes_S64x32_S32x64_1_0 : S64x32.Transposes [1, 0] S32x64
  bcast_S64_S1x64_1 : S64.BroadcastsInDim S1x64 (![1] : Fin 1 → Fin S1x64.rank)
  bcast_S_S1x64 : S_.BroadcastsInDim S1x64 (![] : Fin 0 → Fin S1x64.rank)
  concatenates_S1x64_S1x3_S1x1_S1x68_d1 : Shape.Concatenates [S1x64, S1x3, S1x1] S1x68 1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S5000x64_S5000x64_0_0 : ∀ a, (![0, 0] : Fin 2 → Nat) a + S5000x64.size a ≤ S5000x64.size a
  h_S5000x64 : 0 < S5000x64.numel
  inb_S5000x512_S5000x512_0_0 : ∀ a, (![0, 0] : Fin 2 → Nat) a + S5000x512.size a ≤ S5000x512.size a
  h_S5000x512 : 0 < S5000x512.numel
  transposes_S5000x64_p1_0_S64x5000 : S5000x64.Transposes [1, 0] S64x5000
  reduces_S1x5000_S1 : S1x5000.Reduces [1] S1
  shapeCasts_S1_S1x1 : S1.ShapeCasts S1x1
  broadcasts_S1x1_S1x5000 : S1x1.Broadcasts S1x5000
  broadcasts_S1x1_S1x512 : S1x1.Broadcasts S1x512
  bitsLt_bf16_f32 : FTy.bits .bf16 < FTy.bits .f32
  broadcasts_S1x1_S1x128 : S1x1.Broadcasts S1x128
  inb_S1x128_S1x128_0_0 : ∀ a, (![0, 0] : Fin 2 → Nat) a + S1x128.size a ≤ S1x128.size a
  h_S1x128 : 0 < S1x128.numel
  slices_S1x1024_S1x512_0_0 : S1x1024.Slices ![0, 0] S1x512
  slices_S1x1024_S1x512_0_512 : S1x1024.Slices ![0, 512] S1x512
  slices_S1x256_S1x1_0_0 : S1x256.Slices ![0, 0] S1x1
  slices_S1x256_S1x1_0_128 : S1x256.Slices ![0, 128] S1x1
  bcast_S1x1_S1x512_0_1 : S1x1.BroadcastsInDim S1x512 (![0, 1] : Fin 2 → Fin S1x512.rank)
  shapeCasts_S1x1x512_S1x512 : S1x1x512.ShapeCasts S1x512
  transposes_S2560x68_S68x2560_1_0 : S2560x68.Transposes [1, 0] S68x2560
  bcast_S2560_S1x2560_1 : S2560.BroadcastsInDim S1x2560 (![1] : Fin 1 → Fin S1x2560.rank)
  transposes_S2560x512_S512x2560_1_0 : S2560x512.Transposes [1, 0] S512x2560
  slices_S1x2560_S1x512_0_0 : S1x2560.Slices ![0, 0] S1x512
  slices_S1x2560_S1x512_0_512 : S1x2560.Slices ![0, 512] S1x512
  slices_S1x2560_S1x512_0_1024 : S1x2560.Slices ![0, 1024] S1x512
  slices_S1x2560_S1x512_0_1536 : S1x2560.Slices ![0, 1536] S1x512
  slices_S1x2560_S1x512_0_2048 : S1x2560.Slices ![0, 2048] S1x512
  bcast_S_S1x512 : S_.BroadcastsInDim S1x512 (![] : Fin 0 → Fin S1x512.rank)
  transposes_S3x512_S512x3_1_0 : S3x512.Transposes [1, 0] S512x3
  bcast_S3_S1x3_1 : S3.BroadcastsInDim S1x3 (![1] : Fin 1 → Fin S1x3.rank)
  transposes_S1x512_S512x1_1_0 : S1x512.Transposes [1, 0] S512x1
  bcast_S1_S1x1_1 : S1.BroadcastsInDim S1x1 (![1] : Fin 1 → Fin S1x1.rank)
  bcast_S1x512_S1x1x512_1_2 : S1x512.BroadcastsInDim S1x1x512 (![1, 2] : Fin 2 → Fin S1x1x512.rank)
  dot_S1x9_S9x32_S1x32_1_0_0_1_n_n_wf : DotDims.WF S1x9 S9x32 S1x32 [1] [0] [0] [1] [] []
  dot_S1x32_S32x64_S1x64_1_0_0_1_n_n_wf : DotDims.WF S1x32 S32x64 S1x64 [1] [0] [0] [1] [] []
  dot_S1x64_S64x5000_S1x5000_1_0_0_1_n_n_wf : DotDims.WF S1x64 S64x5000 S1x5000 [1] [0] [0] [1] [] []
  dot_S1x5000_S5000x512_S1x512_1_0_0_1_n_n_wf : DotDims.WF S1x5000 S5000x512 S1x512 [1] [0] [0] [1] [] []
  dot_S1x68_S68x2560_S1x2560_1_0_0_1_n_n_wf : DotDims.WF S1x68 S68x2560 S1x2560 [1] [0] [0] [1] [] []
  dot_S1x512_S512x2560_S1x2560_1_0_0_1_n_n_wf : DotDims.WF S1x512 S512x2560 S1x2560 [1] [0] [0] [1] [] []
  dot_S1x512_S512x3_S1x3_1_0_0_1_n_n_wf : DotDims.WF S1x512 S512x3 S1x3 [1] [0] [0] [1] [] []
  dot_S1x512_S512x1_S1x1_1_0_0_1_n_n_wf : DotDims.WF S1x512 S512x1 S1x1 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x64.size a ≤ S1x64.size a
  hwx0_0 : ∀ i : grid0.Coords, EltTy.bits .f32 = 32 ∨ (Rect.block (s := S1x64) S1x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x512.size a ≤ S100000x512.size a
  hwx0_2 : ∀ i : grid0.Coords, EltTy.bits .f32 = 32 ∨ (Rect.block (s := S100000x512) S5000x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x1024.size a
  hwx0_3 : ∀ i : grid0.Coords, EltTy.bits .f32 = 32 ∨ (Rect.block (s := S1x1024) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x256.size a
  hwx0_4 : ∀ i : grid0.Coords, EltTy.bits .f32 = 32 ∨ (Rect.block (s := S1x256) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x256.size a
  hwx0_5 : ∀ i : grid0.Coords, EltTy.bits .f32 = 32 ∨ (Rect.block (s := S1x256) S1x128.size (cc0_transform_5 i) (hinb0_5 i)).WholeWords (EltTy.packing .f32)

variable [Facts₀]

def dot_S1x9_S9x32_S1x32_1_0_0_1_n_n : DotDims S1x9 S9x32 S1x32 where
  lhsContracting := [1]
  rhsContracting := [0]
  lhsNonContracting := [0]
  rhsNonContracting := [1]
  lhsBatch := []
  rhsBatch := []
  wf := dot_S1x9_S9x32_S1x32_1_0_0_1_n_n_wf
def dot_S1x32_S32x64_S1x64_1_0_0_1_n_n : DotDims S1x32 S32x64 S1x64 where
  lhsContracting := [1]
  rhsContracting := [0]
  lhsNonContracting := [0]
  rhsNonContracting := [1]
  lhsBatch := []
  rhsBatch := []
  wf := dot_S1x32_S32x64_S1x64_1_0_0_1_n_n_wf
def dot_S1x64_S64x5000_S1x5000_1_0_0_1_n_n : DotDims S1x64 S64x5000 S1x5000 where
  lhsContracting := [1]
  rhsContracting := [0]
  lhsNonContracting := [0]
  rhsNonContracting := [1]
  lhsBatch := []
  rhsBatch := []
  wf := dot_S1x64_S64x5000_S1x5000_1_0_0_1_n_n_wf
def dot_S1x5000_S5000x512_S1x512_1_0_0_1_n_n : DotDims S1x5000 S5000x512 S1x512 where
  lhsContracting := [1]
  rhsContracting := [0]
  lhsNonContracting := [0]
  rhsNonContracting := [1]
  lhsBatch := []
  rhsBatch := []
  wf := dot_S1x5000_S5000x512_S1x512_1_0_0_1_n_n_wf
def dot_S1x68_S68x2560_S1x2560_1_0_0_1_n_n : DotDims S1x68 S68x2560 S1x2560 where
  lhsContracting := [1]
  rhsContracting := [0]
  lhsNonContracting := [0]
  rhsNonContracting := [1]
  lhsBatch := []
  rhsBatch := []
  wf := dot_S1x68_S68x2560_S1x2560_1_0_0_1_n_n_wf
def dot_S1x512_S512x2560_S1x2560_1_0_0_1_n_n : DotDims S1x512 S512x2560 S1x2560 where
  lhsContracting := [1]
  rhsContracting := [0]
  lhsNonContracting := [0]
  rhsNonContracting := [1]
  lhsBatch := []
  rhsBatch := []
  wf := dot_S1x512_S512x2560_S1x2560_1_0_0_1_n_n_wf
def dot_S1x512_S512x3_S1x3_1_0_0_1_n_n : DotDims S1x512 S512x3 S1x3 where
  lhsContracting := [1]
  rhsContracting := [0]
  lhsNonContracting := [0]
  rhsNonContracting := [1]
  lhsBatch := []
  rhsBatch := []
  wf := dot_S1x512_S512x3_S1x3_1_0_0_1_n_n_wf
def dot_S1x512_S512x1_S1x1_1_0_0_1_n_n : DotDims S1x512 S512x1 S1x1 where
  lhsContracting := [1]
  rhsContracting := [0]
  lhsNonContracting := [0]
  rhsNonContracting := [1]
  lhsBatch := []
  rhsBatch := []
  wf := dot_S1x512_S512x1_S1x1_1_0_0_1_n_n_wf

abbrev win0_0 : Pipeline.Window sig grid0 :=
  Pipeline.Window.ofSpec (Memref.whole main_v9) S1x64.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg6) S5000x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v11_0) S1x512.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v11_1) S1x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v11_2) S1x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun i => !(k0_cond2 i == 1#1) | 4 => fun i => !(k0_cond2 i == 1#1) | 5 => fun i => !(k0_cond2 i == 1#1) | ⟨_ + 6, h⟩ => absurd h (Nat.not_lt.2 (Nat.le_add_left _ _))

class Facts : Prop extends Facts₀ where

variable [Facts]
-- ==== ReferenceIdeal.lean ====
abbrev S1x9 : Shape := ⟨2, ![1, 9]⟩
abbrev S1x3 : Shape := ⟨2, ![1, 3]⟩
abbrev S1x1 : Shape := ⟨2, ![1, 1]⟩
abbrev S1x1x512 : Shape := ⟨3, ![1, 1, 512]⟩
abbrev S100000x64 : Shape := ⟨2, ![100000, 64]⟩
abbrev S100000x512 : Shape := ⟨2, ![100000, 512]⟩
abbrev S32x9 : Shape := ⟨2, ![32, 9]⟩
abbrev S32 : Shape := ⟨1, ![32]⟩
abbrev S64x32 : Shape := ⟨2, ![64, 32]⟩
abbrev S64 : Shape := ⟨1, ![64]⟩
abbrev S2560x68 : Shape := ⟨2, ![2560, 68]⟩
abbrev S2560x512 : Shape := ⟨2, ![2560, 512]⟩
abbrev S2560 : Shape := ⟨1, ![2560]⟩
abbrev S3x512 : Shape := ⟨2, ![3, 512]⟩
abbrev S3 : Shape := ⟨1, ![3]⟩
abbrev S1x512 : Shape := ⟨2, ![1, 512]⟩
abbrev S1 : Shape := ⟨1, ![1]⟩
abbrev S9x32 : Shape := ⟨2, ![9, 32]⟩
abbrev S1x32 : Shape := ⟨2, ![1, 32]⟩
abbrev S_ : Shape := ⟨0, ![]⟩
abbrev S32x64 : Shape := ⟨2, ![32, 64]⟩
abbrev S1x64 : Shape := ⟨2, ![1, 64]⟩
abbrev S1x68 : Shape := ⟨2, ![1, 68]⟩
abbrev S1x1x64 : Shape := ⟨3, ![1, 1, 64]⟩
abbrev S1x100000x64 : Shape := ⟨3, ![1, 100000, 64]⟩
abbrev S1x100000 : Shape := ⟨2, ![1, 100000]⟩
abbrev S68x2560 : Shape := ⟨2, ![68, 2560]⟩
abbrev S1x2560 : Shape := ⟨2, ![1, 2560]⟩
abbrev S512x2560 : Shape := ⟨2, ![512, 2560]⟩
abbrev S512x3 : Shape := ⟨2, ![512, 3]⟩
abbrev S512x1 : Shape := ⟨2, ![512, 1]⟩

abbrev nBuf : Space → Nat
  | .hbm => 123
  | .vmem => 0
  | .smem => 0
  | _ => 0

abbrev bufTy : (tb : Table) → Fin (tcTables nBuf tb) → BufTy
  | .hbm, ⟨0, _⟩ => ⟨S1x9, .f32⟩
  | .hbm, ⟨1, _⟩ => ⟨S1x3, .f32⟩
  | .hbm, ⟨2, _⟩ => ⟨S1x1, .f32⟩
  | .hbm, ⟨3, _⟩ => ⟨S1x1x512, .f32⟩
  | .hbm, ⟨4, _⟩ => ⟨S1x1x512, .f32⟩
  | .hbm, ⟨5, _⟩ => ⟨S100000x64, .f32⟩
  | .hbm, ⟨6, _⟩ => ⟨S100000x512, .f32⟩
  | .hbm, ⟨7, _⟩ => ⟨S32x9, .f32⟩
  | .hbm, ⟨8, _⟩ => ⟨S32, .f32⟩
  | .hbm, ⟨9, _⟩ => ⟨S64x32, .f32⟩
  | .hbm, ⟨10, _⟩ => ⟨S64, .f32⟩
  | .hbm, ⟨11, _⟩ => ⟨S2560x68, .f32⟩
  | .hbm, ⟨12, _⟩ => ⟨S2560x512, .f32⟩
  | .hbm, ⟨13, _⟩ => ⟨S2560, .f32⟩
  | .hbm, ⟨14, _⟩ => ⟨S2560, .f32⟩
  | .hbm, ⟨15, _⟩ => ⟨S3x512, .f32⟩
  | .hbm, ⟨16, _⟩ => ⟨S3, .f32⟩
  | .hbm, ⟨17, _⟩ => ⟨S1x512, .f32⟩
  | .hbm, ⟨18, _⟩ => ⟨S1, .f32⟩
  | .hbm, ⟨19, _⟩ => ⟨S9x32, .f32⟩
  | .hbm, ⟨20, _⟩ => ⟨S1x32, .f32⟩
  | .hbm, ⟨21, _⟩ => ⟨S1x32, .f32⟩
  | .hbm, ⟨22, _⟩ => ⟨S1x32, .f32⟩
  | .hbm, ⟨23, _⟩ => ⟨S_, .f32⟩
  | .hbm, ⟨24, _⟩ => ⟨S1x32, .f32⟩
  | .hbm, ⟨25, _⟩ => ⟨S1x32, .f32⟩
  | .hbm, ⟨26, _⟩ => ⟨S32x64, .f32⟩
  | .hbm, ⟨27, _⟩ => ⟨S1x64, .f32⟩
  | .hbm, ⟨28, _⟩ => ⟨S1x64, .f32⟩
  | .hbm, ⟨29, _⟩ => ⟨S1x64, .f32⟩
  | .hbm, ⟨30, _⟩ => ⟨S_, .f32⟩
  | .hbm, ⟨31, _⟩ => ⟨S1x64, .f32⟩
  | .hbm, ⟨32, _⟩ => ⟨S1x64, .f32⟩
  | .hbm, ⟨33, _⟩ => ⟨S1x68, .f32⟩
  | .hbm, ⟨34, _⟩ => ⟨S1x1x64, .f32⟩
  | .hbm, ⟨35, _⟩ => ⟨S1x100000x64, .f32⟩
  | .hbm, ⟨36, _⟩ => ⟨S1x100000x64, .f32⟩
  | .hbm, ⟨37, _⟩ => ⟨S1x100000x64, .f32⟩
  | .hbm, ⟨38, _⟩ => ⟨S1x100000x64, .f32⟩
  | .hbm, ⟨39, _⟩ => ⟨S_, .f32⟩
  | .hbm, ⟨40, _⟩ => ⟨S1x100000, .f32⟩
  | .hbm, ⟨41, _⟩ => ⟨S1x100000, .f32⟩
  | .hbm, ⟨42, _⟩ => ⟨S_, .f32⟩
  | .hbm, ⟨43, _⟩ => ⟨S1, .f32⟩
  | .hbm, ⟨44, _⟩ => ⟨S_, .f32⟩
  | .hbm, ⟨45, _⟩ => ⟨S1, .f32⟩
  | .hbm, ⟨46, _⟩ => ⟨S1, .f32⟩
  | .hbm, ⟨47, _⟩ => ⟨S1x1, .f32⟩
  | .hbm, ⟨48, _⟩ => ⟨S1x100000, .f32⟩
  | .hbm, ⟨49, _⟩ => ⟨S1x100000, .f32⟩
  | .hbm, ⟨50, _⟩ => ⟨S1x100000, .f32⟩
  | .hbm, ⟨51, _⟩ => ⟨S_, .f32⟩
  | .hbm, ⟨52, _⟩ => ⟨S1, .f32⟩
  | .hbm, ⟨53, _⟩ => ⟨S1x1, .f32⟩
  | .hbm, ⟨54, _⟩ => ⟨S1x100000, .f32⟩
  | .hbm, ⟨55, _⟩ => ⟨S1x100000, .f32⟩
  | .hbm, ⟨56, _⟩ => ⟨S1x512, .f32⟩
  | .hbm, ⟨57, _⟩ => ⟨S1x512, .f32⟩
  | .hbm, ⟨58, _⟩ => ⟨S1x512, .f32⟩
  | .hbm, ⟨59, _⟩ => ⟨S68x2560, .f32⟩
  | .hbm, ⟨60, _⟩ => ⟨S1x2560, .f32⟩
  | .hbm, ⟨61, _⟩ => ⟨S1x2560, .f32⟩
  | .hbm, ⟨62, _⟩ => ⟨S1x2560, .f32⟩
  | .hbm, ⟨63, _⟩ => ⟨S512x2560, .f32⟩
  | .hbm, ⟨64, _⟩ => ⟨S1x2560, .f32⟩
  | .hbm, ⟨65, _⟩ => ⟨S1x2560, .f32⟩
  | .hbm, ⟨66, _⟩ => ⟨S1x2560, .f32⟩
  | .hbm, ⟨67, _⟩ => ⟨S1x2560, .f32⟩
  | .hbm, ⟨68, _⟩ => ⟨S1x512, .f32⟩
  | .hbm, ⟨69, _⟩ => ⟨S1x512, .f32⟩
  | .hbm, ⟨70, _⟩ => ⟨S1x512, .f32⟩
  | .hbm, ⟨71, _⟩ => ⟨S1x512, .f32⟩
  | .hbm, ⟨72, _⟩ => ⟨S1x512, .f32⟩
  | .hbm, ⟨73, _⟩ => ⟨S1x512, .f32⟩
  | .hbm, ⟨74, _⟩ => ⟨S1x512, .f32⟩
  | .hbm, ⟨75, _⟩ => ⟨S_, .f32⟩
  | .hbm, ⟨76, _⟩ => ⟨S1x512, .f32⟩
  | .hbm, ⟨77, _⟩ => ⟨S1x512, .f32⟩
  | .hbm, ⟨78, _⟩ => ⟨S_, .f32⟩
  | .hbm, ⟨79, _⟩ => ⟨S1x512, .f32⟩
  | .hbm, ⟨80, _⟩ => ⟨S1x512, .f32⟩
  | .hbm, ⟨81, _⟩ => ⟨S1x512, .f32⟩
  | .hbm, ⟨82, _⟩ => ⟨S1x512, .f32⟩
  | .hbm, ⟨83, _⟩ => ⟨S1x512, .f32⟩
  | .hbm, ⟨84, _⟩ => ⟨S_, .f32⟩
  | .hbm, ⟨85, _⟩ => ⟨S1x512, .f32⟩
  | .hbm, ⟨86, _⟩ => ⟨S1x512, .f32⟩
  | .hbm, ⟨87, _⟩ => ⟨S_, .f32⟩
  | .hbm, ⟨88, _⟩ => ⟨S1x512, .f32⟩
  | .hbm, ⟨89, _⟩ => ⟨S1x512, .f32⟩
  | .hbm, ⟨90, _⟩ => ⟨S1x512, .f32⟩
  | .hbm, ⟨91, _⟩ => ⟨S1x512, .f32⟩
  | .hbm, ⟨92, _⟩ => ⟨S1x512, .f32⟩
  | .hbm, ⟨93, _⟩ => ⟨S1x512, .f32⟩
  | .hbm, ⟨94, _⟩ => ⟨S1x512, .f32⟩
  | .hbm, ⟨95, _⟩ => ⟨S_, .f32⟩
  | .hbm, ⟨96, _⟩ => ⟨S1x512, .f32⟩
  | .hbm, ⟨97, _⟩ => ⟨S1x512, .f32⟩
  | .hbm, ⟨98, _⟩ => ⟨S_, .f32⟩
  | .hbm, ⟨99, _⟩ => ⟨S1x512, .f32⟩
  | .hbm, ⟨100, _⟩ => ⟨S1x512, .f32⟩
  | .hbm, ⟨101, _⟩ => ⟨S1x512, .f32⟩
  | .hbm, ⟨102, _⟩ => ⟨S1x512, .f32⟩
  | .hbm, ⟨103, _⟩ => ⟨S1x512, .f32⟩
  | .hbm, ⟨104, _⟩ => ⟨S1x512, .f32⟩
  | .hbm, ⟨105, _⟩ => ⟨S_, .f32⟩
  | .hbm, ⟨106, _⟩ => ⟨S1x512, .f32⟩
  | .hbm, ⟨107, _⟩ => ⟨S1x512, .f32⟩
  | .hbm, ⟨108, _⟩ => ⟨S_, .f32⟩
  | .hbm, ⟨109, _⟩ => ⟨S1x512, .f32⟩
  | .hbm, ⟨110, _⟩ => ⟨S1x512, .f32⟩
  | .hbm, ⟨111, _⟩ => ⟨S1x512, .f32⟩
  | .hbm, ⟨112, _⟩ => ⟨S1x512, .f32⟩
  | .hbm, ⟨113, _⟩ => ⟨S512x3, .f32⟩
  | .hbm, ⟨114, _⟩ => ⟨S1x3, .f32⟩
  | .hbm, ⟨115, _⟩ => ⟨S1x3, .f32⟩
  | .hbm, ⟨116, _⟩ => ⟨S1x3, .f32⟩
  | .hbm, ⟨117, _⟩ => ⟨S512x1, .f32⟩
  | .hbm, ⟨118, _⟩ => ⟨S1x1, .f32⟩
  | .hbm, ⟨119, _⟩ => ⟨S1x1, .f32⟩
  | .hbm, ⟨120, _⟩ => ⟨S1x1, .f32⟩
  | .hbm, ⟨121, _⟩ => ⟨S1x1x512, .f32⟩
  | .hbm, ⟨122, _⟩ => ⟨S1x1x512, .f32⟩
  | _, _ => ⟨S1x9, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_call0_cst : Ref sig .tc := ⟨.hbm, 23, rfl⟩
abbrev main_call0_v0 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_call1_cst : Ref sig .tc := ⟨.hbm, 30, rfl⟩
abbrev main_call1_v0 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_cst : Ref sig .tc := ⟨.hbm, 39, rfl⟩
abbrev main_v16 : Ref sig .tc := ⟨.hbm, 40, rfl⟩
abbrev main_v17 : Ref sig .tc := ⟨.hbm, 41, rfl⟩
abbrev main_cst_0 : Ref sig .tc := ⟨.hbm, 42, rfl⟩
abbrev main_v18 : Ref sig .tc := ⟨.hbm, 43, rfl⟩
abbrev main_cst_1 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_cst_2 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_cst_3 : Ref sig .tc := ⟨.hbm, 75, rfl⟩
abbrev main_v48 : Ref sig .tc := ⟨.hbm, 76, rfl⟩
abbrev main_v49 : Ref sig .tc := ⟨.hbm, 77, rfl⟩
abbrev main_cst_4 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_cst_5 : Ref sig .tc := ⟨.hbm, 84, rfl⟩
abbrev main_v55 : Ref sig .tc := ⟨.hbm, 85, rfl⟩
abbrev main_v56 : Ref sig .tc := ⟨.hbm, 86, rfl⟩
abbrev main_cst_6 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_cst_7 : Ref sig .tc := ⟨.hbm, 95, rfl⟩
abbrev main_v64 : Ref sig .tc := ⟨.hbm, 96, rfl⟩
abbrev main_v65 : Ref sig .tc := ⟨.hbm, 97, rfl⟩
abbrev main_cst_8 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_cst_9 : Ref sig .tc := ⟨.hbm, 105, rfl⟩
abbrev main_v72 : Ref sig .tc := ⟨.hbm, 106, rfl⟩
abbrev main_v73 : Ref sig .tc := ⟨.hbm, 107, rfl⟩
abbrev main_cst_10 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩

abbrev nD : Nat := 1
abbrev τ : Topo := Topo.v7x

variable {F : FTy → Type} [FloatOps F]

class Facts₀ : Prop where
  transposes_S32x9_S9x32_1_0 : S32x9.Transposes [1, 0] S9x32
  bcast_S32_S1x32_1 : S32.BroadcastsInDim S1x32 (![1] : Fin 1 → Fin S1x32.rank)
  bcast_S_S1x32 : S_.BroadcastsInDim S1x32 (![] : Fin 0 → Fin S1x32.rank)
  transposes_S64x32_S32x64_1_0 : S64x32.Transposes [1, 0] S32x64
  bcast_S64_S1x64_1 : S64.BroadcastsInDim S1x64 (![1] : Fin 1 → Fin S1x64.rank)
  bcast_S_S1x64 : S_.BroadcastsInDim S1x64 (![] : Fin 0 → Fin S1x64.rank)
  concatenates_S1x64_S1x3_S1x1_S1x68_d1 : Shape.Concatenates [S1x64, S1x3, S1x1] S1x68 1
  bcast_S1x64_S1x1x64_0_2 : S1x64.BroadcastsInDim S1x1x64 (![0, 2] : Fin 2 → Fin S1x1x64.rank)
  bcast_S100000x64_S1x100000x64_1_2 : S100000x64.BroadcastsInDim S1x100000x64 (![1, 2] : Fin 2 → Fin S1x100000x64.rank)
  bcast_S1x1x64_S1x100000x64_0_1_2 : S1x1x64.BroadcastsInDim S1x100000x64 (![0, 1, 2] : Fin 3 → Fin S1x100000x64.rank)
  reducesTo_S1x100000x64_S1x100000_d2 : S1x100000x64.ReducesTo [2] S1x100000
  h_S_ : 0 < S_.numel
  reducesTo_S1x100000_S1_d1 : S1x100000.ReducesTo [1] S1
  bcast_S_S1 : S_.BroadcastsInDim S1 (![] : Fin 0 → Fin S1.rank)
  bcast_S1_S1x1_0 : S1.BroadcastsInDim S1x1 (![0] : Fin 1 → Fin S1x1.rank)
  bcast_S1x1_S1x100000_0_1 : S1x1.BroadcastsInDim S1x100000 (![0, 1] : Fin 2 → Fin S1x100000.rank)
  shapeCasts_S1x1x512_S1x512 : S1x1x512.ShapeCasts S1x512
  transposes_S2560x68_S68x2560_1_0 : S2560x68.Transposes [1, 0] S68x2560
  bcast_S2560_S1x2560_1 : S2560.BroadcastsInDim S1x2560 (![1] : Fin 1 → Fin S1x2560.rank)
  transposes_S2560x512_S512x2560_1_0 : S2560x512.Transposes [1, 0] S512x2560
  slices_S1x2560_S1x512_0_0 : S1x2560.Slices ![0, 0] S1x512
  slices_S1x2560_S1x512_0_512 : S1x2560.Slices ![0, 512] S1x512
  slices_S1x2560_S1x512_0_1024 : S1x2560.Slices ![0, 1024] S1x512
  slices_S1x2560_S1x512_0_1536 : S1x2560.Slices ![0, 1536] S1x512
  slices_S1x2560_S1x512_0_2048 : S1x2560.Slices ![0, 2048] S1x512
  bcast_S_S1x512 : S_.BroadcastsInDim S1x512 (![] : Fin 0 → Fin S1x512.rank)
  transposes_S3x512_S512x3_1_0 : S3x512.Transposes [1, 0] S512x3
  bcast_S3_S1x3_1 : S3.BroadcastsInDim S1x3 (![1] : Fin 1 → Fin S1x3.rank)
  transposes_S1x512_S512x1_1_0 : S1x512.Transposes [1, 0] S512x1
  bcast_S1_S1x1_1 : S1.BroadcastsInDim S1x1 (![1] : Fin 1 → Fin S1x1.rank)
  bcast_S1x512_S1x1x512_1_2 : S1x512.BroadcastsInDim S1x1x512 (![1, 2] : Fin 2 → Fin S1x1x512.rank)
  dot_S1x9_S9x32_S1x32_1_0_0_1_n_n_wf : DotDims.WF S1x9 S9x32 S1x32 [1] [0] [0] [1] [] []
  dot_S1x32_S32x64_S1x64_1_0_0_1_n_n_wf : DotDims.WF S1x32 S32x64 S1x64 [1] [0] [0] [1] [] []
  dot_S1x100000_S100000x512_S1x512_1_0_0_1_n_n_wf : DotDims.WF S1x100000 S100000x512 S1x512 [1] [0] [0] [1] [] []
  dot_S1x68_S68x2560_S1x2560_1_0_0_1_n_n_wf : DotDims.WF S1x68 S68x2560 S1x2560 [1] [0] [0] [1] [] []
  dot_S1x512_S512x2560_S1x2560_1_0_0_1_n_n_wf : DotDims.WF S1x512 S512x2560 S1x2560 [1] [0] [0] [1] [] []
  dot_S1x512_S512x3_S1x3_1_0_0_1_n_n_wf : DotDims.WF S1x512 S512x3 S1x3 [1] [0] [0] [1] [] []
  dot_S1x512_S512x1_S1x1_1_0_0_1_n_n_wf : DotDims.WF S1x512 S512x1 S1x1 [1] [0] [0] [1] [] []

variable [Facts₀]

def dot_S1x9_S9x32_S1x32_1_0_0_1_n_n : DotDims S1x9 S9x32 S1x32 where
  lhsContracting := [1]
  rhsContracting := [0]
  lhsNonContracting := [0]
  rhsNonContracting := [1]
  lhsBatch := []
  rhsBatch := []
  wf := dot_S1x9_S9x32_S1x32_1_0_0_1_n_n_wf
def dot_S1x32_S32x64_S1x64_1_0_0_1_n_n : DotDims S1x32 S32x64 S1x64 where
  lhsContracting := [1]
  rhsContracting := [0]
  lhsNonContracting := [0]
  rhsNonContracting := [1]
  lhsBatch := []
  rhsBatch := []
  wf := dot_S1x32_S32x64_S1x64_1_0_0_1_n_n_wf
def dot_S1x100000_S100000x512_S1x512_1_0_0_1_n_n : DotDims S1x100000 S100000x512 S1x512 where
  lhsContracting := [1]
  rhsContracting := [0]
  lhsNonContracting := [0]
  rhsNonContracting := [1]
  lhsBatch := []
  rhsBatch := []
  wf := dot_S1x100000_S100000x512_S1x512_1_0_0_1_n_n_wf
def dot_S1x68_S68x2560_S1x2560_1_0_0_1_n_n : DotDims S1x68 S68x2560 S1x2560 where
  lhsContracting := [1]
  rhsContracting := [0]
  lhsNonContracting := [0]
  rhsNonContracting := [1]
  lhsBatch := []
  rhsBatch := []
  wf := dot_S1x68_S68x2560_S1x2560_1_0_0_1_n_n_wf
def dot_S1x512_S512x2560_S1x2560_1_0_0_1_n_n : DotDims S1x512 S512x2560 S1x2560 where
  lhsContracting := [1]
  rhsContracting := [0]
  lhsNonContracting := [0]
  rhsNonContracting := [1]
  lhsBatch := []
  rhsBatch := []
  wf := dot_S1x512_S512x2560_S1x2560_1_0_0_1_n_n_wf
def dot_S1x512_S512x3_S1x3_1_0_0_1_n_n : DotDims S1x512 S512x3 S1x3 where
  lhsContracting := [1]
  rhsContracting := [0]
  lhsNonContracting := [0]
  rhsNonContracting := [1]
  lhsBatch := []
  rhsBatch := []
  wf := dot_S1x512_S512x3_S1x3_1_0_0_1_n_n_wf
def dot_S1x512_S512x1_S1x1_1_0_0_1_n_n : DotDims S1x512 S512x1 S1x1 where
  lhsContracting := [1]
  rhsContracting := [0]
  lhsNonContracting := [0]
  rhsNonContracting := [1]
  lhsBatch := []
  rhsBatch := []
  wf := dot_S1x512_S512x1_S1x1_1_0_0_1_n_n_wf

class Facts : Prop extends Facts₀ where

variable [Facts]
-- ==== Proof.RegionEntry.lean ====
/-
  What the memory-retrieval region of the program finds and what surrounds it.  @main is five stretches of host
  operations (the two-layer encoder: transpose, product, bias, max with zero, twice, then the concatenation that forms the
  recurrent cell's input), the region, and one stretch of 87 host operations (the merge of the two halves' softmax
  statistics, the quotient, and the recurrent cell with its two heads).  The region walks a grid of 2 x 10 points: the
  first coordinate picks a half of the 100000 memory rows, the second a block of 5000 rows inside the half.  Window 0 is
  the encoded query (one block, fetched once), windows 1 and 2 the keys' and the values' blocks, windows 3, 4, 5 the three
  results (the weighted sum of values, the normaliser, the maximum), one block per half, stored only at the last block
  of the half.  Three scratch buffers carry the running maximum, normaliser and weighted sum from point to point;
  they are reset at the first block of each half.

  Here: the contents at the region's entry as a valuation, @main reduced to the region continued by the later lines, the
  facts about those lines the frame run asks for (they touch only unscoped buffers, allocate nothing, and write none of the
  six arrays), each input block as read off its array, the two branch conditions in closed form over the grid, the points
  where an output window is idle, and the invariant that holds the three scratch buffers.
-/
import proofs.«149342_j75737453298419_2_alg».proof.Proof.Gen.KernelIdeal.Launch
import proofs.«149342_j75737453298419_2_alg».proof.Proof.Gen.KernelIdeal.Skeleton
import proofs.«149342_j75737453298419_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The five stretches of host operations before the region, in order. -/
abbrev pre : List (List (HloOp τ sig (Elt F))) := [hostOps0, hostOps0_1, hostOps0_2, hostOps0_3, hostOps0_4]

/-- Core `c`'s TensorCore buffer contents when the region is entered, as a valuation. -/
abbrev V0 (c : Dev nD) : Valuation τ sig (Elt F) := StableHlo.after (List.flatten (pre (F := F))) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
set_option maxHeartbeats 4000000 in
theorem hostOps1_fresh : (hostOps1 : List (HloOp τ sig (Elt F))).Forall fun op => op.fresh = ∅ := by
  simp only [List.Forall]; repeat' constructor

set_option maxHeartbeats 40000000 in
/-- @main reduces to the region continued by the later lines, at the contents after the earlier ones. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main (pre (F := F)) [hostOps1]
    (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-- The later lines touch the six arrays and the buffers that bypass the region only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

set_option maxHeartbeats 16000000 in
/-- No later line writes one of the six arrays: each writes only its own result buffer. -/
theorem hostOps1_keeps : (hostOps1 : List (HloOp τ sig (Elt F))).Forall fun op =>
    ∀ w, Proc.devRef .tc (Pipeline.arrRef spec0 w) ∉ op.writes := by
  simp only [hostOps1, List.Forall]
  repeat' apply And.intro
  all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  exact (List.forall_iff_forall_mem.mp hostOps1_keeps) op hop

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The query's staging buffer holds the query at every point (fetched at the first point, its index never moves). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The keys' staging buffer holds the point's block of keys. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- The values' staging buffer holds the point's block of values. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's two branch conditions -/

/-- "This is the first block of its half": the second grid coordinate is zero. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 10 = 0 :=
  (by decide +kernel : ∀ t : Fin grid0.N, cond0_0 (grid0.coords t) ↔ t.val % 10 = 0)
/-- "This is the last block of its half": the second grid coordinate is nine. -/
abbrev cond0_1 (i : grid0.Coords) : Prop := k0_cond2 i = 1#1
theorem hcond0_1 : ∀ t : Fin cfg0.N, cond0_1 (grid0.coords t) ↔ t.val % 10 = 9 :=
  (by decide +kernel : ∀ t : Fin grid0.N, cond0_1 (grid0.coords t) ↔ t.val % 10 = 9)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Away from the last block of a half the three results are idle: nothing is stored into them and they are not written back. -/
theorem idleAt0_3 : ∀ t : Fin cfg0.N, ¬cond0_1 (grid0.coords t) → cfg0.idle 3 (grid0.coords t) = true := by decide +kernel
theorem idleAt0_4 : ∀ t : Fin cfg0.N, ¬cond0_1 (grid0.coords t) → cfg0.idle 4 (grid0.coords t) = true := by decide +kernel
theorem idleAt0_5 : ∀ t : Fin cfg0.N, ¬cond0_1 (grid0.coords t) → cfg0.idle 5 (grid0.coords t) = true := by decide +kernel
theorem noFlush0_3 : ∀ t : Fin cfg0.N, ¬cond0_1 (grid0.coords t) → (cfg0.win 3).flush t = false := by decide +kernel
theorem noFlush0_4 : ∀ t : Fin cfg0.N, ¬cond0_1 (grid0.coords t) → (cfg0.win 4).flush t = false := by decide +kernel
theorem noFlush0_5 : ∀ t : Fin cfg0.N, ¬cond0_1 (grid0.coords t) → (cfg0.win 5).flush t = false := by decide +kernel
/-- At the last block of a half they are live. -/
theorem liveAt0_3 : ∀ t : Fin cfg0.N, cond0_1 (grid0.coords t) → cfg0.idle 3 (grid0.coords t) = false := by decide +kernel
theorem liveAt0_4 : ∀ t : Fin cfg0.N, cond0_1 (grid0.coords t) → cfg0.idle 4 (grid0.coords t) = false := by decide +kernel
theorem liveAt0_5 : ∀ t : Fin cfg0.N, cond0_1 (grid0.coords t) → cfg0.idle 5 (grid0.coords t) = false := by decide +kernel

/-! ## The memrefs the body is called with -/

abbrev ms0_0 (t : Fin cfg0.N) : Memref sig .tc .vmem S1x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S5000x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S5000x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128 .f32 := win0_5.stage (cfg0.slots t 5)
abbrev hs0_5 (t : Fin cfg0.N) : (ms0_5 t).IsWhole := hstage0_5 ((cfg0.slots t 5).cast nbuf0_5)
/-- The three scratch operands: the running maximum, the running normaliser, the running weighted sum. -/
abbrev scM0_0 : Memref sig .tc .vmem S1x1 .f32 := Memref.whole cc0_scratch0
abbrev scM0_1 : Memref sig .tc .vmem S1x1 .f32 := Memref.whole cc0_scratch1
abbrev scM0_2 : Memref sig .tc .vmem S1x512 .f32 := Memref.whole cc0_scratch2
abbrev VS0_0 : View sig .tc .vmem S1x1 .f32 := (scM0_0).view
abbrev VS0_1 : View sig .tc .vmem S1x1 .f32 := (scM0_1).view
abbrev VS0_2 : View sig .tc .vmem S1x512 .f32 := (scM0_2).view
/-- One staging buffer of each result window, through which its contents are stated. -/
abbrev VO0_3 : View sig .tc .vmem S1x512 .f32 := (Memref.whole cc0_stg3_0 : Memref sig .tc .vmem S1x512 .f32).view
abbrev VO0_4 : View sig .tc .vmem S1x128 .f32 := (Memref.whole cc0_stg4_0 : Memref sig .tc .vmem S1x128 .f32).view
abbrev VO0_5 : View sig .tc .vmem S1x128 .f32 := (Memref.whole cc0_stg5_0 : Memref sig .tc .vmem S1x128 .f32).view

/-- The region's own invariant with the three scratch operands as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KernelIdeal.Hand

end
-- ==== Proof.BodyFirst.lean ====
/-
  The memory-retrieval body run once, in one of its three control cases, on whole staging memrefs: a triple whose
  postcondition names, as lists of written pieces, what each buffer the case stores into holds afterwards.
-/
import proofs.«149342_j75737453298419_2_alg».proof.Proof.RegionEntry

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at the FIRST block of a half (the reset branch taken, the store-out branch not): on whole memrefs, the three
    inputs at their blocks, the three results at anything they hold (they are not touched), the three scratch buffers at
    anything, it runs to the continuation holding the inputs and the results as they were and each scratch buffer with the
    pieces its stores wrote (found by the run): the reset values, then the block's maximum, normaliser and weighted sum. -/
noncomputable def kernelRun0_A (c : Dev nD) (i : grid0.Coords) (arg2 : Memref sig .tc .vmem S1x64 .f32) (harg2 : arg2.IsWhole) (arg3 : Memref sig .tc .vmem S5000x64 .f32) (harg3 : arg3.IsWhole) (arg4 : Memref sig .tc .vmem S5000x512 .f32) (harg4 : arg4.IsWhole) (arg5 : Memref sig .tc .vmem S1x512 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x512 .f32) (harg10 : arg10.IsWhole) (hc0 : cond0_0 i) (hc1 : ¬cond0_1 i)
    (x0 : Vec F S1x64 .f32) (x1 : Vec F S5000x64 .f32) (x2 : Vec F S5000x512 .f32) :
    Σ' (LS0 : List (View.Piece (Elt F) S1x1 .f32)) (LS1 : List (View.Piece (Elt F) S1x1 .f32)), { LS2 : List (View.Piece (Elt F) S1x512 .f32) //
      ∀ (xi3 : Vec F S1x512 .f32) (xi4 : Vec F S1x128 .f32) (xi5 : Vec F S1x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ owns (c : Thread nD τ) arg7 fullShare xi5 ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc0__dnd_kernel i arg2 harg2 arg3 harg3 arg4 harg4 arg5 harg5 arg6 harg6 arg7 harg7 arg8 harg8 arg9 harg9 arg10 harg10) K } := by
  refine ⟨?_, ?_, ?_, fun xi3 xi4 xi5 E K => ?run⟩
  case run =>
    simp only [cc0__dnd_kernel_eq_skeleton]; unfold cc0__dnd_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    isplitl [HS1]; · iexists _; iexact HS1
    iexists _; iexact HS2

end Cert.KernelIdeal.Hand

end
-- ==== Proof.BodyMiddle.lean ====
/-
  The memory-retrieval body run once, in one of its three control cases, on whole staging memrefs: a triple whose
  postcondition names, as lists of written pieces, what each buffer the case stores into holds afterwards.
-/
import proofs.«149342_j75737453298419_2_alg».proof.Proof.BodyFirst

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at a MIDDLE block of a half (neither branch taken): the three scratch buffers are handed at what the block
    before left in them and come back with the pieces the stores wrote — the raised maximum, the rescaled normaliser plus
    the block's, the rescaled weighted sum plus the block's; the results are not touched. -/
noncomputable def kernelRun0_B (c : Dev nD) (i : grid0.Coords) (arg2 : Memref sig .tc .vmem S1x64 .f32) (harg2 : arg2.IsWhole) (arg3 : Memref sig .tc .vmem S5000x64 .f32) (harg3 : arg3.IsWhole) (arg4 : Memref sig .tc .vmem S5000x512 .f32) (harg4 : arg4.IsWhole) (arg5 : Memref sig .tc .vmem S1x512 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x512 .f32) (harg10 : arg10.IsWhole) (hc0 : ¬cond0_0 i) (hc1 : ¬cond0_1 i)
    (x0 : Vec F S1x64 .f32) (x1 : Vec F S5000x64 .f32) (x2 : Vec F S5000x512 .f32) (xs0 : Vec F S1x1 .f32) (xs1 : Vec F S1x1 .f32) (xs2 : Vec F S1x512 .f32) :
    Σ' (LS0 : List (View.Piece (Elt F) S1x1 .f32)) (LS1 : List (View.Piece (Elt F) S1x1 .f32)), { LS2 : List (View.Piece (Elt F) S1x512 .f32) //
      ∀ (xi3 : Vec F S1x512 .f32) (xi4 : Vec F S1x128 .f32) (xi5 : Vec F S1x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ owns (c : Thread nD τ) arg7 fullShare xi5 ∗ owns (c : Thread nD τ) arg8 fullShare xs0 ∗ owns (c : Thread nD τ) arg9 fullShare xs1 ∗ owns (c : Thread nD τ) arg10 fullShare xs2
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc0__dnd_kernel i arg2 harg2 arg3 harg3 arg4 harg4 arg5 harg5 arg6 harg6 arg7 harg7 arg8 harg8 arg9 harg9 arg10 harg10) K } := by
  refine ⟨?_, ?_, ?_, fun xi3 xi4 xi5 E K => ?run⟩
  case run =>
    simp only [cc0__dnd_kernel_eq_skeleton]; unfold cc0__dnd_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0; obtain rfl := harg9.eq_unread hfs1; obtain rfl := harg10.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    isplitl [HS1]; · iexists _; iexact HS1
    iexists _; iexact HS2

end Cert.KernelIdeal.Hand

end
-- ==== Proof.BodyLast.lean ====
/-
  The memory-retrieval body run once, in one of its three control cases, on whole staging memrefs: a triple whose
  postcondition names, as lists of written pieces, what each buffer the case stores into holds afterwards.
-/
import proofs.«149342_j75737453298419_2_alg».proof.Proof.BodyMiddle

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at the LAST block of a half (the reset branch not taken, the store-out branch taken): as at a middle block for
    the scratch buffers, and the three results, handed at anything, come back with the pieces the final stores wrote —
    the half's weighted sum, and its normaliser and maximum each repeated along 128 lanes. -/
noncomputable def kernelRun0_C (c : Dev nD) (i : grid0.Coords) (arg2 : Memref sig .tc .vmem S1x64 .f32) (harg2 : arg2.IsWhole) (arg3 : Memref sig .tc .vmem S5000x64 .f32) (harg3 : arg3.IsWhole) (arg4 : Memref sig .tc .vmem S5000x512 .f32) (harg4 : arg4.IsWhole) (arg5 : Memref sig .tc .vmem S1x512 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x512 .f32) (harg10 : arg10.IsWhole) (hc0 : ¬cond0_0 i) (hc1 : cond0_1 i)
    (x0 : Vec F S1x64 .f32) (x1 : Vec F S5000x64 .f32) (x2 : Vec F S5000x512 .f32) (xs0 : Vec F S1x1 .f32) (xs1 : Vec F S1x1 .f32) (xs2 : Vec F S1x512 .f32) :
    Σ' (L3 : List (View.Piece (Elt F) S1x512 .f32)) (L4 : List (View.Piece (Elt F) S1x128 .f32)) (L5 : List (View.Piece (Elt F) S1x128 .f32)) (LS0 : List (View.Piece (Elt F) S1x1 .f32)) (LS1 : List (View.Piece (Elt F) S1x1 .f32)), { LS2 : List (View.Piece (Elt F) S1x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xs0 ∗ owns (c : Thread nD τ) arg9 fullShare xs1 ∗ owns (c : Thread nD τ) arg10 fullShare xs2
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc0__dnd_kernel i arg2 harg2 arg3 harg3 arg4 harg4 arg5 harg5 arg6 harg6 arg7 harg7 arg8 harg8 arg9 harg9 arg10 harg10) K } := by
  refine ⟨?_, ?_, ?_, ?_, ?_, ?_, fun E K => ?run⟩
  case run =>
    simp only [cc0__dnd_kernel_eq_skeleton]; unfold cc0__dnd_kernel_skel
    simp only [k0_part1_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg8.eq_unread hfs0; obtain rfl := harg9.eq_unread hfs1; obtain rfl := harg10.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [H5]; · iexists _; iexact H5
    isplitl [HS0]; · iexists _; iexact HS0
    isplitl [HS1]; · iexists _; iexact HS1
    iexists _; iexact HS2

end Cert.KernelIdeal.Hand

end
-- ==== Proof.Accumulate.lean ====
/-
  The accumulation over the grid.  After each point the three scratch buffers hold the running maximum, normaliser
  and weighted sum of the half's blocks seen so far; the three result buffers are written only at the last block of a
  half.  `outsAt0` states this by recursion on the point: a first block starts from the reset values, a middle or last
  block from what the block before left.  From it: the proof data of the pipeline (inputs left in place, results and
  scratch at `outsAt0`), the body obligation at every point (the closed forms of the two conditions select the case,
  the case's run applies), and the run of @main with every array named.
-/
import proofs.«149342_j75737453298419_2_alg».proof.Proof.BodyLast

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem scover0_A_0 (c : Dev nD) (i : grid0.Coords) (arg2 : Memref sig .tc .vmem S1x64 .f32) (harg2 : arg2.IsWhole) (arg3 : Memref sig .tc .vmem S5000x64 .f32) (harg3 : arg3.IsWhole) (arg4 : Memref sig .tc .vmem S5000x512 .f32) (harg4 : arg4.IsWhole) (arg5 : Memref sig .tc .vmem S1x512 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x512 .f32) (harg10 : arg10.IsWhole) (hc0 : cond0_0 i) (hc1 : ¬cond0_1 i)
    (x0 : Vec F S1x64 .f32) (x1 : Vec F S5000x64 .f32) (x2 : Vec F S5000x512 .f32) (y : S1x1.Idx) :
    ∃ pc ∈ (kernelRun0_A c i arg2 harg2 arg3 harg3 arg4 harg4 arg5 harg5 arg6 harg6 arg7 harg7 arg8 harg8 arg9 harg9 arg10 harg10 hc0 hc1 x0 x1 x2).1, y ∈ pc.1.set :=
  View.cover_of_tiledL (kernelRun0_A c i arg2 harg2 arg3 harg3 arg4 harg4 arg5 harg5 arg6 harg6 arg7 harg7 arg8 harg8 arg9 harg9 arg10 harg10 hc0 hc1 x0 x1 x2).1 S1x1.size (by sl_kernel_rfl) y

/-- What case A leaves in scratch buffer 0: its pieces read back. -/
def sout0_A_0 (c : Dev nD) (i : grid0.Coords) (arg2 : Memref sig .tc .vmem S1x64 .f32) (harg2 : arg2.IsWhole) (arg3 : Memref sig .tc .vmem S5000x64 .f32) (harg3 : arg3.IsWhole) (arg4 : Memref sig .tc .vmem S5000x512 .f32) (harg4 : arg4.IsWhole) (arg5 : Memref sig .tc .vmem S1x512 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x512 .f32) (harg10 : arg10.IsWhole) (hc0 : cond0_0 i) (hc1 : ¬cond0_1 i)
    (x0 : Vec F S1x64 .f32) (x1 : Vec F S5000x64 .f32) (x2 : Vec F S5000x512 .f32) : Vec F S1x1 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 hc0 hc1 x0 x1 x2).1)

theorem scover0_A_1 (c : Dev nD) (i : grid0.Coords) (arg2 : Memref sig .tc .vmem S1x64 .f32) (harg2 : arg2.IsWhole) (arg3 : Memref sig .tc .vmem S5000x64 .f32) (harg3 : arg3.IsWhole) (arg4 : Memref sig .tc .vmem S5000x512 .f32) (harg4 : arg4.IsWhole) (arg5 : Memref sig .tc .vmem S1x512 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x512 .f32) (harg10 : arg10.IsWhole) (hc0 : cond0_0 i) (hc1 : ¬cond0_1 i)
    (x0 : Vec F S1x64 .f32) (x1 : Vec F S5000x64 .f32) (x2 : Vec F S5000x512 .f32) (y : S1x1.Idx) :
    ∃ pc ∈ (kernelRun0_A c i arg2 harg2 arg3 harg3 arg4 harg4 arg5 harg5 arg6 harg6 arg7 harg7 arg8 harg8 arg9 harg9 arg10 harg10 hc0 hc1 x0 x1 x2).2.1, y ∈ pc.1.set :=
  View.cover_of_tiledL (kernelRun0_A c i arg2 harg2 arg3 harg3 arg4 harg4 arg5 harg5 arg6 harg6 arg7 harg7 arg8 harg8 arg9 harg9 arg10 harg10 hc0 hc1 x0 x1 x2).2.1 S1x1.size (by sl_kernel_rfl) y

/-- What case A leaves in scratch buffer 1: its pieces read back. -/
def sout0_A_1 (c : Dev nD) (i : grid0.Coords) (arg2 : Memref sig .tc .vmem S1x64 .f32) (harg2 : arg2.IsWhole) (arg3 : Memref sig .tc .vmem S5000x64 .f32) (harg3 : arg3.IsWhole) (arg4 : Memref sig .tc .vmem S5000x512 .f32) (harg4 : arg4.IsWhole) (arg5 : Memref sig .tc .vmem S1x512 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x512 .f32) (harg10 : arg10.IsWhole) (hc0 : cond0_0 i) (hc1 : ¬cond0_1 i)
    (x0 : Vec F S1x64 .f32) (x1 : Vec F S5000x64 .f32) (x2 : Vec F S5000x512 .f32) : Vec F S1x1 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 hc0 hc1 x0 x1 x2).2.1)

theorem scover0_A_2 (c : Dev nD) (i : grid0.Coords) (arg2 : Memref sig .tc .vmem S1x64 .f32) (harg2 : arg2.IsWhole) (arg3 : Memref sig .tc .vmem S5000x64 .f32) (harg3 : arg3.IsWhole) (arg4 : Memref sig .tc .vmem S5000x512 .f32) (harg4 : arg4.IsWhole) (arg5 : Memref sig .tc .vmem S1x512 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x512 .f32) (harg10 : arg10.IsWhole) (hc0 : cond0_0 i) (hc1 : ¬cond0_1 i)
    (x0 : Vec F S1x64 .f32) (x1 : Vec F S5000x64 .f32) (x2 : Vec F S5000x512 .f32) (y : S1x512.Idx) :
    ∃ pc ∈ (kernelRun0_A c i arg2 harg2 arg3 harg3 arg4 harg4 arg5 harg5 arg6 harg6 arg7 harg7 arg8 harg8 arg9 harg9 arg10 harg10 hc0 hc1 x0 x1 x2).2.2.1, y ∈ pc.1.set :=
  View.cover_of_tiledL (kernelRun0_A c i arg2 harg2 arg3 harg3 arg4 harg4 arg5 harg5 arg6 harg6 arg7 harg7 arg8 harg8 arg9 harg9 arg10 harg10 hc0 hc1 x0 x1 x2).2.2.1 S1x512.size (by sl_kernel_rfl) y

/-- What case A leaves in scratch buffer 2: its pieces read back. -/
def sout0_A_2 (c : Dev nD) (i : grid0.Coords) (arg2 : Memref sig .tc .vmem S1x64 .f32) (harg2 : arg2.IsWhole) (arg3 : Memref sig .tc .vmem S5000x64 .f32) (harg3 : arg3.IsWhole) (arg4 : Memref sig .tc .vmem S5000x512 .f32) (harg4 : arg4.IsWhole) (arg5 : Memref sig .tc .vmem S1x512 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x512 .f32) (harg10 : arg10.IsWhole) (hc0 : cond0_0 i) (hc1 : ¬cond0_1 i)
    (x0 : Vec F S1x64 .f32) (x1 : Vec F S5000x64 .f32) (x2 : Vec F S5000x512 .f32) : Vec F S1x512 .f32 :=
  VS0_2.read (Elt F) (VS0_2.writes (Elt F) VS0_2.junk (kernelRun0_A c i arg2 harg2 arg3 harg3 arg4 harg4 arg5 harg5 arg6 harg6 arg7 harg7 arg8 harg8 arg9 harg9 arg10 harg10 hc0 hc1 x0 x1 x2).2.2.1)

theorem scover0_B_0 (c : Dev nD) (i : grid0.Coords) (arg2 : Memref sig .tc .vmem S1x64 .f32) (harg2 : arg2.IsWhole) (arg3 : Memref sig .tc .vmem S5000x64 .f32) (harg3 : arg3.IsWhole) (arg4 : Memref sig .tc .vmem S5000x512 .f32) (harg4 : arg4.IsWhole) (arg5 : Memref sig .tc .vmem S1x512 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x512 .f32) (harg10 : arg10.IsWhole) (hc0 : ¬cond0_0 i) (hc1 : ¬cond0_1 i)
    (x0 : Vec F S1x64 .f32) (x1 : Vec F S5000x64 .f32) (x2 : Vec F S5000x512 .f32) (xs0 : Vec F S1x1 .f32) (xs1 : Vec F S1x1 .f32) (xs2 : Vec F S1x512 .f32) (y : S1x1.Idx) :
    ∃ pc ∈ (kernelRun0_B c i arg2 harg2 arg3 harg3 arg4 harg4 arg5 harg5 arg6 harg6 arg7 harg7 arg8 harg8 arg9 harg9 arg10 harg10 hc0 hc1 x0 x1 x2 xs0 xs1 xs2).1, y ∈ pc.1.set :=
  View.cover_of_tiledL (kernelRun0_B c i arg2 harg2 arg3 harg3 arg4 harg4 arg5 harg5 arg6 harg6 arg7 harg7 arg8 harg8 arg9 harg9 arg10 harg10 hc0 hc1 x0 x1 x2 xs0 xs1 xs2).1 S1x1.size (by sl_kernel_rfl) y

/-- What case B leaves in scratch buffer 0: its pieces read back. -/
def sout0_B_0 (c : Dev nD) (i : grid0.Coords) (arg2 : Memref sig .tc .vmem S1x64 .f32) (harg2 : arg2.IsWhole) (arg3 : Memref sig .tc .vmem S5000x64 .f32) (harg3 : arg3.IsWhole) (arg4 : Memref sig .tc .vmem S5000x512 .f32) (harg4 : arg4.IsWhole) (arg5 : Memref sig .tc .vmem S1x512 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x512 .f32) (harg10 : arg10.IsWhole) (hc0 : ¬cond0_0 i) (hc1 : ¬cond0_1 i)
    (x0 : Vec F S1x64 .f32) (x1 : Vec F S5000x64 .f32) (x2 : Vec F S5000x512 .f32) (xs0 : Vec F S1x1 .f32) (xs1 : Vec F S1x1 .f32) (xs2 : Vec F S1x512 .f32) : Vec F S1x1 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 hc0 hc1 x0 x1 x2 xs0 xs1 xs2).1)

theorem scover0_B_1 (c : Dev nD) (i : grid0.Coords) (arg2 : Memref sig .tc .vmem S1x64 .f32) (harg2 : arg2.IsWhole) (arg3 : Memref sig .tc .vmem S5000x64 .f32) (harg3 : arg3.IsWhole) (arg4 : Memref sig .tc .vmem S5000x512 .f32) (harg4 : arg4.IsWhole) (arg5 : Memref sig .tc .vmem S1x512 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x512 .f32) (harg10 : arg10.IsWhole) (hc0 : ¬cond0_0 i) (hc1 : ¬cond0_1 i)
    (x0 : Vec F S1x64 .f32) (x1 : Vec F S5000x64 .f32) (x2 : Vec F S5000x512 .f32) (xs0 : Vec F S1x1 .f32) (xs1 : Vec F S1x1 .f32) (xs2 : Vec F S1x512 .f32) (y : S1x1.Idx) :
    ∃ pc ∈ (kernelRun0_B c i arg2 harg2 arg3 harg3 arg4 harg4 arg5 harg5 arg6 harg6 arg7 harg7 arg8 harg8 arg9 harg9 arg10 harg10 hc0 hc1 x0 x1 x2 xs0 xs1 xs2).2.1, y ∈ pc.1.set :=
  View.cover_of_tiledL (kernelRun0_B c i arg2 harg2 arg3 harg3 arg4 harg4 arg5 harg5 arg6 harg6 arg7 harg7 arg8 harg8 arg9 harg9 arg10 harg10 hc0 hc1 x0 x1 x2 xs0 xs1 xs2).2.1 S1x1.size (by sl_kernel_rfl) y

/-- What case B leaves in scratch buffer 1: its pieces read back. -/
def sout0_B_1 (c : Dev nD) (i : grid0.Coords) (arg2 : Memref sig .tc .vmem S1x64 .f32) (harg2 : arg2.IsWhole) (arg3 : Memref sig .tc .vmem S5000x64 .f32) (harg3 : arg3.IsWhole) (arg4 : Memref sig .tc .vmem S5000x512 .f32) (harg4 : arg4.IsWhole) (arg5 : Memref sig .tc .vmem S1x512 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x512 .f32) (harg10 : arg10.IsWhole) (hc0 : ¬cond0_0 i) (hc1 : ¬cond0_1 i)
    (x0 : Vec F S1x64 .f32) (x1 : Vec F S5000x64 .f32) (x2 : Vec F S5000x512 .f32) (xs0 : Vec F S1x1 .f32) (xs1 : Vec F S1x1 .f32) (xs2 : Vec F S1x512 .f32) : Vec F S1x1 .f32 :=
  VS0_1.read (Elt F) (VS0_1.writes (Elt F) VS0_1.junk (kernelRun0_B c i arg2 harg2 arg3 harg3 arg4 harg4 arg5 harg5 arg6 harg6 arg7 harg7 arg8 harg8 arg9 harg9 arg10 harg10 hc0 hc1 x0 x1 x2 xs0 xs1 xs2).2.1)

theorem scover0_B_2 (c : Dev nD) (i : grid0.Coords) (arg2 : Memref sig .tc .vmem S1x64 .f32) (harg2 : arg2.IsWhole) (arg3 : Memref sig .tc .vmem S5000x64 .f32) (harg3 : arg3.IsWhole) (arg4 : Memref sig .tc .vmem S5000x512 .f32) (harg4 : arg4.IsWhole) (arg5 : Memref sig .tc .vmem S1x512 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x512 .f32) (harg10 : arg10.IsWhole) (hc0 : ¬cond0_0 i) (hc1 : ¬cond0_1 i)
    (x0 : Vec F S1x64 .f32) (x1 : Vec F S5000x64 .f32) (x2 : Vec F S5000x512 .f32) (xs0 : Vec F S1x1 .f32) (xs1 : Vec F S1x1 .f32) (xs2 : Vec F S1x512 .f32) (y : S1x512.Idx) :
    ∃ pc ∈ (kernelRun0_B c i arg2 harg2 arg3 harg3 arg4 harg4 arg5 harg5 arg6 harg6 arg7 harg7 arg8 harg8 arg9 harg9 arg10 harg10 hc0 hc1 x0 x1 x2 xs0 xs1 xs2).2.2.1, y ∈ pc.1.set :=
  View.cover_of_tiledL (kernelRun0_B c i arg2 harg2 arg3 harg3 arg4 harg4 arg5 harg5 arg6 harg6 arg7 harg7 arg8 harg8 arg9 harg9 arg10 harg10 hc0 hc1 x0 x1 x2 xs0 xs1 xs2).2.2.1 S1x512.size (by sl_kernel_rfl) y

/-- What case B leaves in scratch buffer 2: its pieces read back. -/
def sout0_B_2 (c : Dev nD) (i : grid0.Coords) (arg2 : Memref sig .tc .vmem S1x64 .f32) (harg2 : arg2.IsWhole) (arg3 : Memref sig .tc .vmem S5000x64 .f32) (harg3 : arg3.IsWhole) (arg4 : Memref sig .tc .vmem S5000x512 .f32) (harg4 : arg4.IsWhole) (arg5 : Memref sig .tc .vmem S1x512 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x512 .f32) (harg10 : arg10.IsWhole) (hc0 : ¬cond0_0 i) (hc1 : ¬cond0_1 i)
    (x0 : Vec F S1x64 .f32) (x1 : Vec F S5000x64 .f32) (x2 : Vec F S5000x512 .f32) (xs0 : Vec F S1x1 .f32) (xs1 : Vec F S1x1 .f32) (xs2 : Vec F S1x512 .f32) : Vec F S1x512 .f32 :=
  VS0_2.read (Elt F) (VS0_2.writes (Elt F) VS0_2.junk (kernelRun0_B c i arg2 harg2 arg3 harg3 arg4 harg4 arg5 harg5 arg6 harg6 arg7 harg7 arg8 harg8 arg9 harg9 arg10 harg10 hc0 hc1 x0 x1 x2 xs0 xs1 xs2).2.2.1)

theorem scover0_C_0 (c : Dev nD) (i : grid0.Coords) (arg2 : Memref sig .tc .vmem S1x64 .f32) (harg2 : arg2.IsWhole) (arg3 : Memref sig .tc .vmem S5000x64 .f32) (harg3 : arg3.IsWhole) (arg4 : Memref sig .tc .vmem S5000x512 .f32) (harg4 : arg4.IsWhole) (arg5 : Memref sig .tc .vmem S1x512 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x512 .f32) (harg10 : arg10.IsWhole) (hc0 : ¬cond0_0 i) (hc1 : cond0_1 i)
    (x0 : Vec F S1x64 .f32) (x1 : Vec F S5000x64 .f32) (x2 : Vec F S5000x512 .f32) (xs0 : Vec F S1x1 .f32) (xs1 : Vec F S1x1 .f32) (xs2 : Vec F S1x512 .f32) (y : S1x1.Idx) :
    ∃ pc ∈ (kernelRun0_C c i arg2 harg2 arg3 harg3 arg4 harg4 arg5 harg5 arg6 harg6 arg7 harg7 arg8 harg8 arg9 harg9 arg10 harg10 hc0 hc1 x0 x1 x2 xs0 xs1 xs2).2.2.2.1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 xs0 xs1 xs2).2.2.2.1 S1x1.size (by sl_kernel_rfl) y

/-- What case C leaves in scratch buffer 0: its pieces read back. -/
def sout0_C_0 (c : Dev nD) (i : grid0.Coords) (arg2 : Memref sig .tc .vmem S1x64 .f32) (harg2 : arg2.IsWhole) (arg3 : Memref sig .tc .vmem S5000x64 .f32) (harg3 : arg3.IsWhole) (arg4 : Memref sig .tc .vmem S5000x512 .f32) (harg4 : arg4.IsWhole) (arg5 : Memref sig .tc .vmem S1x512 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x512 .f32) (harg10 : arg10.IsWhole) (hc0 : ¬cond0_0 i) (hc1 : cond0_1 i)
    (x0 : Vec F S1x64 .f32) (x1 : Vec F S5000x64 .f32) (x2 : Vec F S5000x512 .f32) (xs0 : Vec F S1x1 .f32) (xs1 : Vec F S1x1 .f32) (xs2 : Vec F S1x512 .f32) : Vec F S1x1 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 hc0 hc1 x0 x1 x2 xs0 xs1 xs2).2.2.2.1)

theorem scover0_C_1 (c : Dev nD) (i : grid0.Coords) (arg2 : Memref sig .tc .vmem S1x64 .f32) (harg2 : arg2.IsWhole) (arg3 : Memref sig .tc .vmem S5000x64 .f32) (harg3 : arg3.IsWhole) (arg4 : Memref sig .tc .vmem S5000x512 .f32) (harg4 : arg4.IsWhole) (arg5 : Memref sig .tc .vmem S1x512 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x512 .f32) (harg10 : arg10.IsWhole) (hc0 : ¬cond0_0 i) (hc1 : cond0_1 i)
    (x0 : Vec F S1x64 .f32) (x1 : Vec F S5000x64 .f32) (x2 : Vec F S5000x512 .f32) (xs0 : Vec F S1x1 .f32) (xs1 : Vec F S1x1 .f32) (xs2 : Vec F S1x512 .f32) (y : S1x1.Idx) :
    ∃ pc ∈ (kernelRun0_C c i arg2 harg2 arg3 harg3 arg4 harg4 arg5 harg5 arg6 harg6 arg7 harg7 arg8 harg8 arg9 harg9 arg10 harg10 hc0 hc1 x0 x1 x2 xs0 xs1 xs2).2.2.2.2.1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 xs0 xs1 xs2).2.2.2.2.1 S1x1.size (by sl_kernel_rfl) y

/-- What case C leaves in scratch buffer 1: its pieces read back. -/
def sout0_C_1 (c : Dev nD) (i : grid0.Coords) (arg2 : Memref sig .tc .vmem S1x64 .f32) (harg2 : arg2.IsWhole) (arg3 : Memref sig .tc .vmem S5000x64 .f32) (harg3 : arg3.IsWhole) (arg4 : Memref sig .tc .vmem S5000x512 .f32) (harg4 : arg4.IsWhole) (arg5 : Memref sig .tc .vmem S1x512 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x512 .f32) (harg10 : arg10.IsWhole) (hc0 : ¬cond0_0 i) (hc1 : cond0_1 i)
    (x0 : Vec F S1x64 .f32) (x1 : Vec F S5000x64 .f32) (x2 : Vec F S5000x512 .f32) (xs0 : Vec F S1x1 .f32) (xs1 : Vec F S1x1 .f32) (xs2 : Vec F S1x512 .f32) : Vec F S1x1 .f32 :=
  VS0_1.read (Elt F) (VS0_1.writes (Elt F) VS0_1.junk (kernelRun0_C c i arg2 harg2 arg3 harg3 arg4 harg4 arg5 harg5 arg6 harg6 arg7 harg7 arg8 harg8 arg9 harg9 arg10 harg10 hc0 hc1 x0 x1 x2 xs0 xs1 xs2).2.2.2.2.1)

theorem scover0_C_2 (c : Dev nD) (i : grid0.Coords) (arg2 : Memref sig .tc .vmem S1x64 .f32) (harg2 : arg2.IsWhole) (arg3 : Memref sig .tc .vmem S5000x64 .f32) (harg3 : arg3.IsWhole) (arg4 : Memref sig .tc .vmem S5000x512 .f32) (harg4 : arg4.IsWhole) (arg5 : Memref sig .tc .vmem S1x512 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x512 .f32) (harg10 : arg10.IsWhole) (hc0 : ¬cond0_0 i) (hc1 : cond0_1 i)
    (x0 : Vec F S1x64 .f32) (x1 : Vec F S5000x64 .f32) (x2 : Vec F S5000x512 .f32) (xs0 : Vec F S1x1 .f32) (xs1 : Vec F S1x1 .f32) (xs2 : Vec F S1x512 .f32) (y : S1x512.Idx) :
    ∃ pc ∈ (kernelRun0_C c i arg2 harg2 arg3 harg3 arg4 harg4 arg5 harg5 arg6 harg6 arg7 harg7 arg8 harg8 arg9 harg9 arg10 harg10 hc0 hc1 x0 x1 x2 xs0 xs1 xs2).2.2.2.2.2.1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 xs0 xs1 xs2).2.2.2.2.2.1 S1x512.size (by sl_kernel_rfl) y

/-- What case C leaves in scratch buffer 2: its pieces read back. -/
def sout0_C_2 (c : Dev nD) (i : grid0.Coords) (arg2 : Memref sig .tc .vmem S1x64 .f32) (harg2 : arg2.IsWhole) (arg3 : Memref sig .tc .vmem S5000x64 .f32) (harg3 : arg3.IsWhole) (arg4 : Memref sig .tc .vmem S5000x512 .f32) (harg4 : arg4.IsWhole) (arg5 : Memref sig .tc .vmem S1x512 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x512 .f32) (harg10 : arg10.IsWhole) (hc0 : ¬cond0_0 i) (hc1 : cond0_1 i)
    (x0 : Vec F S1x64 .f32) (x1 : Vec F S5000x64 .f32) (x2 : Vec F S5000x512 .f32) (xs0 : Vec F S1x1 .f32) (xs1 : Vec F S1x1 .f32) (xs2 : Vec F S1x512 .f32) : Vec F S1x512 .f32 :=
  VS0_2.read (Elt F) (VS0_2.writes (Elt F) VS0_2.junk (kernelRun0_C c i arg2 harg2 arg3 harg3 arg4 harg4 arg5 harg5 arg6 harg6 arg7 harg7 arg8 harg8 arg9 harg9 arg10 harg10 hc0 hc1 x0 x1 x2 xs0 xs1 xs2).2.2.2.2.2.1)

theorem cover0_C_3 (c : Dev nD) (i : grid0.Coords) (arg2 : Memref sig .tc .vmem S1x64 .f32) (harg2 : arg2.IsWhole) (arg3 : Memref sig .tc .vmem S5000x64 .f32) (harg3 : arg3.IsWhole) (arg4 : Memref sig .tc .vmem S5000x512 .f32) (harg4 : arg4.IsWhole) (arg5 : Memref sig .tc .vmem S1x512 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x512 .f32) (harg10 : arg10.IsWhole) (hc0 : ¬cond0_0 i) (hc1 : cond0_1 i)
    (x0 : Vec F S1x64 .f32) (x1 : Vec F S5000x64 .f32) (x2 : Vec F S5000x512 .f32) (xs0 : Vec F S1x1 .f32) (xs1 : Vec F S1x1 .f32) (xs2 : Vec F S1x512 .f32) (y : S1x512.Idx) :
    ∃ pc ∈ (kernelRun0_C c i arg2 harg2 arg3 harg3 arg4 harg4 arg5 harg5 arg6 harg6 arg7 harg7 arg8 harg8 arg9 harg9 arg10 harg10 hc0 hc1 x0 x1 x2 xs0 xs1 xs2).1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 xs0 xs1 xs2).1 S1x512.size (by sl_kernel_rfl) y

/-- What the last block of a half leaves in result window 3's staging buffer: its pieces read back. -/
def out0_C_3 (c : Dev nD) (i : grid0.Coords) (arg2 : Memref sig .tc .vmem S1x64 .f32) (harg2 : arg2.IsWhole) (arg3 : Memref sig .tc .vmem S5000x64 .f32) (harg3 : arg3.IsWhole) (arg4 : Memref sig .tc .vmem S5000x512 .f32) (harg4 : arg4.IsWhole) (arg5 : Memref sig .tc .vmem S1x512 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x512 .f32) (harg10 : arg10.IsWhole) (hc0 : ¬cond0_0 i) (hc1 : cond0_1 i)
    (x0 : Vec F S1x64 .f32) (x1 : Vec F S5000x64 .f32) (x2 : Vec F S5000x512 .f32) (xs0 : Vec F S1x1 .f32) (xs1 : Vec F S1x1 .f32) (xs2 : Vec F S1x512 .f32) : Vec F S1x512 .f32 :=
  VO0_3.read (Elt F) (VO0_3.writes (Elt F) VO0_3.junk (kernelRun0_C c i arg2 harg2 arg3 harg3 arg4 harg4 arg5 harg5 arg6 harg6 arg7 harg7 arg8 harg8 arg9 harg9 arg10 harg10 hc0 hc1 x0 x1 x2 xs0 xs1 xs2).1)

theorem cover0_C_4 (c : Dev nD) (i : grid0.Coords) (arg2 : Memref sig .tc .vmem S1x64 .f32) (harg2 : arg2.IsWhole) (arg3 : Memref sig .tc .vmem S5000x64 .f32) (harg3 : arg3.IsWhole) (arg4 : Memref sig .tc .vmem S5000x512 .f32) (harg4 : arg4.IsWhole) (arg5 : Memref sig .tc .vmem S1x512 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x512 .f32) (harg10 : arg10.IsWhole) (hc0 : ¬cond0_0 i) (hc1 : cond0_1 i)
    (x0 : Vec F S1x64 .f32) (x1 : Vec F S5000x64 .f32) (x2 : Vec F S5000x512 .f32) (xs0 : Vec F S1x1 .f32) (xs1 : Vec F S1x1 .f32) (xs2 : Vec F S1x512 .f32) (y : S1x128.Idx) :
    ∃ pc ∈ (kernelRun0_C c i arg2 harg2 arg3 harg3 arg4 harg4 arg5 harg5 arg6 harg6 arg7 harg7 arg8 harg8 arg9 harg9 arg10 harg10 hc0 hc1 x0 x1 x2 xs0 xs1 xs2).2.1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 xs0 xs1 xs2).2.1 S1x128.size (by sl_kernel_rfl) y

/-- What the last block of a half leaves in result window 4's staging buffer: its pieces read back. -/
def out0_C_4 (c : Dev nD) (i : grid0.Coords) (arg2 : Memref sig .tc .vmem S1x64 .f32) (harg2 : arg2.IsWhole) (arg3 : Memref sig .tc .vmem S5000x64 .f32) (harg3 : arg3.IsWhole) (arg4 : Memref sig .tc .vmem S5000x512 .f32) (harg4 : arg4.IsWhole) (arg5 : Memref sig .tc .vmem S1x512 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x512 .f32) (harg10 : arg10.IsWhole) (hc0 : ¬cond0_0 i) (hc1 : cond0_1 i)
    (x0 : Vec F S1x64 .f32) (x1 : Vec F S5000x64 .f32) (x2 : Vec F S5000x512 .f32) (xs0 : Vec F S1x1 .f32) (xs1 : Vec F S1x1 .f32) (xs2 : Vec F S1x512 .f32) : Vec F S1x128 .f32 :=
  VO0_4.read (Elt F) (VO0_4.writes (Elt F) VO0_4.junk (kernelRun0_C c i arg2 harg2 arg3 harg3 arg4 harg4 arg5 harg5 arg6 harg6 arg7 harg7 arg8 harg8 arg9 harg9 arg10 harg10 hc0 hc1 x0 x1 x2 xs0 xs1 xs2).2.1)

theorem cover0_C_5 (c : Dev nD) (i : grid0.Coords) (arg2 : Memref sig .tc .vmem S1x64 .f32) (harg2 : arg2.IsWhole) (arg3 : Memref sig .tc .vmem S5000x64 .f32) (harg3 : arg3.IsWhole) (arg4 : Memref sig .tc .vmem S5000x512 .f32) (harg4 : arg4.IsWhole) (arg5 : Memref sig .tc .vmem S1x512 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x512 .f32) (harg10 : arg10.IsWhole) (hc0 : ¬cond0_0 i) (hc1 : cond0_1 i)
    (x0 : Vec F S1x64 .f32) (x1 : Vec F S5000x64 .f32) (x2 : Vec F S5000x512 .f32) (xs0 : Vec F S1x1 .f32) (xs1 : Vec F S1x1 .f32) (xs2 : Vec F S1x512 .f32) (y : S1x128.Idx) :
    ∃ pc ∈ (kernelRun0_C c i arg2 harg2 arg3 harg3 arg4 harg4 arg5 harg5 arg6 harg6 arg7 harg7 arg8 harg8 arg9 harg9 arg10 harg10 hc0 hc1 x0 x1 x2 xs0 xs1 xs2).2.2.1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 xs0 xs1 xs2).2.2.1 S1x128.size (by sl_kernel_rfl) y

/-- What the last block of a half leaves in result window 5's staging buffer: its pieces read back. -/
def out0_C_5 (c : Dev nD) (i : grid0.Coords) (arg2 : Memref sig .tc .vmem S1x64 .f32) (harg2 : arg2.IsWhole) (arg3 : Memref sig .tc .vmem S5000x64 .f32) (harg3 : arg3.IsWhole) (arg4 : Memref sig .tc .vmem S5000x512 .f32) (harg4 : arg4.IsWhole) (arg5 : Memref sig .tc .vmem S1x512 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x512 .f32) (harg10 : arg10.IsWhole) (hc0 : ¬cond0_0 i) (hc1 : cond0_1 i)
    (x0 : Vec F S1x64 .f32) (x1 : Vec F S5000x64 .f32) (x2 : Vec F S5000x512 .f32) (xs0 : Vec F S1x1 .f32) (xs1 : Vec F S1x1 .f32) (xs2 : Vec F S1x512 .f32) : Vec F S1x128 .f32 :=
  VO0_5.read (Elt F) (VO0_5.writes (Elt F) VO0_5.junk (kernelRun0_C c i arg2 harg2 arg3 harg3 arg4 harg4 arg5 harg5 arg6 harg6 arg7 harg7 arg8 harg8 arg9 harg9 arg10 harg10 hc0 hc1 x0 x1 x2 xs0 xs1 xs2).2.2.1)

/-! ## What the buffers hold after each point -/

/-- The contents of the three result buffers (windows 3, 4, 5) and of the three scratch buffers after a point. -/
structure Carried (F : FTy → Type) [FloatOps F] where
  o3 : Vec F S1x512 .f32
  o4 : Vec F S1x128 .f32
  o5 : Vec F S1x128 .f32
  s0 : Vec F S1x1 .f32
  s1 : Vec F S1x1 .f32
  s2 : Vec F S1x512 .f32

/-- A result window's contents at a point where nothing is stored into it: a placeholder nothing consults (the window is
    neither written back there nor read at the next point). -/
def idle3 : Vec F S1x512 .f32 := VO0_3.read (Elt F) (VO0_3.writes (Elt F) VO0_3.junk [])
def idle4 : Vec F S1x128 .f32 := VO0_4.read (Elt F) (VO0_4.writes (Elt F) VO0_4.junk [])
def idle5 : Vec F S1x128 .f32 := VO0_5.read (Elt F) (VO0_5.writes (Elt F) VO0_5.junk [])

/-- After the first block of a half. -/
def stepA (c : Dev nD) (t : Fin cfg0.N) (h0 : t.val % 10 = 0) (h1 : ¬t.val % 10 = 9) : Carried F where
  o3 := idle3
  o4 := idle4
  o5 := idle5
  s0 := sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t)
  s1 := sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t)
  s2 := sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t)

/-- After a middle block, over what the block before left (`p`). -/
def stepB (c : Dev nD) (t : Fin cfg0.N) (h0 : ¬t.val % 10 = 0) (h1 : ¬t.val % 10 = 9) (p : Carried F) : Carried F where
  o3 := idle3
  o4 := idle4
  o5 := idle5
  s0 := sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) p.s0 p.s1 p.s2
  s1 := sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) p.s0 p.s1 p.s2
  s2 := sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) p.s0 p.s1 p.s2

/-- After the last block of a half, over what the block before left (`p`). -/
def stepC (c : Dev nD) (t : Fin cfg0.N) (h0 : ¬t.val % 10 = 0) (h1 : t.val % 10 = 9) (p : Carried F) : Carried F where
  o3 := out0_C_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) p.s0 p.s1 p.s2
  o4 := out0_C_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) p.s0 p.s1 p.s2
  o5 := out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) p.s0 p.s1 p.s2
  s0 := sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) p.s0 p.s1 p.s2
  s1 := sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) p.s0 p.s1 p.s2
  s2 := sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) p.s0 p.s1 p.s2

/-- THE ACCUMULATION: what the result and scratch buffers hold after the body at position `n`. -/
def outsAt0 (c : Dev nD) : (n : ℕ) → n < cfg0.N → Carried F
  | 0, hn => stepA m c ⟨0, hn⟩ (Nat.zero_mod _) (by show ¬(0 : ℕ) % 10 = 9; decide)
  | n + 1, hn =>
    if h0 : (n + 1) % 10 = 0 then
      if h1 : (n + 1) % 10 = 9 then False.elim (by omega)
      else stepA m c ⟨n + 1, hn⟩ h0 h1
    else
      if h1 : (n + 1) % 10 = 9 then stepC m c ⟨n + 1, hn⟩ h0 h1 (outsAt0 c n (Nat.lt_of_succ_lt hn))
      else stepB m c ⟨n + 1, hn⟩ h0 h1 (outsAt0 c n (Nat.lt_of_succ_lt hn))

theorem outsAt0_A (c : Dev nD) (t : Fin cfg0.N) (h0 : t.val % 10 = 0) (h1 : ¬t.val % 10 = 9) :
    outsAt0 m c t.val t.isLt = stepA m c t h0 h1 := by
  obtain ⟨n, hn⟩ := t
  cases n with
  | zero => exact rfl
  | succ n => exact (dif_pos h0).trans ((dif_neg h1).trans rfl)

theorem outsAt0_B (c : Dev nD) (t : Fin cfg0.N) (h0 : ¬t.val % 10 = 0) (h1 : ¬t.val % 10 = 9) :
    outsAt0 m c t.val t.isLt = stepB m c t h0 h1 (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 10 = 0) (h1 : t.val % 10 = 9) :
    outsAt0 m c t.val t.isLt = stepC m c t h0 h1 (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the region's own (every scratch at anything);
    afterwards the three scratch buffers at what the point before left in them, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).s0) ∗ owns (c : Thread nD τ) scM0_1 fullShare ((outsAt0 m c n hn).s1) ∗ owns (c : Thread nD τ) scM0_2 fullShare ((outsAt0 m c n hn).s2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).s0) ∗ owns (c : Thread nD τ) scM0_1 fullShare ((outsAt0 m c n hn).s1) ∗ owns (c : Thread nD τ) scM0_2 fullShare ((outsAt0 m c n hn).s2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).s0) ∗ owns (c : Thread nD τ) scM0_1 fullShare ((outsAt0 m c (n - 1) (by omega)).s1) ∗ owns (c : Thread nD τ) scM0_2 fullShare ((outsAt0 m c (n - 1) (by omega)).s2)) ∗ (∃ r, prngReg c r)) := by
  cases n with
  | zero => exact absurd rfl hz
  | succ n => rfl

/-! ## The pipeline's proof data -/

/-- The proof data of the pipeline on core `c`: the arrays as the region finds them; after the body at point `t` each
    input's buffer at its block, each result's at `outsAt0`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).o3
    | ⟨4, _⟩ => (outsAt0 m c t.val t.isLt).o4
    | ⟨5, _⟩ => (outsAt0 m c t.val t.isLt).o5
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).o3 := by dsimp only [dats]
theorem after0_4 (c : Dev nD) (t : Fin cfg0.N) : (dats m 0 c).after 4 t = (outsAt0 m c t.val t.isLt).o4 := by dsimp only [dats]
theorem after0_5 (c : Dev nD) (t : Fin cfg0.N) : (dats m 0 c).after 5 t = (outsAt0 m c t.val t.isLt).o5 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 8000000 in
/-- The body at any point: the inputs' buffers hold their blocks; the closed forms say which case the point is in; that
    case's run applies, handed the scratch at what the point before left (at anything at a first block) and giving it back
    at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  have hN : t.val < 20 := lt_of_lt_of_eq t.isLt (show cfg0.N = 20 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  by_cases h0 : t.val % 10 = 0
  · have h1 : ¬t.val % 10 = 9 := by omega
    have hn1 : ¬cond0_1 (grid0.coords t) := fun h => h1 ((hcond0_1 t).mp h)
    rw [Dat.leavesExact_idle (dats m 0 c) 3 t (idleAt0_3 t hn1) (noFlush0_3 t hn1)]
    rw [Dat.leavesExact_idle (dats m 0 c) 4 t (idleAt0_4 t hn1) (noFlush0_4 t hn1)]
    rw [Dat.leavesExact_idle (dats m 0 c) 5 t (idleAt0_5 t hn1) (noFlush0_5 t hn1)]
    rw [outsAt0_A m c t h0 h1]
    simp only [stepA]
    unfold sout0_A_0 sout0_A_1 sout0_A_2; (try dsimp only)
    by_cases hz : t.val = 0
    · rw [PhiS_castSucc m c t, PhiS_zero m c _ _ hz, PhiA0_eq]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ _ _ _ _ ((hcond0_0 t).mpr h0) (fun h => h1 ((hcond0_1 t).mp h)) (iblk m c 0 t) (iblk m c 1 t) (iblk m c 2 t)).2.2.2 _ _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      iintro ⟨H0, H1, H2, H3, H4, H5, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _ _ _ _ _ _)
          unfold owns; iexists _; isplitr
          swap; · iexact HS2
          ipureintro; exact View.read_writes_of_cover _ _ _ _ _ (scover0_A_2 c _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexists _; iexact H3
      isplitl [H4]; · iexists _; iexact H4
      iexists _; iexact H5
    · rw [PhiS_castSucc m c t, PhiS_pos m c _ _ hz]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ _ _ _ _ ((hcond0_0 t).mpr h0) (fun h => h1 ((hcond0_1 t).mp h)) (iblk m c 0 t) (iblk m c 1 t) (iblk m c 2 t)).2.2.2 _ _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      isplitl [HS1]; · iexists _; iexact HS1
      isplitl [HS2]; · iexists _; iexact HS2
      iintro ⟨H0, H1, H2, H3, H4, H5, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _ _ _ _ _ _)
          unfold owns; iexists _; isplitr
          swap; · iexact HS2
          ipureintro; exact View.read_writes_of_cover _ _ _ _ _ (scover0_A_2 c _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexists _; iexact H3
      isplitl [H4]; · iexists _; iexact H4
      iexists _; iexact H5
  · have hz : t.val ≠ 0 := fun e => h0 (by rw [e])
    by_cases h1 : t.val % 10 = 9
    · have hy1 : cond0_1 (grid0.coords t) := (hcond0_1 t).mpr h1
      rw [show (dats m 0 c).leavesExact 3 t = owns (c : Thread nD τ) (ms0_3 t) fullShare ((dats m 0 c).after 3 t) from by
        unfold Dat.leavesExact; rw [liveAt0_3 t hy1], after0_3]
      rw [show (dats m 0 c).leavesExact 4 t = owns (c : Thread nD τ) (ms0_4 t) fullShare ((dats m 0 c).after 4 t) from by
        unfold Dat.leavesExact; rw [liveAt0_4 t hy1], after0_4]
      rw [show (dats m 0 c).leavesExact 5 t = owns (c : Thread nD τ) (ms0_5 t) fullShare ((dats m 0 c).after 5 t) from by
        unfold Dat.leavesExact; rw [liveAt0_5 t hy1], after0_5]
      rw [outsAt0_C m c t h0 h1]
      simp only [stepC]
      unfold out0_C_3 out0_C_4 out0_C_5 sout0_C_0 sout0_C_1 sout0_C_2; (try dsimp only)
      rw [PhiS_castSucc m c t, PhiS_pos m c _ _ hz]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
      iapply ((kernelRun0_C c (grid0.coords t) _ _ _ _ _ _ _ _ _ _ _ _ _ _ _ _ _ _ (fun h => h0 ((hcond0_0 t).mp h)) ((hcond0_1 t).mpr h1) (iblk m c 0 t) (iblk m c 1 t) (iblk m c 2 t) _ _ _).2.2.2.2.2.2 Set.univ _)
      isplitl [H0]; · iexact H0
      isplitl [H1]; · iexact H1
      isplitl [H2]; · iexact H2
      isplitl [H3]; · iexists _; iexact H3
      isplitl [H4]; · iexists _; iexact H4
      isplitl [H5]; · iexists _; iexact H5
      isplitl [HS0]; · iexact HS0
      isplitl [HS1]; · iexact HS1
      isplitl [HS2]; · iexact HS2
      iintro ⟨H0, H1, H2, ⟨%e3, H3⟩, ⟨%e4, H4⟩, ⟨%e5, H5⟩, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_C_1 c _ _ _ _ _ _ _ _ _ _ _ _ _ _ _ _ _ _ _ _ _ _ _ _ _ _ _)
          unfold owns; iexists _; isplitr
          swap; · iexact HS2
          ipureintro; exact View.read_writes_of_cover _ _ _ _ _ (scover0_C_2 c _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover0_C_3 c _ _ _ _ _ _ _ _ _ _ _ _ _ _ _ _ _ _ _ _ _ _ _ _ _ _ _)
      isplitl [H4]
      · unfold owns; iexists _; isplitr
        swap; · iexact H4
        ipureintro; exact View.read_writes_of_cover _ _ _ _ _ (cover0_C_4 c _ _ _ _ _ _ _ _ _ _ _ _ _ _ _ _ _ _ _ _ _ _ _ _ _ _ _)
      unfold owns; iexists _; isplitr
      swap; · iexact H5
      ipureintro; exact View.read_writes_of_cover _ _ _ _ _ (cover0_C_5 c _ _ _ _ _ _ _ _ _ _ _ _ _ _ _ _ _ _ _ _ _ _ _ _ _ _ _)
    · have hn1 : ¬cond0_1 (grid0.coords t) := fun h => h1 ((hcond0_1 t).mp h)
      rw [Dat.leavesExact_idle (dats m 0 c) 3 t (idleAt0_3 t hn1) (noFlush0_3 t hn1)]
      rw [Dat.leavesExact_idle (dats m 0 c) 4 t (idleAt0_4 t hn1) (noFlush0_4 t hn1)]
      rw [Dat.leavesExact_idle (dats m 0 c) 5 t (idleAt0_5 t hn1) (noFlush0_5 t hn1)]
      rw [outsAt0_B m c t h0 h1]
      simp only [stepB]
      unfold sout0_B_0 sout0_B_1 sout0_B_2; (try dsimp only)
      rw [PhiS_castSucc m c t, PhiS_pos m c _ _ hz]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
      iapply ((kernelRun0_B c (grid0.coords t) _ _ _ _ _ _ _ _ _ _ _ _ _ _ _ _ _ _ (fun h => h0 ((hcond0_0 t).mp h)) (fun h => h1 ((hcond0_1 t).mp h)) (iblk m c 0 t) (iblk m c 1 t) (iblk m c 2 t) _ _ _).2.2.2 _ _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      iintro ⟨H0, H1, H2, H3, H4, H5, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_B_1 c _ _ _ _ _ _ _ _ _ _ _ _ _ _ _ _ _ _ _ _ _ _ _ _ _ _ _)
          unfold owns; iexists _; isplitr
          swap; · iexact HS2
          ipureintro; exact View.read_writes_of_cover _ _ _ _ _ (scover0_B_2 c _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexists _; iexact H3
      isplitl [H4]; · iexists _; iexact H4
      iexists _; iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the region's own back: the scratch buffers' named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]; · iexists _; iexact HS0
    isplitl [HS1]; · iexists _; iexact HS1
    iexists _; iexact HS2
  iexact Hg

theorem hout (c : Dev nD) : (dats m 0 c).Φ (Fin.last cfg0.N) ⊢ Pipeline.ΦA spec0 c :=
  Phi_out m c _ (by rw [Fin.val_last]; have : cfg0.N = 20 := N_0; omega)

/-! ## The run -/

set_option maxHeartbeats 40000000 in
set_option backward.isDefEq.respectTransparency.types false in
/-- Every weakly fair execution of @main terminates, every array of the pipeline ends at what the library computes from
    the proof data, and every other unscoped buffer as the later lines leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

end Cert.KernelIdeal.Hand

end
-- ==== Proof.FrameClaim.lean ====
/-
  The frame claim from the run.  The run ends with every array of the pipeline at what the proof data computes and every
  other unscoped buffer as the later host lines leave it.  Of the nineteen argument arrays, the keys and the values are
  arrays of input windows, which no write-back touches; the other seventeen bypass the region, and no host line, before
  or after it, writes an argument: each writes only its own result buffer.  So every argument array ends as launched.
-/
import proofs.«149342_j75737453298419_2_alg».proof.Proof.Accumulate

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The nineteen argument arrays. -/
abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18]

set_option maxHeartbeats 40000000 in
/-- No host line after the region writes an argument array. -/
theorem hostOps1_keeps_args : (hostOps1 : List (HloOp τ sig (Elt F))).Forall fun op =>
    ∀ b ∈ argRefs, Proc.devRef (τ := τ) .tc b ∉ op.writes := by
  simp only [hostOps1, List.Forall]
  repeat' apply And.intro
  all_goals
    intro b hb
    simp only [argRefs, List.mem_cons, List.mem_nil_iff, or_false] at hb
    simp only [StableHlo.nullary_writes, StableHlo.unary_writes, StableHlo.binary_writes, StableHlo.ternary_writes, StableHlo.quaternary_writes, StableHlo.reshape_writes, StableHlo.binaryIndexed_writes, StableHlo.nary_writes, Finset.mem_singleton]
    rcases hb with rfl | rfl | rfl | rfl | rfl | rfl | rfl | rfl | rfl | rfl | rfl | rfl | rfl | rfl | rfl | rfl | rfl | rfl | rfl <;> exact StableHlo.devRef_ne_of_ne (by decide)

set_option maxHeartbeats 4000000 in
/-- No host line before the region writes an argument array. -/
theorem pre_keeps_args : (List.flatten (pre (F := F))).Forall fun op =>
    ∀ b ∈ argRefs, Proc.devRef (τ := τ) .tc b ∉ op.writes := by
  simp only [pre, hostOps0, hostOps0_1, hostOps0_2, hostOps0_3, hostOps0_4, List.flatten_cons, List.flatten_nil, List.append_nil, List.cons_append,
    List.nil_append, List.Forall]
  repeat' apply And.intro
  all_goals
    intro b hb
    simp only [argRefs, List.mem_cons, List.mem_nil_iff, or_false] at hb
    simp only [StableHlo.nullary_writes, StableHlo.unary_writes, StableHlo.binary_writes, StableHlo.ternary_writes, StableHlo.quaternary_writes, StableHlo.reshape_writes, StableHlo.binaryIndexed_writes, StableHlo.nary_writes, Finset.mem_singleton]
    rcases hb with rfl | rfl | rfl | rfl | rfl | rfl | rfl | rfl | rfl | rfl | rfl | rfl | rfl | rfl | rfl | rfl | rfl | rfl | rfl <;> exact StableHlo.devRef_ne_of_ne (by decide)

/-- The region finds every argument array as launched. -/
theorem V_arg (c : Dev nD) (b : Ref sig .tc) (hb : b ∈ argRefs) : V m c b = m ((c : Thread nD τ).loc b) :=
  StableHlo.after_of_forall_not_mem (b := Proc.devRef .tc b) _ _
    (fun op hop => (List.forall_iff_forall_mem.mp (pre_keeps_args (F := F))) op hop b hb)

set_option maxHeartbeats 40000000 in
/-- An argument array that is no array of the pipeline ends as launched. -/
theorem W_arg (dats : (p : Fin 1) → (c : Dev nD) → Dat τ (Elt F) Unit ℕ (UR sig nD τ) ℕ (cfgs p) c) (c : Dev nD)
    (b : Ref sig .tc) (hb : b ∈ argRefs) (hne : ∀ w, Pipeline.arrRef spec0 w ≠ b) :
    Pipeline.afterTail₀ cfgs dats 0 (V0 m) [hostOps1] c b = m ((c : Thread nD τ).loc b) := by
  unfold Pipeline.afterTail₀
  rw [StableHlo.after_of_forall_not_mem (b := Proc.devRef .tc b) _ _ (fun op hop => by
        simp only [List.flatten_cons, List.flatten_nil, List.append_nil] at hop
        exact (List.forall_iff_forall_mem.mp (hostOps1_keeps_args (F := F))) op hop b hb),
    Pipeline.withArrays_of_ne _ c (V0 m c) _ b hne]
  exact V_arg m c b hb

set_option maxHeartbeats 40000000 in
/-- THE FRAME from a frame run: for any proof data whose arrays are the region-entry contents, a run to the library's
    post read at the nineteen argument arrays is the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun _ h c => ⟨((h c).2 main_arg0 (Pipeline.mem_restRefs_of main_arg0 (by decide) (by decide))).trans (W_arg m dats c main_arg0 (by simp only [argRefs, List.mem_cons, List.mem_nil_iff, or_false, true_or, or_true]) (by decide)),
    ((h c).2 main_arg1 (Pipeline.mem_restRefs_of main_arg1 (by decide) (by decide))).trans (W_arg m dats c main_arg1 (by simp only [argRefs, List.mem_cons, List.mem_nil_iff, or_false, true_or, or_true]) (by decide)),
    ((h c).2 main_arg2 (Pipeline.mem_restRefs_of main_arg2 (by decide) (by decide))).trans (W_arg m dats c main_arg2 (by simp only [argRefs, List.mem_cons, List.mem_nil_iff, or_false, true_or, or_true]) (by decide)),
    ((h c).2 main_arg3 (Pipeline.mem_restRefs_of main_arg3 (by decide) (by decide))).trans (W_arg m dats c main_arg3 (by simp only [argRefs, List.mem_cons, List.mem_nil_iff, or_false, true_or, or_true]) (by decide)),
    ((h c).2 main_arg4 (Pipeline.mem_restRefs_of main_arg4 (by decide) (by decide))).trans (W_arg m dats c main_arg4 (by simp only [argRefs, List.mem_cons, List.mem_nil_iff, or_false, true_or, or_true]) (by decide)),
    ((h c).1 1).trans (((dats 0 c).arrAt_in 1 rfl _).trans ((hA c 1).trans (V_arg m c main_arg5 (by simp only [argRefs, List.mem_cons, List.mem_nil_iff, or_false, true_or, or_true])))),
    ((h c).1 2).trans (((dats 0 c).arrAt_in 2 rfl _).trans ((hA c 2).trans (V_arg m c main_arg6 (by simp only [argRefs, List.mem_cons, List.mem_nil_iff, or_false, true_or, or_true])))),
    ((h c).2 main_arg7 (Pipeline.mem_restRefs_of main_arg7 (by decide) (by decide))).trans (W_arg m dats c main_arg7 (by simp only [argRefs, List.mem_cons, List.mem_nil_iff, or_false, true_or, or_true]) (by decide)),
    ((h c).2 main_arg8 (Pipeline.mem_restRefs_of main_arg8 (by decide) (by decide))).trans (W_arg m dats c main_arg8 (by simp only [argRefs, List.mem_cons, List.mem_nil_iff, or_false, true_or, or_true]) (by decide)),
    ((h c).2 main_arg9 (Pipeline.mem_restRefs_of main_arg9 (by decide) (by decide))).trans (W_arg m dats c main_arg9 (by simp only [argRefs, List.mem_cons, List.mem_nil_iff, or_false, true_or, or_true]) (by decide)),
    ((h c).2 main_arg10 (Pipeline.mem_restRefs_of main_arg10 (by decide) (by decide))).trans (W_arg m dats c main_arg10 (by simp only [argRefs, List.mem_cons, List.mem_nil_iff, or_false, true_or, or_true]) (by decide)),
    ((h c).2 main_arg11 (Pipeline.mem_restRefs_of main_arg11 (by decide) (by decide))).trans (W_arg m dats c main_arg11 (by simp only [argRefs, List.mem_cons, List.mem_nil_iff, or_false, true_or, or_true]) (by decide)),
    ((h c).2 main_arg12 (Pipeline.mem_restRefs_of main_arg12 (by decide) (by decide))).trans (W_arg m dats c main_arg12 (by simp only [argRefs, List.mem_cons, List.mem_nil_iff, or_false, true_or, or_true]) (by decide)),
    ((h c).2 main_arg13 (Pipeline.mem_restRefs_of main_arg13 (by decide) (by decide))).trans (W_arg m dats c main_arg13 (by simp only [argRefs, List.mem_cons, List.mem_nil_iff, or_false, true_or, or_true]) (by decide)),
    ((h c).2 main_arg14 (Pipeline.mem_restRefs_of main_arg14 (by decide) (by decide))).trans (W_arg m dats c main_arg14 (by simp only [argRefs, List.mem_cons, List.mem_nil_iff, or_false, true_or, or_true]) (by decide)),
    ((h c).2 main_arg15 (Pipeline.mem_restRefs_of main_arg15 (by decide) (by decide))).trans (W_arg m dats c main_arg15 (by simp only [argRefs, List.mem_cons, List.mem_nil_iff, or_false, true_or, or_true]) (by decide)),
    ((h c).2 main_arg16 (Pipeline.mem_restRefs_of main_arg16 (by decide) (by decide))).trans (W_arg m dats c main_arg16 (by simp only [argRefs, List.mem_cons, List.mem_nil_iff, or_false, true_or, or_true]) (by decide)),
    ((h c).2 main_arg17 (Pipeline.mem_restRefs_of main_arg17 (by decide) (by decide))).trans (W_arg m dats c main_arg17 (by simp only [argRefs, List.mem_cons, List.mem_nil_iff, or_false, true_or, or_true]) (by decide)),
    ((h c).2 main_arg18 (Pipeline.mem_restRefs_of main_arg18 (by decide) (by decide))).trans (W_arg m dats c main_arg18 (by simp only [argRefs, List.mem_cons, List.mem_nil_iff, or_false, true_or, or_true]) (by decide))⟩) h

set_option maxHeartbeats 40000000 in
/-- THE FRAME of the program at any instance: it runs to the end without a fault and leaves its argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  frame_of m ρ (dats m) (A_eq m) (run_main m ρ)

end Cert.KernelIdeal.Hand

end
-- ==== Proof.RegionEntryKernel.lean ====
/-
  What the memory-retrieval region of the program finds and what surrounds it.  @main is five stretches of host
  operations (the two-layer encoder: transpose, product, bias, max with zero, twice, then the concatenation that forms the
  recurrent cell's input), the region, and one stretch of 87 host operations (the merge of the two halves' softmax
  statistics, the quotient, and the recurrent cell with its two heads).  The region walks a grid of 2 x 10 points: the
  first coordinate picks a half of the 100000 memory rows, the second a block of 5000 rows inside the half.  Window 0 is
  the encoded query (one block, fetched once), windows 1 and 2 the keys' and the values' blocks, windows 3, 4, 5 the three
  results (the weighted sum of values, the normaliser, the maximum), one block per half, stored only at the last block
  of the half.  Three scratch buffers carry the running maximum, normaliser and weighted sum from point to point;
  they are reset at the first block of each half.

  Here: the contents at the region's entry as a valuation, @main reduced to the region continued by the later lines, the
  facts about those lines the frame run asks for (they touch only unscoped buffers, allocate nothing, and write none of the
  six arrays), each input block as read off its array, the two branch conditions in closed form over the grid, the points
  where an output window is idle, and the invariant that holds the three scratch buffers.
-/
import proofs.«149342_j75737453298419_2_alg».proof.Proof.Gen.Kernel.Launch
import proofs.«149342_j75737453298419_2_alg».proof.Proof.Gen.Kernel.Skeleton
import proofs.«149342_j75737453298419_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The five stretches of host operations before the region, in order. -/
abbrev pre : List (List (HloOp τ sig (Elt F))) := [hostOps0, hostOps0_1, hostOps0_2, hostOps0_3, hostOps0_4]

/-- Core `c`'s TensorCore buffer contents when the region is entered, as a valuation. -/
abbrev V0 (c : Dev nD) : Valuation τ sig (Elt F) := StableHlo.after (List.flatten (pre (F := F))) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
set_option maxHeartbeats 4000000 in
theorem hostOps1_fresh : (hostOps1 : List (HloOp τ sig (Elt F))).Forall fun op => op.fresh = ∅ := by
  simp only [List.Forall]; repeat' constructor

set_option maxHeartbeats 40000000 in
/-- @main reduces to the region continued by the later lines, at the contents after the earlier ones. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main (pre (F := F)) [hostOps1]
    (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-- The later lines touch the six arrays and the buffers that bypass the region only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

set_option maxHeartbeats 16000000 in
/-- No later line writes one of the six arrays: each writes only its own result buffer. -/
theorem hostOps1_keeps : (hostOps1 : List (HloOp τ sig (Elt F))).Forall fun op =>
    ∀ w, Proc.devRef .tc (Pipeline.arrRef spec0 w) ∉ op.writes := by
  simp only [hostOps1, List.Forall]
  repeat' apply And.intro
  all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  exact (List.forall_iff_forall_mem.mp hostOps1_keeps) op hop

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The query's staging buffer holds the query at every point (fetched at the first point, its index never moves). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The keys' staging buffer holds the point's block of keys. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- The values' staging buffer holds the point's block of values. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's two branch conditions -/

/-- "This is the first block of its half": the second grid coordinate is zero. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 10 = 0 :=
  (by decide +kernel : ∀ t : Fin grid0.N, cond0_0 (grid0.coords t) ↔ t.val % 10 = 0)
/-- "This is the last block of its half": the second grid coordinate is nine. -/
abbrev cond0_1 (i : grid0.Coords) : Prop := k0_cond2 i = 1#1
theorem hcond0_1 : ∀ t : Fin cfg0.N, cond0_1 (grid0.coords t) ↔ t.val % 10 = 9 :=
  (by decide +kernel : ∀ t : Fin grid0.N, cond0_1 (grid0.coords t) ↔ t.val % 10 = 9)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Away from the last block of a half the three results are idle: nothing is stored into them and they are not written back. -/
theorem idleAt0_3 : ∀ t : Fin cfg0.N, ¬cond0_1 (grid0.coords t) → cfg0.idle 3 (grid0.coords t) = true := by decide +kernel
theorem idleAt0_4 : ∀ t : Fin cfg0.N, ¬cond0_1 (grid0.coords t) → cfg0.idle 4 (grid0.coords t) = true := by decide +kernel
theorem idleAt0_5 : ∀ t : Fin cfg0.N, ¬cond0_1 (grid0.coords t) → cfg0.idle 5 (grid0.coords t) = true := by decide +kernel
theorem noFlush0_3 : ∀ t : Fin cfg0.N, ¬cond0_1 (grid0.coords t) → (cfg0.win 3).flush t = false := by decide +kernel
theorem noFlush0_4 : ∀ t : Fin cfg0.N, ¬cond0_1 (grid0.coords t) → (cfg0.win 4).flush t = false := by decide +kernel
theorem noFlush0_5 : ∀ t : Fin cfg0.N, ¬cond0_1 (grid0.coords t) → (cfg0.win 5).flush t = false := by decide +kernel
/-- At the last block of a half they are live. -/
theorem liveAt0_3 : ∀ t : Fin cfg0.N, cond0_1 (grid0.coords t) → cfg0.idle 3 (grid0.coords t) = false := by decide +kernel
theorem liveAt0_4 : ∀ t : Fin cfg0.N, cond0_1 (grid0.coords t) → cfg0.idle 4 (grid0.coords t) = false := by decide +kernel
theorem liveAt0_5 : ∀ t : Fin cfg0.N, cond0_1 (grid0.coords t) → cfg0.idle 5 (grid0.coords t) = false := by decide +kernel

/-! ## The memrefs the body is called with -/

abbrev ms0_0 (t : Fin cfg0.N) : Memref sig .tc .vmem S1x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S5000x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S5000x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128 .f32 := win0_5.stage (cfg0.slots t 5)
abbrev hs0_5 (t : Fin cfg0.N) : (ms0_5 t).IsWhole := hstage0_5 ((cfg0.slots t 5).cast nbuf0_5)
/-- The three scratch operands: the running maximum, the running normaliser, the running weighted sum. -/
abbrev scM0_0 : Memref sig .tc .vmem S1x1 .f32 := Memref.whole cc0_scratch0
abbrev scM0_1 : Memref sig .tc .vmem S1x1 .f32 := Memref.whole cc0_scratch1
abbrev scM0_2 : Memref sig .tc .vmem S1x512 .f32 := Memref.whole cc0_scratch2
abbrev VS0_0 : View sig .tc .vmem S1x1 .f32 := (scM0_0).view
abbrev VS0_1 : View sig .tc .vmem S1x1 .f32 := (scM0_1).view
abbrev VS0_2 : View sig .tc .vmem S1x512 .f32 := (scM0_2).view
/-- One staging buffer of each result window, through which its contents are stated. -/
abbrev VO0_3 : View sig .tc .vmem S1x512 .f32 := (Memref.whole cc0_stg3_0 : Memref sig .tc .vmem S1x512 .f32).view
abbrev VO0_4 : View sig .tc .vmem S1x128 .f32 := (Memref.whole cc0_stg4_0 : Memref sig .tc .vmem S1x128 .f32).view
abbrev VO0_5 : View sig .tc .vmem S1x128 .f32 := (Memref.whole cc0_stg5_0 : Memref sig .tc .vmem S1x128 .f32).view

/-- The region's own invariant with the three scratch operands as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.Kernel.Hand

end
-- ==== Proof.BodyFirstKernel.lean ====
/-
  The memory-retrieval body run once, in one of its three control cases, on whole staging memrefs: a triple whose
  postcondition names, as lists of written pieces, what each buffer the case stores into holds afterwards.
-/
import proofs.«149342_j75737453298419_2_alg».proof.Proof.RegionEntryKernel

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at the FIRST block of a half (the reset branch taken, the store-out branch not): on whole memrefs, the three
    inputs at their blocks, the three results at anything they hold (they are not touched), the three scratch buffers at
    anything, it runs to the continuation holding the inputs and the results as they were and each scratch buffer with the
    pieces its stores wrote (found by the run): the reset values, then the block's maximum, normaliser and weighted sum. -/
noncomputable def kernelRun0_A (c : Dev nD) (i : grid0.Coords) (arg2 : Memref sig .tc .vmem S1x64 .f32) (harg2 : arg2.IsWhole) (arg3 : Memref sig .tc .vmem S5000x64 .f32) (harg3 : arg3.IsWhole) (arg4 : Memref sig .tc .vmem S5000x512 .f32) (harg4 : arg4.IsWhole) (arg5 : Memref sig .tc .vmem S1x512 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x512 .f32) (harg10 : arg10.IsWhole) (hc0 : cond0_0 i) (hc1 : ¬cond0_1 i)
    (x0 : Vec F S1x64 .f32) (x1 : Vec F S5000x64 .f32) (x2 : Vec F S5000x512 .f32) :
    Σ' (LS0 : List (View.Piece (Elt F) S1x1 .f32)) (LS1 : List (View.Piece (Elt F) S1x1 .f32)), { LS2 : List (View.Piece (Elt F) S1x512 .f32) //
      ∀ (xi3 : Vec F S1x512 .f32) (xi4 : Vec F S1x128 .f32) (xi5 : Vec F S1x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ owns (c : Thread nD τ) arg7 fullShare xi5 ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc0__dnd_kernel i arg2 harg2 arg3 harg3 arg4 harg4 arg5 harg5 arg6 harg6 arg7 harg7 arg8 harg8 arg9 harg9 arg10 harg10) K } := by
  refine ⟨?_, ?_, ?_, fun xi3 xi4 xi5 E K => ?run⟩
  case run =>
    simp only [cc0__dnd_kernel_eq_skeleton]; unfold cc0__dnd_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    isplitl [HS1]; · iexists _; iexact HS1
    iexists _; iexact HS2

end Cert.Kernel.Hand

end
-- ==== Proof.BodyMiddleKernel.lean ====
/-
  The memory-retrieval body run once, in one of its three control cases, on whole staging memrefs: a triple whose
  postcondition names, as lists of written pieces, what each buffer the case stores into holds afterwards.
-/
import proofs.«149342_j75737453298419_2_alg».proof.Proof.BodyFirstKernel

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at a MIDDLE block of a half (neither branch taken): the three scratch buffers are handed at what the block
    before left in them and come back with the pieces the stores wrote — the raised maximum, the rescaled normaliser plus
    the block's, the rescaled weighted sum plus the block's; the results are not touched. -/
noncomputable def kernelRun0_B (c : Dev nD) (i : grid0.Coords) (arg2 : Memref sig .tc .vmem S1x64 .f32) (harg2 : arg2.IsWhole) (arg3 : Memref sig .tc .vmem S5000x64 .f32) (harg3 : arg3.IsWhole) (arg4 : Memref sig .tc .vmem S5000x512 .f32) (harg4 : arg4.IsWhole) (arg5 : Memref sig .tc .vmem S1x512 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x512 .f32) (harg10 : arg10.IsWhole) (hc0 : ¬cond0_0 i) (hc1 : ¬cond0_1 i)
    (x0 : Vec F S1x64 .f32) (x1 : Vec F S5000x64 .f32) (x2 : Vec F S5000x512 .f32) (xs0 : Vec F S1x1 .f32) (xs1 : Vec F S1x1 .f32) (xs2 : Vec F S1x512 .f32) :
    Σ' (LS0 : List (View.Piece (Elt F) S1x1 .f32)) (LS1 : List (View.Piece (Elt F) S1x1 .f32)), { LS2 : List (View.Piece (Elt F) S1x512 .f32) //
      ∀ (xi3 : Vec F S1x512 .f32) (xi4 : Vec F S1x128 .f32) (xi5 : Vec F S1x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ owns (c : Thread nD τ) arg7 fullShare xi5 ∗ owns (c : Thread nD τ) arg8 fullShare xs0 ∗ owns (c : Thread nD τ) arg9 fullShare xs1 ∗ owns (c : Thread nD τ) arg10 fullShare xs2
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc0__dnd_kernel i arg2 harg2 arg3 harg3 arg4 harg4 arg5 harg5 arg6 harg6 arg7 harg7 arg8 harg8 arg9 harg9 arg10 harg10) K } := by
  refine ⟨?_, ?_, ?_, fun xi3 xi4 xi5 E K => ?run⟩
  case run =>
    simp only [cc0__dnd_kernel_eq_skeleton]; unfold cc0__dnd_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0; obtain rfl := harg9.eq_unread hfs1; obtain rfl := harg10.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    isplitl [HS1]; · iexists _; iexact HS1
    iexists _; iexact HS2

end Cert.Kernel.Hand

end
-- ==== Proof.BodyLastKernel.lean ====
/-
  The memory-retrieval body run once, in one of its three control cases, on whole staging memrefs: a triple whose
  postcondition names, as lists of written pieces, what each buffer the case stores into holds afterwards.
-/
import proofs.«149342_j75737453298419_2_alg».proof.Proof.BodyMiddleKernel

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at the LAST block of a half (the reset branch not taken, the store-out branch taken): as at a middle block for
    the scratch buffers, and the three results, handed at anything, come back with the pieces the final stores wrote —
    the half's weighted sum, and its normaliser and maximum each repeated along 128 lanes. -/
noncomputable def kernelRun0_C (c : Dev nD) (i : grid0.Coords) (arg2 : Memref sig .tc .vmem S1x64 .f32) (harg2 : arg2.IsWhole) (arg3 : Memref sig .tc .vmem S5000x64 .f32) (harg3 : arg3.IsWhole) (arg4 : Memref sig .tc .vmem S5000x512 .f32) (harg4 : arg4.IsWhole) (arg5 : Memref sig .tc .vmem S1x512 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x512 .f32) (harg10 : arg10.IsWhole) (hc0 : ¬cond0_0 i) (hc1 : cond0_1 i)
    (x0 : Vec F S1x64 .f32) (x1 : Vec F S5000x64 .f32) (x2 : Vec F S5000x512 .f32) (xs0 : Vec F S1x1 .f32) (xs1 : Vec F S1x1 .f32) (xs2 : Vec F S1x512 .f32) :
    Σ' (L3 : List (View.Piece (Elt F) S1x512 .f32)) (L4 : List (View.Piece (Elt F) S1x128 .f32)) (L5 : List (View.Piece (Elt F) S1x128 .f32)) (LS0 : List (View.Piece (Elt F) S1x1 .f32)) (LS1 : List (View.Piece (Elt F) S1x1 .f32)), { LS2 : List (View.Piece (Elt F) S1x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xs0 ∗ owns (c : Thread nD τ) arg9 fullShare xs1 ∗ owns (c : Thread nD τ) arg10 fullShare xs2
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc0__dnd_kernel i arg2 harg2 arg3 harg3 arg4 harg4 arg5 harg5 arg6 harg6 arg7 harg7 arg8 harg8 arg9 harg9 arg10 harg10) K } := by
  refine ⟨?_, ?_, ?_, ?_, ?_, ?_, fun E K => ?run⟩
  case run =>
    simp only [cc0__dnd_kernel_eq_skeleton]; unfold cc0__dnd_kernel_skel
    simp only [k0_part1_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg8.eq_unread hfs0; obtain rfl := harg9.eq_unread hfs1; obtain rfl := harg10.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [H5]; · iexists _; iexact H5
    isplitl [HS0]; · iexists _; iexact HS0
    isplitl [HS1]; · iexists _; iexact HS1
    iexists _; iexact HS2

end Cert.Kernel.Hand

end
-- ==== Proof.AccumulateKernel.lean ====
/-
  The accumulation over the grid.  After each point the three scratch buffers hold the running maximum, normaliser
  and weighted sum of the half's blocks seen so far; the three result buffers are written only at the last block of a
  half.  `outsAt0` states this by recursion on the point: a first block starts from the reset values, a middle or last
  block from what the block before left.  From it: the proof data of the pipeline (inputs left in place, results and
  scratch at `outsAt0`), the body obligation at every point (the closed forms of the two conditions select the case,
  the case's run applies), and the run of @main with every array named.
-/
import proofs.«149342_j75737453298419_2_alg».proof.Proof.BodyLastKernel

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem scover0_A_0 (c : Dev nD) (i : grid0.Coords) (arg2 : Memref sig .tc .vmem S1x64 .f32) (harg2 : arg2.IsWhole) (arg3 : Memref sig .tc .vmem S5000x64 .f32) (harg3 : arg3.IsWhole) (arg4 : Memref sig .tc .vmem S5000x512 .f32) (harg4 : arg4.IsWhole) (arg5 : Memref sig .tc .vmem S1x512 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x512 .f32) (harg10 : arg10.IsWhole) (hc0 : cond0_0 i) (hc1 : ¬cond0_1 i)
    (x0 : Vec F S1x64 .f32) (x1 : Vec F S5000x64 .f32) (x2 : Vec F S5000x512 .f32) (y : S1x1.Idx) :
    ∃ pc ∈ (kernelRun0_A c i arg2 harg2 arg3 harg3 arg4 harg4 arg5 harg5 arg6 harg6 arg7 harg7 arg8 harg8 arg9 harg9 arg10 harg10 hc0 hc1 x0 x1 x2).1, y ∈ pc.1.set :=
  View.cover_of_tiledL (kernelRun0_A c i arg2 harg2 arg3 harg3 arg4 harg4 arg5 harg5 arg6 harg6 arg7 harg7 arg8 harg8 arg9 harg9 arg10 harg10 hc0 hc1 x0 x1 x2).1 S1x1.size (by sl_kernel_rfl) y

/-- What case A leaves in scratch buffer 0: its pieces read back. -/
def sout0_A_0 (c : Dev nD) (i : grid0.Coords) (arg2 : Memref sig .tc .vmem S1x64 .f32) (harg2 : arg2.IsWhole) (arg3 : Memref sig .tc .vmem S5000x64 .f32) (harg3 : arg3.IsWhole) (arg4 : Memref sig .tc .vmem S5000x512 .f32) (harg4 : arg4.IsWhole) (arg5 : Memref sig .tc .vmem S1x512 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x512 .f32) (harg10 : arg10.IsWhole) (hc0 : cond0_0 i) (hc1 : ¬cond0_1 i)
    (x0 : Vec F S1x64 .f32) (x1 : Vec F S5000x64 .f32) (x2 : Vec F S5000x512 .f32) : Vec F S1x1 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 hc0 hc1 x0 x1 x2).1)

theorem scover0_A_1 (c : Dev nD) (i : grid0.Coords) (arg2 : Memref sig .tc .vmem S1x64 .f32) (harg2 : arg2.IsWhole) (arg3 : Memref sig .tc .vmem S5000x64 .f32) (harg3 : arg3.IsWhole) (arg4 : Memref sig .tc .vmem S5000x512 .f32) (harg4 : arg4.IsWhole) (arg5 : Memref sig .tc .vmem S1x512 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x512 .f32) (harg10 : arg10.IsWhole) (hc0 : cond0_0 i) (hc1 : ¬cond0_1 i)
    (x0 : Vec F S1x64 .f32) (x1 : Vec F S5000x64 .f32) (x2 : Vec F S5000x512 .f32) (y : S1x1.Idx) :
    ∃ pc ∈ (kernelRun0_A c i arg2 harg2 arg3 harg3 arg4 harg4 arg5 harg5 arg6 harg6 arg7 harg7 arg8 harg8 arg9 harg9 arg10 harg10 hc0 hc1 x0 x1 x2).2.1, y ∈ pc.1.set :=
  View.cover_of_tiledL (kernelRun0_A c i arg2 harg2 arg3 harg3 arg4 harg4 arg5 harg5 arg6 harg6 arg7 harg7 arg8 harg8 arg9 harg9 arg10 harg10 hc0 hc1 x0 x1 x2).2.1 S1x1.size (by sl_kernel_rfl) y

/-- What case A leaves in scratch buffer 1: its pieces read back. -/
def sout0_A_1 (c : Dev nD) (i : grid0.Coords) (arg2 : Memref sig .tc .vmem S1x64 .f32) (harg2 : arg2.IsWhole) (arg3 : Memref sig .tc .vmem S5000x64 .f32) (harg3 : arg3.IsWhole) (arg4 : Memref sig .tc .vmem S5000x512 .f32) (harg4 : arg4.IsWhole) (arg5 : Memref sig .tc .vmem S1x512 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x512 .f32) (harg10 : arg10.IsWhole) (hc0 : cond0_0 i) (hc1 : ¬cond0_1 i)
    (x0 : Vec F S1x64 .f32) (x1 : Vec F S5000x64 .f32) (x2 : Vec F S5000x512 .f32) : Vec F S1x1 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 hc0 hc1 x0 x1 x2).2.1)

theorem scover0_A_2 (c : Dev nD) (i : grid0.Coords) (arg2 : Memref sig .tc .vmem S1x64 .f32) (harg2 : arg2.IsWhole) (arg3 : Memref sig .tc .vmem S5000x64 .f32) (harg3 : arg3.IsWhole) (arg4 : Memref sig .tc .vmem S5000x512 .f32) (harg4 : arg4.IsWhole) (arg5 : Memref sig .tc .vmem S1x512 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x512 .f32) (harg10 : arg10.IsWhole) (hc0 : cond0_0 i) (hc1 : ¬cond0_1 i)
    (x0 : Vec F S1x64 .f32) (x1 : Vec F S5000x64 .f32) (x2 : Vec F S5000x512 .f32) (y : S1x512.Idx) :
    ∃ pc ∈ (kernelRun0_A c i arg2 harg2 arg3 harg3 arg4 harg4 arg5 harg5 arg6 harg6 arg7 harg7 arg8 harg8 arg9 harg9 arg10 harg10 hc0 hc1 x0 x1 x2).2.2.1, y ∈ pc.1.set :=
  View.cover_of_tiledL (kernelRun0_A c i arg2 harg2 arg3 harg3 arg4 harg4 arg5 harg5 arg6 harg6 arg7 harg7 arg8 harg8 arg9 harg9 arg10 harg10 hc0 hc1 x0 x1 x2).2.2.1 S1x512.size (by sl_kernel_rfl) y

/-- What case A leaves in scratch buffer 2: its pieces read back. -/
def sout0_A_2 (c : Dev nD) (i : grid0.Coords) (arg2 : Memref sig .tc .vmem S1x64 .f32) (harg2 : arg2.IsWhole) (arg3 : Memref sig .tc .vmem S5000x64 .f32) (harg3 : arg3.IsWhole) (arg4 : Memref sig .tc .vmem S5000x512 .f32) (harg4 : arg4.IsWhole) (arg5 : Memref sig .tc .vmem S1x512 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x512 .f32) (harg10 : arg10.IsWhole) (hc0 : cond0_0 i) (hc1 : ¬cond0_1 i)
    (x0 : Vec F S1x64 .f32) (x1 : Vec F S5000x64 .f32) (x2 : Vec F S5000x512 .f32) : Vec F S1x512 .f32 :=
  VS0_2.read (Elt F) (VS0_2.writes (Elt F) VS0_2.junk (kernelRun0_A c i arg2 harg2 arg3 harg3 arg4 harg4 arg5 harg5 arg6 harg6 arg7 harg7 arg8 harg8 arg9 harg9 arg10 harg10 hc0 hc1 x0 x1 x2).2.2.1)

theorem scover0_B_0 (c : Dev nD) (i : grid0.Coords) (arg2 : Memref sig .tc .vmem S1x64 .f32) (harg2 : arg2.IsWhole) (arg3 : Memref sig .tc .vmem S5000x64 .f32) (harg3 : arg3.IsWhole) (arg4 : Memref sig .tc .vmem S5000x512 .f32) (harg4 : arg4.IsWhole) (arg5 : Memref sig .tc .vmem S1x512 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x512 .f32) (harg10 : arg10.IsWhole) (hc0 : ¬cond0_0 i) (hc1 : ¬cond0_1 i)
    (x0 : Vec F S1x64 .f32) (x1 : Vec F S5000x64 .f32) (x2 : Vec F S5000x512 .f32) (xs0 : Vec F S1x1 .f32) (xs1 : Vec F S1x1 .f32) (xs2 : Vec F S1x512 .f32) (y : S1x1.Idx) :
    ∃ pc ∈ (kernelRun0_B c i arg2 harg2 arg3 harg3 arg4 harg4 arg5 harg5 arg6 harg6 arg7 harg7 arg8 harg8 arg9 harg9 arg10 harg10 hc0 hc1 x0 x1 x2 xs0 xs1 xs2).1, y ∈ pc.1.set :=
  View.cover_of_tiledL (kernelRun0_B c i arg2 harg2 arg3 harg3 arg4 harg4 arg5 harg5 arg6 harg6 arg7 harg7 arg8 harg8 arg9 harg9 arg10 harg10 hc0 hc1 x0 x1 x2 xs0 xs1 xs2).1 S1x1.size (by sl_kernel_rfl) y

/-- What case B leaves in scratch buffer 0: its pieces read back. -/
def sout0_B_0 (c : Dev nD) (i : grid0.Coords) (arg2 : Memref sig .tc .vmem S1x64 .f32) (harg2 : arg2.IsWhole) (arg3 : Memref sig .tc .vmem S5000x64 .f32) (harg3 : arg3.IsWhole) (arg4 : Memref sig .tc .vmem S5000x512 .f32) (harg4 : arg4.IsWhole) (arg5 : Memref sig .tc .vmem S1x512 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x512 .f32) (harg10 : arg10.IsWhole) (hc0 : ¬cond0_0 i) (hc1 : ¬cond0_1 i)
    (x0 : Vec F S1x64 .f32) (x1 : Vec F S5000x64 .f32) (x2 : Vec F S5000x512 .f32) (xs0 : Vec F S1x1 .f32) (xs1 : Vec F S1x1 .f32) (xs2 : Vec F S1x512 .f32) : Vec F S1x1 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 hc0 hc1 x0 x1 x2 xs0 xs1 xs2).1)

theorem scover0_B_1 (c : Dev nD) (i : grid0.Coords) (arg2 : Memref sig .tc .vmem S1x64 .f32) (harg2 : arg2.IsWhole) (arg3 : Memref sig .tc .vmem S5000x64 .f32) (harg3 : arg3.IsWhole) (arg4 : Memref sig .tc .vmem S5000x512 .f32) (harg4 : arg4.IsWhole) (arg5 : Memref sig .tc .vmem S1x512 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x512 .f32) (harg10 : arg10.IsWhole) (hc0 : ¬cond0_0 i) (hc1 : ¬cond0_1 i)
    (x0 : Vec F S1x64 .f32) (x1 : Vec F S5000x64 .f32) (x2 : Vec F S5000x512 .f32) (xs0 : Vec F S1x1 .f32) (xs1 : Vec F S1x1 .f32) (xs2 : Vec F S1x512 .f32) (y : S1x1.Idx) :
    ∃ pc ∈ (kernelRun0_B c i arg2 harg2 arg3 harg3 arg4 harg4 arg5 harg5 arg6 harg6 arg7 harg7 arg8 harg8 arg9 harg9 arg10 harg10 hc0 hc1 x0 x1 x2 xs0 xs1 xs2).2.1, y ∈ pc.1.set :=
  View.cover_of_tiledL (kernelRun0_B c i arg2 harg2 arg3 harg3 arg4 harg4 arg5 harg5 arg6 harg6 arg7 harg7 arg8 harg8 arg9 harg9 arg10 harg10 hc0 hc1 x0 x1 x2 xs0 xs1 xs2).2.1 S1x1.size (by sl_kernel_rfl) y

/-- What case B leaves in scratch buffer 1: its pieces read back. -/
def sout0_B_1 (c : Dev nD) (i : grid0.Coords) (arg2 : Memref sig .tc .vmem S1x64 .f32) (harg2 : arg2.IsWhole) (arg3 : Memref sig .tc .vmem S5000x64 .f32) (harg3 : arg3.IsWhole) (arg4 : Memref sig .tc .vmem S5000x512 .f32) (harg4 : arg4.IsWhole) (arg5 : Memref sig .tc .vmem S1x512 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x512 .f32) (harg10 : arg10.IsWhole) (hc0 : ¬cond0_0 i) (hc1 : ¬cond0_1 i)
    (x0 : Vec F S1x64 .f32) (x1 : Vec F S5000x64 .f32) (x2 : Vec F S5000x512 .f32) (xs0 : Vec F S1x1 .f32) (xs1 : Vec F S1x1 .f32) (xs2 : Vec F S1x512 .f32) : Vec F S1x1 .f32 :=
  VS0_1.read (Elt F) (VS0_1.writes (Elt F) VS0_1.junk (kernelRun0_B c i arg2 harg2 arg3 harg3 arg4 harg4 arg5 harg5 arg6 harg6 arg7 harg7 arg8 harg8 arg9 harg9 arg10 harg10 hc0 hc1 x0 x1 x2 xs0 xs1 xs2).2.1)

theorem scover0_B_2 (c : Dev nD) (i : grid0.Coords) (arg2 : Memref sig .tc .vmem S1x64 .f32) (harg2 : arg2.IsWhole) (arg3 : Memref sig .tc .vmem S5000x64 .f32) (harg3 : arg3.IsWhole) (arg4 : Memref sig .tc .vmem S5000x512 .f32) (harg4 : arg4.IsWhole) (arg5 : Memref sig .tc .vmem S1x512 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x512 .f32) (harg10 : arg10.IsWhole) (hc0 : ¬cond0_0 i) (hc1 : ¬cond0_1 i)
    (x0 : Vec F S1x64 .f32) (x1 : Vec F S5000x64 .f32) (x2 : Vec F S5000x512 .f32) (xs0 : Vec F S1x1 .f32) (xs1 : Vec F S1x1 .f32) (xs2 : Vec F S1x512 .f32) (y : S1x512.Idx) :
    ∃ pc ∈ (kernelRun0_B c i arg2 harg2 arg3 harg3 arg4 harg4 arg5 harg5 arg6 harg6 arg7 harg7 arg8 harg8 arg9 harg9 arg10 harg10 hc0 hc1 x0 x1 x2 xs0 xs1 xs2).2.2.1, y ∈ pc.1.set :=
  View.cover_of_tiledL (kernelRun0_B c i arg2 harg2 arg3 harg3 arg4 harg4 arg5 harg5 arg6 harg6 arg7 harg7 arg8 harg8 arg9 harg9 arg10 harg10 hc0 hc1 x0 x1 x2 xs0 xs1 xs2).2.2.1 S1x512.size (by sl_kernel_rfl) y

/-- What case B leaves in scratch buffer 2: its pieces read back. -/
def sout0_B_2 (c : Dev nD) (i : grid0.Coords) (arg2 : Memref sig .tc .vmem S1x64 .f32) (harg2 : arg2.IsWhole) (arg3 : Memref sig .tc .vmem S5000x64 .f32) (harg3 : arg3.IsWhole) (arg4 : Memref sig .tc .vmem S5000x512 .f32) (harg4 : arg4.IsWhole) (arg5 : Memref sig .tc .vmem S1x512 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x512 .f32) (harg10 : arg10.IsWhole) (hc0 : ¬cond0_0 i) (hc1 : ¬cond0_1 i)
    (x0 : Vec F S1x64 .f32) (x1 : Vec F S5000x64 .f32) (x2 : Vec F S5000x512 .f32) (xs0 : Vec F S1x1 .f32) (xs1 : Vec F S1x1 .f32) (xs2 : Vec F S1x512 .f32) : Vec F S1x512 .f32 :=
  VS0_2.read (Elt F) (VS0_2.writes (Elt F) VS0_2.junk (kernelRun0_B c i arg2 harg2 arg3 harg3 arg4 harg4 arg5 harg5 arg6 harg6 arg7 harg7 arg8 harg8 arg9 harg9 arg10 harg10 hc0 hc1 x0 x1 x2 xs0 xs1 xs2).2.2.1)

theorem scover0_C_0 (c : Dev nD) (i : grid0.Coords) (arg2 : Memref sig .tc .vmem S1x64 .f32) (harg2 : arg2.IsWhole) (arg3 : Memref sig .tc .vmem S5000x64 .f32) (harg3 : arg3.IsWhole) (arg4 : Memref sig .tc .vmem S5000x512 .f32) (harg4 : arg4.IsWhole) (arg5 : Memref sig .tc .vmem S1x512 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x512 .f32) (harg10 : arg10.IsWhole) (hc0 : ¬cond0_0 i) (hc1 : cond0_1 i)
    (x0 : Vec F S1x64 .f32) (x1 : Vec F S5000x64 .f32) (x2 : Vec F S5000x512 .f32) (xs0 : Vec F S1x1 .f32) (xs1 : Vec F S1x1 .f32) (xs2 : Vec F S1x512 .f32) (y : S1x1.Idx) :
    ∃ pc ∈ (kernelRun0_C c i arg2 harg2 arg3 harg3 arg4 harg4 arg5 harg5 arg6 harg6 arg7 harg7 arg8 harg8 arg9 harg9 arg10 harg10 hc0 hc1 x0 x1 x2 xs0 xs1 xs2).2.2.2.1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 xs0 xs1 xs2).2.2.2.1 S1x1.size (by sl_kernel_rfl) y

/-- What case C leaves in scratch buffer 0: its pieces read back. -/
def sout0_C_0 (c : Dev nD) (i : grid0.Coords) (arg2 : Memref sig .tc .vmem S1x64 .f32) (harg2 : arg2.IsWhole) (arg3 : Memref sig .tc .vmem S5000x64 .f32) (harg3 : arg3.IsWhole) (arg4 : Memref sig .tc .vmem S5000x512 .f32) (harg4 : arg4.IsWhole) (arg5 : Memref sig .tc .vmem S1x512 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x512 .f32) (harg10 : arg10.IsWhole) (hc0 : ¬cond0_0 i) (hc1 : cond0_1 i)
    (x0 : Vec F S1x64 .f32) (x1 : Vec F S5000x64 .f32) (x2 : Vec F S5000x512 .f32) (xs0 : Vec F S1x1 .f32) (xs1 : Vec F S1x1 .f32) (xs2 : Vec F S1x512 .f32) : Vec F S1x1 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 hc0 hc1 x0 x1 x2 xs0 xs1 xs2).2.2.2.1)

theorem scover0_C_1 (c : Dev nD) (i : grid0.Coords) (arg2 : Memref sig .tc .vmem S1x64 .f32) (harg2 : arg2.IsWhole) (arg3 : Memref sig .tc .vmem S5000x64 .f32) (harg3 : arg3.IsWhole) (arg4 : Memref sig .tc .vmem S5000x512 .f32) (harg4 : arg4.IsWhole) (arg5 : Memref sig .tc .vmem S1x512 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x512 .f32) (harg10 : arg10.IsWhole) (hc0 : ¬cond0_0 i) (hc1 : cond0_1 i)
    (x0 : Vec F S1x64 .f32) (x1 : Vec F S5000x64 .f32) (x2 : Vec F S5000x512 .f32) (xs0 : Vec F S1x1 .f32) (xs1 : Vec F S1x1 .f32) (xs2 : Vec F S1x512 .f32) (y : S1x1.Idx) :
    ∃ pc ∈ (kernelRun0_C c i arg2 harg2 arg3 harg3 arg4 harg4 arg5 harg5 arg6 harg6 arg7 harg7 arg8 harg8 arg9 harg9 arg10 harg10 hc0 hc1 x0 x1 x2 xs0 xs1 xs2).2.2.2.2.1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 xs0 xs1 xs2).2.2.2.2.1 S1x1.size (by sl_kernel_rfl) y

/-- What case C leaves in scratch buffer 1: its pieces read back. -/
def sout0_C_1 (c : Dev nD) (i : grid0.Coords) (arg2 : Memref sig .tc .vmem S1x64 .f32) (harg2 : arg2.IsWhole) (arg3 : Memref sig .tc .vmem S5000x64 .f32) (harg3 : arg3.IsWhole) (arg4 : Memref sig .tc .vmem S5000x512 .f32) (harg4 : arg4.IsWhole) (arg5 : Memref sig .tc .vmem S1x512 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x512 .f32) (harg10 : arg10.IsWhole) (hc0 : ¬cond0_0 i) (hc1 : cond0_1 i)
    (x0 : Vec F S1x64 .f32) (x1 : Vec F S5000x64 .f32) (x2 : Vec F S5000x512 .f32) (xs0 : Vec F S1x1 .f32) (xs1 : Vec F S1x1 .f32) (xs2 : Vec F S1x512 .f32) : Vec F S1x1 .f32 :=
  VS0_1.read (Elt F) (VS0_1.writes (Elt F) VS0_1.junk (kernelRun0_C c i arg2 harg2 arg3 harg3 arg4 harg4 arg5 harg5 arg6 harg6 arg7 harg7 arg8 harg8 arg9 harg9 arg10 harg10 hc0 hc1 x0 x1 x2 xs0 xs1 xs2).2.2.2.2.1)

theorem scover0_C_2 (c : Dev nD) (i : grid0.Coords) (arg2 : Memref sig .tc .vmem S1x64 .f32) (harg2 : arg2.IsWhole) (arg3 : Memref sig .tc .vmem S5000x64 .f32) (harg3 : arg3.IsWhole) (arg4 : Memref sig .tc .vmem S5000x512 .f32) (harg4 : arg4.IsWhole) (arg5 : Memref sig .tc .vmem S1x512 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x512 .f32) (harg10 : arg10.IsWhole) (hc0 : ¬cond0_0 i) (hc1 : cond0_1 i)
    (x0 : Vec F S1x64 .f32) (x1 : Vec F S5000x64 .f32) (x2 : Vec F S5000x512 .f32) (xs0 : Vec F S1x1 .f32) (xs1 : Vec F S1x1 .f32) (xs2 : Vec F S1x512 .f32) (y : S1x512.Idx) :
    ∃ pc ∈ (kernelRun0_C c i arg2 harg2 arg3 harg3 arg4 harg4 arg5 harg5 arg6 harg6 arg7 harg7 arg8 harg8 arg9 harg9 arg10 harg10 hc0 hc1 x0 x1 x2 xs0 xs1 xs2).2.2.2.2.2.1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 xs0 xs1 xs2).2.2.2.2.2.1 S1x512.size (by sl_kernel_rfl) y

/-- What case C leaves in scratch buffer 2: its pieces read back. -/
def sout0_C_2 (c : Dev nD) (i : grid0.Coords) (arg2 : Memref sig .tc .vmem S1x64 .f32) (harg2 : arg2.IsWhole) (arg3 : Memref sig .tc .vmem S5000x64 .f32) (harg3 : arg3.IsWhole) (arg4 : Memref sig .tc .vmem S5000x512 .f32) (harg4 : arg4.IsWhole) (arg5 : Memref sig .tc .vmem S1x512 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x512 .f32) (harg10 : arg10.IsWhole) (hc0 : ¬cond0_0 i) (hc1 : cond0_1 i)
    (x0 : Vec F S1x64 .f32) (x1 : Vec F S5000x64 .f32) (x2 : Vec F S5000x512 .f32) (xs0 : Vec F S1x1 .f32) (xs1 : Vec F S1x1 .f32) (xs2 : Vec F S1x512 .f32) : Vec F S1x512 .f32 :=
  VS0_2.read (Elt F) (VS0_2.writes (Elt F) VS0_2.junk (kernelRun0_C c i arg2 harg2 arg3 harg3 arg4 harg4 arg5 harg5 arg6 harg6 arg7 harg7 arg8 harg8 arg9 harg9 arg10 harg10 hc0 hc1 x0 x1 x2 xs0 xs1 xs2).2.2.2.2.2.1)

theorem cover0_C_3 (c : Dev nD) (i : grid0.Coords) (arg2 : Memref sig .tc .vmem S1x64 .f32) (harg2 : arg2.IsWhole) (arg3 : Memref sig .tc .vmem S5000x64 .f32) (harg3 : arg3.IsWhole) (arg4 : Memref sig .tc .vmem S5000x512 .f32) (harg4 : arg4.IsWhole) (arg5 : Memref sig .tc .vmem S1x512 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x512 .f32) (harg10 : arg10.IsWhole) (hc0 : ¬cond0_0 i) (hc1 : cond0_1 i)
    (x0 : Vec F S1x64 .f32) (x1 : Vec F S5000x64 .f32) (x2 : Vec F S5000x512 .f32) (xs0 : Vec F S1x1 .f32) (xs1 : Vec F S1x1 .f32) (xs2 : Vec F S1x512 .f32) (y : S1x512.Idx) :
    ∃ pc ∈ (kernelRun0_C c i arg2 harg2 arg3 harg3 arg4 harg4 arg5 harg5 arg6 harg6 arg7 harg7 arg8 harg8 arg9 harg9 arg10 harg10 hc0 hc1 x0 x1 x2 xs0 xs1 xs2).1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 xs0 xs1 xs2).1 S1x512.size (by sl_kernel_rfl) y

/-- What the last block of a half leaves in result window 3's staging buffer: its pieces read back. -/
def out0_C_3 (c : Dev nD) (i : grid0.Coords) (arg2 : Memref sig .tc .vmem S1x64 .f32) (harg2 : arg2.IsWhole) (arg3 : Memref sig .tc .vmem S5000x64 .f32) (harg3 : arg3.IsWhole) (arg4 : Memref sig .tc .vmem S5000x512 .f32) (harg4 : arg4.IsWhole) (arg5 : Memref sig .tc .vmem S1x512 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x512 .f32) (harg10 : arg10.IsWhole) (hc0 : ¬cond0_0 i) (hc1 : cond0_1 i)
    (x0 : Vec F S1x64 .f32) (x1 : Vec F S5000x64 .f32) (x2 : Vec F S5000x512 .f32) (xs0 : Vec F S1x1 .f32) (xs1 : Vec F S1x1 .f32) (xs2 : Vec F S1x512 .f32) : Vec F S1x512 .f32 :=
  VO0_3.read (Elt F) (VO0_3.writes (Elt F) VO0_3.junk (kernelRun0_C c i arg2 harg2 arg3 harg3 arg4 harg4 arg5 harg5 arg6 harg6 arg7 harg7 arg8 harg8 arg9 harg9 arg10 harg10 hc0 hc1 x0 x1 x2 xs0 xs1 xs2).1)

theorem cover0_C_4 (c : Dev nD) (i : grid0.Coords) (arg2 : Memref sig .tc .vmem S1x64 .f32) (harg2 : arg2.IsWhole) (arg3 : Memref sig .tc .vmem S5000x64 .f32) (harg3 : arg3.IsWhole) (arg4 : Memref sig .tc .vmem S5000x512 .f32) (harg4 : arg4.IsWhole) (arg5 : Memref sig .tc .vmem S1x512 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x512 .f32) (harg10 : arg10.IsWhole) (hc0 : ¬cond0_0 i) (hc1 : cond0_1 i)
    (x0 : Vec F S1x64 .f32) (x1 : Vec F S5000x64 .f32) (x2 : Vec F S5000x512 .f32) (xs0 : Vec F S1x1 .f32) (xs1 : Vec F S1x1 .f32) (xs2 : Vec F S1x512 .f32) (y : S1x128.Idx) :
    ∃ pc ∈ (kernelRun0_C c i arg2 harg2 arg3 harg3 arg4 harg4 arg5 harg5 arg6 harg6 arg7 harg7 arg8 harg8 arg9 harg9 arg10 harg10 hc0 hc1 x0 x1 x2 xs0 xs1 xs2).2.1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 xs0 xs1 xs2).2.1 S1x128.size (by sl_kernel_rfl) y

/-- What the last block of a half leaves in result window 4's staging buffer: its pieces read back. -/
def out0_C_4 (c : Dev nD) (i : grid0.Coords) (arg2 : Memref sig .tc .vmem S1x64 .f32) (harg2 : arg2.IsWhole) (arg3 : Memref sig .tc .vmem S5000x64 .f32) (harg3 : arg3.IsWhole) (arg4 : Memref sig .tc .vmem S5000x512 .f32) (harg4 : arg4.IsWhole) (arg5 : Memref sig .tc .vmem S1x512 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x512 .f32) (harg10 : arg10.IsWhole) (hc0 : ¬cond0_0 i) (hc1 : cond0_1 i)
    (x0 : Vec F S1x64 .f32) (x1 : Vec F S5000x64 .f32) (x2 : Vec F S5000x512 .f32) (xs0 : Vec F S1x1 .f32) (xs1 : Vec F S1x1 .f32) (xs2 : Vec F S1x512 .f32) : Vec F S1x128 .f32 :=
  VO0_4.read (Elt F) (VO0_4.writes (Elt F) VO0_4.junk (kernelRun0_C c i arg2 harg2 arg3 harg3 arg4 harg4 arg5 harg5 arg6 harg6 arg7 harg7 arg8 harg8 arg9 harg9 arg10 harg10 hc0 hc1 x0 x1 x2 xs0 xs1 xs2).2.1)

theorem cover0_C_5 (c : Dev nD) (i : grid0.Coords) (arg2 : Memref sig .tc .vmem S1x64 .f32) (harg2 : arg2.IsWhole) (arg3 : Memref sig .tc .vmem S5000x64 .f32) (harg3 : arg3.IsWhole) (arg4 : Memref sig .tc .vmem S5000x512 .f32) (harg4 : arg4.IsWhole) (arg5 : Memref sig .tc .vmem S1x512 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x512 .f32) (harg10 : arg10.IsWhole) (hc0 : ¬cond0_0 i) (hc1 : cond0_1 i)
    (x0 : Vec F S1x64 .f32) (x1 : Vec F S5000x64 .f32) (x2 : Vec F S5000x512 .f32) (xs0 : Vec F S1x1 .f32) (xs1 : Vec F S1x1 .f32) (xs2 : Vec F S1x512 .f32) (y : S1x128.Idx) :
    ∃ pc ∈ (kernelRun0_C c i arg2 harg2 arg3 harg3 arg4 harg4 arg5 harg5 arg6 harg6 arg7 harg7 arg8 harg8 arg9 harg9 arg10 harg10 hc0 hc1 x0 x1 x2 xs0 xs1 xs2).2.2.1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 xs0 xs1 xs2).2.2.1 S1x128.size (by sl_kernel_rfl) y

/-- What the last block of a half leaves in result window 5's staging buffer: its pieces read back. -/
def out0_C_5 (c : Dev nD) (i : grid0.Coords) (arg2 : Memref sig .tc .vmem S1x64 .f32) (harg2 : arg2.IsWhole) (arg3 : Memref sig .tc .vmem S5000x64 .f32) (harg3 : arg3.IsWhole) (arg4 : Memref sig .tc .vmem S5000x512 .f32) (harg4 : arg4.IsWhole) (arg5 : Memref sig .tc .vmem S1x512 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x512 .f32) (harg10 : arg10.IsWhole) (hc0 : ¬cond0_0 i) (hc1 : cond0_1 i)
    (x0 : Vec F S1x64 .f32) (x1 : Vec F S5000x64 .f32) (x2 : Vec F S5000x512 .f32) (xs0 : Vec F S1x1 .f32) (xs1 : Vec F S1x1 .f32) (xs2 : Vec F S1x512 .f32) : Vec F S1x128 .f32 :=
  VO0_5.read (Elt F) (VO0_5.writes (Elt F) VO0_5.junk (kernelRun0_C c i arg2 harg2 arg3 harg3 arg4 harg4 arg5 harg5 arg6 harg6 arg7 harg7 arg8 harg8 arg9 harg9 arg10 harg10 hc0 hc1 x0 x1 x2 xs0 xs1 xs2).2.2.1)

/-! ## What the buffers hold after each point -/

/-- The contents of the three result buffers (windows 3, 4, 5) and of the three scratch buffers after a point. -/
structure Carried (F : FTy → Type) [FloatOps F] where
  o3 : Vec F S1x512 .f32
  o4 : Vec F S1x128 .f32
  o5 : Vec F S1x128 .f32
  s0 : Vec F S1x1 .f32
  s1 : Vec F S1x1 .f32
  s2 : Vec F S1x512 .f32

/-- A result window's contents at a point where nothing is stored into it: a placeholder nothing consults (the window is
    neither written back there nor read at the next point). -/
def idle3 : Vec F S1x512 .f32 := VO0_3.read (Elt F) (VO0_3.writes (Elt F) VO0_3.junk [])
def idle4 : Vec F S1x128 .f32 := VO0_4.read (Elt F) (VO0_4.writes (Elt F) VO0_4.junk [])
def idle5 : Vec F S1x128 .f32 := VO0_5.read (Elt F) (VO0_5.writes (Elt F) VO0_5.junk [])

/-- After the first block of a half. -/
def stepA (c : Dev nD) (t : Fin cfg0.N) (h0 : t.val % 10 = 0) (h1 : ¬t.val % 10 = 9) : Carried F where
  o3 := idle3
  o4 := idle4
  o5 := idle5
  s0 := sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t)
  s1 := sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t)
  s2 := sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t)

/-- After a middle block, over what the block before left (`p`). -/
def stepB (c : Dev nD) (t : Fin cfg0.N) (h0 : ¬t.val % 10 = 0) (h1 : ¬t.val % 10 = 9) (p : Carried F) : Carried F where
  o3 := idle3
  o4 := idle4
  o5 := idle5
  s0 := sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) p.s0 p.s1 p.s2
  s1 := sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) p.s0 p.s1 p.s2
  s2 := sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) p.s0 p.s1 p.s2

/-- After the last block of a half, over what the block before left (`p`). -/
def stepC (c : Dev nD) (t : Fin cfg0.N) (h0 : ¬t.val % 10 = 0) (h1 : t.val % 10 = 9) (p : Carried F) : Carried F where
  o3 := out0_C_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) p.s0 p.s1 p.s2
  o4 := out0_C_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) p.s0 p.s1 p.s2
  o5 := out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) p.s0 p.s1 p.s2
  s0 := sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) p.s0 p.s1 p.s2
  s1 := sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) p.s0 p.s1 p.s2
  s2 := sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) p.s0 p.s1 p.s2

/-- THE ACCUMULATION: what the result and scratch buffers hold after the body at position `n`. -/
def outsAt0 (c : Dev nD) : (n : ℕ) → n < cfg0.N → Carried F
  | 0, hn => stepA m c ⟨0, hn⟩ (Nat.zero_mod _) (by show ¬(0 : ℕ) % 10 = 9; decide)
  | n + 1, hn =>
    if h0 : (n + 1) % 10 = 0 then
      if h1 : (n + 1) % 10 = 9 then False.elim (by omega)
      else stepA m c ⟨n + 1, hn⟩ h0 h1
    else
      if h1 : (n + 1) % 10 = 9 then stepC m c ⟨n + 1, hn⟩ h0 h1 (outsAt0 c n (Nat.lt_of_succ_lt hn))
      else stepB m c ⟨n + 1, hn⟩ h0 h1 (outsAt0 c n (Nat.lt_of_succ_lt hn))

theorem outsAt0_A (c : Dev nD) (t : Fin cfg0.N) (h0 : t.val % 10 = 0) (h1 : ¬t.val % 10 = 9) :
    outsAt0 m c t.val t.isLt = stepA m c t h0 h1 := by
  obtain ⟨n, hn⟩ := t
  cases n with
  | zero => exact rfl
  | succ n => exact (dif_pos h0).trans ((dif_neg h1).trans rfl)

theorem outsAt0_B (c : Dev nD) (t : Fin cfg0.N) (h0 : ¬t.val % 10 = 0) (h1 : ¬t.val % 10 = 9) :
    outsAt0 m c t.val t.isLt = stepB m c t h0 h1 (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 10 = 0) (h1 : t.val % 10 = 9) :
    outsAt0 m c t.val t.isLt = stepC m c t h0 h1 (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the region's own (every scratch at anything);
    afterwards the three scratch buffers at what the point before left in them, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).s0) ∗ owns (c : Thread nD τ) scM0_1 fullShare ((outsAt0 m c n hn).s1) ∗ owns (c : Thread nD τ) scM0_2 fullShare ((outsAt0 m c n hn).s2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).s0) ∗ owns (c : Thread nD τ) scM0_1 fullShare ((outsAt0 m c n hn).s1) ∗ owns (c : Thread nD τ) scM0_2 fullShare ((outsAt0 m c n hn).s2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).s0) ∗ owns (c : Thread nD τ) scM0_1 fullShare ((outsAt0 m c (n - 1) (by omega)).s1) ∗ owns (c : Thread nD τ) scM0_2 fullShare ((outsAt0 m c (n - 1) (by omega)).s2)) ∗ (∃ r, prngReg c r)) := by
  cases n with
  | zero => exact absurd rfl hz
  | succ n => rfl

/-! ## The pipeline's proof data -/

/-- The proof data of the pipeline on core `c`: the arrays as the region finds them; after the body at point `t` each
    input's buffer at its block, each result's at `outsAt0`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).o3
    | ⟨4, _⟩ => (outsAt0 m c t.val t.isLt).o4
    | ⟨5, _⟩ => (outsAt0 m c t.val t.isLt).o5
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).o3 := by dsimp only [dats]
theorem after0_4 (c : Dev nD) (t : Fin cfg0.N) : (dats m 0 c).after 4 t = (outsAt0 m c t.val t.isLt).o4 := by dsimp only [dats]
theorem after0_5 (c : Dev nD) (t : Fin cfg0.N) : (dats m 0 c).after 5 t = (outsAt0 m c t.val t.isLt).o5 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 8000000 in
/-- The body at any point: the inputs' buffers hold their blocks; the closed forms say which case the point is in; that
    case's run applies, handed the scratch at what the point before left (at anything at a first block) and giving it back
    at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  have hN : t.val < 20 := lt_of_lt_of_eq t.isLt (show cfg0.N = 20 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  by_cases h0 : t.val % 10 = 0
  · have h1 : ¬t.val % 10 = 9 := by omega
    have hn1 : ¬cond0_1 (grid0.coords t) := fun h => h1 ((hcond0_1 t).mp h)
    rw [Dat.leavesExact_idle (dats m 0 c) 3 t (idleAt0_3 t hn1) (noFlush0_3 t hn1)]
    rw [Dat.leavesExact_idle (dats m 0 c) 4 t (idleAt0_4 t hn1) (noFlush0_4 t hn1)]
    rw [Dat.leavesExact_idle (dats m 0 c) 5 t (idleAt0_5 t hn1) (noFlush0_5 t hn1)]
    rw [outsAt0_A m c t h0 h1]
    simp only [stepA]
    unfold sout0_A_0 sout0_A_1 sout0_A_2; (try dsimp only)
    by_cases hz : t.val = 0
    · rw [PhiS_castSucc m c t, PhiS_zero m c _ _ hz, PhiA0_eq]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ _ _ _ _ ((hcond0_0 t).mpr h0) (fun h => h1 ((hcond0_1 t).mp h)) (iblk m c 0 t) (iblk m c 1 t) (iblk m c 2 t)).2.2.2 _ _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      iintro ⟨H0, H1, H2, H3, H4, H5, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _ _ _ _ _ _)
          unfold owns; iexists _; isplitr
          swap; · iexact HS2
          ipureintro; exact View.read_writes_of_cover _ _ _ _ _ (scover0_A_2 c _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexists _; iexact H3
      isplitl [H4]; · iexists _; iexact H4
      iexists _; iexact H5
    · rw [PhiS_castSucc m c t, PhiS_pos m c _ _ hz]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ _ _ _ _ ((hcond0_0 t).mpr h0) (fun h => h1 ((hcond0_1 t).mp h)) (iblk m c 0 t) (iblk m c 1 t) (iblk m c 2 t)).2.2.2 _ _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      isplitl [HS1]; · iexists _; iexact HS1
      isplitl [HS2]; · iexists _; iexact HS2
      iintro ⟨H0, H1, H2, H3, H4, H5, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _ _ _ _ _ _)
          unfold owns; iexists _; isplitr
          swap; · iexact HS2
          ipureintro; exact View.read_writes_of_cover _ _ _ _ _ (scover0_A_2 c _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexists _; iexact H3
      isplitl [H4]; · iexists _; iexact H4
      iexists _; iexact H5
  · have hz : t.val ≠ 0 := fun e => h0 (by rw [e])
    by_cases h1 : t.val % 10 = 9
    · have hy1 : cond0_1 (grid0.coords t) := (hcond0_1 t).mpr h1
      rw [show (dats m 0 c).leavesExact 3 t = owns (c : Thread nD τ) (ms0_3 t) fullShare ((dats m 0 c).after 3 t) from by
        unfold Dat.leavesExact; rw [liveAt0_3 t hy1], after0_3]
      rw [show (dats m 0 c).leavesExact 4 t = owns (c : Thread nD τ) (ms0_4 t) fullShare ((dats m 0 c).after 4 t) from by
        unfold Dat.leavesExact; rw [liveAt0_4 t hy1], after0_4]
      rw [show (dats m 0 c).leavesExact 5 t = owns (c : Thread nD τ) (ms0_5 t) fullShare ((dats m 0 c).after 5 t) from by
        unfold Dat.leavesExact; rw [liveAt0_5 t hy1], after0_5]
      rw [outsAt0_C m c t h0 h1]
      simp only [stepC]
      unfold out0_C_3 out0_C_4 out0_C_5 sout0_C_0 sout0_C_1 sout0_C_2; (try dsimp only)
      rw [PhiS_castSucc m c t, PhiS_pos m c _ _ hz]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
      iapply ((kernelRun0_C c (grid0.coords t) _ _ _ _ _ _ _ _ _ _ _ _ _ _ _ _ _ _ (fun h => h0 ((hcond0_0 t).mp h)) ((hcond0_1 t).mpr h1) (iblk m c 0 t) (iblk m c 1 t) (iblk m c 2 t) _ _ _).2.2.2.2.2.2 Set.univ _)
      isplitl [H0]; · iexact H0
      isplitl [H1]; · iexact H1
      isplitl [H2]; · iexact H2
      isplitl [H3]; · iexists _; iexact H3
      isplitl [H4]; · iexists _; iexact H4
      isplitl [H5]; · iexists _; iexact H5
      isplitl [HS0]; · iexact HS0
      isplitl [HS1]; · iexact HS1
      isplitl [HS2]; · iexact HS2
      iintro ⟨H0, H1, H2, ⟨%e3, H3⟩, ⟨%e4, H4⟩, ⟨%e5, H5⟩, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_C_1 c _ _ _ _ _ _ _ _ _ _ _ _ _ _ _ _ _ _ _ _ _ _ _ _ _ _ _)
          unfold owns; iexists _; isplitr
          swap; · iexact HS2
          ipureintro; exact View.read_writes_of_cover _ _ _ _ _ (scover0_C_2 c _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover0_C_3 c _ _ _ _ _ _ _ _ _ _ _ _ _ _ _ _ _ _ _ _ _ _ _ _ _ _ _)
      isplitl [H4]
      · unfold owns; iexists _; isplitr
        swap; · iexact H4
        ipureintro; exact View.read_writes_of_cover _ _ _ _ _ (cover0_C_4 c _ _ _ _ _ _ _ _ _ _ _ _ _ _ _ _ _ _ _ _ _ _ _ _ _ _ _)
      unfold owns; iexists _; isplitr
      swap; · iexact H5
      ipureintro; exact View.read_writes_of_cover _ _ _ _ _ (cover0_C_5 c _ _ _ _ _ _ _ _ _ _ _ _ _ _ _ _ _ _ _ _ _ _ _ _ _ _ _)
    · have hn1 : ¬cond0_1 (grid0.coords t) := fun h => h1 ((hcond0_1 t).mp h)
      rw [Dat.leavesExact_idle (dats m 0 c) 3 t (idleAt0_3 t hn1) (noFlush0_3 t hn1)]
      rw [Dat.leavesExact_idle (dats m 0 c) 4 t (idleAt0_4 t hn1) (noFlush0_4 t hn1)]
      rw [Dat.leavesExact_idle (dats m 0 c) 5 t (idleAt0_5 t hn1) (noFlush0_5 t hn1)]
      rw [outsAt0_B m c t h0 h1]
      simp only [stepB]
      unfold sout0_B_0 sout0_B_1 sout0_B_2; (try dsimp only)
      rw [PhiS_castSucc m c t, PhiS_pos m c _ _ hz]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
      iapply ((kernelRun0_B c (grid0.coords t) _ _ _ _ _ _ _ _ _ _ _ _ _ _ _ _ _ _ (fun h => h0 ((hcond0_0 t).mp h)) (fun h => h1 ((hcond0_1 t).mp h)) (iblk m c 0 t) (iblk m c 1 t) (iblk m c 2 t) _ _ _).2.2.2 _ _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      iintro ⟨H0, H1, H2, H3, H4, H5, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_B_1 c _ _ _ _ _ _ _ _ _ _ _ _ _ _ _ _ _ _ _ _ _ _ _ _ _ _ _)
          unfold owns; iexists _; isplitr
          swap; · iexact HS2
          ipureintro; exact View.read_writes_of_cover _ _ _ _ _ (scover0_B_2 c _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexists _; iexact H3
      isplitl [H4]; · iexists _; iexact H4
      iexists _; iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the region's own back: the scratch buffers' named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]; · iexists _; iexact HS0
    isplitl [HS1]; · iexists _; iexact HS1
    iexists _; iexact HS2
  iexact Hg

theorem hout (c : Dev nD) : (dats m 0 c).Φ (Fin.last cfg0.N) ⊢ Pipeline.ΦA spec0 c :=
  Phi_out m c _ (by rw [Fin.val_last]; have : cfg0.N = 20 := N_0; omega)

/-! ## The run -/

set_option maxHeartbeats 40000000 in
set_option backward.isDefEq.respectTransparency.types false in
/-- Every weakly fair execution of @main terminates, every array of the pipeline ends at what the library computes from
    the proof data, and every other unscoped buffer as the later lines leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

end Cert.Kernel.Hand

end
-- ==== Proof.FrameClaimKernel.lean ====
/-
  The frame claim from the run.  The run ends with every array of the pipeline at what the proof data computes and every
  other unscoped buffer as the later host lines leave it.  Of the nineteen argument arrays, the keys and the values are
  arrays of input windows, which no write-back touches; the other seventeen bypass the region, and no host line, before
  or after it, writes an argument: each writes only its own result buffer.  So every argument array ends as launched.
-/
import proofs.«149342_j75737453298419_2_alg».proof.Proof.AccumulateKernel

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The nineteen argument arrays. -/
abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18]

set_option maxHeartbeats 40000000 in
/-- No host line after the region writes an argument array. -/
theorem hostOps1_keeps_args : (hostOps1 : List (HloOp τ sig (Elt F))).Forall fun op =>
    ∀ b ∈ argRefs, Proc.devRef (τ := τ) .tc b ∉ op.writes := by
  simp only [hostOps1, List.Forall]
  repeat' apply And.intro
  all_goals
    intro b hb
    simp only [argRefs, List.mem_cons, List.mem_nil_iff, or_false] at hb
    simp only [StableHlo.nullary_writes, StableHlo.unary_writes, StableHlo.binary_writes, StableHlo.ternary_writes, StableHlo.quaternary_writes, StableHlo.reshape_writes, StableHlo.binaryIndexed_writes, StableHlo.nary_writes, Finset.mem_singleton]
    rcases hb with rfl | rfl | rfl | rfl | rfl | rfl | rfl | rfl | rfl | rfl | rfl | rfl | rfl | rfl | rfl | rfl | rfl | rfl | rfl <;> exact StableHlo.devRef_ne_of_ne (by decide)

set_option maxHeartbeats 4000000 in
/-- No host line before the region writes an argument array. -/
theorem pre_keeps_args : (List.flatten (pre (F := F))).Forall fun op =>
    ∀ b ∈ argRefs, Proc.devRef (τ := τ) .tc b ∉ op.writes := by
  simp only [pre, hostOps0, hostOps0_1, hostOps0_2, hostOps0_3, hostOps0_4, List.flatten_cons, List.flatten_nil, List.append_nil, List.cons_append,
    List.nil_append, List.Forall]
  repeat' apply And.intro
  all_goals
    intro b hb
    simp only [argRefs, List.mem_cons, List.mem_nil_iff, or_false] at hb
    simp only [StableHlo.nullary_writes, StableHlo.unary_writes, StableHlo.binary_writes, StableHlo.ternary_writes, StableHlo.quaternary_writes, StableHlo.reshape_writes, StableHlo.binaryIndexed_writes, StableHlo.nary_writes, Finset.mem_singleton]
    rcases hb with rfl | rfl | rfl | rfl | rfl | rfl | rfl | rfl | rfl | rfl | rfl | rfl | rfl | rfl | rfl | rfl | rfl | rfl | rfl <;> exact StableHlo.devRef_ne_of_ne (by decide)

/-- The region finds every argument array as launched. -/
theorem V_arg (c : Dev nD) (b : Ref sig .tc) (hb : b ∈ argRefs) : V m c b = m ((c : Thread nD τ).loc b) :=
  StableHlo.after_of_forall_not_mem (b := Proc.devRef .tc b) _ _
    (fun op hop => (List.forall_iff_forall_mem.mp (pre_keeps_args (F := F))) op hop b hb)

set_option maxHeartbeats 40000000 in
/-- An argument array that is no array of the pipeline ends as launched. -/
theorem W_arg (dats : (p : Fin 1) → (c : Dev nD) → Dat τ (Elt F) Unit ℕ (UR sig nD τ) ℕ (cfgs p) c) (c : Dev nD)
    (b : Ref sig .tc) (hb : b ∈ argRefs) (hne : ∀ w, Pipeline.arrRef spec0 w ≠ b) :
    Pipeline.afterTail₀ cfgs dats 0 (V0 m) [hostOps1] c b = m ((c : Thread nD τ).loc b) := by
  unfold Pipeline.afterTail₀
  rw [StableHlo.after_of_forall_not_mem (b := Proc.devRef .tc b) _ _ (fun op hop => by
        simp only [List.flatten_cons, List.flatten_nil, List.append_nil] at hop
        exact (List.forall_iff_forall_mem.mp (hostOps1_keeps_args (F := F))) op hop b hb),
    Pipeline.withArrays_of_ne _ c (V0 m c) _ b hne]
  exact V_arg m c b hb

set_option maxHeartbeats 40000000 in
/-- THE FRAME from a frame run: for any proof data whose arrays are the region-entry contents, a run to the library's
    post read at the nineteen argument arrays is the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun _ h c => ⟨((h c).2 main_arg0 (Pipeline.mem_restRefs_of main_arg0 (by decide) (by decide))).trans (W_arg m dats c main_arg0 (by simp only [argRefs, List.mem_cons, List.mem_nil_iff, or_false, true_or, or_true]) (by decide)),
    ((h c).2 main_arg1 (Pipeline.mem_restRefs_of main_arg1 (by decide) (by decide))).trans (W_arg m dats c main_arg1 (by simp only [argRefs, List.mem_cons, List.mem_nil_iff, or_false, true_or, or_true]) (by decide)),
    ((h c).2 main_arg2 (Pipeline.mem_restRefs_of main_arg2 (by decide) (by decide))).trans (W_arg m dats c main_arg2 (by simp only [argRefs, List.mem_cons, List.mem_nil_iff, or_false, true_or, or_true]) (by decide)),
    ((h c).2 main_arg3 (Pipeline.mem_restRefs_of main_arg3 (by decide) (by decide))).trans (W_arg m dats c main_arg3 (by simp only [argRefs, List.mem_cons, List.mem_nil_iff, or_false, true_or, or_true]) (by decide)),
    ((h c).2 main_arg4 (Pipeline.mem_restRefs_of main_arg4 (by decide) (by decide))).trans (W_arg m dats c main_arg4 (by simp only [argRefs, List.mem_cons, List.mem_nil_iff, or_false, true_or, or_true]) (by decide)),
    ((h c).1 1).trans (((dats 0 c).arrAt_in 1 rfl _).trans ((hA c 1).trans (V_arg m c main_arg5 (by simp only [argRefs, List.mem_cons, List.mem_nil_iff, or_false, true_or, or_true])))),
    ((h c).1 2).trans (((dats 0 c).arrAt_in 2 rfl _).trans ((hA c 2).trans (V_arg m c main_arg6 (by simp only [argRefs, List.mem_cons, List.mem_nil_iff, or_false, true_or, or_true])))),
    ((h c).2 main_arg7 (Pipeline.mem_restRefs_of main_arg7 (by decide) (by decide))).trans (W_arg m dats c main_arg7 (by simp only [argRefs, List.mem_cons, List.mem_nil_iff, or_false, true_or, or_true]) (by decide)),
    ((h c).2 main_arg8 (Pipeline.mem_restRefs_of main_arg8 (by decide) (by decide))).trans (W_arg m dats c main_arg8 (by simp only [argRefs, List.mem_cons, List.mem_nil_iff, or_false, true_or, or_true]) (by decide)),
    ((h c).2 main_arg9 (Pipeline.mem_restRefs_of main_arg9 (by decide) (by decide))).trans (W_arg m dats c main_arg9 (by simp only [argRefs, List.mem_cons, List.mem_nil_iff, or_false, true_or, or_true]) (by decide)),
    ((h c).2 main_arg10 (Pipeline.mem_restRefs_of main_arg10 (by decide) (by decide))).trans (W_arg m dats c main_arg10 (by simp only [argRefs, List.mem_cons, List.mem_nil_iff, or_false, true_or, or_true]) (by decide)),
    ((h c).2 main_arg11 (Pipeline.mem_restRefs_of main_arg11 (by decide) (by decide))).trans (W_arg m dats c main_arg11 (by simp only [argRefs, List.mem_cons, List.mem_nil_iff, or_false, true_or, or_true]) (by decide)),
    ((h c).2 main_arg12 (Pipeline.mem_restRefs_of main_arg12 (by decide) (by decide))).trans (W_arg m dats c main_arg12 (by simp only [argRefs, List.mem_cons, List.mem_nil_iff, or_false, true_or, or_true]) (by decide)),
    ((h c).2 main_arg13 (Pipeline.mem_restRefs_of main_arg13 (by decide) (by decide))).trans (W_arg m dats c main_arg13 (by simp only [argRefs, List.mem_cons, List.mem_nil_iff, or_false, true_or, or_true]) (by decide)),
    ((h c).2 main_arg14 (Pipeline.mem_restRefs_of main_arg14 (by decide) (by decide))).trans (W_arg m dats c main_arg14 (by simp only [argRefs, List.mem_cons, List.mem_nil_iff, or_false, true_or, or_true]) (by decide)),
    ((h c).2 main_arg15 (Pipeline.mem_restRefs_of main_arg15 (by decide) (by decide))).trans (W_arg m dats c main_arg15 (by simp only [argRefs, List.mem_cons, List.mem_nil_iff, or_false, true_or, or_true]) (by decide)),
    ((h c).2 main_arg16 (Pipeline.mem_restRefs_of main_arg16 (by decide) (by decide))).trans (W_arg m dats c main_arg16 (by simp only [argRefs, List.mem_cons, List.mem_nil_iff, or_false, true_or, or_true]) (by decide)),
    ((h c).2 main_arg17 (Pipeline.mem_restRefs_of main_arg17 (by decide) (by decide))).trans (W_arg m dats c main_arg17 (by simp only [argRefs, List.mem_cons, List.mem_nil_iff, or_false, true_or, or_true]) (by decide)),
    ((h c).2 main_arg18 (Pipeline.mem_restRefs_of main_arg18 (by decide) (by decide))).trans (W_arg m dats c main_arg18 (by simp only [argRefs, List.mem_cons, List.mem_nil_iff, or_false, true_or, or_true]) (by decide))⟩) h

set_option maxHeartbeats 40000000 in
/-- THE FRAME of the program at any instance: it runs to the end without a fault and leaves its argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  frame_of m ρ (dats m) (A_eq m) (run_main m ρ)

end Cert.Kernel.Hand

end
-- ==== Proof.BlockUpdate.lean ====
/-
  One block's update of the three running statistics of a half, as functions of the query block, the block of keys,
  the block of values and the statistics before the block: the maximum raised to the block's largest logit, the
  normaliser and the weighted sum rescaled by exp(old maximum − new maximum) plus the block's own terms.
-/
import proofs.«149342_j75737453298419_2_alg».proof.Proof.Gen.KernelIdeal.Skeleton

noncomputable section

namespace Cert.KernelIdeal.Hand

open Cert.KernelIdeal Cert.KernelIdeal.Gen Idealize.ShloMosaic

variable {F : FTy → Type} [FloatOps F]

/-- The raised maximum: the larger of the old maximum `s0` and the block's largest logit. -/
def nextM (x0 : Vec F S1x64 .f32) (x1 : Vec F S5000x64 .f32) (s0 : Vec F S1x1 .f32) : Vec F S1x1 .f32 :=
  k0_pay2 (k0_pay9 x0 x1 s0)
/-- The normaliser: the old one `s1` rescaled, plus the sum of the block's exponentials. -/
def nextL (x0 : Vec F S1x64 .f32) (x1 : Vec F S5000x64 .f32) (s0 s1 : Vec F S1x1 .f32) : Vec F S1x1 .f32 :=
  k0_pay12 x0 x1 s0 s1
/-- The weighted sum: the old one `s2` rescaled, plus the block's exponentials times its rows of values. -/
def nextAcc (x0 : Vec F S1x64 .f32) (x1 : Vec F S5000x64 .f32) (x2 : Vec F S5000x512 .f32) (s0 : Vec F S1x1 .f32) (s2 : Vec F S1x512 .f32) : Vec F S1x512 .f32 :=
  k0_pay1 x2 (k0_pay10 x0 x1 s0) (k0_pay11 x0 x1 s0) s2

end Cert.KernelIdeal.Hand

end
-- ==== Proof.Pieces.lean ====
/-
  What each store of the body leaves, as arithmetic.  One block updates the three running statistics of its half:
  the maximum is raised to the block's largest logit, the normaliser and the weighted sum are rescaled by
  exp(old maximum − new maximum) and take the block's own terms.  At the first block of a half the three statistics
  start from the reset values (−∞, 0, 0); at the last block the results are the final weighted sum, and the final
  normaliser and maximum each repeated along 128 lanes.  Every load the body makes reads either a whole buffer at its
  known contents or what one whole-buffer store left, so each found piece is one of the three updates.
-/
import proofs.«149342_j75737453298419_2_alg».proof.Proof.Accumulate
import Idealize.ShloMosaic.Lib.Pipeline.Value
import proofs.«149342_j75737453298419_2_alg».proof.Proof.BlockUpdate

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz2 : (![0, 0] : Fin 2 → Nat) = fun _ => 0 := funext fun a => by fin_cases a <;> rfl

theorem sout0_A_0_eq (c : Dev nD) (i : grid0.Coords) (arg2 : Memref sig .tc .vmem S1x64 .f32) (harg2 : arg2.IsWhole) (arg3 : Memref sig .tc .vmem S5000x64 .f32) (harg3 : arg3.IsWhole) (arg4 : Memref sig .tc .vmem S5000x512 .f32) (harg4 : arg4.IsWhole) (arg5 : Memref sig .tc .vmem S1x512 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x512 .f32) (harg10 : arg10.IsWhole) (hc0 : cond0_0 i) (hc1 : ¬cond0_1 i)
    (x0 : Vec F S1x64 .f32) (x1 : Vec F S5000x64 .f32) (x2 : Vec F S5000x512 .f32) : sout0_A_0 c i arg2 harg2 arg3 harg3 arg4 harg4 arg5 harg5 arg6 harg6 arg7 harg7 arg8 harg8 arg9 harg9 arg10 harg10 hc0 hc1 x0 x1 x2 = nextM x0 x1 (k0_pay5 (F := F)) := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2)]
  unfold kernelRun0_A
  dsimp only
  sl_unfold_words
  rw [View.canon_cons_unit_zero (S := S1x1) hz2]
  unfold nextM
  simp only [View.readCov_unit_zero (S := S1x1) _ hz2, View.readCov_unit_zero (S := S1x512) _ hz2, View.readAt_eq_ld, harg2.read_unread, harg3.read_unread, harg4.read_unread, harg8.read_unread, harg9.read_unread, harg10.read_unread, View.ld_unit_zero (S := S1x64) hz2, View.ld_unit_zero (S := S5000x64) hz2, View.ld_unit_zero (S := S5000x512) hz2, View.ld_unit_zero (S := S1x1) hz2, View.ld_unit_zero (S := S1x512) hz2, View.ld_unit_zero (S := S1x128) hz2]

theorem sout0_A_1_eq (c : Dev nD) (i : grid0.Coords) (arg2 : Memref sig .tc .vmem S1x64 .f32) (harg2 : arg2.IsWhole) (arg3 : Memref sig .tc .vmem S5000x64 .f32) (harg3 : arg3.IsWhole) (arg4 : Memref sig .tc .vmem S5000x512 .f32) (harg4 : arg4.IsWhole) (arg5 : Memref sig .tc .vmem S1x512 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x512 .f32) (harg10 : arg10.IsWhole) (hc0 : cond0_0 i) (hc1 : ¬cond0_1 i)
    (x0 : Vec F S1x64 .f32) (x1 : Vec F S5000x64 .f32) (x2 : Vec F S5000x512 .f32) : sout0_A_1 c i arg2 harg2 arg3 harg3 arg4 harg4 arg5 harg5 arg6 harg6 arg7 harg7 arg8 harg8 arg9 harg9 arg10 harg10 hc0 hc1 x0 x1 x2 = nextL x0 x1 (k0_pay5 (F := F)) (k0_pay6 (F := F)) := by
  unfold sout0_A_1
  rw [View.read_writes_eq_canon _ _ _ (scover0_A_1 c i arg2 harg2 arg3 harg3 arg4 harg4 arg5 harg5 arg6 harg6 arg7 harg7 arg8 harg8 arg9 harg9 arg10 harg10 hc0 hc1 x0 x1 x2)]
  unfold kernelRun0_A
  dsimp only
  sl_unfold_words
  rw [View.canon_cons_unit_zero (S := S1x1) hz2]
  unfold nextL
  simp only [View.readCov_unit_zero (S := S1x1) _ hz2, View.readCov_unit_zero (S := S1x512) _ hz2, View.readAt_eq_ld, harg2.read_unread, harg3.read_unread, harg4.read_unread, harg8.read_unread, harg9.read_unread, harg10.read_unread, View.ld_unit_zero (S := S1x64) hz2, View.ld_unit_zero (S := S5000x64) hz2, View.ld_unit_zero (S := S5000x512) hz2, View.ld_unit_zero (S := S1x1) hz2, View.ld_unit_zero (S := S1x512) hz2, View.ld_unit_zero (S := S1x128) hz2]

theorem sout0_A_2_eq (c : Dev nD) (i : grid0.Coords) (arg2 : Memref sig .tc .vmem S1x64 .f32) (harg2 : arg2.IsWhole) (arg3 : Memref sig .tc .vmem S5000x64 .f32) (harg3 : arg3.IsWhole) (arg4 : Memref sig .tc .vmem S5000x512 .f32) (harg4 : arg4.IsWhole) (arg5 : Memref sig .tc .vmem S1x512 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x512 .f32) (harg10 : arg10.IsWhole) (hc0 : cond0_0 i) (hc1 : ¬cond0_1 i)
    (x0 : Vec F S1x64 .f32) (x1 : Vec F S5000x64 .f32) (x2 : Vec F S5000x512 .f32) : sout0_A_2 c i arg2 harg2 arg3 harg3 arg4 harg4 arg5 harg5 arg6 harg6 arg7 harg7 arg8 harg8 arg9 harg9 arg10 harg10 hc0 hc1 x0 x1 x2 = nextAcc x0 x1 x2 (k0_pay5 (F := F)) (k0_pay7 (F := F)) := by
  unfold sout0_A_2
  rw [View.read_writes_eq_canon _ _ _ (scover0_A_2 c i arg2 harg2 arg3 harg3 arg4 harg4 arg5 harg5 arg6 harg6 arg7 harg7 arg8 harg8 arg9 harg9 arg10 harg10 hc0 hc1 x0 x1 x2)]
  unfold kernelRun0_A
  dsimp only
  sl_unfold_words
  rw [View.canon_cons_unit_zero (S := S1x512) hz2]
  unfold nextAcc
  simp only [View.readCov_unit_zero (S := S1x1) _ hz2, View.readCov_unit_zero (S := S1x512) _ hz2, View.readAt_eq_ld, harg2.read_unread, harg3.read_unread, harg4.read_unread, harg8.read_unread, harg9.read_unread, harg10.read_unread, View.ld_unit_zero (S := S1x64) hz2, View.ld_unit_zero (S := S5000x64) hz2, View.ld_unit_zero (S := S5000x512) hz2, View.ld_unit_zero (S := S1x1) hz2, View.ld_unit_zero (S := S1x512) hz2, View.ld_unit_zero (S := S1x128) hz2]

theorem sout0_B_0_eq (c : Dev nD) (i : grid0.Coords) (arg2 : Memref sig .tc .vmem S1x64 .f32) (harg2 : arg2.IsWhole) (arg3 : Memref sig .tc .vmem S5000x64 .f32) (harg3 : arg3.IsWhole) (arg4 : Memref sig .tc .vmem S5000x512 .f32) (harg4 : arg4.IsWhole) (arg5 : Memref sig .tc .vmem S1x512 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x512 .f32) (harg10 : arg10.IsWhole) (hc0 : ¬cond0_0 i) (hc1 : ¬cond0_1 i)
    (x0 : Vec F S1x64 .f32) (x1 : Vec F S5000x64 .f32) (x2 : Vec F S5000x512 .f32) (xs0 : Vec F S1x1 .f32) (xs1 : Vec F S1x1 .f32) (xs2 : Vec F S1x512 .f32) : sout0_B_0 c i arg2 harg2 arg3 harg3 arg4 harg4 arg5 harg5 arg6 harg6 arg7 harg7 arg8 harg8 arg9 harg9 arg10 harg10 hc0 hc1 x0 x1 x2 xs0 xs1 xs2 = nextM x0 x1 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 hc0 hc1 x0 x1 x2 xs0 xs1 xs2)]
  unfold kernelRun0_B
  dsimp only
  sl_unfold_words
  rw [View.canon_unit_zero (S := S1x1) hz2]
  unfold nextM
  simp only [View.readCov_unit_zero (S := S1x1) _ hz2, View.readCov_unit_zero (S := S1x512) _ hz2, View.readAt_eq_ld, harg2.read_unread, harg3.read_unread, harg4.read_unread, harg8.read_unread, harg9.read_unread, harg10.read_unread, View.ld_unit_zero (S := S1x64) hz2, View.ld_unit_zero (S := S5000x64) hz2, View.ld_unit_zero (S := S5000x512) hz2, View.ld_unit_zero (S := S1x1) hz2, View.ld_unit_zero (S := S1x512) hz2, View.ld_unit_zero (S := S1x128) hz2]

theorem sout0_B_1_eq (c : Dev nD) (i : grid0.Coords) (arg2 : Memref sig .tc .vmem S1x64 .f32) (harg2 : arg2.IsWhole) (arg3 : Memref sig .tc .vmem S5000x64 .f32) (harg3 : arg3.IsWhole) (arg4 : Memref sig .tc .vmem S5000x512 .f32) (harg4 : arg4.IsWhole) (arg5 : Memref sig .tc .vmem S1x512 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x512 .f32) (harg10 : arg10.IsWhole) (hc0 : ¬cond0_0 i) (hc1 : ¬cond0_1 i)
    (x0 : Vec F S1x64 .f32) (x1 : Vec F S5000x64 .f32) (x2 : Vec F S5000x512 .f32) (xs0 : Vec F S1x1 .f32) (xs1 : Vec F S1x1 .f32) (xs2 : Vec F S1x512 .f32) : sout0_B_1 c i arg2 harg2 arg3 harg3 arg4 harg4 arg5 harg5 arg6 harg6 arg7 harg7 arg8 harg8 arg9 harg9 arg10 harg10 hc0 hc1 x0 x1 x2 xs0 xs1 xs2 = nextL x0 x1 xs0 xs1 := by
  unfold sout0_B_1
  rw [View.read_writes_eq_canon _ _ _ (scover0_B_1 c i arg2 harg2 arg3 harg3 arg4 harg4 arg5 harg5 arg6 harg6 arg7 harg7 arg8 harg8 arg9 harg9 arg10 harg10 hc0 hc1 x0 x1 x2 xs0 xs1 xs2)]
  unfold kernelRun0_B
  dsimp only
  sl_unfold_words
  rw [View.canon_unit_zero (S := S1x1) hz2]
  unfold nextL
  simp only [View.readCov_unit_zero (S := S1x1) _ hz2, View.readCov_unit_zero (S := S1x512) _ hz2, View.readAt_eq_ld, harg2.read_unread, harg3.read_unread, harg4.read_unread, harg8.read_unread, harg9.read_unread, harg10.read_unread, View.ld_unit_zero (S := S1x64) hz2, View.ld_unit_zero (S := S5000x64) hz2, View.ld_unit_zero (S := S5000x512) hz2, View.ld_unit_zero (S := S1x1) hz2, View.ld_unit_zero (S := S1x512) hz2, View.ld_unit_zero (S := S1x128) hz2]

theorem sout0_B_2_eq (c : Dev nD) (i : grid0.Coords) (arg2 : Memref sig .tc .vmem S1x64 .f32) (harg2 : arg2.IsWhole) (arg3 : Memref sig .tc .vmem S5000x64 .f32) (harg3 : arg3.IsWhole) (arg4 : Memref sig .tc .vmem S5000x512 .f32) (harg4 : arg4.IsWhole) (arg5 : Memref sig .tc .vmem S1x512 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x512 .f32) (harg10 : arg10.IsWhole) (hc0 : ¬cond0_0 i) (hc1 : ¬cond0_1 i)
    (x0 : Vec F S1x64 .f32) (x1 : Vec F S5000x64 .f32) (x2 : Vec F S5000x512 .f32) (xs0 : Vec F S1x1 .f32) (xs1 : Vec F S1x1 .f32) (xs2 : Vec F S1x512 .f32) : sout0_B_2 c i arg2 harg2 arg3 harg3 arg4 harg4 arg5 harg5 arg6 harg6 arg7 harg7 arg8 harg8 arg9 harg9 arg10 harg10 hc0 hc1 x0 x1 x2 xs0 xs1 xs2 = nextAcc x0 x1 x2 xs0 xs2 := by
  unfold sout0_B_2
  rw [View.read_writes_eq_canon _ _ _ (scover0_B_2 c i arg2 harg2 arg3 harg3 arg4 harg4 arg5 harg5 arg6 harg6 arg7 harg7 arg8 harg8 arg9 harg9 arg10 harg10 hc0 hc1 x0 x1 x2 xs0 xs1 xs2)]
  unfold kernelRun0_B
  dsimp only
  sl_unfold_words
  rw [View.canon_unit_zero (S := S1x512) hz2]
  unfold nextAcc
  simp only [View.readCov_unit_zero (S := S1x1) _ hz2, View.readCov_unit_zero (S := S1x512) _ hz2, View.readAt_eq_ld, harg2.read_unread, harg3.read_unread, harg4.read_unread, harg8.read_unread, harg9.read_unread, harg10.read_unread, View.ld_unit_zero (S := S1x64) hz2, View.ld_unit_zero (S := S5000x64) hz2, View.ld_unit_zero (S := S5000x512) hz2, View.ld_unit_zero (S := S1x1) hz2, View.ld_unit_zero (S := S1x512) hz2, View.ld_unit_zero (S := S1x128) hz2]

theorem sout0_C_0_eq (c : Dev nD) (i : grid0.Coords) (arg2 : Memref sig .tc .vmem S1x64 .f32) (harg2 : arg2.IsWhole) (arg3 : Memref sig .tc .vmem S5000x64 .f32) (harg3 : arg3.IsWhole) (arg4 : Memref sig .tc .vmem S5000x512 .f32) (harg4 : arg4.IsWhole) (arg5 : Memref sig .tc .vmem S1x512 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x512 .f32) (harg10 : arg10.IsWhole) (hc0 : ¬cond0_0 i) (hc1 : cond0_1 i)
    (x0 : Vec F S1x64 .f32) (x1 : Vec F S5000x64 .f32) (x2 : Vec F S5000x512 .f32) (xs0 : Vec F S1x1 .f32) (xs1 : Vec F S1x1 .f32) (xs2 : Vec F S1x512 .f32) : sout0_C_0 c i arg2 harg2 arg3 harg3 arg4 harg4 arg5 harg5 arg6 harg6 arg7 harg7 arg8 harg8 arg9 harg9 arg10 harg10 hc0 hc1 x0 x1 x2 xs0 xs1 xs2 = nextM x0 x1 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 hc0 hc1 x0 x1 x2 xs0 xs1 xs2)]
  unfold kernelRun0_C
  dsimp only
  sl_unfold_words
  rw [View.canon_unit_zero (S := S1x1) hz2]
  unfold nextM
  simp only [View.readCov_unit_zero (S := S1x1) _ hz2, View.readCov_unit_zero (S := S1x512) _ hz2, View.readAt_eq_ld, harg2.read_unread, harg3.read_unread, harg4.read_unread, harg8.read_unread, harg9.read_unread, harg10.read_unread, View.ld_unit_zero (S := S1x64) hz2, View.ld_unit_zero (S := S5000x64) hz2, View.ld_unit_zero (S := S5000x512) hz2, View.ld_unit_zero (S := S1x1) hz2, View.ld_unit_zero (S := S1x512) hz2, View.ld_unit_zero (S := S1x128) hz2]

theorem sout0_C_1_eq (c : Dev nD) (i : grid0.Coords) (arg2 : Memref sig .tc .vmem S1x64 .f32) (harg2 : arg2.IsWhole) (arg3 : Memref sig .tc .vmem S5000x64 .f32) (harg3 : arg3.IsWhole) (arg4 : Memref sig .tc .vmem S5000x512 .f32) (harg4 : arg4.IsWhole) (arg5 : Memref sig .tc .vmem S1x512 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x512 .f32) (harg10 : arg10.IsWhole) (hc0 : ¬cond0_0 i) (hc1 : cond0_1 i)
    (x0 : Vec F S1x64 .f32) (x1 : Vec F S5000x64 .f32) (x2 : Vec F S5000x512 .f32) (xs0 : Vec F S1x1 .f32) (xs1 : Vec F S1x1 .f32) (xs2 : Vec F S1x512 .f32) : sout0_C_1 c i arg2 harg2 arg3 harg3 arg4 harg4 arg5 harg5 arg6 harg6 arg7 harg7 arg8 harg8 arg9 harg9 arg10 harg10 hc0 hc1 x0 x1 x2 xs0 xs1 xs2 = nextL x0 x1 xs0 xs1 := by
  unfold sout0_C_1
  rw [View.read_writes_eq_canon _ _ _ (scover0_C_1 c i arg2 harg2 arg3 harg3 arg4 harg4 arg5 harg5 arg6 harg6 arg7 harg7 arg8 harg8 arg9 harg9 arg10 harg10 hc0 hc1 x0 x1 x2 xs0 xs1 xs2)]
  unfold kernelRun0_C
  dsimp only
  sl_unfold_words
  rw [View.canon_unit_zero (S := S1x1) hz2]
  unfold nextL
  simp only [View.readCov_unit_zero (S := S1x1) _ hz2, View.readCov_unit_zero (S := S1x512) _ hz2, View.readAt_eq_ld, harg2.read_unread, harg3.read_unread, harg4.read_unread, harg8.read_unread, harg9.read_unread, harg10.read_unread, View.ld_unit_zero (S := S1x64) hz2, View.ld_unit_zero (S := S5000x64) hz2, View.ld_unit_zero (S := S5000x512) hz2, View.ld_unit_zero (S := S1x1) hz2, View.ld_unit_zero (S := S1x512) hz2, View.ld_unit_zero (S := S1x128) hz2]

theorem sout0_C_2_eq (c : Dev nD) (i : grid0.Coords) (arg2 : Memref sig .tc .vmem S1x64 .f32) (harg2 : arg2.IsWhole) (arg3 : Memref sig .tc .vmem S5000x64 .f32) (harg3 : arg3.IsWhole) (arg4 : Memref sig .tc .vmem S5000x512 .f32) (harg4 : arg4.IsWhole) (arg5 : Memref sig .tc .vmem S1x512 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x512 .f32) (harg10 : arg10.IsWhole) (hc0 : ¬cond0_0 i) (hc1 : cond0_1 i)
    (x0 : Vec F S1x64 .f32) (x1 : Vec F S5000x64 .f32) (x2 : Vec F S5000x512 .f32) (xs0 : Vec F S1x1 .f32) (xs1 : Vec F S1x1 .f32) (xs2 : Vec F S1x512 .f32) : sout0_C_2 c i arg2 harg2 arg3 harg3 arg4 harg4 arg5 harg5 arg6 harg6 arg7 harg7 arg8 harg8 arg9 harg9 arg10 harg10 hc0 hc1 x0 x1 x2 xs0 xs1 xs2 = nextAcc x0 x1 x2 xs0 xs2 := by
  unfold sout0_C_2
  rw [View.read_writes_eq_canon _ _ _ (scover0_C_2 c i arg2 harg2 arg3 harg3 arg4 harg4 arg5 harg5 arg6 harg6 arg7 harg7 arg8 harg8 arg9 harg9 arg10 harg10 hc0 hc1 x0 x1 x2 xs0 xs1 xs2)]
  unfold kernelRun0_C
  dsimp only
  sl_unfold_words
  rw [View.canon_unit_zero (S := S1x512) hz2]
  unfold nextAcc
  simp only [View.readCov_unit_zero (S := S1x1) _ hz2, View.readCov_unit_zero (S := S1x512) _ hz2, View.readAt_eq_ld, harg2.read_unread, harg3.read_unread, harg4.read_unread, harg8.read_unread, harg9.read_unread, harg10.read_unread, View.ld_unit_zero (S := S1x64) hz2, View.ld_unit_zero (S := S5000x64) hz2, View.ld_unit_zero (S := S5000x512) hz2, View.ld_unit_zero (S := S1x1) hz2, View.ld_unit_zero (S := S1x512) hz2, View.ld_unit_zero (S := S1x128) hz2]

theorem out0_C_3_eq (c : Dev nD) (i : grid0.Coords) (arg2 : Memref sig .tc .vmem S1x64 .f32) (harg2 : arg2.IsWhole) (arg3 : Memref sig .tc .vmem S5000x64 .f32) (harg3 : arg3.IsWhole) (arg4 : Memref sig .tc .vmem S5000x512 .f32) (harg4 : arg4.IsWhole) (arg5 : Memref sig .tc .vmem S1x512 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x512 .f32) (harg10 : arg10.IsWhole) (hc0 : ¬cond0_0 i) (hc1 : cond0_1 i)
    (x0 : Vec F S1x64 .f32) (x1 : Vec F S5000x64 .f32) (x2 : Vec F S5000x512 .f32) (xs0 : Vec F S1x1 .f32) (xs1 : Vec F S1x1 .f32) (xs2 : Vec F S1x512 .f32) : out0_C_3 c i arg2 harg2 arg3 harg3 arg4 harg4 arg5 harg5 arg6 harg6 arg7 harg7 arg8 harg8 arg9 harg9 arg10 harg10 hc0 hc1 x0 x1 x2 xs0 xs1 xs2 = nextAcc x0 x1 x2 xs0 xs2 := by
  unfold out0_C_3
  rw [View.read_writes_eq_canon _ _ _ (cover0_C_3 c i arg2 harg2 arg3 harg3 arg4 harg4 arg5 harg5 arg6 harg6 arg7 harg7 arg8 harg8 arg9 harg9 arg10 harg10 hc0 hc1 x0 x1 x2 xs0 xs1 xs2)]
  unfold kernelRun0_C
  dsimp only
  sl_unfold_words
  rw [View.canon_unit_zero (S := S1x512) hz2]
  unfold nextAcc
  simp only [View.readCov_unit_zero (S := S1x1) _ hz2, View.readCov_unit_zero (S := S1x512) _ hz2, View.readAt_eq_ld, harg2.read_unread, harg3.read_unread, harg4.read_unread, harg8.read_unread, harg9.read_unread, harg10.read_unread, View.ld_unit_zero (S := S1x64) hz2, View.ld_unit_zero (S := S5000x64) hz2, View.ld_unit_zero (S := S5000x512) hz2, View.ld_unit_zero (S := S1x1) hz2, View.ld_unit_zero (S := S1x512) hz2, View.ld_unit_zero (S := S1x128) hz2]

theorem out0_C_4_eq (c : Dev nD) (i : grid0.Coords) (arg2 : Memref sig .tc .vmem S1x64 .f32) (harg2 : arg2.IsWhole) (arg3 : Memref sig .tc .vmem S5000x64 .f32) (harg3 : arg3.IsWhole) (arg4 : Memref sig .tc .vmem S5000x512 .f32) (harg4 : arg4.IsWhole) (arg5 : Memref sig .tc .vmem S1x512 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x512 .f32) (harg10 : arg10.IsWhole) (hc0 : ¬cond0_0 i) (hc1 : cond0_1 i)
    (x0 : Vec F S1x64 .f32) (x1 : Vec F S5000x64 .f32) (x2 : Vec F S5000x512 .f32) (xs0 : Vec F S1x1 .f32) (xs1 : Vec F S1x1 .f32) (xs2 : Vec F S1x512 .f32) : out0_C_4 c i arg2 harg2 arg3 harg3 arg4 harg4 arg5 harg5 arg6 harg6 arg7 harg7 arg8 harg8 arg9 harg9 arg10 harg10 hc0 hc1 x0 x1 x2 xs0 xs1 xs2 = k0_pay3 (nextL x0 x1 xs0 xs1) := by
  unfold out0_C_4
  rw [View.read_writes_eq_canon _ _ _ (cover0_C_4 c i arg2 harg2 arg3 harg3 arg4 harg4 arg5 harg5 arg6 harg6 arg7 harg7 arg8 harg8 arg9 harg9 arg10 harg10 hc0 hc1 x0 x1 x2 xs0 xs1 xs2)]
  unfold kernelRun0_C
  dsimp only
  sl_unfold_words
  rw [View.canon_unit_zero (S := S1x128) hz2]
  unfold nextL
  simp only [View.readCov_unit_zero (S := S1x1) _ hz2, View.readCov_unit_zero (S := S1x512) _ hz2, View.readAt_eq_ld, harg2.read_unread, harg3.read_unread, harg4.read_unread, harg8.read_unread, harg9.read_unread, harg10.read_unread, View.ld_unit_zero (S := S1x64) hz2, View.ld_unit_zero (S := S5000x64) hz2, View.ld_unit_zero (S := S5000x512) hz2, View.ld_unit_zero (S := S1x1) hz2, View.ld_unit_zero (S := S1x512) hz2, View.ld_unit_zero (S := S1x128) hz2]

theorem out0_C_5_eq (c : Dev nD) (i : grid0.Coords) (arg2 : Memref sig .tc .vmem S1x64 .f32) (harg2 : arg2.IsWhole) (arg3 : Memref sig .tc .vmem S5000x64 .f32) (harg3 : arg3.IsWhole) (arg4 : Memref sig .tc .vmem S5000x512 .f32) (harg4 : arg4.IsWhole) (arg5 : Memref sig .tc .vmem S1x512 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x512 .f32) (harg10 : arg10.IsWhole) (hc0 : ¬cond0_0 i) (hc1 : cond0_1 i)
    (x0 : Vec F S1x64 .f32) (x1 : Vec F S5000x64 .f32) (x2 : Vec F S5000x512 .f32) (xs0 : Vec F S1x1 .f32) (xs1 : Vec F S1x1 .f32) (xs2 : Vec F S1x512 .f32) : out0_C_5 c i arg2 harg2 arg3 harg3 arg4 harg4 arg5 harg5 arg6 harg6 arg7 harg7 arg8 harg8 arg9 harg9 arg10 harg10 hc0 hc1 x0 x1 x2 xs0 xs1 xs2 = k0_pay4 (nextM x0 x1 xs0) := by
  unfold out0_C_5
  rw [View.read_writes_eq_canon _ _ _ (cover0_C_5 c i arg2 harg2 arg3 harg3 arg4 harg4 arg5 harg5 arg6 harg6 arg7 harg7 arg8 harg8 arg9 harg9 arg10 harg10 hc0 hc1 x0 x1 x2 xs0 xs1 xs2)]
  unfold kernelRun0_C
  dsimp only
  sl_unfold_words
  rw [View.canon_unit_zero (S := S1x128) hz2]
  unfold nextM
  simp only [View.readCov_unit_zero (S := S1x1) _ hz2, View.readCov_unit_zero (S := S1x512) _ hz2, View.readAt_eq_ld, harg2.read_unread, harg3.read_unread, harg4.read_unread, harg8.read_unread, harg9.read_unread, harg10.read_unread, View.ld_unit_zero (S := S1x64) hz2, View.ld_unit_zero (S := S5000x64) hz2, View.ld_unit_zero (S := S5000x512) hz2, View.ld_unit_zero (S := S1x1) hz2, View.ld_unit_zero (S := S1x512) hz2, View.ld_unit_zero (S := S1x128) hz2]

/-! ## The three steps over the updates -/

theorem stepA_eq (c : Dev nD) (t : Fin cfg0.N) (h0 : t.val % 10 = 0) (h1 : ¬t.val % 10 = 9) :
    stepA m c t h0 h1 = ⟨idle3, idle4, idle5,
      nextM (iblk m c 0 t) (iblk m c 1 t) (k0_pay5 (F := F)),
      nextL (iblk m c 0 t) (iblk m c 1 t) (k0_pay5 (F := F)) (k0_pay6 (F := F)),
      nextAcc (iblk m c 0 t) (iblk m c 1 t) (iblk m c 2 t) (k0_pay5 (F := F)) (k0_pay7 (F := F))⟩ := by
  unfold stepA
  rw [sout0_A_0_eq, sout0_A_1_eq, sout0_A_2_eq]

theorem stepB_eq (c : Dev nD) (t : Fin cfg0.N) (h0 : ¬t.val % 10 = 0) (h1 : ¬t.val % 10 = 9) (p : Carried F) :
    stepB m c t h0 h1 p = ⟨idle3, idle4, idle5,
      nextM (iblk m c 0 t) (iblk m c 1 t) p.s0,
      nextL (iblk m c 0 t) (iblk m c 1 t) p.s0 p.s1,
      nextAcc (iblk m c 0 t) (iblk m c 1 t) (iblk m c 2 t) p.s0 p.s2⟩ := by
  unfold stepB
  rw [sout0_B_0_eq, sout0_B_1_eq, sout0_B_2_eq]

theorem stepC_eq (c : Dev nD) (t : Fin cfg0.N) (h0 : ¬t.val % 10 = 0) (h1 : t.val % 10 = 9) (p : Carried F) :
    stepC m c t h0 h1 p = ⟨nextAcc (iblk m c 0 t) (iblk m c 1 t) (iblk m c 2 t) p.s0 p.s2,
      k0_pay3 (nextL (iblk m c 0 t) (iblk m c 1 t) p.s0 p.s1),
      k0_pay4 (nextM (iblk m c 0 t) (iblk m c 1 t) p.s0),
      nextM (iblk m c 0 t) (iblk m c 1 t) p.s0,
      nextL (iblk m c 0 t) (iblk m c 1 t) p.s0 p.s1,
      nextAcc (iblk m c 0 t) (iblk m c 1 t) (iblk m c 2 t) p.s0 p.s2⟩ := by
  unfold stepC
  rw [sout0_C_0_eq, sout0_C_1_eq, sout0_C_2_eq, out0_C_3_eq, out0_C_4_eq, out0_C_5_eq]

end Cert.KernelIdeal.Hand

end
-- ==== Proof.InputBlocks.lean ====
/-
  The input blocks as rows of their arrays.  The grid's point t = 10·(half) + (block in the half) reads block t of the
  keys and of the values — rows 5000·t … 5000·t + 4999 of the 100000 — and always the one block of the query; a result
  window's block at point t is the half t / 10.  These relations between the printed index maps are decided once over the
  twenty points; a block's coordinate on an axis is (block index) × (block size) + (coordinate inside the block).
-/
import proofs.«149342_j75737453298419_2_alg».proof.Proof.RegionEntry
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

/-- The printed index maps, decided over the grid. -/
theorem idx_facts : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = t.val / 10
    ∧ win0_4.index t (0 : Fin 2) = 0 ∧ win0_4.index t (1 : Fin 2) = t.val / 10
    ∧ win0_5.index t (0 : Fin 2) = 0 ∧ win0_5.index t (1 : Fin 2) = t.val / 10 :=
  (by decide +kernel : ∀ t : Fin grid0.N, _)

theorem N20 (t : Fin cfg0.N) : t.val < 20 := lt_of_lt_of_eq t.isLt (show cfg0.N = 20 from N_0)

/-- The query block at any point is the query. -/
theorem iblk0_apply (c : Dev nD) (t : Fin cfg0.N) (d : Fin 64) :
    iblk m c 0 t (ix2 (0 : Fin 1) d) = V m c main_v9 (ix2 (0 : Fin 1) d) := by
  obtain ⟨e0, e1, -⟩ := idx_facts t
  show V m c main_v9 (((cfg0.win 0).blk t).view.emb (ix2 (0 : Fin 1) d)) = V m c main_v9 (ix2 (0 : Fin 1) d)
  refine congrArg _ ?_
  funext a; apply Fin.ext
  match a with
  | ⟨0, _⟩ => show win0_0.index t (0 : Fin 2) * 1 + 1 * (0 : Fin 1).val = (0 : Fin 1).val; rw [e0]; simp
  | ⟨1, _⟩ => show win0_0.index t (1 : Fin 2) * 64 + 1 * d.val = d.val; rw [e1]; omega

/-- Row r of the keys' block at point t is row 5000·t + r of the keys. -/
theorem iblk1_apply (c : Dev nD) (t : Fin cfg0.N) (r : Fin 5000) (d : Fin 64) :
    iblk m c 1 t (ix2 r d) = V m c main_arg5 (ix2 (⟨5000 * t.val + r.val, by have := N20 t; omega⟩ : Fin 100000) d) := by
  obtain ⟨-, -, e2, e3, -⟩ := idx_facts t
  show V m c main_arg5 (((cfg0.win 1).blk t).view.emb (ix2 r d)) = V m c main_arg5 _
  refine congrArg _ ?_
  funext a; apply Fin.ext
  match a with
  | ⟨0, _⟩ => show win0_1.index t (0 : Fin 2) * 5000 + 1 * r.val = 5000 * t.val + r.val; rw [e2]; omega
  | ⟨1, _⟩ => show win0_1.index t (1 : Fin 2) * 64 + 1 * d.val = d.val; rw [e3]; omega

/-- Row r of the values' block at point t is row 5000·t + r of the values. -/
theorem iblk2_apply (c : Dev nD) (t : Fin cfg0.N) (r : Fin 5000) (h : Fin 512) :
    iblk m c 2 t (ix2 r h) = V m c main_arg6 (ix2 (⟨5000 * t.val + r.val, by have := N20 t; omega⟩ : Fin 100000) h) := by
  obtain ⟨-, -, -, -, e4, e5, -⟩ := idx_facts t
  show V m c main_arg6 (((cfg0.win 2).blk t).view.emb (ix2 r h)) = V m c main_arg6 _
  refine congrArg _ ?_
  funext a; apply Fin.ext
  match a with
  | ⟨0, _⟩ => show win0_2.index t (0 : Fin 2) * 5000 + 1 * r.val = 5000 * t.val + r.val; rw [e4]; omega
  | ⟨1, _⟩ => show win0_2.index t (1 : Fin 2) * 512 + 1 * h.val = h.val; rw [e5]; omega

end Cert.KernelIdeal.Hand

end
-- ==== Proof.BlockArithmetic.lean ====
/-
  The block body's arithmetic read at an index, at the ideal instance (every float an extended real, every
  operation its textbook one, a change of format the identity).

  One block of the streaming softmax takes the query row q : [1,64], a block of keys K : [5000,64] and of values
  V : [5000,512], and the running maximum m, normaliser l and weighted sum acc. It forms the logits
  s r = 2 * (sum over d of q d * K r d) - (sum over d of 1 * (K r d * K r d)), raises the maximum to
  m' = max m (the largest s r), and rescales: a = exp (m - m'), p r = exp (s r - m'), l' = a * l + (sum over r of p r),
  acc' h = a * acc h + (sum over r of p r * V r h). Each lemma below reads one payload of the generated
  skeleton at explicit coordinates and states exactly that formula for it.
-/
import proofs.«149342_j75737453298419_2_alg».proof.Proof.Gen.KernelIdeal.Skeleton
import Idealize.ShloMosaic.Lib.ValueIdx
import Idealize.ShloMosaic.Lib.ValueLayout
import Idealize.ShloMosaic.PureOps.Ideal.Laws

noncomputable section

open scoped BigOperators

namespace Cert.KernelIdeal.Arith

open Cert.KernelIdeal Cert.KernelIdeal.Gen Idealize.ShloMosaic Idealize.ShloMosaic.ValueIdx

/-! ## The words the body spells, as extended reals -/

/-- The real number `2`, read as an extended real, is the extended real `2`. -/
theorem coe_two : ((2 : ℝ) : EReal) = 2 := by
  have h : (2 : ℝ) = 1 + 1 := by norm_num
  rw [h, EReal.coe_add, EReal.coe_one, one_add_one_eq_two]

/-- The pattern of `2.0` denotes `2`. -/
theorem ofBits_two : Ideal.ofBits .f32 0x40000000#32 = 2 := by
  simp [Ideal.ofBits, Ideal.ieee, -EReal.coe_mul]; norm_num
  exact coe_two

/-- The pattern of `1.0` denotes `1`. -/
theorem ofBits_one : Ideal.ofBits .f32 0x3F800000#32 = 1 := by
  simp [Ideal.ofBits, Ideal.ieee, -EReal.coe_mul]; norm_num

/-- The pattern with the sign bit set, an all-ones exponent and a zero significand denotes `-∞`. -/
theorem ofBits_negInf : Ideal.ofBits .f32 0xFF800000#32 = ⊥ := by
  simp [Ideal.ofBits, Ideal.ieee]

/-! ## One element broadcast over a whole matrix -/

/-- A `[1, 1]` array broadcast to `[a, b]` reads its one element everywhere. -/
theorem broadcastTo_11_ab_apply {α : Type} {a b : ℕ} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

/-! ## The reset values: `-∞` for the maximum, zero for the normaliser and the weighted sum -/

/-- The running maximum is reset to `-∞`. -/
theorem pay5_apply : k0_pay5 (F := Ideal) (ix2 (0 : Fin 1) (0 : Fin 1)) = ⊥ := by
  unfold k0_pay5
  rw [shapeCast_self]
  exact ofBits_negInf

/-- The running normaliser is reset to zero. -/
theorem pay6_apply : k0_pay6 (F := Ideal) (ix2 (0 : Fin 1) (0 : Fin 1)) = 0 := by
  unfold k0_pay6
  rw [shapeCast_self]
  exact Ideal.ofBits_zero_f32

/-- The running weighted sum is reset to zero at every column. -/
theorem pay7_apply (h : Fin 512) : k0_pay7 (F := Ideal) (ix2 (0 : Fin 1) h) = 0 := by
  unfold k0_pay7
  rw [shapeCast_self]
  exact Ideal.ofBits_zero_f32

/-! ## The stores that only relayout -/

/-- The raised maximum is stored as it is. -/
theorem pay2_eq (v19 : FVec Ideal S1x1 .f32) : k0_pay2 (F := Ideal) v19 = v19 := by
  unfold k0_pay2
  exact shapeCast_self _ _

/-- The final normaliser is written to all 128 lanes of its output row. -/
theorem pay3_apply (v51 : Vec Ideal S1x1 .f32) (l : Fin 128) :
    k0_pay3 (F := Ideal) v51 (ix2 (0 : Fin 1) l) = v51 (ix2 (0 : Fin 1) (0 : Fin 1)) := by
  unfold k0_pay3
  rw [shapeCast_self]
  exact broadcastTo_11_ab_apply _ _ _ _

/-- The final maximum is written to all 128 lanes of its output row. -/
theorem pay4_apply (v55 : Vec Ideal S1x1 .f32) (l : Fin 128) :
    k0_pay4 (F := Ideal) v55 (ix2 (0 : Fin 1) l) = v55 (ix2 (0 : Fin 1) (0 : Fin 1)) := by
  unfold k0_pay4
  rw [shapeCast_self]
  exact broadcastTo_11_ab_apply _ _ _ _

/-! ## The two matrix products, read at an index

Both are plain products of a one-row matrix with a matrix: the left operand's axis 1 against the right operand's
axis 0, no batch axis, into the zero accumulator. At a column `c` of the one result row each is the sum, over the
contracted coordinate `k`, of the left row at `k` times the right matrix at `(k, c)`. -/

/-- The query-by-keys product: the left operand's row coordinate is the result's. -/
theorem dotQK_lhs0 (i : S1x5000.Idx) (q : dot_S1x64_S64x5000_S1x5000_1_0_0_1_n_n.contr.Idx) :
    (dot_S1x64_S64x5000_S1x5000_1_0_0_1_n_n.lhsIdx i q 0).val = (i 0).val := by
  unfold DotDims.lhsIdx
  rw [dif_neg (show ¬(0 : Fin S1x64.rank) ∈ dot_S1x64_S64x5000_S1x5000_1_0_0_1_n_n.lhsBatch by decide),
    dif_pos (show (0 : Fin S1x64.rank) ∈ dot_S1x64_S64x5000_S1x5000_1_0_0_1_n_n.lhsNonContracting by decide)]
  rfl

/-- The query-by-keys product: the left operand's column coordinate is the contracted one. -/
theorem dotQK_lhs1 (i : S1x5000.Idx) (q : dot_S1x64_S64x5000_S1x5000_1_0_0_1_n_n.contr.Idx) :
    (dot_S1x64_S64x5000_S1x5000_1_0_0_1_n_n.lhsIdx i q 1).val = (q ⟨0, by decide⟩).val :=
  dot_S1x64_S64x5000_S1x5000_1_0_0_1_n_n.lhsIdx_val_of_single rfl i q

/-- The query-by-keys product: the right operand's row coordinate is the contracted one. -/
theorem dotQK_rhs0 (i : S1x5000.Idx) (q : dot_S1x64_S64x5000_S1x5000_1_0_0_1_n_n.contr.Idx) :
    (dot_S1x64_S64x5000_S1x5000_1_0_0_1_n_n.rhsIdx i q 0).val = (q ⟨0, by decide⟩).val :=
  dot_S1x64_S64x5000_S1x5000_1_0_0_1_n_n.rhsIdx_val_of_single rfl i q

/-- The query-by-keys product: the right operand's column coordinate is the result's. -/
theorem dotQK_rhs1 (i : S1x5000.Idx) (q : dot_S1x64_S64x5000_S1x5000_1_0_0_1_n_n.contr.Idx) :
    (dot_S1x64_S64x5000_S1x5000_1_0_0_1_n_n.rhsIdx i q 1).val = (i 1).val := by
  unfold DotDims.rhsIdx
  rw [dif_neg (show ¬(1 : Fin S64x5000.rank) ∈ dot_S1x64_S64x5000_S1x5000_1_0_0_1_n_n.rhsBatch by decide),
    dif_pos (show (1 : Fin S64x5000.rank) ∈ dot_S1x64_S64x5000_S1x5000_1_0_0_1_n_n.rhsNonContracting by decide)]
  rfl

/-- A `[1, 64]` row times a `[64, 5000]` matrix into zero, at column `c`: the sum over the 64 features. -/
theorem matmulQK_apply {φ₁ φ₂ : FTy} (prec : Option ContractPrecision) (x : FVec Ideal S1x64 φ₁) (y : FVec Ideal S64x5000 φ₂)
    (c : Fin 5000) :
    matmul dot_S1x64_S64x5000_S1x5000_1_0_0_1_n_n prec x y (constant (F := Ideal) S1x5000 .f32 0x00000000#32) (ix2 (0 : Fin 1) c)
      = ∑ k : Fin 64, x (ix2 (0 : Fin 1) k) * y (ix2 k c) := by
  refine (Ideal.matmul_constant_zero_apply _ prec x y _).trans ?_
  rw [← Equiv.sum_comp (contrEquiv1 dot_S1x64_S64x5000_S1x5000_1_0_0_1_n_n 64 rfl rfl).symm]
  refine Finset.sum_congr rfl fun k _ => ?_
  have hk := contrEquiv1_symm_val dot_S1x64_S64x5000_S1x5000_1_0_0_1_n_n 64 rfl rfl k
  have el : dot_S1x64_S64x5000_S1x5000_1_0_0_1_n_n.lhsIdx (ix2 (0 : Fin 1) c)
      ((contrEquiv1 dot_S1x64_S64x5000_S1x5000_1_0_0_1_n_n 64 rfl rfl).symm k) = ix2 (0 : Fin 1) k :=
    funext fun a => Fin.ext (by
      match a with
      | ⟨0, _⟩ => exact dotQK_lhs0 _ _
      | ⟨1, _⟩ => exact (dotQK_lhs1 _ _).trans hk)
  have er : dot_S1x64_S64x5000_S1x5000_1_0_0_1_n_n.rhsIdx (ix2 (0 : Fin 1) c)
      ((contrEquiv1 dot_S1x64_S64x5000_S1x5000_1_0_0_1_n_n 64 rfl rfl).symm k) = ix2 k c :=
    funext fun a => Fin.ext (by
      match a with
      | ⟨0, _⟩ => exact (dotQK_rhs0 _ _).trans hk
      | ⟨1, _⟩ => exact dotQK_rhs1 _ _)
  rw [el, er]

/-- The weights-by-values product: the left operand's row coordinate is the result's. -/
theorem dotPV_lhs0 (i : S1x512.Idx) (q : dot_S1x5000_S5000x512_S1x512_1_0_0_1_n_n.contr.Idx) :
    (dot_S1x5000_S5000x512_S1x512_1_0_0_1_n_n.lhsIdx i q 0).val = (i 0).val := by
  unfold DotDims.lhsIdx
  rw [dif_neg (show ¬(0 : Fin S1x5000.rank) ∈ dot_S1x5000_S5000x512_S1x512_1_0_0_1_n_n.lhsBatch by decide),
    dif_pos (show (0 : Fin S1x5000.rank) ∈ dot_S1x5000_S5000x512_S1x512_1_0_0_1_n_n.lhsNonContracting by decide)]
  rfl

/-- The weights-by-values product: the left operand's column coordinate is the contracted one. -/
theorem dotPV_lhs1 (i : S1x512.Idx) (q : dot_S1x5000_S5000x512_S1x512_1_0_0_1_n_n.contr.Idx) :
    (dot_S1x5000_S5000x512_S1x512_1_0_0_1_n_n.lhsIdx i q 1).val = (q ⟨0, by decide⟩).val :=
  dot_S1x5000_S5000x512_S1x512_1_0_0_1_n_n.lhsIdx_val_of_single rfl i q

/-- The weights-by-values product: the right operand's row coordinate is the contracted one. -/
theorem dotPV_rhs0 (i : S1x512.Idx) (q : dot_S1x5000_S5000x512_S1x512_1_0_0_1_n_n.contr.Idx) :
    (dot_S1x5000_S5000x512_S1x512_1_0_0_1_n_n.rhsIdx i q 0).val = (q ⟨0, by decide⟩).val :=
  dot_S1x5000_S5000x512_S1x512_1_0_0_1_n_n.rhsIdx_val_of_single rfl i q

/-- The weights-by-values product: the right operand's column coordinate is the result's. -/
theorem dotPV_rhs1 (i : S1x512.Idx) (q : dot_S1x5000_S5000x512_S1x512_1_0_0_1_n_n.contr.Idx) :
    (dot_S1x5000_S5000x512_S1x512_1_0_0_1_n_n.rhsIdx i q 1).val = (i 1).val := by
  unfold DotDims.rhsIdx
  rw [dif_neg (show ¬(1 : Fin S5000x512.rank) ∈ dot_S1x5000_S5000x512_S1x512_1_0_0_1_n_n.rhsBatch by decide),
    dif_pos (show (1 : Fin S5000x512.rank) ∈ dot_S1x5000_S5000x512_S1x512_1_0_0_1_n_n.rhsNonContracting by decide)]
  rfl

/-- A `[1, 5000]` row times a `[5000, 512]` matrix into zero, at column `c`: the sum over the 5000 rows of the block. -/
theorem matmulPV_apply {φ₁ φ₂ : FTy} (prec : Option ContractPrecision) (x : FVec Ideal S1x5000 φ₁) (y : FVec Ideal S5000x512 φ₂)
    (c : Fin 512) :
    matmul dot_S1x5000_S5000x512_S1x512_1_0_0_1_n_n prec x y (constant (F := Ideal) S1x512 .f32 0x00000000#32) (ix2 (0 : Fin 1) c)
      = ∑ k : Fin 5000, x (ix2 (0 : Fin 1) k) * y (ix2 k c) := by
  refine (Ideal.matmul_constant_zero_apply _ prec x y _).trans ?_
  rw [← Equiv.sum_comp (contrEquiv1 dot_S1x5000_S5000x512_S1x512_1_0_0_1_n_n 5000 rfl rfl).symm]
  refine Finset.sum_congr rfl fun k _ => ?_
  have hk := contrEquiv1_symm_val dot_S1x5000_S5000x512_S1x512_1_0_0_1_n_n 5000 rfl rfl k
  have el : dot_S1x5000_S5000x512_S1x512_1_0_0_1_n_n.lhsIdx (ix2 (0 : Fin 1) c)
      ((contrEquiv1 dot_S1x5000_S5000x512_S1x512_1_0_0_1_n_n 5000 rfl rfl).symm k) = ix2 (0 : Fin 1) k :=
    funext fun a => Fin.ext (by
      match a with
      | ⟨0, _⟩ => exact dotPV_lhs0 _ _
      | ⟨1, _⟩ => exact (dotPV_lhs1 _ _).trans hk)
  have er : dot_S1x5000_S5000x512_S1x512_1_0_0_1_n_n.rhsIdx (ix2 (0 : Fin 1) c)
      ((contrEquiv1 dot_S1x5000_S5000x512_S1x512_1_0_0_1_n_n 5000 rfl rfl).symm k) = ix2 k c :=
    funext fun a => Fin.ext (by
      match a with
      | ⟨0, _⟩ => exact (dotPV_rhs0 _ _).trans hk
      | ⟨1, _⟩ => exact dotPV_rhs1 _ _)
  rw [el, er]

/-! ## The logits of one block -/

/-- The logit of row `r` of the block: twice the inner product of the query with key `r`, minus the sum of the
    squares of key `r` (each square weighted by the word `1.0`, as the body forms it with a product against a row of
    ones). The two words are left as the body spells them. -/
theorem pay8_apply (v3 : Vec Ideal S1x64 .f32) (v5 : Vec Ideal S5000x64 .f32) (r : Fin 5000) :
    k0_pay8 (F := Ideal) v3 v5 (ix2 (0 : Fin 1) r)
      = Ideal.ofBits .f32 0x40000000#32 * (∑ d : Fin 64, v3 (ix2 (0 : Fin 1) d) * v5 (ix2 r d))
        - ∑ d : Fin 64, Ideal.ofBits .f32 0x3F800000#32 * (v5 (ix2 r d) * v5 (ix2 r d)) := by
  unfold k0_pay8
  rw [shapeCast_self]
  refine (subf_apply _ _ _).trans ?_
  refine congrArg₂ (· - ·) ?_ ?_
  · refine (mulf_apply _ _ _).trans ?_
    refine congrArg (Ideal.ofBits .f32 0x40000000#32 * ·) ?_
    refine (matmulQK_apply _ _ _ r).trans ?_
    exact Finset.sum_congr rfl fun d _ =>
      congrArg (v3 (ix2 (0 : Fin 1) d) * ·) (transpose_ix2_apply v5 _ d r)
  · refine (matmulQK_apply _ _ _ r).trans ?_
    refine Finset.sum_congr rfl fun d _ => ?_
    refine congrArg (Ideal.ofBits .f32 0x3F800000#32 * ·) ?_
    exact transpose_ix2_apply _ _ d r

/-- The same with the two words evaluated: `2 * (q · K r) - ∑ d, 1 * (K r d)²`. -/
theorem pay8_apply_two_one (v3 : Vec Ideal S1x64 .f32) (v5 : Vec Ideal S5000x64 .f32) (r : Fin 5000) :
    k0_pay8 (F := Ideal) v3 v5 (ix2 (0 : Fin 1) r)
      = (2 : EReal) * (∑ d : Fin 64, v3 (ix2 (0 : Fin 1) d) * v5 (ix2 r d))
        - ∑ d : Fin 64, (1 : EReal) * (v5 (ix2 r d) * v5 (ix2 r d)) := by
  rw [pay8_apply, ofBits_two, ofBits_one]

/-- … and with the unit factor dropped: `2 * (q · K r) - ∑ d, (K r d)²`. -/
theorem pay8_apply_sq (v3 : Vec Ideal S1x64 .f32) (v5 : Vec Ideal S5000x64 .f32) (r : Fin 5000) :
    k0_pay8 (F := Ideal) v3 v5 (ix2 (0 : Fin 1) r)
      = (2 : EReal) * (∑ d : Fin 64, v3 (ix2 (0 : Fin 1) d) * v5 (ix2 r d))
        - ∑ d : Fin 64, v5 (ix2 r d) * v5 (ix2 r d) := by
  rw [pay8_apply_two_one]
  simp only [one_mul]

/-! ## A one-row matrix reduced along its row -/

/-- Over a `[1, n]` source reduced along axis 1, the source index above the one result index with coordinate `r`
    inserted is `(0, r)`. -/
theorem lift_row {n : ℕ} (h : Shape.Reduces ⟨2, ![1, n]⟩ [1] ⟨1, ![1]⟩) (r : Fin n) :
    h.lift (ix1 (0 : Fin 1)) r = ix2 (0 : Fin 1) r :=
  funext fun a => Fin.ext (by
    match a with
    | ⟨0, _⟩ => rfl
    | ⟨1, _⟩ => rfl)

/-- The row maximum from `-∞`, as the fold of `max` from `⊥` over the row's coordinates. -/
theorem rowMax_fold {n : ℕ} (src : FVec Ideal ⟨2, ![1, n]⟩ .f32) (h : Shape.Reduces ⟨2, ![1, n]⟩ [1] ⟨1, ![1]⟩)
    (hφ : FKind.Formats .f32) (hacc : (0xFF800000#32 : BitVec 32) = FKind.maximumf.neutral .f32 hφ) :
    multiReduction .maximumf [1] ⟨1, ![1]⟩ src 0xFF800000#32 h hφ hacc (ix1 (0 : Fin 1))
      = (Finset.univ : Finset (Fin n)).fold max ⊥ fun r => src (ix2 (0 : Fin 1) r) := by
  refine (Ideal.multiReduction_maximumf_single src _ h hφ hacc (ix1 (0 : Fin 1))).trans ?_
  exact congrArg₂ (fun b f => Finset.fold max b f (Finset.univ : Finset (Fin n))) ofBits_negInf
    (funext fun r => congrArg src (lift_row h r))

/-- The same as a supremum: on the extended reals the fold of `max` from `⊥` is the supremum. -/
theorem rowMax_sup {n : ℕ} (src : FVec Ideal ⟨2, ![1, n]⟩ .f32) (h : Shape.Reduces ⟨2, ![1, n]⟩ [1] ⟨1, ![1]⟩)
    (hφ : FKind.Formats .f32) (hacc : (0xFF800000#32 : BitVec 32) = FKind.maximumf.neutral .f32 hφ) :
    multiReduction .maximumf [1] ⟨1, ![1]⟩ src 0xFF800000#32 h hφ hacc (ix1 (0 : Fin 1))
      = Finset.univ.sup fun r : Fin n => src (ix2 (0 : Fin 1) r) :=
  rowMax_fold src h hφ hacc

/-- The row sum from the zero word: the sum over the row's coordinates. -/
theorem rowSum_apply {n : ℕ} (src : FVec Ideal ⟨2, ![1, n]⟩ .f32) (h : Shape.Reduces ⟨2, ![1, n]⟩ [1] ⟨1, ![1]⟩)
    (hφ : FKind.Formats .f32) (hacc : (0x00000000#32 : BitVec 32) = FKind.add.neutral .f32 hφ) :
    multiReduction .add [1] ⟨1, ![1]⟩ src 0x00000000#32 h hφ hacc (ix1 (0 : Fin 1))
      = ∑ r : Fin n, src (ix2 (0 : Fin 1) r) := by
  refine (Ideal.multiReduction_add_single src _ h hφ hacc (ix1 (0 : Fin 1))).trans ?_
  exact Finset.sum_congr rfl fun r _ => congrArg src (lift_row h r)

/-! ## The raised maximum, the two rescalings, and the new normaliser -/

/-- The raised maximum: the old maximum against the largest logit of the block (fold form). -/
theorem pay9_apply_fold (v3 : Vec Ideal S1x64 .f32) (v5 : Vec Ideal S5000x64 .f32) (v16 : Vec Ideal S1x1 .f32) :
    k0_pay9 (F := Ideal) v3 v5 v16 (ix2 (0 : Fin 1) (0 : Fin 1))
      = max (v16 (ix2 (0 : Fin 1) (0 : Fin 1)))
          ((Finset.univ : Finset (Fin 5000)).fold max ⊥ fun r => k0_pay8 (F := Ideal) v3 v5 (ix2 (0 : Fin 1) r)) := by
  unfold k0_pay9
  refine (maximumf_apply _ _ _).trans ?_
  refine congrArg (max (v16 (ix2 (0 : Fin 1) (0 : Fin 1)))) ?_
  refine (shapeCast_a_1a_apply _ _ (0 : Fin 1) (0 : Fin 1)).trans ?_
  exact rowMax_fold (k0_pay8 (F := Ideal) v3 v5) _ _ _

/-- The raised maximum: the old maximum against the supremum of the block's logits. -/
theorem pay9_apply (v3 : Vec Ideal S1x64 .f32) (v5 : Vec Ideal S5000x64 .f32) (v16 : Vec Ideal S1x1 .f32) :
    k0_pay9 (F := Ideal) v3 v5 v16 (ix2 (0 : Fin 1) (0 : Fin 1))
      = max (v16 (ix2 (0 : Fin 1) (0 : Fin 1)))
          (Finset.univ.sup fun r : Fin 5000 => k0_pay8 (F := Ideal) v3 v5 (ix2 (0 : Fin 1) r)) :=
  pay9_apply_fold v3 v5 v16

/-- The factor that rescales what was accumulated under the old maximum: `exp (m - m')`. -/
theorem pay10_apply (v3 : Vec Ideal S1x64 .f32) (v5 : Vec Ideal S5000x64 .f32) (v16 : Vec Ideal S1x1 .f32) :
    k0_pay10 (F := Ideal) v3 v5 v16 (ix2 (0 : Fin 1) (0 : Fin 1))
      = Ideal.exp (v16 (ix2 (0 : Fin 1) (0 : Fin 1)) - k0_pay9 (F := Ideal) v3 v5 v16 (ix2 (0 : Fin 1) (0 : Fin 1))) := by
  unfold k0_pay10
  rfl

/-- The weight of row `r` under the raised maximum: `exp (s r - m')`. -/
theorem pay11_apply (v3 : Vec Ideal S1x64 .f32) (v5 : Vec Ideal S5000x64 .f32) (v16 : Vec Ideal S1x1 .f32) (r : Fin 5000) :
    k0_pay11 (F := Ideal) v3 v5 v16 (ix2 (0 : Fin 1) r)
      = Ideal.exp (k0_pay8 (F := Ideal) v3 v5 (ix2 (0 : Fin 1) r)
          - k0_pay9 (F := Ideal) v3 v5 v16 (ix2 (0 : Fin 1) (0 : Fin 1))) := by
  unfold k0_pay11
  exact congrArg (fun z => Ideal.exp (k0_pay8 (F := Ideal) v3 v5 (ix2 (0 : Fin 1) r) - z))
    (broadcastTo_11_ab_apply (k0_pay9 (F := Ideal) v3 v5 v16) _ (0 : Fin 1) r)

/-- The new normaliser: the old one rescaled, plus the block's weights summed. -/
theorem pay12_apply (v3 : Vec Ideal S1x64 .f32) (v5 : Vec Ideal S5000x64 .f32) (v16 : Vec Ideal S1x1 .f32)
    (v25 : Vec Ideal S1x1 .f32) :
    k0_pay12 (F := Ideal) v3 v5 v16 v25 (ix2 (0 : Fin 1) (0 : Fin 1))
      = k0_pay10 (F := Ideal) v3 v5 v16 (ix2 (0 : Fin 1) (0 : Fin 1)) * v25 (ix2 (0 : Fin 1) (0 : Fin 1))
        + ∑ r : Fin 5000, k0_pay11 (F := Ideal) v3 v5 v16 (ix2 (0 : Fin 1) r) := by
  unfold k0_pay12
  rw [shapeCast_self]
  refine (addf_apply _ _ _).trans ?_
  refine congrArg₂ (· + ·) (mulf_apply _ _ _) ?_
  refine (shapeCast_a_1a_apply _ _ (0 : Fin 1) (0 : Fin 1)).trans ?_
  exact rowSum_apply (k0_pay11 (F := Ideal) v3 v5 v16) _ _ _

/-! ## The new weighted sum -/

/-- The new weighted sum at column `h`: the old one rescaled, plus the block's values weighted and summed (the two
    narrowing format changes in front of the product are the identity on extended reals). -/
theorem pay1_apply (v6 : Vec Ideal S5000x512 .f32) (v21 : FVec Ideal S1x1 .f32) (v24 : FVec Ideal S1x5000 .f32)
    (v33 : Vec Ideal S1x512 .f32) (h : Fin 512) :
    k0_pay1 (F := Ideal) v6 v21 v24 v33 (ix2 (0 : Fin 1) h)
      = v21 (ix2 (0 : Fin 1) (0 : Fin 1)) * v33 (ix2 (0 : Fin 1) h)
        + ∑ r : Fin 5000, v24 (ix2 (0 : Fin 1) r) * v6 (ix2 r h) := by
  unfold k0_pay1
  rw [shapeCast_self]
  refine (addf_apply _ _ _).trans ?_
  refine congrArg₂ (· + ·) ?_ ?_
  · refine (mulf_apply _ _ _).trans ?_
    exact congrArg (· * v33 (ix2 (0 : Fin 1) h)) (broadcastTo_11_ab_apply v21 _ (0 : Fin 1) h)
  · refine (matmulPV_apply none _ _ h).trans ?_
    exact Finset.sum_congr rfl fun r _ => rfl

end Cert.KernelIdeal.Arith

end
-- ==== Proof.LibRunningSoftmax.lean ====
/-
  GENERAL LEMMAS — the online (block by block) softmax statistics equal the one-shot statistics, on the extended reals.

  For a sequence g weighted by w, `colRun B g w s` is the pair (running maximum M, running sum S of w n · exp (g n − M))
  after s consecutive blocks of B entries, each block raising the maximum to M' and rescaling the old sum by
  exp (M − M') before adding its own terms — the accumulation a flash-attention-style kernel carries in scratch across
  grid points. Main theorems: `colRun_eq_range` (the invariant after s blocks, sums over Finset.range, summand w · exp),
  `colRun_eq_oneShot` / `colRun_eq_oneShot_of_eq` (after J blocks of B entries with J·B = N: the supremum over Fin N and
  ∑ exp (g − sup) · w), for g real-valued below J·B and ANY extended-real weights w (a nonnegative real factor distributes
  over a finite sum of extended reals), any J and 0 < B. Supporting: `sup_range_add`, `sup_univ_eq_sup_range`,
  `sup_range_real`, `exp_sub_mul_exp_sub`, `sum_mul_coe_of_nonneg`, `sum_rescale_exp`.
-/
import Idealize.ShloMosaic.PureOps.Ideal
import Mathlib.Algebra.BigOperators.Fin
import Mathlib.Data.EReal.Operations

noncomputable section

namespace Idealize.ShloMosaic.RunningSoftmax

/-- Running statistics over consecutive blocks of `B` entries of a sequence `g` weighted by `w`: after `s` blocks, the running
    maximum and the running weighted sum of exponentials taken relative to that maximum. Each block raises the maximum to
    `M'`, rescales the old sum by `exp (M − M')` and adds the block's own terms. -/
def colRun (B : ℕ) (g w : ℕ → EReal) : ℕ → EReal × EReal
  | 0 => (⊥, 0)
  | s + 1 =>
    let p := colRun B g w s
    let M' := max p.1 (Finset.univ.sup fun r : Fin B => g (s * B + r.val))
    (M', p.2 * Ideal.exp (p.1 - M') + ∑ r : Fin B, w (s * B + r.val) * Ideal.exp (g (s * B + r.val) - M'))

open Finset Idealize.ShloMosaic

/-- The supremum over the naturals below a + B is the supremum below a joined with that of the block a, …, a + B − 1. -/
theorem sup_range_add (g : ℕ → EReal) (a B : ℕ) :
    (range (a + B)).sup g = (range a).sup g ⊔ univ.sup (fun r : Fin B => g (a + r.val)) := by
  apply le_antisymm
  · apply Finset.sup_le
    intro n hn
    have hn' : n < a + B := mem_range.mp hn
    by_cases hlt : n < a
    · exact le_sup_of_le_left (Finset.le_sup (f := g) (mem_range.mpr hlt))
    · have hb : n - a < B := by omega
      have e : n = a + (⟨n - a, hb⟩ : Fin B).val := by show n = a + (n - a); omega
      refine le_sup_of_le_right ?_
      rw [e]
      exact Finset.le_sup (f := fun r : Fin B => g (a + r.val)) (mem_univ (⟨n - a, hb⟩ : Fin B))
  · apply sup_le
    · apply Finset.sup_le
      intro n hn
      have hn' : n < a := mem_range.mp hn
      exact Finset.le_sup (f := g) (mem_range.mpr (by omega))
    · apply Finset.sup_le
      intro r _
      exact Finset.le_sup (f := g) (mem_range.mpr (by have := r.isLt; omega))

/-- A supremum over Fin N of a sequence read at the index's value is the supremum over the naturals below N. -/
theorem sup_univ_eq_sup_range (g : ℕ → EReal) (N : ℕ) :
    univ.sup (fun i : Fin N => g i.val) = (range N).sup g := by
  apply le_antisymm
  · exact Finset.sup_le fun i _ => Finset.le_sup (f := g) (mem_range.mpr i.isLt)
  · exact Finset.sup_le fun n hn =>
      Finset.le_sup (f := fun i : Fin N => g i.val) (mem_univ (⟨n, mem_range.mp hn⟩ : Fin N))

/-- A finite nonempty supremum of real numbers is a real number. -/
theorem sup_range_real (g : ℕ → EReal) (N : ℕ) (hN : 0 < N) (hg : ∀ n < N, ∃ r : ℝ, g n = (r : EReal)) :
    ∃ m : ℝ, (range N).sup g = (m : EReal) := by
  obtain ⟨i, hi, h⟩ := Finset.exists_mem_eq_sup (range N) ⟨0, mem_range.mpr hN⟩ g
  obtain ⟨r, hr⟩ := hg i (mem_range.mp hi)
  exact ⟨r, h.trans hr⟩

/-- exp (x − m) · exp (m − m') = exp (x − m') for real m, m' and any extended real x. -/
theorem exp_sub_mul_exp_sub (x : EReal) (m m' : ℝ) :
    Ideal.exp (x - (m : EReal)) * Ideal.exp ((m : EReal) - (m' : EReal)) = Ideal.exp (x - (m' : EReal)) := by
  induction x using EReal.rec with
  | bot => rw [EReal.bot_sub, EReal.bot_sub, Ideal.exp_bot, zero_mul]
  | coe x =>
    rw [← EReal.coe_sub, ← EReal.coe_sub, ← EReal.coe_sub, Ideal.exp_coe, Ideal.exp_coe, Ideal.exp_coe,
      ← EReal.coe_mul, ← Real.exp_add]
    congr 2
    ring
  | top =>
    rw [EReal.top_sub_coe, EReal.top_sub_coe, Ideal.exp_top, ← EReal.coe_sub, Ideal.exp_coe,
      EReal.top_mul_coe_of_pos (Real.exp_pos _)]

/-- A nonnegative real factor distributes over a finite sum of extended reals. -/
theorem sum_mul_coe_of_nonneg {ι : Type*} (t : Finset ι) (a : ι → EReal) (c : ℝ) (hc : 0 ≤ c) :
    (∑ n ∈ t, a n) * (c : EReal) = ∑ n ∈ t, a n * (c : EReal) := by
  classical
  induction t using Finset.induction_on with
  | empty => simp
  | insert i t hi ih =>
    rw [Finset.sum_insert hi, Finset.sum_insert hi,
      EReal.right_distrib_of_nonneg_of_ne_top (EReal.coe_nonneg.mpr hc) (EReal.coe_ne_top c), ih]

/-- The sum of w n · exp (g n − m), brought from the real maximum m to the real maximum m'. -/
theorem sum_rescale_exp {ι : Type*} (t : Finset ι) (g w : ι → EReal) (m m' : ℝ) :
    (∑ n ∈ t, w n * Ideal.exp (g n - (m : EReal))) * Ideal.exp ((m : EReal) - (m' : EReal))
      = ∑ n ∈ t, w n * Ideal.exp (g n - (m' : EReal)) := by
  rw [← EReal.coe_sub, Ideal.exp_coe, sum_mul_coe_of_nonneg t _ _ (Real.exp_pos _).le]
  refine Finset.sum_congr rfl fun n _ => ?_
  rw [mul_assoc, ← Ideal.exp_coe, EReal.coe_sub, exp_sub_mul_exp_sub]

/-- After s blocks the recurrence holds the supremum and the weighted sum of exponentials of the entries below
    s · B, provided those entries of g are real numbers. -/
theorem colRun_eq_range (B : ℕ) (hB : 0 < B) (g w : ℕ → EReal) (s : ℕ)
    (hg : ∀ n < s * B, ∃ r : ℝ, g n = (r : EReal)) :
    colRun B g w s
      = ((range (s * B)).sup g, ∑ n ∈ range (s * B), w n * Ideal.exp (g n - (range (s * B)).sup g)) := by
  induction s with
  | zero => simp [colRun]
  | succ s ih =>
    have hle : s * B ≤ (s + 1) * B := Nat.mul_le_mul_right B (Nat.le_succ s)
    have ih' := ih fun n hn => hg n (lt_of_lt_of_le hn hle)
    have hM : max ((range (s * B)).sup g) (univ.sup fun r : Fin B => g (s * B + r.val))
        = (range ((s + 1) * B)).sup g := by
      rw [Nat.succ_mul, sup_range_add]
    show (let p := colRun B g w s
          let M' := max p.1 (univ.sup fun r : Fin B => g (s * B + r.val))
          (M', p.2 * Ideal.exp (p.1 - M') + ∑ r : Fin B, w (s * B + r.val) * Ideal.exp (g (s * B + r.val) - M'))) = _
    rw [ih']
    simp only []
    rw [hM]
    refine Prod.ext rfl ?_
    show (∑ n ∈ range (s * B), w n * Ideal.exp (g n - (range (s * B)).sup g))
          * Ideal.exp ((range (s * B)).sup g - (range ((s + 1) * B)).sup g)
        + ∑ r : Fin B, w (s * B + r.val) * Ideal.exp (g (s * B + r.val) - (range ((s + 1) * B)).sup g)
        = ∑ n ∈ range ((s + 1) * B), w n * Ideal.exp (g n - (range ((s + 1) * B)).sup g)
    obtain ⟨m', hm'⟩ := sup_range_real g ((s + 1) * B) (Nat.mul_pos (Nat.succ_pos s) hB) hg
    rw [hm']
    have hsplit : ∑ n ∈ range ((s + 1) * B), w n * Ideal.exp (g n - (m' : EReal))
        = ∑ n ∈ range (s * B), w n * Ideal.exp (g n - (m' : EReal))
          + ∑ r : Fin B, w (s * B + r.val) * Ideal.exp (g (s * B + r.val) - (m' : EReal)) := by
      rw [Nat.succ_mul, Finset.sum_range_add]
      congr 1
      exact Finset.sum_range fun x => w (s * B + x) * Ideal.exp (g (s * B + x) - (m' : EReal))
    rw [hsplit]
    congr 1
    rcases Nat.eq_zero_or_pos s with hs | hs
    · subst hs
      simp
    · obtain ⟨m, hm⟩ := sup_range_real g (s * B) (Nat.mul_pos hs hB)
        (fun n hn => hg n (lt_of_lt_of_le hn hle))
      rw [hm]
      exact sum_rescale_exp _ g w m m'

/-- The running column statistics after J blocks of B entries are the one-shot maximum and the one-shot weighted sum
    of exponentials over all J · B entries, when those entries of g are real numbers. -/
theorem colRun_eq_oneShot (J B : ℕ) (hB : 0 < B) (g w : ℕ → EReal)
    (hg : ∀ n < J * B, ∃ r : ℝ, g n = (r : EReal)) :
    colRun B g w J
      = (univ.sup (fun i : Fin (J * B) => g i.val),
         ∑ i : Fin (J * B), Ideal.exp (g i.val - univ.sup (fun i : Fin (J * B) => g i.val)) * w i.val) := by
  rw [colRun_eq_range B hB g w J hg, sup_univ_eq_sup_range]
  refine Prod.ext rfl ?_
  show ∑ n ∈ range (J * B), w n * Ideal.exp (g n - (range (J * B)).sup g)
      = ∑ i : Fin (J * B), Ideal.exp (g i.val - (range (J * B)).sup g) * w i.val
  rw [Finset.sum_range]
  exact Finset.sum_congr rfl fun i _ => mul_comm _ _

/-- The same with the number of entries named: N = J · B. -/
theorem colRun_eq_oneShot_of_eq (J B N : ℕ) (hN : J * B = N) (hB : 0 < B) (g w : ℕ → EReal)
    (hg : ∀ n < N, ∃ r : ℝ, g n = (r : EReal)) :
    colRun B g w J
      = (univ.sup (fun i : Fin N => g i.val),
         ∑ i : Fin N, Ideal.exp (g i.val - univ.sup (fun i : Fin N => g i.val)) * w i.val) := by
  subst hN
  exact colRun_eq_oneShot J B hB g w hg

/-- Four blocks of 512 entries: the running statistics are the one-shot statistics over the 2048 entries. -/
theorem colRun_four_blocks (g w : ℕ → EReal) (hg : ∀ n < 2048, ∃ r : ℝ, g n = (r : EReal)) :
    colRun 512 g w 4
      = (univ.sup (fun i : Fin 2048 => g i.val),
         ∑ i : Fin 2048, Ideal.exp (g i.val - univ.sup (fun i : Fin 2048 => g i.val)) * w i.val) :=
  colRun_eq_oneShot_of_eq 4 512 2048 (by norm_num) (by norm_num) g w hg

end Idealize.ShloMosaic.RunningSoftmax

end
-- ==== Proof.ColRunStep.lean ====
/-
  One block's update of the running softmax statistics IS one step of the block recurrence.

  For a sequence of logits g weighted by w, the recurrence carries, after s blocks of B entries, the running maximum M
  and the running sum S of w n * exp (g n - M); a block raises M to M' = max M (the block's largest logit) and replaces
  S by S * exp (M - M') + (the sum over the block of w n * exp (g n - M')). When the logits of block k are the entries
  g (k * 5000 + r) and the statistics before the block are the recurrence's after k blocks, the raised maximum, the new
  normaliser (weights all 1) and each column of the new weighted sum (weights that column of the values) are the
  recurrence's after k + 1 blocks. The body multiplies in the other order (exp (M - M') * S, and exp (..) * value), so
  the step is the commutativity of the product on the extended reals, and 1 * x = x for the normaliser's weights. The
  reset values are the recurrence's start (-∞, 0).
-/
import proofs.«149342_j75737453298419_2_alg».proof.Proof.BlockUpdate
import proofs.«149342_j75737453298419_2_alg».proof.Proof.BlockArithmetic
import proofs.«149342_j75737453298419_2_alg».proof.Proof.LibRunningSoftmax

noncomputable section

open scoped BigOperators

namespace Cert.KernelIdeal.Arith

open Cert.KernelIdeal Cert.KernelIdeal.Gen Cert.KernelIdeal.Hand Idealize.ShloMosaic Idealize.ShloMosaic.ValueIdx
open Idealize.ShloMosaic.RunningSoftmax

/-! ## The recurrence's two equations, componentwise -/

/-- Before any block: the maximum is `-∞` and the sum is zero. -/
theorem colRun_zero (B : ℕ) (g w : ℕ → EReal) : colRun B g w 0 = (⊥, 0) := rfl

/-- A block raises the maximum to the larger of the old one and the block's supremum. -/
theorem colRun_succ_fst (B : ℕ) (g w : ℕ → EReal) (s : ℕ) :
    (colRun B g w (s + 1)).1 = max (colRun B g w s).1 (Finset.univ.sup fun r : Fin B => g (s * B + r.val)) := rfl

/-- … and replaces the sum by the old one rescaled to the new maximum plus the block's own terms. -/
theorem colRun_succ_snd (B : ℕ) (g w : ℕ → EReal) (s : ℕ) :
    (colRun B g w (s + 1)).2
      = (colRun B g w s).2 * Ideal.exp ((colRun B g w s).1 - (colRun B g w (s + 1)).1)
        + ∑ r : Fin B, w (s * B + r.val) * Ideal.exp (g (s * B + r.val) - (colRun B g w (s + 1)).1) := rfl

/-- The two together: the successor equation of the recurrence. -/
theorem colRun_succ (B : ℕ) (g w : ℕ → EReal) (s : ℕ) :
    colRun B g w (s + 1)
      = (max (colRun B g w s).1 (Finset.univ.sup fun r : Fin B => g (s * B + r.val)),
         (colRun B g w s).2 * Ideal.exp ((colRun B g w s).1 - (colRun B g w (s + 1)).1)
           + ∑ r : Fin B, w (s * B + r.val) * Ideal.exp (g (s * B + r.val) - (colRun B g w (s + 1)).1)) := rfl

/-- The running maximum does not depend on the weights. -/
theorem colRun_fst_indep (B : ℕ) (g w w' : ℕ → EReal) (s : ℕ) : (colRun B g w s).1 = (colRun B g w' s).1 := by
  induction s with
  | zero => rfl
  | succ s ih => rw [colRun_succ_fst, colRun_succ_fst, ih]

/-! ## The start -/

/-- The maximum is reset to the recurrence's starting maximum. -/
theorem pay5_start (g w : ℕ → EReal) :
    k0_pay5 (F := Ideal) (ix2 (0 : Fin 1) (0 : Fin 1)) = (colRun 5000 g w 0).1 := pay5_apply

/-- The normaliser is reset to the recurrence's starting sum. -/
theorem pay6_start (g w : ℕ → EReal) :
    k0_pay6 (F := Ideal) (ix2 (0 : Fin 1) (0 : Fin 1)) = (colRun 5000 g w 0).2 := pay6_apply

/-- Each column of the weighted sum is reset to the recurrence's starting sum. -/
theorem pay7_start (g w : ℕ → EReal) (h : Fin 512) :
    k0_pay7 (F := Ideal) (ix2 (0 : Fin 1) h) = (colRun 5000 g w 0).2 := pay7_apply h

/-! ## One block -/

/-- When the block's logits are the entries `g (k * 5000 + r)` and the old maximum is the recurrence's after `k`
    blocks, the raised maximum is the recurrence's after `k + 1` blocks. -/
theorem pay9_eq_colRun (x0 : Vec Ideal S1x64 .f32) (x1 : Vec Ideal S5000x64 .f32) (s0 : Vec Ideal S1x1 .f32)
    (g w : ℕ → EReal) (k : ℕ)
    (hg : ∀ r : Fin 5000, k0_pay8 (F := Ideal) x0 x1 (ix2 (0 : Fin 1) r) = g (k * 5000 + r.val))
    (hM : s0 (ix2 (0 : Fin 1) (0 : Fin 1)) = (colRun 5000 g w k).1) :
    k0_pay9 (F := Ideal) x0 x1 s0 (ix2 (0 : Fin 1) (0 : Fin 1)) = (colRun 5000 g w (k + 1)).1 := by
  rw [pay9_apply, hM, colRun_succ_fst]
  exact congrArg (max (colRun 5000 g w k).1) (congrArg Finset.univ.sup (funext hg))

/-- (1) The stored maximum after the block. -/
theorem nextM_apply (x0 : Vec Ideal S1x64 .f32) (x1 : Vec Ideal S5000x64 .f32) (s0 : Vec Ideal S1x1 .f32)
    (g w : ℕ → EReal) (k : ℕ)
    (hg : ∀ r : Fin 5000, k0_pay8 (F := Ideal) x0 x1 (ix2 (0 : Fin 1) r) = g (k * 5000 + r.val))
    (hM : s0 (ix2 (0 : Fin 1) (0 : Fin 1)) = (colRun 5000 g w k).1) :
    nextM (F := Ideal) x0 x1 s0 (ix2 (0 : Fin 1) (0 : Fin 1)) = (colRun 5000 g w (k + 1)).1 := by
  unfold nextM
  rw [pay2_eq]
  exact pay9_eq_colRun x0 x1 s0 g w k hg hM

/-- (2) The normaliser after the block: the recurrence with every weight `1`. -/
theorem nextL_apply (x0 : Vec Ideal S1x64 .f32) (x1 : Vec Ideal S5000x64 .f32) (s0 s1 : Vec Ideal S1x1 .f32)
    (g w : ℕ → EReal) (k : ℕ)
    (hg : ∀ r : Fin 5000, k0_pay8 (F := Ideal) x0 x1 (ix2 (0 : Fin 1) r) = g (k * 5000 + r.val))
    (hM : s0 (ix2 (0 : Fin 1) (0 : Fin 1)) = (colRun 5000 g w k).1)
    (hL : s1 (ix2 (0 : Fin 1) (0 : Fin 1)) = (colRun 5000 g (fun _ => 1) k).2) :
    nextL (F := Ideal) x0 x1 s0 s1 (ix2 (0 : Fin 1) (0 : Fin 1)) = (colRun 5000 g (fun _ => 1) (k + 1)).2 := by
  have hM1 : s0 (ix2 (0 : Fin 1) (0 : Fin 1)) = (colRun 5000 g (fun _ => 1) k).1 :=
    hM.trans (colRun_fst_indep 5000 g w (fun _ => 1) k)
  have h9 := pay9_eq_colRun x0 x1 s0 g (fun _ => 1) k hg hM1
  unfold nextL
  rw [pay12_apply, pay10_apply, h9, hM1, hL, colRun_succ_snd 5000 g (fun _ => 1) k]
  refine congrArg₂ (· + ·) (mul_comm _ _) (Finset.sum_congr rfl fun r _ => ?_)
  rw [pay11_apply, h9, hg r]
  exact (one_mul _).symm

/-- (3) Column `h` of the weighted sum after the block: the recurrence weighted by that column of the values. -/
theorem nextAcc_apply (x0 : Vec Ideal S1x64 .f32) (x1 : Vec Ideal S5000x64 .f32) (x2 : Vec Ideal S5000x512 .f32)
    (s0 : Vec Ideal S1x1 .f32) (s2 : Vec Ideal S1x512 .f32) (g w : ℕ → EReal) (k : ℕ) (h : Fin 512)
    (hg : ∀ r : Fin 5000, k0_pay8 (F := Ideal) x0 x1 (ix2 (0 : Fin 1) r) = g (k * 5000 + r.val))
    (hM : s0 (ix2 (0 : Fin 1) (0 : Fin 1)) = (colRun 5000 g w k).1)
    (hw : ∀ r : Fin 5000, x2 (ix2 r h) = w (k * 5000 + r.val))
    (hA : s2 (ix2 (0 : Fin 1) h) = (colRun 5000 g w k).2) :
    nextAcc (F := Ideal) x0 x1 x2 s0 s2 (ix2 (0 : Fin 1) h) = (colRun 5000 g w (k + 1)).2 := by
  have h9 := pay9_eq_colRun x0 x1 s0 g w k hg hM
  unfold nextAcc
  rw [pay1_apply, pay10_apply, h9, hM, hA, colRun_succ_snd 5000 g w k]
  refine congrArg₂ (· + ·) (mul_comm _ _) (Finset.sum_congr rfl fun r _ => ?_)
  rw [pay11_apply, h9, hg r, hw r]
  exact mul_comm _ _

end Cert.KernelIdeal.Arith

end
-- ==== Proof.RetrievalSpec.lean ====
/-
  The retrieval stage as a function of a feature vector, a table of keys and a table of values, on the extended reals.

  For a feature vector f of D entries, N keys K_j (rows of D entries) and N values V_j (rows of H entries):
  the logit of row j is 2·⟨f, K_j⟩ − ⟨1, K_j∘K_j⟩ (minus the squared distance |f − K_j|², up to the term |f|² common to all
  rows), and the retrieved value at column h is the softmax-weighted mean
      (Σ_j exp (logit_j − sup logit)·V_j,h) / (Σ_j exp (logit_j − sup logit)).
-/
import Idealize.ShloMosaic.PureOps.Ideal
import Mathlib.Algebra.BigOperators.Fin
import Mathlib.Data.EReal.Operations

noncomputable section

namespace Cert.Retrieval

open Idealize.ShloMosaic

/-- The logit of key row j: 2·⟨f, K_j⟩ − ⟨1, K_j∘K_j⟩. -/
def logit {N D : ℕ} (f : Fin D → EReal) (K : Fin N → Fin D → EReal) (j : Fin N) : EReal :=
  (2 : EReal) * (∑ d, f d * K j d) - ∑ d, (1 : EReal) * (K j d * K j d)

/-- The softmax-weighted mean of the value rows at column h, weights exp (logit − sup logit). -/
def oneShot {N D H : ℕ} (f : Fin D → EReal) (K : Fin N → Fin D → EReal) (V : Fin N → Fin H → EReal) (h : Fin H) : EReal :=
  Ideal.div (∑ j, Ideal.exp (logit f K j - Finset.univ.sup (logit f K)) * V j h)
    (∑ j, Ideal.exp (logit f K j - Finset.univ.sup (logit f K)))

end Cert.Retrieval

end
-- ==== Proof.HalfRun.lean ====
/-
  The running statistics of a half, at the ideal instance.  Number the rows of half q from its first row: row n of the
  half is row 50000·q + n of the memory, its logit 2·⟨query, key⟩ − ⟨1, key∘key⟩.  The point 10·q + k reads rows
  5000·k … 5000·k + 4999 of the half.  By induction on k the three scratch buffers after that point hold the online
  softmax recurrence after k + 1 blocks: the maximum of the logits seen, and the sums of exp(logit − maximum) with
  weight 1 (the normaliser) and with weight a column of the values (the weighted sum) — each block raising the maximum,
  rescaling the old sum and adding its own terms, from the start (−∞, 0, 0) that the first block's reset stores.
-/
import proofs.«149342_j75737453298419_2_alg».proof.Proof.Pieces
import proofs.«149342_j75737453298419_2_alg».proof.Proof.InputBlocks
import proofs.«149342_j75737453298419_2_alg».proof.Proof.ColRunStep
import proofs.«149342_j75737453298419_2_alg».proof.Proof.RetrievalSpec

set_option maxRecDepth 16384

noncomputable section

namespace Cert.KernelIdeal.Hand

open Cert.KernelIdeal Cert.KernelIdeal.Gen Cert.KernelIdeal.Arith
open Idealize.ShloMosaic Idealize.ShloMosaic.TcCoe Idealize.ShloMosaic.ValueIdx Idealize.ShloMosaic.RunningSoftmax
open Idealize.SL Idealize.SL.Sem
open Idealize.ShloMosaic.Pipeline (Dat Cfg Window)

variable (m : (ℓ : Loc nD τ sig) → Buf (Elt Ideal) ℓ) (ρ : Dev nD → PrngReg)

/-- The query, the keys and the values as the region finds them, by coordinates. -/
def qry (c : Dev nD) : Fin 64 → EReal := fun d => V m c main_v9 (ix2 (0 : Fin 1) d)
def keyM (c : Dev nD) : Fin 100000 → Fin 64 → EReal := fun j d => V m c main_arg5 (ix2 j d)
def valM (c : Dev nD) : Fin 100000 → Fin 512 → EReal := fun j h => V m c main_arg6 (ix2 j h)

/-- Row n's logit, for any natural n (zero past the last row, which no block reads). -/
def lgN (c : Dev nD) (n : ℕ) : EReal := if h : n < 100000 then Cert.Retrieval.logit (qry m c) (keyM m c) ⟨n, h⟩ else 0
/-- Row n's value in column h, likewise. -/
def vN (c : Dev nD) (h : Fin 512) (n : ℕ) : EReal := if hn : n < 100000 then valM m c ⟨n, hn⟩ h else 0
/-- The logits and a column of values of half q, counted from the half's first row. -/
def gq (c : Dev nD) (q : ℕ) : ℕ → EReal := fun n => lgN m c (50000 * q + n)
def vq (c : Dev nD) (q : ℕ) (h : Fin 512) : ℕ → EReal := fun n => vN m c h (50000 * q + n)

/-- The logits row a point computes is the logits of the rows its block of keys holds. -/
theorem logits_block (c : Dev nD) (t : Fin cfg0.N) (r : Fin 5000) :
    k0_pay8 (F := Ideal) (iblk m c 0 t) (iblk m c 1 t) (ix2 (0 : Fin 1) r) = lgN m c (5000 * t.val + r.val) := by
  have hb : 5000 * t.val + r.val < 100000 := by have := N20 t; omega
  refine (pay8_apply_two_one (iblk m c 0 t) (iblk m c 1 t) r).trans ?_
  unfold lgN
  rw [dif_pos hb]
  unfold Cert.Retrieval.logit qry keyM
  simp only [iblk0_apply, iblk1_apply]

/-- A point's block of values holds the values of the same rows. -/
theorem vals_block (c : Dev nD) (t : Fin cfg0.N) (r : Fin 5000) (h : Fin 512) :
    iblk m c 2 t (ix2 r h) = vN m c h (5000 * t.val + r.val) := by
  have hb : 5000 * t.val + r.val < 100000 := by have := N20 t; omega
  rw [iblk2_apply]
  unfold vN valM
  rw [dif_pos hb]

theorem outsAt0_congr (c : Dev nD) {n n' : ℕ} (e : n = n') (hn : n < cfg0.N) (hn' : n' < cfg0.N) :
    outsAt0 m c n hn = outsAt0 m c n' hn' := by subst e; rfl

theorem lt_N (q k : ℕ) (hq : q < 2) (hk : k < 10) : 10 * q + k < cfg0.N := by
  rw [show cfg0.N = 20 from N_0]; omega

/-- THE INVARIANT: after point 10·q + k the scratch buffers hold the recurrence of half q after k + 1 blocks. -/
theorem half_inv (c : Dev nD) (q : ℕ) (hq : q < 2) : ∀ (k : ℕ) (hk : k < 10),
    (∀ w : ℕ → EReal, (outsAt0 m c (10 * q + k) (lt_N q k hq hk)).s0 (ix2 (0 : Fin 1) (0 : Fin 1)) = (colRun 5000 (gq m c q) w (k + 1)).1)
    ∧ (outsAt0 m c (10 * q + k) (lt_N q k hq hk)).s1 (ix2 (0 : Fin 1) (0 : Fin 1)) = (colRun 5000 (gq m c q) (fun _ => 1) (k + 1)).2
    ∧ ∀ h : Fin 512, (outsAt0 m c (10 * q + k) (lt_N q k hq hk)).s2 (ix2 (0 : Fin 1) h) = (colRun 5000 (gq m c q) (vq m c q h) (k + 1)).2 := by
  intro k
  induction k with
  | zero =>
    intro hk
    let t : Fin cfg0.N := ⟨10 * q + 0, lt_N q 0 hq hk⟩
    have h0 : t.val % 10 = 0 := by show (10 * q + 0) % 10 = 0; omega
    have h1 : ¬t.val % 10 = 9 := by show ¬(10 * q + 0) % 10 = 9; omega
    have hg : ∀ r : Fin 5000, k0_pay8 (F := Ideal) (iblk m c 0 t) (iblk m c 1 t) (ix2 (0 : Fin 1) r) = gq m c q (0 * 5000 + r.val) := fun r => by
      rw [logits_block]; unfold gq; congr 1; show 5000 * (10 * q + 0) + r.val = _; omega
    have hv : ∀ (h : Fin 512) (r : Fin 5000), iblk m c 2 t (ix2 r h) = vq m c q h (0 * 5000 + r.val) := fun h r => by
      rw [vals_block]; unfold vq; congr 1; show 5000 * (10 * q + 0) + r.val = _; omega
    have e := outsAt0_A m c t h0 h1
    rw [stepA_eq] at e
    have es : outsAt0 m c (10 * q + 0) (lt_N q 0 hq hk) = _ := e
    rw [es]
    refine ⟨fun w => ?_, ?_, fun h => ?_⟩
    · exact nextM_apply (iblk m c 0 t) (iblk m c 1 t) _ (gq m c q) w 0 hg (pay5_start _ _)
    · exact nextL_apply (iblk m c 0 t) (iblk m c 1 t) _ _ (gq m c q) (fun _ => 1) 0 hg (pay5_start _ _) (pay6_start _ _)
    · exact nextAcc_apply (iblk m c 0 t) (iblk m c 1 t) (iblk m c 2 t) _ _ (gq m c q) (vq m c q h) 0 h hg (pay5_start _ _) (hv h) (pay7_start _ _ h)
  | succ k ih =>
    intro hk
    obtain ⟨iM, iL, iA⟩ := ih (by omega)
    let t : Fin cfg0.N := ⟨10 * q + (k + 1), lt_N q (k + 1) hq hk⟩
    have h0 : ¬t.val % 10 = 0 := by show ¬(10 * q + (k + 1)) % 10 = 0; omega
    have hg : ∀ r : Fin 5000, k0_pay8 (F := Ideal) (iblk m c 0 t) (iblk m c 1 t) (ix2 (0 : Fin 1) r) = gq m c q ((k + 1) * 5000 + r.val) := fun r => by
      rw [logits_block]; unfold gq; congr 1; show 5000 * (10 * q + (k + 1)) + r.val = _; omega
    have hv : ∀ (h : Fin 512) (r : Fin 5000), iblk m c 2 t (ix2 r h) = vq m c q h ((k + 1) * 5000 + r.val) := fun h r => by
      rw [vals_block]; unfold vq; congr 1; show 5000 * (10 * q + (k + 1)) + r.val = _; omega
    have hprev : outsAt0 m c (t.val - 1) (Nat.lt_of_le_of_lt (Nat.sub_le _ _) t.isLt) = outsAt0 m c (10 * q + k) (lt_N q k hq (by omega)) :=
      outsAt0_congr m c (by show 10 * q + (k + 1) - 1 = 10 * q + k; omega) _ _
    by_cases h1 : t.val % 10 = 9
    · have e := outsAt0_C m c t h0 h1
      rw [stepC_eq, hprev] at e
      have es : outsAt0 m c (10 * q + (k + 1)) (lt_N q (k + 1) hq hk) = _ := e
      rw [es]
      refine ⟨fun w => ?_, ?_, fun h => ?_⟩
      · exact nextM_apply (iblk m c 0 t) (iblk m c 1 t) _ (gq m c q) w (k + 1) hg (iM w)
      · exact nextL_apply (iblk m c 0 t) (iblk m c 1 t) _ _ (gq m c q) (fun _ => 1) (k + 1) hg (iM _) iL
      · exact nextAcc_apply (iblk m c 0 t) (iblk m c 1 t) (iblk m c 2 t) _ _ (gq m c q) (vq m c q h) (k + 1) h hg (iM _) (hv h) (iA h)
    · have e := outsAt0_B m c t h0 h1
      rw [stepB_eq, hprev] at e
      have es : outsAt0 m c (10 * q + (k + 1)) (lt_N q (k + 1) hq hk) = _ := e
      rw [es]
      refine ⟨fun w => ?_, ?_, fun h => ?_⟩
      · exact nextM_apply (iblk m c 0 t) (iblk m c 1 t) _ (gq m c q) w (k + 1) hg (iM w)
      · exact nextL_apply (iblk m c 0 t) (iblk m c 1 t) _ _ (gq m c q) (fun _ => 1) (k + 1) hg (iM _) iL
      · exact nextAcc_apply (iblk m c 0 t) (iblk m c 1 t) (iblk m c 2 t) _ _ (gq m c q) (vq m c q h) (k + 1) h hg (iM _) (hv h) (iA h)

/-- What the last block of half q leaves in the three result windows, read where the later lines read it. -/
theorem half_results (c : Dev nD) (q : ℕ) (hq : q < 2) :
    (∀ h : Fin 512, (outsAt0 m c (10 * q + 9) (lt_N q 9 hq (by omega))).o3 (ix2 (0 : Fin 1) h) = (colRun 5000 (gq m c q) (vq m c q h) 10).2)
    ∧ (∀ l : Fin 128, (outsAt0 m c (10 * q + 9) (lt_N q 9 hq (by omega))).o4 (ix2 (0 : Fin 1) l) = (colRun 5000 (gq m c q) (fun _ => 1) 10).2)
    ∧ (∀ (l : Fin 128) (w : ℕ → EReal), (outsAt0 m c (10 * q + 9) (lt_N q 9 hq (by omega))).o5 (ix2 (0 : Fin 1) l) = (colRun 5000 (gq m c q) w 10).1) := by
  let t : Fin cfg0.N := ⟨10 * q + 9, lt_N q 9 hq (by omega)⟩
  have h0 : ¬t.val % 10 = 0 := by show ¬(10 * q + 9) % 10 = 0; omega
  have h1 : t.val % 10 = 9 := by show (10 * q + 9) % 10 = 9; omega
  obtain ⟨iM, iL, iA⟩ := half_inv m c q hq 9 (by omega)
  have e := outsAt0_C m c t h0 h1
  rw [stepC_eq] at e
  have es : outsAt0 m c (10 * q + 9) (lt_N q 9 hq (by omega)) = _ := e
  have e0 := congrArg Carried.s0 es
  have e1 := congrArg Carried.s1 es
  have e2 := congrArg Carried.s2 es
  have e3 := congrArg Carried.o3 es
  have e4 := congrArg Carried.o4 es
  have e5 := congrArg Carried.o5 es
  refine ⟨fun h => ?_, fun l => ?_, fun l w => ?_⟩
  · exact (congrFun (e3.trans e2.symm) _).trans (iA h)
  · rw [e4]
    dsimp only
    rw [pay3_apply]
    exact (congrFun e1 _).symm.trans iL
  · rw [e5]
    dsimp only
    rw [pay4_apply]
    exact (congrFun e0 _).symm.trans (iM w)

end Cert.KernelIdeal.Hand

end
-- ==== Proof.FinalArrays.lean ====
/-
  The three result arrays after the run.  A result window is written back only at the last block of a half, and its
  block then lands at column block (half) of its array: columns 0…511 and 512…1023 of the weighted sums, columns 0…127
  and 128…255 of the normalisers and of the maxima.  So each array is one function of what those two points left in the
  window, and the two blocks tile the array.
-/
import proofs.«149342_j75737453298419_2_alg».proof.Proof.Accumulate
import proofs.«149342_j75737453298419_2_alg».proof.Proof.InputBlocks

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

/-! ## Result window 3 -/

/-- The array of result window 3 after the run, index by index: column j holds lane j mod 512 of what the last block
    of half j / 512 left in the window. -/
def G3 (c : Dev nD) : S1x1024.Idx → Elt F .f32 := fun i =>
  (outsAt0 m c (10 * ((i 1).val / 512) + 9) (by
      have h1 : (i 1).val < 1024 := (i 1).isLt
      rw [show cfg0.N = 20 from N_0]; omega)).o3
    (ix2 (0 : Fin 1) (⟨(i 1).val % 512, Nat.mod_lt _ (by norm_num)⟩ : Fin 512))

/-- That function at a column of half t / 10, for a last-block point t. -/
theorem G3_at (c : Dev nD) (t : Fin cfg0.N) (h9 : t.val % 10 = 9) (i : S1x1024.Idx) (q : Fin 512)
    (hi : (i 1).val = (t.val / 10) * 512 + q.val) : G3 m c i = (outsAt0 m c t.val t.isLt).o3 (ix2 (0 : Fin 1) q) := by
  unfold G3
  have hq : q.val < 512 := q.isLt
  have e1 : 10 * ((i 1).val / 512) + 9 = t.val := by omega
  have e2 : (i 1).val % 512 = q.val := by omega
  obtain ⟨tv, ht⟩ := t
  obtain ⟨qv, hqv⟩ := q
  simp only at e1 e2
  subst e1; subst e2
  rfl

/-- An index of the array is in point t's block iff each coordinate is in the block's range on its axis. -/
theorem mem_blk3 (t : Fin cfg0.N) (i : S1x1024.Idx) :
    i ∈ ((cfg0.win 3).blk t).view.set ↔ ∀ a : Fin 2, win0_3.index t a * S1x512.size a ≤ (i a).val ∧ (i a).val < win0_3.index t a * S1x512.size a + S1x512.size a := by
  show i ∈ ((View.whole main_v11_0).slice (win0_3.rect t)).set ↔ _
  rw [View.set_slice_whole, Rect.mem_set_unit]
  exact Iff.rfl

/-- What a flushing point writes back is its block of that function. -/
theorem flushed3_eq (c : Dev nD) (t : Fin cfg0.N) (hf : (cfg0.win 3).flush t = true) :
    (dats m 0 c).flushed 3 t = ((cfg0.win 3).blk t).view.read (Elt F) (G3 m c) := by
  have h9 : t.val % 10 = 9 := (flush0_3 t).mp hf
  obtain ⟨-, -, -, -, -, -, ea, eb, -, -, -, -⟩ := idx_facts t
  show (cfg0.win 3).cut (grid0.coords t) ((dats m 0 c).after 3 t) = _
  rw [after0_3]
  funext j
  show (outsAt0 m c t.val t.isLt).o3 j = G3 m c (((cfg0.win 3).blk t).view.emb j)
  have hj0 : (j 0).val < 1 := (j 0).isLt
  have hj : j = ix2 (0 : Fin 1) (⟨(j 1).val, (j 1).isLt⟩ : Fin 512) := by
    funext a; apply Fin.ext
    match a with
    | ⟨0, _⟩ => show (j 0).val = 0; omega
    | ⟨1, _⟩ => rfl
  rw [G3_at m c t h9 _ ⟨(j 1).val, (j 1).isLt⟩ (by
    show win0_3.index t (1 : Fin 2) * 512 + 1 * (j 1).val = (t.val / 10) * 512 + (j 1).val
    rw [eb]; omega)]
  exact congrArg _ hj

/-- Every index of the array is in the block of the last-block point of its half. -/
theorem cover3 (i : S1x1024.Idx) : ∃ t : Fin cfg0.N, (cfg0.win 3).flush t = true ∧ i ∈ ((cfg0.win 3).blk t).view.set := by
  have h0 : (i 0).val < 1 := (i 0).isLt
  have h1 : (i 1).val < 1024 := (i 1).isLt
  let t : Fin cfg0.N := ⟨10 * ((i 1).val / 512) + 9, by rw [show cfg0.N = 20 from N_0]; omega⟩
  have h9 : t.val % 10 = 9 := by show (10 * ((i 1).val / 512) + 9) % 10 = 9; omega
  have htv : t.val / 10 = (i 1).val / 512 := by show (10 * ((i 1).val / 512) + 9) / 10 = _; omega
  obtain ⟨-, -, -, -, -, -, ea, eb, -, -, -, -⟩ := idx_facts t
  refine ⟨t, (flush0_3 t).mpr h9, ?_⟩
  rw [mem_blk3]
  intro a
  match a with
  | ⟨0, _⟩ => show win0_3.index t (0 : Fin 2) * 1 ≤ (i 0).val ∧ (i 0).val < win0_3.index t (0 : Fin 2) * 1 + 1; rw [ea]; omega
  | ⟨1, _⟩ => show win0_3.index t (1 : Fin 2) * 512 ≤ (i 1).val ∧ (i 1).val < win0_3.index t (1 : Fin 2) * 512 + 512; rw [eb, htv]; omega

/-- THE ARRAY after the run. -/
theorem final3 (c : Dev nD) : (dats m 0 c).arrAt 3 cfg0.N = G3 m c :=
  (dats m 0 c).arrAt_eq_of_cover 3 (G3 m c) (fun t hf => flushed3_eq m c t hf) cover3

/-! ## Result window 4 -/

/-- The array of result window 4 after the run, index by index: column j holds lane j mod 128 of what the last block
    of half j / 128 left in the window. -/
def G4 (c : Dev nD) : S1x256.Idx → Elt F .f32 := fun i =>
  (outsAt0 m c (10 * ((i 1).val / 128) + 9) (by
      have h1 : (i 1).val < 256 := (i 1).isLt
      rw [show cfg0.N = 20 from N_0]; omega)).o4
    (ix2 (0 : Fin 1) (⟨(i 1).val % 128, Nat.mod_lt _ (by norm_num)⟩ : Fin 128))

/-- That function at a column of half t / 10, for a last-block point t. -/
theorem G4_at (c : Dev nD) (t : Fin cfg0.N) (h9 : t.val % 10 = 9) (i : S1x256.Idx) (q : Fin 128)
    (hi : (i 1).val = (t.val / 10) * 128 + q.val) : G4 m c i = (outsAt0 m c t.val t.isLt).o4 (ix2 (0 : Fin 1) q) := by
  unfold G4
  have hq : q.val < 128 := q.isLt
  have e1 : 10 * ((i 1).val / 128) + 9 = t.val := by omega
  have e2 : (i 1).val % 128 = q.val := by omega
  obtain ⟨tv, ht⟩ := t
  obtain ⟨qv, hqv⟩ := q
  simp only at e1 e2
  subst e1; subst e2
  rfl

/-- An index of the array is in point t's block iff each coordinate is in the block's range on its axis. -/
theorem mem_blk4 (t : Fin cfg0.N) (i : S1x256.Idx) :
    i ∈ ((cfg0.win 4).blk t).view.set ↔ ∀ a : Fin 2, win0_4.index t a * S1x128.size a ≤ (i a).val ∧ (i a).val < win0_4.index t a * S1x128.size a + S1x128.size a := by
  show i ∈ ((View.whole main_v11_1).slice (win0_4.rect t)).set ↔ _
  rw [View.set_slice_whole, Rect.mem_set_unit]
  exact Iff.rfl

/-- What a flushing point writes back is its block of that function. -/
theorem flushed4_eq (c : Dev nD) (t : Fin cfg0.N) (hf : (cfg0.win 4).flush t = true) :
    (dats m 0 c).flushed 4 t = ((cfg0.win 4).blk t).view.read (Elt F) (G4 m c) := by
  have h9 : t.val % 10 = 9 := (flush0_4 t).mp hf
  obtain ⟨-, -, -, -, -, -, -, -, ea, eb, -, -⟩ := idx_facts t
  show (cfg0.win 4).cut (grid0.coords t) ((dats m 0 c).after 4 t) = _
  rw [after0_4]
  funext j
  show (outsAt0 m c t.val t.isLt).o4 j = G4 m c (((cfg0.win 4).blk t).view.emb j)
  have hj0 : (j 0).val < 1 := (j 0).isLt
  have hj : j = ix2 (0 : Fin 1) (⟨(j 1).val, (j 1).isLt⟩ : Fin 128) := by
    funext a; apply Fin.ext
    match a with
    | ⟨0, _⟩ => show (j 0).val = 0; omega
    | ⟨1, _⟩ => rfl
  rw [G4_at m c t h9 _ ⟨(j 1).val, (j 1).isLt⟩ (by
    show win0_4.index t (1 : Fin 2) * 128 + 1 * (j 1).val = (t.val / 10) * 128 + (j 1).val
    rw [eb]; omega)]
  exact congrArg _ hj

/-- Every index of the array is in the block of the last-block point of its half. -/
theorem cover4 (i : S1x256.Idx) : ∃ t : Fin cfg0.N, (cfg0.win 4).flush t = true ∧ i ∈ ((cfg0.win 4).blk t).view.set := by
  have h0 : (i 0).val < 1 := (i 0).isLt
  have h1 : (i 1).val < 256 := (i 1).isLt
  let t : Fin cfg0.N := ⟨10 * ((i 1).val / 128) + 9, by rw [show cfg0.N = 20 from N_0]; omega⟩
  have h9 : t.val % 10 = 9 := by show (10 * ((i 1).val / 128) + 9) % 10 = 9; omega
  have htv : t.val / 10 = (i 1).val / 128 := by show (10 * ((i 1).val / 128) + 9) / 10 = _; omega
  obtain ⟨-, -, -, -, -, -, -, -, ea, eb, -, -⟩ := idx_facts t
  refine ⟨t, (flush0_4 t).mpr h9, ?_⟩
  rw [mem_blk4]
  intro a
  match a with
  | ⟨0, _⟩ => show win0_4.index t (0 : Fin 2) * 1 ≤ (i 0).val ∧ (i 0).val < win0_4.index t (0 : Fin 2) * 1 + 1; rw [ea]; omega
  | ⟨1, _⟩ => show win0_4.index t (1 : Fin 2) * 128 ≤ (i 1).val ∧ (i 1).val < win0_4.index t (1 : Fin 2) * 128 + 128; rw [eb, htv]; omega

/-- THE ARRAY after the run. -/
theorem final4 (c : Dev nD) : (dats m 0 c).arrAt 4 cfg0.N = G4 m c :=
  (dats m 0 c).arrAt_eq_of_cover 4 (G4 m c) (fun t hf => flushed4_eq m c t hf) cover4

/-! ## Result window 5 -/

/-- The array of result window 5 after the run, index by index: column j holds lane j mod 128 of what the last block
    of half j / 128 left in the window. -/
def G5 (c : Dev nD) : S1x256.Idx → Elt F .f32 := fun i =>
  (outsAt0 m c (10 * ((i 1).val / 128) + 9) (by
      have h1 : (i 1).val < 256 := (i 1).isLt
      rw [show cfg0.N = 20 from N_0]; omega)).o5
    (ix2 (0 : Fin 1) (⟨(i 1).val % 128, Nat.mod_lt _ (by norm_num)⟩ : Fin 128))

/-- That function at a column of half t / 10, for a last-block point t. -/
theorem G5_at (c : Dev nD) (t : Fin cfg0.N) (h9 : t.val % 10 = 9) (i : S1x256.Idx) (q : Fin 128)
    (hi : (i 1).val = (t.val / 10) * 128 + q.val) : G5 m c i = (outsAt0 m c t.val t.isLt).o5 (ix2 (0 : Fin 1) q) := by
  unfold G5
  have hq : q.val < 128 := q.isLt
  have e1 : 10 * ((i 1).val / 128) + 9 = t.val := by omega
  have e2 : (i 1).val % 128 = q.val := by omega
  obtain ⟨tv, ht⟩ := t
  obtain ⟨qv, hqv⟩ := q
  simp only at e1 e2
  subst e1; subst e2
  rfl

/-- An index of the array is in point t's block iff each coordinate is in the block's range on its axis. -/
theorem mem_blk5 (t : Fin cfg0.N) (i : S1x256.Idx) :
    i ∈ ((cfg0.win 5).blk t).view.set ↔ ∀ a : Fin 2, win0_5.index t a * S1x128.size a ≤ (i a).val ∧ (i a).val < win0_5.index t a * S1x128.size a + S1x128.size a := by
  show i ∈ ((View.whole main_v11_2).slice (win0_5.rect t)).set ↔ _
  rw [View.set_slice_whole, Rect.mem_set_unit]
  exact Iff.rfl

/-- What a flushing point writes back is its block of that function. -/
theorem flushed5_eq (c : Dev nD) (t : Fin cfg0.N) (hf : (cfg0.win 5).flush t = true) :
    (dats m 0 c).flushed 5 t = ((cfg0.win 5).blk t).view.read (Elt F) (G5 m c) := by
  have h9 : t.val % 10 = 9 := (flush0_5 t).mp hf
  obtain ⟨-, -, -, -, -, -, -, -, -, -, ea, eb⟩ := idx_facts t
  show (cfg0.win 5).cut (grid0.coords t) ((dats m 0 c).after 5 t) = _
  rw [after0_5]
  funext j
  show (outsAt0 m c t.val t.isLt).o5 j = G5 m c (((cfg0.win 5).blk t).view.emb j)
  have hj0 : (j 0).val < 1 := (j 0).isLt
  have hj : j = ix2 (0 : Fin 1) (⟨(j 1).val, (j 1).isLt⟩ : Fin 128) := by
    funext a; apply Fin.ext
    match a with
    | ⟨0, _⟩ => show (j 0).val = 0; omega
    | ⟨1, _⟩ => rfl
  rw [G5_at m c t h9 _ ⟨(j 1).val, (j 1).isLt⟩ (by
    show win0_5.index t (1 : Fin 2) * 128 + 1 * (j 1).val = (t.val / 10) * 128 + (j 1).val
    rw [eb]; omega)]
  exact congrArg _ hj

/-- Every index of the array is in the block of the last-block point of its half. -/
theorem cover5 (i : S1x256.Idx) : ∃ t : Fin cfg0.N, (cfg0.win 5).flush t = true ∧ i ∈ ((cfg0.win 5).blk t).view.set := by
  have h0 : (i 0).val < 1 := (i 0).isLt
  have h1 : (i 1).val < 256 := (i 1).isLt
  let t : Fin cfg0.N := ⟨10 * ((i 1).val / 128) + 9, by rw [show cfg0.N = 20 from N_0]; omega⟩
  have h9 : t.val % 10 = 9 := by show (10 * ((i 1).val / 128) + 9) % 10 = 9; omega
  have htv : t.val / 10 = (i 1).val / 128 := by show (10 * ((i 1).val / 128) + 9) / 10 = _; omega
  obtain ⟨-, -, -, -, -, -, -, -, -, -, ea, eb⟩ := idx_facts t
  refine ⟨t, (flush0_5 t).mpr h9, ?_⟩
  rw [mem_blk5]
  intro a
  match a with
  | ⟨0, _⟩ => show win0_5.index t (0 : Fin 2) * 1 ≤ (i 0).val ∧ (i 0).val < win0_5.index t (0 : Fin 2) * 1 + 1; rw [ea]; omega
  | ⟨1, _⟩ => show win0_5.index t (1 : Fin 2) * 128 ≤ (i 1).val ∧ (i 1).val < win0_5.index t (1 : Fin 2) * 128 + 128; rw [eb, htv]; omega

/-- THE ARRAY after the run. -/
theorem final5 (c : Dev nD) : (dats m 0 c).arrAt 5 cfg0.N = G5 m c :=
  (dats m 0 c).arrAt_eq_of_cover 5 (G5 m c) (fun t hf => flushed5_eq m c t hf) cover5

end Cert.KernelIdeal.Hand

end
-- ==== Proof.MergedQuot.lean ====
/-
  The merge of the two halves' softmax statistics as the host lines after the region compute it: from the array of
  weighted sums (two blocks of 512 columns), the array of normalisers and the array of maxima (two blocks of 128
  columns each, of which entries 0 and 128 are read), the larger maximum, each half's sums rescaled by
  exp(its maximum − the larger), added, and the quotient.
-/
import proofs.«149342_j75737453298419_2_alg».proof.Proof.Gen.KernelIdeal
import Idealize.ShloMosaic.PureOps.Ideal

noncomputable section

namespace Cert.KernelIdeal.Hand

open Cert.KernelIdeal Cert.KernelIdeal.Facts₀ Idealize.ShloMosaic

/-- The merged quotient, as the later lines compute it from the three result arrays: columns 0…511 / 512…1023 of the
    weighted sums, entries 0 / 128 of the normalisers and of the maxima. -/
def mergedQuot (A3 : (⟨S1x1024, .f32⟩ : BufTy).Contents (Elt Ideal)) (A4 : (⟨S1x256, .f32⟩ : BufTy).Contents (Elt Ideal)) (A5 : (⟨S1x256, .f32⟩ : BufTy).Contents (Elt Ideal)) : (⟨S1x512, .f32⟩ : BufTy).Contents (Elt Ideal) :=
  let v12 : (⟨S1x512, .f32⟩ : BufTy).Contents (Elt Ideal) := extractStridedSlice S1x512 ![0, 0] A3 slices_S1x1024_S1x512_0_0
  let v13 : (⟨S1x512, .f32⟩ : BufTy).Contents (Elt Ideal) := extractStridedSlice S1x512 ![0, 512] A3 slices_S1x1024_S1x512_0_512
  let v14 : (⟨S1x1, .f32⟩ : BufTy).Contents (Elt Ideal) := extractStridedSlice S1x1 ![0, 0] A4 slices_S1x256_S1x1_0_0
  let v15 : (⟨S1x1, .f32⟩ : BufTy).Contents (Elt Ideal) := extractStridedSlice S1x1 ![0, 128] A4 slices_S1x256_S1x1_0_128
  let v16 : (⟨S1x1, .f32⟩ : BufTy).Contents (Elt Ideal) := extractStridedSlice S1x1 ![0, 0] A5 slices_S1x256_S1x1_0_0
  let v17 : (⟨S1x1, .f32⟩ : BufTy).Contents (Elt Ideal) := extractStridedSlice S1x1 ![0, 128] A5 slices_S1x256_S1x1_0_128
  let v18 : (⟨S1x1, .f32⟩ : BufTy).Contents (Elt Ideal) := (maximumf (F := Ideal) (φ := .f32) : (⟨S1x1, .f32⟩ : BufTy).Contents (Elt Ideal) → (⟨S1x1, .f32⟩ : BufTy).Contents (Elt Ideal) → (⟨S1x1, .f32⟩ : BufTy).Contents (Elt Ideal)) v16 v17
  let v20 : (⟨S1x1, .f32⟩ : BufTy).Contents (Elt Ideal) := (Host.exp (F := Ideal) (φ := .f32) : (⟨S1x1, .f32⟩ : BufTy).Contents (Elt Ideal) → (⟨S1x1, .f32⟩ : BufTy).Contents (Elt Ideal)) ((subf (F := Ideal) (φ := .f32) : (⟨S1x1, .f32⟩ : BufTy).Contents (Elt Ideal) → (⟨S1x1, .f32⟩ : BufTy).Contents (Elt Ideal) → (⟨S1x1, .f32⟩ : BufTy).Contents (Elt Ideal)) v16 v18)
  let v22 : (⟨S1x1, .f32⟩ : BufTy).Contents (Elt Ideal) := (Host.exp (F := Ideal) (φ := .f32) : (⟨S1x1, .f32⟩ : BufTy).Contents (Elt Ideal) → (⟨S1x1, .f32⟩ : BufTy).Contents (Elt Ideal)) ((subf (F := Ideal) (φ := .f32) : (⟨S1x1, .f32⟩ : BufTy).Contents (Elt Ideal) → (⟨S1x1, .f32⟩ : BufTy).Contents (Elt Ideal) → (⟨S1x1, .f32⟩ : BufTy).Contents (Elt Ideal)) v17 v18)
  let v25 : (⟨S1x1, .f32⟩ : BufTy).Contents (Elt Ideal) := (addf (F := Ideal) (φ := .f32) : (⟨S1x1, .f32⟩ : BufTy).Contents (Elt Ideal) → (⟨S1x1, .f32⟩ : BufTy).Contents (Elt Ideal) → (⟨S1x1, .f32⟩ : BufTy).Contents (Elt Ideal)) ((mulf (F := Ideal) (φ := .f32) : (⟨S1x1, .f32⟩ : BufTy).Contents (Elt Ideal) → (⟨S1x1, .f32⟩ : BufTy).Contents (Elt Ideal) → (⟨S1x1, .f32⟩ : BufTy).Contents (Elt Ideal)) v20 v14) ((mulf (F := Ideal) (φ := .f32) : (⟨S1x1, .f32⟩ : BufTy).Contents (Elt Ideal) → (⟨S1x1, .f32⟩ : BufTy).Contents (Elt Ideal) → (⟨S1x1, .f32⟩ : BufTy).Contents (Elt Ideal)) v22 v15)
  let v30 : (⟨S1x512, .f32⟩ : BufTy).Contents (Elt Ideal) := (addf (F := Ideal) (φ := .f32) : (⟨S1x512, .f32⟩ : BufTy).Contents (Elt Ideal) → (⟨S1x512, .f32⟩ : BufTy).Contents (Elt Ideal) → (⟨S1x512, .f32⟩ : BufTy).Contents (Elt Ideal)) ((mulf (F := Ideal) (φ := .f32) : (⟨S1x512, .f32⟩ : BufTy).Contents (Elt Ideal) → (⟨S1x512, .f32⟩ : BufTy).Contents (Elt Ideal) → (⟨S1x512, .f32⟩ : BufTy).Contents (Elt Ideal)) ((broadcastInDim S1x512 ![0, 1] bcast_S1x1_S1x512_0_1 : (⟨S1x1, .f32⟩ : BufTy).Contents (Elt Ideal) → (⟨S1x512, .f32⟩ : BufTy).Contents (Elt Ideal)) v20) v12) ((mulf (F := Ideal) (φ := .f32) : (⟨S1x512, .f32⟩ : BufTy).Contents (Elt Ideal) → (⟨S1x512, .f32⟩ : BufTy).Contents (Elt Ideal) → (⟨S1x512, .f32⟩ : BufTy).Contents (Elt Ideal)) ((broadcastInDim S1x512 ![0, 1] bcast_S1x1_S1x512_0_1 : (⟨S1x1, .f32⟩ : BufTy).Contents (Elt Ideal) → (⟨S1x512, .f32⟩ : BufTy).Contents (Elt Ideal)) v22) v13)
  (Host.divf (F := Ideal) (φ := .f32) : (⟨S1x512, .f32⟩ : BufTy).Contents (Elt Ideal) → (⟨S1x512, .f32⟩ : BufTy).Contents (Elt Ideal) → (⟨S1x512, .f32⟩ : BufTy).Contents (Elt Ideal)) v30 ((broadcastInDim S1x512 ![0, 1] bcast_S1x1_S1x512_0_1 : (⟨S1x1, .f32⟩ : BufTy).Contents (Elt Ideal) → (⟨S1x512, .f32⟩ : BufTy).Contents (Elt Ideal)) v25)

end Cert.KernelIdeal.Hand

end
-- ==== Proof.MergedQuotApply.lean ====
/-
  The merged quotient read at a column.

  The two halves leave their weighted sums in columns 0…511 and 512…1023 of one row, and their normalisers and maxima
  in entries 0 and 128 of two rows of 256. With m0, m1 the two maxima and m = max m0 m1, column h of the merged
  quotient is
      (exp (m0 - m) * acc0 h + exp (m1 - m) * acc1 h) / (exp (m0 - m) * l0 + exp (m1 - m) * l1),
  the division being the host's on the extended reals. Every elementwise operation reads through at an index by
  definition; what is proved here is where each slice and each broadcast of a single element reads its operand.
-/
import proofs.«149342_j75737453298419_2_alg».proof.Proof.MergedQuot
import Idealize.ShloMosaic.Lib.ValueIdx
import Idealize.ShloMosaic.Lib.ValueLayout

noncomputable section

namespace Cert.KernelIdeal.Arith

open Cert.KernelIdeal Cert.KernelIdeal.Facts₀ Cert.KernelIdeal.Hand Idealize.ShloMosaic Idealize.ShloMosaic.ValueIdx

/-! ## The host's division and exponential at an index -/

/-- The host's quotient at an index is the extended reals' division of the elements. -/
theorem hostDivf_apply {s : Shape} {φ : FTy} (a b : FVec Ideal s φ) (i : s.Idx) :
    Host.divf a b i = Ideal.div (a i) (b i) := rfl

/-- The host's exponential at an index is the exponential of the element. -/
theorem hostExp_apply {s : Shape} {φ : FTy} (a : FVec Ideal s φ) (i : s.Idx) :
    Host.exp a i = Ideal.exp (a i) := rfl

/-! ## One element broadcast along a row, and one entry cut out of a row -/

/-- A `[1, 1]` array broadcast in dimensions `[0, 1]` to `[1, b]` reads its one element at every column. -/
theorem broadcastInDim_11_1b_apply {α : Type} {b : ℕ} (v : (⟨2, ![1, 1]⟩ : Shape).Idx → α)
    (hb : (⟨2, ![1, 1]⟩ : Shape).BroadcastsInDim ⟨2, ![1, b]⟩ (![0, 1] : Fin 2 → Fin (⟨2, ![1, b]⟩ : Shape).rank))
    (p : Fin 1) (c : Fin b) :
    broadcastInDim ⟨2, ![1, b]⟩ ![0, 1] hb v (ix2 p c) = v (ix2 (0 : Fin 1) (0 : Fin 1)) :=
  broadcastInDim_apply _ hb v (ix2 p c) (ix2 (0 : Fin 1) (0 : Fin 1)) fun a =>
    match a with
    | ⟨0, _⟩ => rfl
    | ⟨1, _⟩ => rfl

/-- The `[1, 1]` slice of a `[1, 256]` row at column offset 0 reads entry 0. -/
theorem entry0_apply {α : Type} (X : S1x256.Idx → α) (hs : S1x256.Slices ![0, 0] S1x1) :
    extractStridedSlice S1x1 ![0, 0] X hs (ix2 (0 : Fin 1) (0 : Fin 1)) = X (ix2 (0 : Fin 1) (0 : Fin 256)) :=
  slice2_axis1_apply 0 X hs (0 : Fin 1) (0 : Fin 1) (0 : Fin 256) rfl

/-- The `[1, 1]` slice of a `[1, 256]` row at column offset 128 reads entry 128. -/
theorem entry128_apply {α : Type} (X : S1x256.Idx → α) (hs : S1x256.Slices ![0, 128] S1x1) :
    extractStridedSlice S1x1 ![0, 128] X hs (ix2 (0 : Fin 1) (0 : Fin 1)) = X (ix2 (0 : Fin 1) (128 : Fin 256)) :=
  slice2_axis1_apply 128 X hs (0 : Fin 1) (0 : Fin 1) (128 : Fin 256) rfl

/-! ## The two rescaling factors -/

/-- The first half's factor: `exp (m0 - max m0 m1)`. -/
theorem scale0_apply (A5 : (⟨S1x256, .f32⟩ : BufTy).Contents (Elt Ideal)) (hs0 : S1x256.Slices ![0, 0] S1x1)
    (hs1 : S1x256.Slices ![0, 128] S1x1) :
    Host.exp (F := Ideal) (φ := .f32) (subf (extractStridedSlice S1x1 ![0, 0] A5 hs0) (maximumf (extractStridedSlice S1x1 ![0, 0] A5 hs0) (extractStridedSlice S1x1 ![0, 128] A5 hs1))) (ix2 (0 : Fin 1) (0 : Fin 1))
      = Ideal.exp (A5 (ix2 (0 : Fin 1) (0 : Fin 256)) - max (A5 (ix2 (0 : Fin 1) (0 : Fin 256))) (A5 (ix2 (0 : Fin 1) (128 : Fin 256)))) :=
  congrArg₂ (fun a b : EReal => Ideal.exp (a - max a b)) (entry0_apply A5 hs0) (entry128_apply A5 hs1)

/-- The second half's factor: `exp (m1 - max m0 m1)`. -/
theorem scale1_apply (A5 : (⟨S1x256, .f32⟩ : BufTy).Contents (Elt Ideal)) (hs0 : S1x256.Slices ![0, 0] S1x1)
    (hs1 : S1x256.Slices ![0, 128] S1x1) :
    Host.exp (F := Ideal) (φ := .f32) (subf (extractStridedSlice S1x1 ![0, 128] A5 hs1) (maximumf (extractStridedSlice S1x1 ![0, 0] A5 hs0) (extractStridedSlice S1x1 ![0, 128] A5 hs1))) (ix2 (0 : Fin 1) (0 : Fin 1))
      = Ideal.exp (A5 (ix2 (0 : Fin 1) (128 : Fin 256)) - max (A5 (ix2 (0 : Fin 1) (0 : Fin 256))) (A5 (ix2 (0 : Fin 1) (128 : Fin 256)))) :=
  congrArg₂ (fun a b : EReal => Ideal.exp (b - max a b)) (entry0_apply A5 hs0) (entry128_apply A5 hs1)

/-! ## The merged quotient -/

/-- Column `h` of the merged quotient: the two halves' weighted sums at `h`, each rescaled to the larger maximum and
    added, divided by the two normalisers rescaled the same way and added. -/
theorem mergedQuot_apply (A3 : (⟨S1x1024, .f32⟩ : BufTy).Contents (Elt Ideal))
    (A4 A5 : (⟨S1x256, .f32⟩ : BufTy).Contents (Elt Ideal)) (h : Fin 512) :
    mergedQuot A3 A4 A5 (ix2 (0 : Fin 1) h)
      = Ideal.div
          (Ideal.exp (A5 (ix2 (0 : Fin 1) (0 : Fin 256)) - max (A5 (ix2 (0 : Fin 1) (0 : Fin 256))) (A5 (ix2 (0 : Fin 1) (128 : Fin 256))))
              * A3 (ix2 (0 : Fin 1) (⟨h.val, by have := h.isLt; omega⟩ : Fin 1024))
            + Ideal.exp (A5 (ix2 (0 : Fin 1) (128 : Fin 256)) - max (A5 (ix2 (0 : Fin 1) (0 : Fin 256))) (A5 (ix2 (0 : Fin 1) (128 : Fin 256))))
              * A3 (ix2 (0 : Fin 1) (⟨512 + h.val, by have := h.isLt; omega⟩ : Fin 1024)))
          (Ideal.exp (A5 (ix2 (0 : Fin 1) (0 : Fin 256)) - max (A5 (ix2 (0 : Fin 1) (0 : Fin 256))) (A5 (ix2 (0 : Fin 1) (128 : Fin 256))))
              * A4 (ix2 (0 : Fin 1) (0 : Fin 256))
            + Ideal.exp (A5 (ix2 (0 : Fin 1) (128 : Fin 256)) - max (A5 (ix2 (0 : Fin 1) (0 : Fin 256))) (A5 (ix2 (0 : Fin 1) (128 : Fin 256))))
              * A4 (ix2 (0 : Fin 1) (128 : Fin 256))) := by
  unfold mergedQuot
  refine (hostDivf_apply _ _ _).trans ?_
  refine congrArg₂ Ideal.div ?_ ?_
  · refine (addf_apply _ _ _).trans ?_
    refine congrArg₂ (· + ·) ?_ ?_
    · refine (mulf_apply _ _ _).trans ?_
      refine congrArg₂ (· * ·) ?_ ?_
      · exact (broadcastInDim_11_1b_apply _ _ (0 : Fin 1) h).trans (scale0_apply A5 _ _)
      · exact slice2_axis1_apply 0 A3 _ (0 : Fin 1) h _ (Nat.zero_add _).symm
    · refine (mulf_apply _ _ _).trans ?_
      refine congrArg₂ (· * ·) ?_ ?_
      · exact (broadcastInDim_11_1b_apply _ _ (0 : Fin 1) h).trans (scale1_apply A5 _ _)
      · exact slice2_axis1_apply 512 A3 _ (0 : Fin 1) h _ rfl
  · refine (broadcastInDim_11_1b_apply _ _ (0 : Fin 1) h).trans ?_
    refine (addf_apply _ _ _).trans ?_
    refine congrArg₂ (· + ·) ?_ ?_
    · refine (mulf_apply _ _ _).trans ?_
      exact congrArg₂ (· * ·) (scale0_apply A5 _ _) (entry0_apply A4 _)
    · refine (mulf_apply _ _ _).trans ?_
      exact congrArg₂ (· * ·) (scale1_apply A5 _ _) (entry128_apply A4 _)

end Cert.KernelIdeal.Arith

end
-- ==== Proof.LibSoftmaxMerge.lean ====
/-
  GENERAL LEMMAS — merging the online-softmax statistics of two halves of a sequence, on the extended reals.

  A sequence g of 2·H real scores, weighted by w, is cut into its first and second half. Each half carries its own
  supremum m_c and its own sum S_c = Σ exp (g − m_c)·w taken relative to that supremum. With M = max m_0 m_1:
  (i)  M is the supremum of all 2·H scores (`merge_sup`);
  (ii) exp (m_0 − M)·S_0 + exp (m_1 − M)·S_1 = Σ over all 2·H entries of exp (g − M)·w (`merge_sum`): rescaling a half's
       sum by exp (m_c − M) turns every exp (g − m_c) into exp (g − M), a nonnegative real factor distributing over the
       finite sum, and the two rescaled halves are the two halves of the full sum.
  With w = 1 this is the merged normaliser of a log-sum-exp combine, with w a column of values the merged accumulator.
  `colRun_merge` states the same for two halves each accumulated block by block (`RunningSoftmax.colRun`).
-/
import proofs.«149342_j75737453298419_2_alg».proof.Proof.LibRunningSoftmax

noncomputable section

namespace Idealize.ShloMosaic.SoftmaxMerge

open Finset Idealize.ShloMosaic Idealize.ShloMosaic.RunningSoftmax

/-- (i) The larger of the two halves' suprema is the supremum of the whole. -/
theorem merge_sup (H : ℕ) (g : ℕ → EReal) :
    max (univ.sup fun i : Fin H => g i.val) (univ.sup fun i : Fin H => g (H + i.val))
      = univ.sup fun i : Fin (2 * H) => g i.val := by
  rw [sup_univ_eq_sup_range g (2 * H), two_mul, sup_range_add g H H, sup_univ_eq_sup_range g H]

/-- A half's sum of exp (g − m)·w, rescaled from its own real maximum m to a real M. -/
theorem rescale_half (H : ℕ) (g w : ℕ → EReal) (m M : ℝ) :
    Ideal.exp ((m : EReal) - (M : EReal)) * (∑ i : Fin H, Ideal.exp (g i.val - (m : EReal)) * w i.val)
      = ∑ i : Fin H, Ideal.exp (g i.val - (M : EReal)) * w i.val := by
  have h := sum_rescale_exp (univ : Finset (Fin H)) (fun i => g i.val) (fun i => w i.val) m M
  rw [mul_comm]
  calc (∑ i : Fin H, Ideal.exp (g i.val - (m : EReal)) * w i.val) * Ideal.exp ((m : EReal) - (M : EReal))
      = (∑ i : Fin H, w i.val * Ideal.exp (g i.val - (m : EReal))) * Ideal.exp ((m : EReal) - (M : EReal)) := by
        congr 1
        exact Finset.sum_congr rfl fun i _ => mul_comm _ _
    _ = ∑ i : Fin H, w i.val * Ideal.exp (g i.val - (M : EReal)) := h
    _ = ∑ i : Fin H, Ideal.exp (g i.val - (M : EReal)) * w i.val :=
        Finset.sum_congr rfl fun i _ => mul_comm _ _

/-- The sum over 2·H entries is the sum over the first H plus the sum over the second H. -/
theorem sum_two_halves (H : ℕ) (F : ℕ → EReal) :
    ∑ i : Fin (2 * H), F i.val = ∑ i : Fin H, F i.val + ∑ i : Fin H, F (H + i.val) := by
  rw [← Finset.sum_range F, two_mul, Finset.sum_range_add, Finset.sum_range F,
    Finset.sum_range fun x => F (H + x)]

/-- (ii) The two halves' sums, each rescaled from its own maximum to the common one, add up to the whole sum. -/
theorem merge_sum (H : ℕ) (hH : 0 < H) (g w : ℕ → EReal) (hg : ∀ n < 2 * H, ∃ r : ℝ, g n = (r : EReal))
    (m0 m1 M : EReal) (h0 : m0 = univ.sup fun i : Fin H => g i.val)
    (h1 : m1 = univ.sup fun i : Fin H => g (H + i.val)) (hM : M = max m0 m1) :
    Ideal.exp (m0 - M) * (∑ i : Fin H, Ideal.exp (g i.val - m0) * w i.val)
        + Ideal.exp (m1 - M) * (∑ i : Fin H, Ideal.exp (g (H + i.val) - m1) * w (H + i.val))
      = ∑ i : Fin (2 * H), Ideal.exp (g i.val - M) * w i.val := by
  obtain ⟨a, ha⟩ := sup_range_real g H hH fun n hn => hg n (by omega)
  obtain ⟨b, hb⟩ := sup_range_real (fun n => g (H + n)) H hH fun n hn => hg (H + n) (by omega)
  have h0' : m0 = (a : EReal) := by rw [h0, sup_univ_eq_sup_range g H, ha]
  have h1' : m1 = (b : EReal) := by
    rw [h1, ← hb]
    exact sup_univ_eq_sup_range (fun n => g (H + n)) H
  have hM' : M = ((max a b : ℝ) : EReal) := by
    rw [hM, h0', h1']
    exact (EReal.coe_strictMono.monotone.map_max (a := a) (b := b)).symm
  rw [h0', h1', hM', sum_two_halves H fun n => Ideal.exp (g n - ((max a b : ℝ) : EReal)) * w n,
    rescale_half H g w a (max a b)]
  congr 1
  exact rescale_half H (fun n => g (H + n)) (fun n => w (H + n)) b (max a b)

/-- Two halves, each accumulated block by block (J blocks of B entries, J·B = H): the larger running maximum is the
    supremum of all 2·H scores, and the two running sums, each rescaled to it, add up to the one-shot sum. -/
theorem colRun_merge (J B H : ℕ) (hJB : J * B = H) (hB : 0 < B) (hH : 0 < H) (g w : ℕ → EReal)
    (hg : ∀ n < 2 * H, ∃ r : ℝ, g n = (r : EReal)) (p0 p1 : EReal × EReal)
    (hp0 : p0 = colRun B g w J) (hp1 : p1 = colRun B (fun n => g (H + n)) (fun n => w (H + n)) J) :
    max p0.1 p1.1 = univ.sup (fun i : Fin (2 * H) => g i.val)
      ∧ Ideal.exp (p0.1 - max p0.1 p1.1) * p0.2 + Ideal.exp (p1.1 - max p0.1 p1.1) * p1.2
          = ∑ i : Fin (2 * H), Ideal.exp (g i.val - univ.sup (fun i : Fin (2 * H) => g i.val)) * w i.val := by
  rw [colRun_eq_oneShot_of_eq J B H hJB hB g w fun n hn => hg n (by omega)] at hp0
  rw [colRun_eq_oneShot_of_eq J B H hJB hB (fun n => g (H + n)) (fun n => w (H + n))
    fun n hn => hg (H + n) (by omega)] at hp1
  subst hp0 hp1
  refine ⟨merge_sup H g, ?_⟩
  rw [← merge_sup H g]
  exact merge_sum H hH g w hg _ _ _ rfl rfl rfl

end Idealize.ShloMosaic.SoftmaxMerge

end
-- ==== Proof.MergeOneShot.lean ====
/-
  The merged quotient of two halves' online-softmax statistics is the one-shot softmax-weighted mean.

  A row of N = 2·H logits g is processed in two halves, each block by block: half c ends with its maximum m_c, its
  normaliser l_c = Σ exp (g − m_c) and, for a column w of values, its accumulator a_c = Σ exp (g − m_c)·w. With
  M = max m_0 m_1 the combine (exp (m_0 − M)·a_0 + exp (m_1 − M)·a_1) / (exp (m_0 − M)·l_0 + exp (m_1 − M)·l_1) is
  (Σ_j exp (g_j − sup g)·w_j) / (Σ_j exp (g_j − sup g)) over all N entries: the merge law for the accumulator with the
  weights w and for the normaliser with the weights 1. For logits g_j = 2·⟨f, K_j⟩ − ⟨1, K_j∘K_j⟩ of a real feature vector
  against real keys (real numbers, so the merge law applies) this is `Cert.Retrieval.oneShot`.
-/
import proofs.«149342_j75737453298419_2_alg».proof.Proof.RetrievalSpec
import proofs.«149342_j75737453298419_2_alg».proof.Proof.LibSoftmaxMerge

noncomputable section

namespace Cert.Retrieval

open Finset Idealize.ShloMosaic Idealize.ShloMosaic.RunningSoftmax Idealize.ShloMosaic.SoftmaxMerge

/-- A finite sum of real numbers is a real number. -/
theorem real_sum' {ι : Type*} (s : Finset ι) (f : ι → EReal) (h : ∀ k ∈ s, ∃ r : ℝ, f k = (r : EReal)) :
    ∃ r : ℝ, ∑ k ∈ s, f k = (r : EReal) := by
  classical
  induction s using Finset.induction_on with
  | empty => exact ⟨0, by simp⟩
  | insert a s ha ih =>
    rw [Finset.sum_insert ha]
    obtain ⟨x, hx⟩ := h a (mem_insert_self a s)
    obtain ⟨y, hy⟩ := ih fun k hk => h k (mem_insert_of_mem hk)
    exact ⟨x + y, by rw [hx, hy, EReal.coe_add]⟩

/-- The logits of a real feature vector against real keys are real numbers. -/
theorem logit_isReal {N D : ℕ} (f : Fin D → EReal) (K : Fin N → Fin D → EReal)
    (hf : ∀ d, ∃ r : ℝ, f d = (r : EReal)) (hK : ∀ j d, ∃ r : ℝ, K j d = (r : EReal)) (j : Fin N) :
    ∃ r : ℝ, logit f K j = (r : EReal) := by
  unfold logit
  obtain ⟨p, hp⟩ := real_sum' univ (fun d => f d * K j d) fun d _ => by
    obtain ⟨a, ha⟩ := hf d
    obtain ⟨b, hb⟩ := hK j d
    exact ⟨a * b, by rw [ha, hb, EReal.coe_mul]⟩
  obtain ⟨q, hq⟩ := real_sum' univ (fun d => (1 : EReal) * (K j d * K j d)) fun d _ => by
    obtain ⟨b, hb⟩ := hK j d
    exact ⟨1 * (b * b), by rw [hb, EReal.coe_mul, EReal.coe_mul, EReal.coe_one]⟩
  refine ⟨2 * p - q, ?_⟩
  rw [hp, hq, EReal.coe_sub, EReal.coe_mul]
  norm_cast

/-- The merged quotient of the two halves' running statistics is the one-shot softmax-weighted mean. -/
theorem merge_oneShot {D C : ℕ} (J B H N : ℕ) (hJB : J * B = H) (hN : 2 * H = N) (hB : 0 < B) (hH : 0 < H)
    (f : Fin D → EReal) (K : Fin N → Fin D → EReal) (V : Fin N → Fin C → EReal)
    (hf : ∀ d, ∃ r : ℝ, f d = (r : EReal)) (hK : ∀ j d, ∃ r : ℝ, K j d = (r : EReal))
    (hV : ∀ j h, ∃ r : ℝ, V j h = (r : EReal)) (h : Fin C)
    (g w : ℕ → EReal) (hg : ∀ n (hn : n < N), g n = logit f K ⟨n, hn⟩) (hw : ∀ n (hn : n < N), w n = V ⟨n, hn⟩ h)
    (m0 m1 l0 l1 a0 a1 : EReal)
    (hm0 : ∀ w' : ℕ → EReal, m0 = (colRun B g w' J).1)
    (hm1 : ∀ w' : ℕ → EReal, m1 = (colRun B (fun n => g (H + n)) w' J).1)
    (hl0 : l0 = (colRun B g (fun _ => 1) J).2) (hl1 : l1 = (colRun B (fun n => g (H + n)) (fun _ => 1) J).2)
    (ha0 : a0 = (colRun B g w J).2) (ha1 : a1 = (colRun B (fun n => g (H + n)) (fun n => w (H + n)) J).2) :
    Ideal.div (Ideal.exp (m0 - max m0 m1) * a0 + Ideal.exp (m1 - max m0 m1) * a1)
        (Ideal.exp (m0 - max m0 m1) * l0 + Ideal.exp (m1 - max m0 m1) * l1)
      = oneShot f K V h := by
  subst hN
  have hgr : ∀ n < 2 * H, ∃ r : ℝ, g n = (r : EReal) := fun n hn => by
    rw [hg n hn]
    exact logit_isReal f K hf hK _
  have hnum := (colRun_merge J B H hJB hB hH g w hgr (colRun B g w J)
    (colRun B (fun n => g (H + n)) (fun n => w (H + n)) J) rfl rfl).2
  have hden := (colRun_merge J B H hJB hB hH g (fun _ => 1) hgr (colRun B g (fun _ => 1) J)
    (colRun B (fun n => g (H + n)) (fun _ => 1) J) rfl rfl).2
  rw [← hm0 w, ← hm1 fun n => w (H + n), ← ha0, ← ha1] at hnum
  rw [← hm0 fun _ => 1, ← hm1 fun _ => 1, ← hl0, ← hl1] at hden
  rw [hnum, hden]
  unfold oneShot
  have e1 : ∀ i : Fin (2 * H), g i.val = logit f K i := fun i => hg i.val i.isLt
  have e2 : ∀ i : Fin (2 * H), w i.val = V i h := fun i => hw i.val i.isLt
  simp only [e1, e2, mul_one]

end Cert.Retrieval

end
-- ==== Proof.LibSoftmaxForms.lean ====
/-
  GENERAL LEMMAS — three identities on the extended reals that relate two spellings of a softmax-weighted mean of
  squared distances.

  (C) `neg_sum_sq_sub`: for real-valued f, k, minus the squared distance −Σ_d (f_d − k_d)² equals
      (2·Σ_d f_d·k_d − Σ_d 1·(k_d·k_d)) − Σ_d f_d·f_d (the expansion of the square, term by term in the reals).
  (D) `sup_sub_coe`, `exp_shift_sub_sup`: subtracting one real constant c from every score lowers the supremum by c,
      so the differences score − supremum, and with them the softmax numerators exp (score − supremum), do not change.
  (B) `div_sum_eq_sum_div`: with e_j = exp (g_j − sup g), the quotient (Σ_j e_j·v_j) / (Σ_j e_j) equals
      Σ_j (e_j / Σ_i e_i)·v_j. The denominator is a real number ≥ 1 (the entry attaining the supremum contributes
      exp 0 = 1), so the division is a product with a real reciprocal and distributes over the real sum.

  Every sum here is a finite sum of real numbers read in the extended reals: the image of the real sum (`coe_sum`).
-/
import Idealize.ShloMosaic.PureOps.Ideal
import Mathlib.Algebra.BigOperators.Fin
import Mathlib.Data.EReal.Operations

noncomputable section

namespace Idealize.ShloMosaic.SoftmaxForms

open Finset Idealize.ShloMosaic

/-- A finite sum of real numbers, taken in the extended reals, is the real sum. -/
theorem coe_sum {ι : Type*} (s : Finset ι) (f : ι → ℝ) :
    ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- The real identity behind the expansion of the squared distance. -/
theorem neg_sum_sq_sub_real {D : ℕ} (a b : Fin D → ℝ) :
    -(∑ d, (a d - b d) * (a d - b d)) = (2 * (∑ d, a d * b d) - ∑ d, 1 * (b d * b d)) - ∑ d, a d * a d := by
  rw [Finset.mul_sum, ← Finset.sum_sub_distrib, ← Finset.sum_sub_distrib, ← Finset.sum_neg_distrib]
  exact Finset.sum_congr rfl fun d _ => by ring

/-- Minus the squared distance of two real vectors, expanded: −Σ (f − k)² = (2·Σ f·k − Σ 1·(k·k)) − Σ f·f. -/
theorem neg_sum_sq_sub {D : ℕ} (f k : Fin D → EReal)
    (hf : ∀ d, ∃ r : ℝ, f d = (r : EReal)) (hk : ∀ d, ∃ r : ℝ, k d = (r : EReal)) :
    -(∑ d, (f d - k d) * (f d - k d))
      = ((2 : EReal) * (∑ d, f d * k d) - ∑ d, (1 : EReal) * (k d * k d)) - ∑ d, f d * f d := by
  choose a ha using hf
  choose b hb using hk
  have h2 : (2 : EReal) = ((2 : ℝ) : EReal) := by norm_cast
  simp only [ha, hb, h2, ← EReal.coe_one, ← EReal.coe_sub, ← EReal.coe_mul, coe_sum, ← EReal.coe_neg]
  exact congrArg _ (neg_sum_sq_sub_real a b)

/-- The same when the sum of squares starts from the initial value zero. -/
theorem neg_zero_add_sum_sq_sub {D : ℕ} (f k : Fin D → EReal)
    (hf : ∀ d, ∃ r : ℝ, f d = (r : EReal)) (hk : ∀ d, ∃ r : ℝ, k d = (r : EReal)) :
    -((0 : EReal) + ∑ d, (f d - k d) * (f d - k d))
      = ((2 : EReal) * (∑ d, f d * k d) - ∑ d, (1 : EReal) * (k d * k d)) - ∑ d, f d * f d := by
  rw [zero_add]
  exact neg_sum_sq_sub f k hf hk

/-! ### (D) A shift by a real constant cancels in a softmax numerator -/

/-- Subtracting one constant from every entry lowers the supremum by that constant (x ↦ x − c is monotone and fixes −∞). -/
theorem sup_sub_coe {N : ℕ} (s : Fin N → EReal) (c : ℝ) :
    univ.sup (fun j => s j - (c : EReal)) = univ.sup s - (c : EReal) := by
  have h := Finset.comp_sup_eq_sup_comp_of_is_total (s := (univ : Finset (Fin N))) (f := s)
    (fun y : EReal => y - (c : EReal)) (fun a b hab => EReal.sub_le_sub hab le_rfl) (EReal.bot_sub _)
  exact h.symm

/-- A nonempty finite supremum of real numbers is a real number. -/
theorem sup_univ_real {N : ℕ} (hN : 0 < N) (s : Fin N → EReal) (hs : ∀ j, ∃ r : ℝ, s j = (r : EReal)) :
    ∃ m : ℝ, univ.sup s = (m : EReal) := by
  obtain ⟨i, _, h⟩ := Finset.exists_mem_eq_sup (univ : Finset (Fin N)) ⟨⟨0, hN⟩, mem_univ _⟩ s
  obtain ⟨r, hr⟩ := hs i
  exact ⟨r, h.trans hr⟩

/-- The difference entry − supremum does not see a real shift of every entry. -/
theorem shift_sub_sup {N : ℕ} (hN : 0 < N) (s : Fin N → EReal) (hs : ∀ j, ∃ r : ℝ, s j = (r : EReal)) (c : ℝ)
    (j : Fin N) :
    (s j - (c : EReal)) - univ.sup (fun j => s j - (c : EReal)) = s j - univ.sup s := by
  obtain ⟨m, hm⟩ := sup_univ_real hN s hs
  obtain ⟨r, hr⟩ := hs j
  rw [sup_sub_coe, hm, hr, ← EReal.coe_sub, ← EReal.coe_sub, ← EReal.coe_sub, ← EReal.coe_sub]
  congr 1
  ring

/-- The softmax numerator exp (entry − supremum) does not see a real shift of every entry. -/
theorem exp_shift_sub_sup {N : ℕ} (hN : 0 < N) (s : Fin N → EReal) (hs : ∀ j, ∃ r : ℝ, s j = (r : EReal)) (c : ℝ)
    (j : Fin N) :
    Ideal.exp ((s j - (c : EReal)) - univ.sup (fun j => s j - (c : EReal))) = Ideal.exp (s j - univ.sup s) := by
  rw [shift_sub_sup hN s hs c j]

/-! ### (B) The two spellings of a weighted mean -/

/-- For real weights e with a nonzero real total, (Σ e·v) / (Σ e) = Σ (e / Σ e)·v: the division is a product with a real
    reciprocal, which distributes over a sum of real numbers. -/
theorem div_sum_mul_eq_sum_div_mul {N : ℕ} (e v : Fin N → EReal)
    (he : ∀ j, ∃ r : ℝ, e j = (r : EReal)) (hv : ∀ j, ∃ r : ℝ, v j = (r : EReal)) (hZ : (∑ j, e j) ≠ 0) :
    Ideal.div (∑ j, e j * v j) (∑ j, e j) = ∑ j, Ideal.div (e j) (∑ i, e i) * v j := by
  choose a ha using he
  choose b hb using hv
  have hsum : (∑ j, e j) = ((∑ j, a j : ℝ) : EReal) := by simp only [ha]; exact coe_sum _ a
  have hZ' : (∑ j, a j : ℝ) ≠ 0 := by
    intro h0
    exact hZ (by rw [hsum, h0, EReal.coe_zero])
  rw [hsum]
  simp only [Ideal.div_coe hZ', ha, hb, ← EReal.coe_mul, coe_sum]
  congr 1
  rw [Finset.sum_mul]
  exact Finset.sum_congr rfl fun j _ => by ring

/-- The softmax numerators exp (g − sup g) of real scores are real numbers. -/
theorem exp_sub_sup_real {N : ℕ} (hN : 0 < N) (g : Fin N → EReal) (hg : ∀ j, ∃ r : ℝ, g j = (r : EReal)) (j : Fin N) :
    ∃ r : ℝ, Ideal.exp (g j - univ.sup g) = (r : EReal) := by
  obtain ⟨m, hm⟩ := sup_univ_real hN g hg
  obtain ⟨a, ha⟩ := hg j
  exact ⟨Real.exp (a - m), by rw [hm, ha, ← EReal.coe_sub, Ideal.exp_coe]⟩

/-- The softmax denominator Σ exp (g − sup g) of real scores is a real number ≥ 1: every term is positive and the
    entry attaining the supremum contributes exp 0 = 1. -/
theorem sum_exp_sub_sup_ge_one {N : ℕ} (hN : 0 < N) (g : Fin N → EReal) (hg : ∀ j, ∃ r : ℝ, g j = (r : EReal)) :
    ∃ Z : ℝ, 1 ≤ Z ∧ (∑ j, Ideal.exp (g j - univ.sup g)) = (Z : EReal) := by
  obtain ⟨i, _, hi⟩ := Finset.exists_mem_eq_sup (univ : Finset (Fin N)) ⟨⟨0, hN⟩, mem_univ _⟩ g
  choose a ha using hg
  have hm : univ.sup g = ((a i : ℝ) : EReal) := hi.trans (ha i)
  refine ⟨∑ j, Real.exp (a j - a i), ?_, ?_⟩
  · have h1 : Real.exp (a i - a i) ≤ ∑ j, Real.exp (a j - a i) :=
      Finset.single_le_sum (f := fun j => Real.exp (a j - a i)) (fun j _ => (Real.exp_pos _).le) (mem_univ i)
    rwa [sub_self, Real.exp_zero] at h1
  · rw [hm]
    simp only [ha, ← EReal.coe_sub, Ideal.exp_coe]
    exact coe_sum _ _

/-- The two spellings of a softmax-weighted mean agree: with e_j = exp (g_j − sup g) for real scores g and real values v,
    (Σ_j e_j·v_j) / (Σ_j e_j) = Σ_j (e_j / Σ_i e_i)·v_j. -/
theorem div_sum_eq_sum_div {N : ℕ} (hN : 0 < N) (g v : Fin N → EReal)
    (hg : ∀ j, ∃ r : ℝ, g j = (r : EReal)) (hv : ∀ j, ∃ r : ℝ, v j = (r : EReal)) :
    Ideal.div (∑ j, Ideal.exp (g j - univ.sup g) * v j) (∑ j, Ideal.exp (g j - univ.sup g))
      = ∑ j, Ideal.div (Ideal.exp (g j - univ.sup g)) (∑ i, Ideal.exp (g i - univ.sup g)) * v j := by
  obtain ⟨Z, hZ1, hZ⟩ := sum_exp_sub_sup_ge_one hN g hg
  refine div_sum_mul_eq_sum_div_mul (fun j => Ideal.exp (g j - univ.sup g)) v (exp_sub_sup_real hN g hg) hv ?_
  rw [hZ]
  have : (Z : ℝ) ≠ 0 := by linarith
  exact_mod_cast this

end Idealize.ShloMosaic.SoftmaxForms

end
-- ==== Proof.LibHostReduceRow.lean ====
/-
  The host's one-operand reduce along the rows of a rank-2 array, read at a row, at the ideal instance.

  For an a by b array of extended reals and a commutative associative operation f, the reduce along the second axis
  with an initial value is, at row i, the fold of f from the initial value over the b entries of the row, in no
  particular order: a row's maximum or minimum as a reference's softmax or normalisation takes it (the sum has its
  own reading as a finite sum).
-/
import Idealize.ShloMosaic.PureOps.Ideal.Laws
import Idealize.ShloMosaic.PureOps.Reduce
import Idealize.ShloMosaic.Lib.ValueIdx

noncomputable section

namespace Idealize.ShloMosaic.HostReduceRow

open Idealize.ShloMosaic Idealize.ShloMosaic.ValueIdx

variable {a b : ℕ}

/-- The index a reduction along the second axis puts back: row i, entry j. -/
theorem lift_row (h : (⟨2, ![a, b]⟩ : Shape).Reduces [(1 : Fin 2)] ⟨1, ![a]⟩) (i : Fin a) (j : Fin b) :
    h.lift (ix1 i) j = ix2 i j := by
  funext ax
  apply Fin.ext
  match ax with
  | ⟨0, _⟩ => rfl
  | ⟨1, _⟩ => rfl

/-- The host's reduce of an a by b array along its second axis is, at row i, the fold from the initial value over
    the b entries of the row. -/
theorem host_reduce_row_apply {u : Shape} (f : EReal → EReal → EReal) [Std.Commutative f] [Std.Associative f]
    (x : (⟨2, ![a, b]⟩ : Shape).Idx → EReal) (init : u.Idx → EReal)
    (h' : (⟨2, ![a, b]⟩ : Shape).ReducesTo [(1 : Fin 2)] ⟨1, ![a]⟩) (hu : 0 < u.numel)
    (h : (⟨2, ![a, b]⟩ : Shape).Reduces [(1 : Fin 2)] ⟨1, ![a]⟩) (i : Fin a) :
    Host.reduce f x init h' hu (ix1 i)
      = (Finset.univ : Finset (Fin b)).fold f (init (Shape.Idx.first hu)) (fun j => x (ix2 i j)) := by
  rw [Host.reduce_eq_fold, Shape.ReducesTo.drop_eq_drop h' h, h.fold_filter_drop_single]
  have e : (x ∘ h.lift (ix1 i)) = fun j : Fin b => x (ix2 i j) :=
    funext fun j => congrArg x (lift_row h i j)
  rw [e]
  rfl

end Idealize.ShloMosaic.HostReduceRow

end
-- ==== Proof.ReferenceRetrieval.lean ====
/-
  The reference's retrieval stage, read at an index, is the softmax-weighted mean of the value rows.

  The reference encodes the observation into a feature vector f (two affine layers, each followed by max with zero), takes
  for every key row K_j minus the squared distance g_j = −(0 + Σ_d (f_d − K_j,d)²), subtracts the rows' supremum,
  exponentiates, divides every weight by the weights' sum and contracts the normalised weights with the value rows.
  Reals are closed under finite sums, products and max, so f is real; expanding the square, g_j is the logit
  2·⟨f, K_j⟩ − ⟨1, K_j∘K_j⟩ minus the constant |f|², which cancels against the supremum; and Σ_j (e_j / Σ e)·V_j,h is
  (Σ_j e_j·V_j,h) / (Σ_j e_j). The result is `Cert.Retrieval.oneShot` of f, the keys and the values.
-/
import proofs.«149342_j75737453298419_2_alg».proof.Proof.Gen.ReferenceIdeal.Read
import proofs.«149342_j75737453298419_2_alg».proof.Proof.RetrievalSpec
import proofs.«149342_j75737453298419_2_alg».proof.Proof.LibSoftmaxForms
import proofs.«149342_j75737453298419_2_alg».proof.Proof.LibHostReduceRow

noncomputable section

namespace Cert.ReferenceIdeal.RefValue

open Cert.ReferenceIdeal Cert.ReferenceIdeal.Read Idealize.ShloMosaic Idealize.ShloMosaic.ValueIdx Finset

/-! ### Real numbers inside the extended reals are closed under +, ·, max and finite sums -/

theorem real_add {x y : EReal} (hx : ∃ r : ℝ, x = (r : EReal)) (hy : ∃ r : ℝ, y = (r : EReal)) :
    ∃ r : ℝ, x + y = (r : EReal) := by
  obtain ⟨a, rfl⟩ := hx
  obtain ⟨b, rfl⟩ := hy
  exact ⟨a + b, (EReal.coe_add a b).symm⟩

theorem real_mul {x y : EReal} (hx : ∃ r : ℝ, x = (r : EReal)) (hy : ∃ r : ℝ, y = (r : EReal)) :
    ∃ r : ℝ, x * y = (r : EReal) := by
  obtain ⟨a, rfl⟩ := hx
  obtain ⟨b, rfl⟩ := hy
  exact ⟨a * b, (EReal.coe_mul a b).symm⟩

theorem real_max {x y : EReal} (hx : ∃ r : ℝ, x = (r : EReal)) (hy : ∃ r : ℝ, y = (r : EReal)) :
    ∃ r : ℝ, max x y = (r : EReal) := by
  obtain ⟨a, rfl⟩ := hx
  obtain ⟨b, rfl⟩ := hy
  exact ⟨max a b, (EReal.coe_strictMono.monotone.map_max (a := a) (b := b)).symm⟩

theorem real_sum {ι : Type*} (s : Finset ι) (f : ι → EReal) (h : ∀ k ∈ s, ∃ r : ℝ, f k = (r : EReal)) :
    ∃ r : ℝ, ∑ k ∈ s, f k = (r : EReal) := by
  classical
  induction s using Finset.induction_on with
  | empty => exact ⟨0, by simp⟩
  | insert a s ha ih =>
    rw [Finset.sum_insert ha]
    exact real_add (h a (mem_insert_self a s)) (ih fun k hk => h k (mem_insert_of_mem hk))

theorem real_zero_word : ∃ r : ℝ, FloatOps.ofBits (F := Ideal) .f32 0x00000000#32 = (r : EReal) :=
  ⟨0, by rw [Ideal.ofBits_def, Ideal.ofBits_zero_f32, EReal.coe_zero]⟩

/-! ### The encoder's output is real -/

/-- The hidden layer max (x·W1ᵀ + b1, 0) of real inputs is real. -/
theorem hidden_real (x0 : (⟨S1x9, .f32⟩ : BufTy).Contents (Elt Ideal)) (x7 : (⟨S32x9, .f32⟩ : BufTy).Contents (Elt Ideal)) (x8 : (⟨S32, .f32⟩ : BufTy).Contents (Elt Ideal)) (hx0 : ∀ i, ∃ r : ℝ, x0 i = (r : EReal)) (hx7 : ∀ i, ∃ r : ℝ, x7 i = (r : EReal)) (hx8 : ∀ i, ∃ r : ℝ, x8 i = (r : EReal)) (i : S1x32.Idx) :
    ∃ r : ℝ, val_main_v4 (F := Ideal) x0 x7 x8 i = (r : EReal) := by
  rw [val_main_v4_apply]
  refine real_max ?_ ?_
  · rw [val_main_v3_apply]
    refine real_add ?_ ?_
    · rw [val_main_v1_apply]
      refine real_sum _ _ fun k _ => real_mul (hx0 _) ?_
      rw [val_main_v0_apply]
      exact hx7 _
    · rw [val_main_v2_apply]
      exact hx8 _
  · rw [val_main_call0_v0_apply, val_main_call0_cst_apply]
    exact real_zero_word

/-- The feature vector max (h·W2ᵀ + b2, 0) of real inputs is real. -/
theorem feats_real (x0 : (⟨S1x9, .f32⟩ : BufTy).Contents (Elt Ideal)) (x7 : (⟨S32x9, .f32⟩ : BufTy).Contents (Elt Ideal)) (x8 : (⟨S32, .f32⟩ : BufTy).Contents (Elt Ideal)) (x9 : (⟨S64x32, .f32⟩ : BufTy).Contents (Elt Ideal)) (x10 : (⟨S64, .f32⟩ : BufTy).Contents (Elt Ideal)) (hx0 : ∀ i, ∃ r : ℝ, x0 i = (r : EReal)) (hx7 : ∀ i, ∃ r : ℝ, x7 i = (r : EReal)) (hx8 : ∀ i, ∃ r : ℝ, x8 i = (r : EReal)) (hx9 : ∀ i, ∃ r : ℝ, x9 i = (r : EReal)) (hx10 : ∀ i, ∃ r : ℝ, x10 i = (r : EReal)) (i : S1x64.Idx) :
    ∃ r : ℝ, val_main_v9 (F := Ideal) x0 x7 x8 x9 x10 i = (r : EReal) := by
  rw [val_main_v9_apply]
  refine real_max ?_ ?_
  · rw [val_main_v8_apply]
    refine real_add ?_ ?_
    · rw [val_main_v6_apply]
      refine real_sum _ _ fun k _ => real_mul (hidden_real x0 x7 x8 hx0 hx7 hx8 _) ?_
      rw [val_main_v5_apply]
      exact hx9 _
    · rw [val_main_v7_apply]
      exact hx10 _
  · rw [val_main_call1_v0_apply, val_main_call1_cst_apply]
    exact real_zero_word

/-! ### The retrieval's stages at an index -/

/-- A fold of max from −∞ is the supremum. -/
theorem fold_max_bot {ι : Type*} (s : Finset ι) (g : ι → EReal) (b : EReal) (hb : b = ⊥) :
    s.fold (FloatOps.maximumf (F := Ideal) (φ := .f32)) b g = s.sup g := by
  classical
  subst hb
  induction s using Finset.induction_on with
  | empty => rw [Finset.fold_empty, Finset.sup_empty]
  | insert a s ha ih => rw [Finset.fold_insert ha, Finset.sup_insert, ih]; rfl

theorem neg_inf_word : FloatOps.ofBits (F := Ideal) .f32 0xFF800000#32 = ⊥ := by
  rw [Ideal.ofBits_def]
  simp [Ideal.ofBits, Ideal.ieee]

/-- A one-entry index is the index 0. -/
theorem idx1_eq (i : S1.Idx) : i = ix1 (0 : Fin 1) := by
  funext a
  match a with
  | ⟨0, _⟩ =>
    apply Fin.ext
    have h := (i ⟨0, by decide⟩).isLt
    have hs : S1.size ⟨0, by decide⟩ = 1 := rfl
    show (i ⟨0, _⟩).val = 0
    omega

section Stages
variable (x0 : (⟨S1x9, .f32⟩ : BufTy).Contents (Elt Ideal)) (x5 : (⟨S100000x64, .f32⟩ : BufTy).Contents (Elt Ideal)) (x6 : (⟨S100000x512, .f32⟩ : BufTy).Contents (Elt Ideal)) (x7 : (⟨S32x9, .f32⟩ : BufTy).Contents (Elt Ideal)) (x8 : (⟨S32, .f32⟩ : BufTy).Contents (Elt Ideal)) (x9 : (⟨S64x32, .f32⟩ : BufTy).Contents (Elt Ideal)) (x10 : (⟨S64, .f32⟩ : BufTy).Contents (Elt Ideal))

/-- Row j of minus the squared distances: −(0 + Σ_d (f_d − K_j,d)²). -/
theorem negdist_read (j : Fin 100000) :
    val_main_v17 (F := Ideal) x0 x5 x7 x8 x9 x10 (ix2 0 j)
      = -((0 : EReal) + ∑ d : Fin 64, (val_main_v9 (F := Ideal) x0 x7 x8 x9 x10 (ix2 0 d) - x5 (ix2 j d))
          * (val_main_v9 (F := Ideal) x0 x7 x8 x9 x10 (ix2 0 d) - x5 (ix2 j d))) := by
  rw [val_main_v17_apply, val_main_v16_apply, val_main_cst_apply, Ideal.hostNegf_def, Ideal.negf_def, Ideal.ofBits_def,
    Ideal.ofBits_zero_f32]
  refine congrArg (fun t => -((0 : EReal) + t)) (Finset.sum_congr rfl fun d _ => ?_)
  have e1 : idx_main_v11 (idx_main_v13 (idx_main_v16 (ix2 0 j) d)) = ix2 0 d :=
    funext fun a => match a with
      | ⟨0, _⟩ => rfl
      | ⟨1, _⟩ => rfl
  have e2 : idx_main_v12 (idx_main_v16 (ix2 0 j) d) = ix2 j d :=
    funext fun a => match a with
      | ⟨0, _⟩ => rfl
      | ⟨1, _⟩ => rfl
  rw [val_main_v15_apply, val_main_v14_apply, val_main_v13_apply, val_main_v11_apply, val_main_v12_apply, e1, e2,
    Ideal.mulf_def, Ideal.subf_def]

/-- The row maximum from −∞ is the supremum of the row. -/
theorem rowmax_read (i : S1.Idx) :
    val_main_v18 (F := Ideal) x0 x5 x7 x8 x9 x10 i = univ.sup fun j : Fin 100000 => val_main_v17 (F := Ideal) x0 x5 x7 x8 x9 x10 (ix2 0 j) := by
  rw [idx1_eq i]
  unfold val_main_v18
  refine (HostReduceRow.host_reduce_row_apply (a := 1) (b := 100000) (FloatOps.maximumf (F := Ideal) (φ := .f32))
    (val_main_v17 (F := Ideal) x0 x5 x7 x8 x9 x10) (val_main_cst_0 (F := Ideal)) Gen.reducesTo_S1x100000_S1_d1 Gen.h_S_ (by decide) 0).trans ?_
  exact fold_max_bot _ _ _ (by rw [val_main_cst_0_apply, neg_inf_word])

/-- The softmax numerator of row j: exp (g_j − sup g), g the row of minus the squared distances. -/
theorem weight_read (j : Fin 100000) :
    val_main_v24 (F := Ideal) x0 x5 x7 x8 x9 x10 (ix2 0 j)
      = Ideal.exp (val_main_v17 (F := Ideal) x0 x5 x7 x8 x9 x10 (ix2 0 j)
          - univ.sup fun j : Fin 100000 => val_main_v17 (F := Ideal) x0 x5 x7 x8 x9 x10 (ix2 0 j)) := by
  rw [val_main_v24_apply, val_main_v23_apply, val_main_v22_apply, val_main_v21_apply, val_main_v20_apply,
    val_main_v19_apply, val_main_cst_1_apply, rowmax_read, neg_inf_word, Ideal.hostUnary_exp_def, Ideal.subf_def,
    Ideal.maximumf_def, max_eq_right bot_le]

/-- The softmax denominator: 0 + Σ_k of the numerators. -/
theorem sumw_read (i : S1.Idx) :
    val_main_v25 (F := Ideal) x0 x5 x7 x8 x9 x10 i = (0 : EReal) + ∑ k : Fin 100000, val_main_v24 (F := Ideal) x0 x5 x7 x8 x9 x10 (ix2 0 k) := by
  rw [idx1_eq i, val_main_v25_apply, val_main_cst_2_apply, Ideal.ofBits_def, Ideal.ofBits_zero_f32]
  refine congrArg (fun t => (0 : EReal) + t) (Finset.sum_congr rfl fun k _ => ?_)
  have e : idx_main_v25 (ix1 (0 : Fin 1)) k = ix2 0 k :=
    funext fun a => match a with
      | ⟨0, _⟩ => rfl
      | ⟨1, _⟩ => rfl
  rw [e]

/-- The normalised weight of row j. -/
theorem normw_read (j : Fin 100000) :
    val_main_v28 (F := Ideal) x0 x5 x7 x8 x9 x10 (ix2 0 j)
      = Ideal.div (val_main_v24 (F := Ideal) x0 x5 x7 x8 x9 x10 (ix2 0 j))
          ((0 : EReal) + ∑ k : Fin 100000, val_main_v24 (F := Ideal) x0 x5 x7 x8 x9 x10 (ix2 0 k)) := by
  rw [val_main_v28_apply, val_main_v27_apply, val_main_v26_apply, sumw_read, Ideal.hostDivf_def]

/-- The retrieved value at column h: the normalised weights contracted with the value rows. -/
theorem out_read (h : Fin 512) :
    val_main_v29 (F := Ideal) x0 x5 x6 x7 x8 x9 x10 (ix2 0 h)
      = ∑ k : Fin 100000, val_main_v28 (F := Ideal) x0 x5 x7 x8 x9 x10 (ix2 0 k) * x6 (ix2 k h) := by
  rw [val_main_v29_apply]
  refine Finset.sum_congr rfl fun k _ => ?_
  have el : lidx_main_v29 (ix2 0 h) k = ix2 0 k :=
    funext fun a => match a with
      | ⟨0, _⟩ => rfl
      | ⟨1, _⟩ => rfl
  have er : ridx_main_v29 (ix2 0 h) k = ix2 k h :=
    funext fun a => match a with
      | ⟨0, _⟩ => rfl
      | ⟨1, _⟩ => rfl
  rw [el, er]

end Stages

/-! ### The retrieval is the one-shot softmax-weighted mean -/

theorem real_sub {x y : EReal} (hx : ∃ r : ℝ, x = (r : EReal)) (hy : ∃ r : ℝ, y = (r : EReal)) :
    ∃ r : ℝ, x - y = (r : EReal) := by
  obtain ⟨a, rfl⟩ := hx
  obtain ⟨b, rfl⟩ := hy
  exact ⟨a - b, (EReal.coe_sub a b).symm⟩

/-- The logits of a real feature vector against real keys are real. -/
theorem logit_real {N D : ℕ} (f : Fin D → EReal) (K : Fin N → Fin D → EReal)
    (hf : ∀ d, ∃ r : ℝ, f d = (r : EReal)) (hK : ∀ j d, ∃ r : ℝ, K j d = (r : EReal)) (j : Fin N) :
    ∃ r : ℝ, Cert.Retrieval.logit f K j = (r : EReal) := by
  unfold Cert.Retrieval.logit
  refine real_sub (real_mul ⟨2, by norm_cast⟩ (real_sum _ _ fun d _ => real_mul (hf d) (hK j d)))
    (real_sum _ _ fun d _ => real_mul ⟨1, by norm_cast⟩ (real_mul (hK j d) (hK j d)))

/-- The reference's retrieved value at column h is the one-shot softmax-weighted mean of the value rows, with the logits
    2·⟨f, K_j⟩ − ⟨1, K_j∘K_j⟩ of the feature vector f against the key rows. -/
theorem ref_retrieval (x0 : (⟨S1x9, .f32⟩ : BufTy).Contents (Elt Ideal)) (x5 : (⟨S100000x64, .f32⟩ : BufTy).Contents (Elt Ideal)) (x6 : (⟨S100000x512, .f32⟩ : BufTy).Contents (Elt Ideal)) (x7 : (⟨S32x9, .f32⟩ : BufTy).Contents (Elt Ideal)) (x8 : (⟨S32, .f32⟩ : BufTy).Contents (Elt Ideal)) (x9 : (⟨S64x32, .f32⟩ : BufTy).Contents (Elt Ideal)) (x10 : (⟨S64, .f32⟩ : BufTy).Contents (Elt Ideal))
    (hx0 : ∀ i, ∃ r : ℝ, x0 i = (r : EReal)) (hx5 : ∀ i, ∃ r : ℝ, x5 i = (r : EReal)) (hx6 : ∀ i, ∃ r : ℝ, x6 i = (r : EReal)) (hx7 : ∀ i, ∃ r : ℝ, x7 i = (r : EReal)) (hx8 : ∀ i, ∃ r : ℝ, x8 i = (r : EReal)) (hx9 : ∀ i, ∃ r : ℝ, x9 i = (r : EReal)) (hx10 : ∀ i, ∃ r : ℝ, x10 i = (r : EReal)) (h : Fin 512) :
    val_main_v29 (F := Ideal) x0 x5 x6 x7 x8 x9 x10 (ix2 0 h)
      = Cert.Retrieval.oneShot (fun d => val_main_v9 (F := Ideal) x0 x7 x8 x9 x10 (ix2 0 d)) (fun j d => x5 (ix2 j d))
          (fun j h => x6 (ix2 j h)) h := by
  have hf : ∀ d : Fin 64, ∃ r : ℝ, val_main_v9 (F := Ideal) x0 x7 x8 x9 x10 (ix2 0 d) = (r : EReal) :=
    fun d => feats_real x0 x7 x8 x9 x10 hx0 hx7 hx8 hx9 hx10 _
  have hK : ∀ (j : Fin 100000) (d : Fin 64), ∃ r : ℝ, x5 (ix2 j d) = (r : EReal) := fun j d => hx5 _
  obtain ⟨c, hc⟩ := real_sum univ (fun d : Fin 64 => val_main_v9 (F := Ideal) x0 x7 x8 x9 x10 (ix2 0 d)
    * val_main_v9 (F := Ideal) x0 x7 x8 x9 x10 (ix2 0 d)) fun d _ => real_mul (hf d) (hf d)
  -- row j of minus the squared distances is the logit minus the constant |f|²
  have hg : ∀ j : Fin 100000, val_main_v17 (F := Ideal) x0 x5 x7 x8 x9 x10 (ix2 0 j)
      = Cert.Retrieval.logit (fun d => val_main_v9 (F := Ideal) x0 x7 x8 x9 x10 (ix2 0 d)) (fun j d => x5 (ix2 j d)) j
          - (c : EReal) := by
    intro j
    rw [negdist_read, SoftmaxForms.neg_zero_add_sum_sq_sub _ _ hf (hK j), hc]
    rfl
  have hl := logit_real (fun d => val_main_v9 (F := Ideal) x0 x7 x8 x9 x10 (ix2 0 d)) (fun j d => x5 (ix2 j d)) hf hK
  have hgr : ∀ j : Fin 100000, ∃ r : ℝ, val_main_v17 (F := Ideal) x0 x5 x7 x8 x9 x10 (ix2 0 j) = (r : EReal) := fun j => by
    rw [hg j]
    exact real_sub (hl j) ⟨c, rfl⟩
  rw [out_read]
  simp only [normw_read, weight_read, zero_add]
  rw [← SoftmaxForms.div_sum_eq_sum_div (by norm_num) (fun j : Fin 100000 => val_main_v17 (F := Ideal) x0 x5 x7 x8 x9 x10 (ix2 0 j))
    (fun j => x6 (ix2 j h)) hgr fun j => hx6 _]
  unfold Cert.Retrieval.oneShot
  simp only [hg]
  simp only [SoftmaxForms.exp_shift_sub_sup (by norm_num) _ hl c]

end Cert.ReferenceIdeal.RefValue

end
-- ==== Proof.LibFiniteEntry.lean ====
/-
  One "every entry is finite" test of a precondition, read back at an entry.

  A precondition "all float inputs are finite" is, per input, an and-reduction over all axes of the entrywise
  comparison |v| < +∞ (the bound the word 0x7F800000), started from true. When such a reduction is true every
  entry's comparison is true, and an extended real v with max(v, -v) < +∞ is neither +∞ nor -∞: it is a real number.
-/
import Idealize.ShloMosaic.PureOps.Ideal
import Idealize.ShloMosaic.Lib.ReduceAll
import Idealize.ShloMosaic.Lib.ValueIdx
import Idealize.ShloMosaic.Lib.IdealHost

noncomputable section

namespace Cert.Lib.FiniteEntry

open Idealize.ShloMosaic Idealize.ShloMosaic.ValueIdx

/-- The comparison bound's word denotes +∞. -/
theorem inf_eq : Ideal.ofBits .f32 0x7F800000#32 = ⊤ := by
  simp [Ideal.ofBits, Ideal.ieee]

/-- |v| < +∞ came out true: v is a real number. -/
theorem real_of_abs_lt_inf (v : EReal)
    (h : FloatOps.cmpf (F := Ideal) (φ := .f32) .olt (FloatOps.hostAbsf v) (Ideal.ofBits .f32 0x7F800000#32) = 1#1) :
    ∃ r : ℝ, v = (r : EReal) := by
  have hlt : max v (-v) < ⊤ := by
    by_contra hn
    have h0 : FloatOps.cmpf (F := Ideal) (φ := .f32) .olt (FloatOps.hostAbsf v) (Ideal.ofBits .f32 0x7F800000#32) = 0#1 := by
      show BitVec.ofBool (decide (max v (-v) < Ideal.ofBits .f32 0x7F800000#32)) = 0#1
      rw [inf_eq, decide_eq_false hn]
      rfl
    rw [h0] at h
    exact absurd h (by decide)
  have h1 : v ≠ ⊤ := fun e => by rw [e] at hlt; simp at hlt
  have h2 : v ≠ ⊥ := fun e => by rw [e] at hlt; simp at hlt
  exact ⟨v.toReal, (EReal.coe_toReal h1 h2).symm⟩

/-- A rank-0 array has one index. -/
instance : Subsingleton (⟨0, ![]⟩ : Shape).Idx := ⟨fun a b => funext fun d => d.elim0⟩

/-- The whole test read back: if the and-reduction over all axes of "|a| < +∞" (the bound broadcast from a scalar
    constant) is true, every entry of a is a real number. -/
theorem all_real {s : Shape} {axes : List (Fin s.rank)} (a : FVec Ideal s .f32)
    (hb : (⟨0, ![]⟩ : Shape).BroadcastsInDim s ![]) (hr : s.ReducesTo axes ⟨0, ![]⟩) (hn : 0 < (⟨0, ![]⟩ : Shape).numel)
    (init : IVec ⟨0, ![]⟩ 1)
    (h : Host.reduce IntOp.andi
        (cmpf .olt (Host.absf a) (broadcastInDim s ![] hb (constant (F := Ideal) ⟨0, ![]⟩ .f32 0x7F800000#32))) init hr hn ix0 = 1#1)
    (i : s.Idx) : ∃ r : ℝ, a i = (r : EReal) := by
  have e := Host.reduce_andi_all _ _ _ _ ix0 h i
  rw [cmpf_apply, broadcastInDim_scalar_apply] at e
  exact real_of_abs_lt_inf (a i) e

end Cert.Lib.FiniteEntry

end
-- ==== Proof.FiniteInputs.lean ====
/-
  The precondition "every float input is finite", read back entry by entry at the ideal instance.

  The precondition is the conjunction, over the nineteen argument arrays, of "the and-reduction over all axes of the
  entrywise test |a| < +∞ is true". A conjunction of one-bit words is 1 exactly when both words are 1, so each array's
  reduction is 1; a reduction by "and" that is 1 had a 1 at every entry; and an extended real v with max(v, −v) < +∞ is a
  real number. Hence every entry of every argument array is a real number.
-/
import proofs.«149342_j75737453298419_2_alg».proof.Defs
import proofs.«149342_j75737453298419_2_alg».proof.Proof.LibFiniteEntry

noncomputable section

namespace Cert.FiniteInputs

open Idealize.ShloMosaic Idealize.ShloMosaic.ValueIdx Idealize.SL.Sem Cert.Lib.FiniteEntry

variable [Cert.Pre_finite_inputs.Facts]

/-- If the finiteness test of nineteen arrays is true, every entry of every one of them is a real number. -/
theorem reals_of_fn (a0 : FVec Ideal Cert.Pre_finite_inputs.S1x9 .f32) (a1 : FVec Ideal Cert.Pre_finite_inputs.S1x3 .f32) (a2 : FVec Ideal Cert.Pre_finite_inputs.S1x1 .f32) (a3 : FVec Ideal Cert.Pre_finite_inputs.S1x1x512 .f32) (a4 : FVec Ideal Cert.Pre_finite_inputs.S1x1x512 .f32) (a5 : FVec Ideal Cert.Pre_finite_inputs.S100000x64 .f32) (a6 : FVec Ideal Cert.Pre_finite_inputs.S100000x512 .f32) (a7 : FVec Ideal Cert.Pre_finite_inputs.S32x9 .f32) (a8 : FVec Ideal Cert.Pre_finite_inputs.S32 .f32) (a9 : FVec Ideal Cert.Pre_finite_inputs.S64x32 .f32) (a10 : FVec Ideal Cert.Pre_finite_inputs.S64 .f32) (a11 : FVec Ideal Cert.Pre_finite_inputs.S2560x68 .f32) (a12 : FVec Ideal Cert.Pre_finite_inputs.S2560x512 .f32) (a13 : FVec Ideal Cert.Pre_finite_inputs.S2560 .f32) (a14 : FVec Ideal Cert.Pre_finite_inputs.S2560 .f32) (a15 : FVec Ideal Cert.Pre_finite_inputs.S3x512 .f32) (a16 : FVec Ideal Cert.Pre_finite_inputs.S3 .f32) (a17 : FVec Ideal Cert.Pre_finite_inputs.S1x512 .f32) (a18 : FVec Ideal Cert.Pre_finite_inputs.S1 .f32)
    (h : Cert.Pre_finite_inputs.fn (F := Ideal) a0 a1 a2 a3 a4 a5 a6 a7 a8 a9 a10 a11 a12 a13 a14 a15 a16 a17 a18 = fun _ => 1#1) :
    (∀ i, ∃ r : ℝ, a0 i = (r : EReal))
      ∧ (∀ i, ∃ r : ℝ, a1 i = (r : EReal))
      ∧ (∀ i, ∃ r : ℝ, a2 i = (r : EReal))
      ∧ (∀ i, ∃ r : ℝ, a3 i = (r : EReal))
      ∧ (∀ i, ∃ r : ℝ, a4 i = (r : EReal))
      ∧ (∀ i, ∃ r : ℝ, a5 i = (r : EReal))
      ∧ (∀ i, ∃ r : ℝ, a6 i = (r : EReal))
      ∧ (∀ i, ∃ r : ℝ, a7 i = (r : EReal))
      ∧ (∀ i, ∃ r : ℝ, a8 i = (r : EReal))
      ∧ (∀ i, ∃ r : ℝ, a9 i = (r : EReal))
      ∧ (∀ i, ∃ r : ℝ, a10 i = (r : EReal))
      ∧ (∀ i, ∃ r : ℝ, a11 i = (r : EReal))
      ∧ (∀ i, ∃ r : ℝ, a12 i = (r : EReal))
      ∧ (∀ i, ∃ r : ℝ, a13 i = (r : EReal))
      ∧ (∀ i, ∃ r : ℝ, a14 i = (r : EReal))
      ∧ (∀ i, ∃ r : ℝ, a15 i = (r : EReal))
      ∧ (∀ i, ∃ r : ℝ, a16 i = (r : EReal))
      ∧ (∀ i, ∃ r : ℝ, a17 i = (r : EReal))
      ∧ (∀ i, ∃ r : ℝ, a18 i = (r : EReal)) := by
  have e := congrFun h ix0
  dsimp only [Cert.Pre_finite_inputs.fn, Cert.Pre_finite_inputs.fn_part1, Cert.Pre_finite_inputs.fn_part2, Cert.Pre_finite_inputs.fn_part3, Cert.Pre_finite_inputs.fn_part4,
    Cert.Pre_finite_inputs.fn_part5, andi] at e
  obtain ⟨e18, h18⟩ := IntOp.andi_eq_one.1 e
  obtain ⟨e17, h17⟩ := IntOp.andi_eq_one.1 e18
  obtain ⟨e16, h16⟩ := IntOp.andi_eq_one.1 e17
  obtain ⟨e15, h15⟩ := IntOp.andi_eq_one.1 e16
  obtain ⟨e14, h14⟩ := IntOp.andi_eq_one.1 e15
  obtain ⟨e13, h13⟩ := IntOp.andi_eq_one.1 e14
  obtain ⟨e12, h12⟩ := IntOp.andi_eq_one.1 e13
  obtain ⟨e11, h11⟩ := IntOp.andi_eq_one.1 e12
  obtain ⟨e10, h10⟩ := IntOp.andi_eq_one.1 e11
  obtain ⟨e9, h9⟩ := IntOp.andi_eq_one.1 e10
  obtain ⟨e8, h8⟩ := IntOp.andi_eq_one.1 e9
  obtain ⟨e7, h7⟩ := IntOp.andi_eq_one.1 e8
  obtain ⟨e6, h6⟩ := IntOp.andi_eq_one.1 e7
  obtain ⟨e5, h5⟩ := IntOp.andi_eq_one.1 e6
  obtain ⟨e4, h4⟩ := IntOp.andi_eq_one.1 e5
  obtain ⟨e3, h3⟩ := IntOp.andi_eq_one.1 e4
  obtain ⟨e2, h2⟩ := IntOp.andi_eq_one.1 e3
  obtain ⟨h0, h1⟩ := IntOp.andi_eq_one.1 e2
  exact ⟨fun i => all_real a0 _ _ _ _ h0 i,
    fun i => all_real a1 _ _ _ _ h1 i,
    fun i => all_real a2 _ _ _ _ h2 i,
    fun i => all_real a3 _ _ _ _ h3 i,
    fun i => all_real a4 _ _ _ _ h4 i,
    fun i => all_real a5 _ _ _ _ h5 i,
    fun i => all_real a6 _ _ _ _ h6 i,
    fun i => all_real a7 _ _ _ _ h7 i,
    fun i => all_real a8 _ _ _ _ h8 i,
    fun i => all_real a9 _ _ _ _ h9 i,
    fun i => all_real a10 _ _ _ _ h10 i,
    fun i => all_real a11 _ _ _ _ h11 i,
    fun i => all_real a12 _ _ _ _ h12 i,
    fun i => all_real a13 _ _ _ _ h13 i,
    fun i => all_real a14 _ _ _ _ h14 i,
    fun i => all_real a15 _ _ _ _ h15 i,
    fun i => all_real a16 _ _ _ _ h16 i,
    fun i => all_real a17 _ _ _ _ h17 i,
    fun i => all_real a18 _ _ _ _ h18 i⟩

variable (m : (ℓ : Loc Cert.KernelIdeal.nD Cert.KernelIdeal.τ Cert.KernelIdeal.sig) → Buf (Elt Ideal) ℓ)

/-- Under the kernel's precondition every entry of every argument array is a real number, on every device. -/
theorem reals_of_pre_all (h : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
      ∧ (∀ i, ∃ r : ℝ, m ((c.tc : Thread Cert.KernelIdeal.nD Cert.KernelIdeal.τ).loc Cert.KernelIdeal.main_arg1) i = (r : EReal))
      ∧ (∀ i, ∃ r : ℝ, m ((c.tc : Thread Cert.KernelIdeal.nD Cert.KernelIdeal.τ).loc Cert.KernelIdeal.main_arg2) i = (r : EReal))
      ∧ (∀ i, ∃ r : ℝ, m ((c.tc : Thread Cert.KernelIdeal.nD Cert.KernelIdeal.τ).loc Cert.KernelIdeal.main_arg3) i = (r : EReal))
      ∧ (∀ i, ∃ r : ℝ, m ((c.tc : Thread Cert.KernelIdeal.nD Cert.KernelIdeal.τ).loc Cert.KernelIdeal.main_arg4) i = (r : EReal))
      ∧ (∀ i, ∃ r : ℝ, m ((c.tc : Thread Cert.KernelIdeal.nD Cert.KernelIdeal.τ).loc Cert.KernelIdeal.main_arg5) i = (r : EReal))
      ∧ (∀ i, ∃ r : ℝ, m ((c.tc : Thread Cert.KernelIdeal.nD Cert.KernelIdeal.τ).loc Cert.KernelIdeal.main_arg6) i = (r : EReal))
      ∧ (∀ i, ∃ r : ℝ, m ((c.tc : Thread Cert.KernelIdeal.nD Cert.KernelIdeal.τ).loc Cert.KernelIdeal.main_arg7) i = (r : EReal))
      ∧ (∀ i, ∃ r : ℝ, m ((c.tc : Thread Cert.KernelIdeal.nD Cert.KernelIdeal.τ).loc Cert.KernelIdeal.main_arg8) i = (r : EReal))
      ∧ (∀ i, ∃ r : ℝ, m ((c.tc : Thread Cert.KernelIdeal.nD Cert.KernelIdeal.τ).loc Cert.KernelIdeal.main_arg9) i = (r : EReal))
      ∧ (∀ i, ∃ r : ℝ, m ((c.tc : Thread Cert.KernelIdeal.nD Cert.KernelIdeal.τ).loc Cert.KernelIdeal.main_arg10) i = (r : EReal))
      ∧ (∀ i, ∃ r : ℝ, m ((c.tc : Thread Cert.KernelIdeal.nD Cert.KernelIdeal.τ).loc Cert.KernelIdeal.main_arg11) i = (r : EReal))
      ∧ (∀ i, ∃ r : ℝ, m ((c.tc : Thread Cert.KernelIdeal.nD Cert.KernelIdeal.τ).loc Cert.KernelIdeal.main_arg12) i = (r : EReal))
      ∧ (∀ i, ∃ r : ℝ, m ((c.tc : Thread Cert.KernelIdeal.nD Cert.KernelIdeal.τ).loc Cert.KernelIdeal.main_arg13) i = (r : EReal))
      ∧ (∀ i, ∃ r : ℝ, m ((c.tc : Thread Cert.KernelIdeal.nD Cert.KernelIdeal.τ).loc Cert.KernelIdeal.main_arg14) i = (r : EReal))
      ∧ (∀ i, ∃ r : ℝ, m ((c.tc : Thread Cert.KernelIdeal.nD Cert.KernelIdeal.τ).loc Cert.KernelIdeal.main_arg15) i = (r : EReal))
      ∧ (∀ i, ∃ r : ℝ, m ((c.tc : Thread Cert.KernelIdeal.nD Cert.KernelIdeal.τ).loc Cert.KernelIdeal.main_arg16) i = (r : EReal))
      ∧ (∀ i, ∃ r : ℝ, m ((c.tc : Thread Cert.KernelIdeal.nD Cert.KernelIdeal.τ).loc Cert.KernelIdeal.main_arg17) i = (r : EReal))
      ∧ (∀ i, ∃ r : ℝ, m ((c.tc : Thread Cert.KernelIdeal.nD Cert.KernelIdeal.τ).loc Cert.KernelIdeal.main_arg18) i = (r : EReal)) :=
  reals_of_fn _ _ _ _ _ _ _ _ _ _ _ _ _ _ _ _ _ _ _ (h c)

/-- The seven arrays the retrieval reads — the observation (argument 0), the keys (5), the values (6) and the encoder's two
    weight matrices and two bias vectors (7 to 10) — hold real numbers only. -/
theorem reals_of_pre (h : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
      ∧ (∀ i, ∃ r : ℝ, m ((c.tc : Thread Cert.KernelIdeal.nD Cert.KernelIdeal.τ).loc Cert.KernelIdeal.main_arg5) i = (r : EReal))
      ∧ (∀ i, ∃ r : ℝ, m ((c.tc : Thread Cert.KernelIdeal.nD Cert.KernelIdeal.τ).loc Cert.KernelIdeal.main_arg6) i = (r : EReal))
      ∧ (∀ i, ∃ r : ℝ, m ((c.tc : Thread Cert.KernelIdeal.nD Cert.KernelIdeal.τ).loc Cert.KernelIdeal.main_arg7) i = (r : EReal))
      ∧ (∀ i, ∃ r : ℝ, m ((c.tc : Thread Cert.KernelIdeal.nD Cert.KernelIdeal.τ).loc Cert.KernelIdeal.main_arg8) i = (r : EReal))
      ∧ (∀ i, ∃ r : ℝ, m ((c.tc : Thread Cert.KernelIdeal.nD Cert.KernelIdeal.τ).loc Cert.KernelIdeal.main_arg9) i = (r : EReal))
      ∧ (∀ i, ∃ r : ℝ, m ((c.tc : Thread Cert.KernelIdeal.nD Cert.KernelIdeal.τ).loc Cert.KernelIdeal.main_arg10) i = (r : EReal)) := by
  obtain ⟨h0, -, -, -, -, h5, h6, h7, h8, h9, h10, -, -, -, -, -, -, -, -⟩ := reals_of_pre_all m h c
  exact ⟨h0, h5, h6, h7, h8, h9, h10⟩

/-- Every entry of argument 0 is a real number. -/
theorem real_arg0 (h : Cert.Pre_KernelIdeal m) (c : Dev Cert.KernelIdeal.nD) (i : Cert.KernelIdeal.S1x9.Idx) :
    ∃ r : ℝ, m ((c.tc : Thread Cert.KernelIdeal.nD Cert.KernelIdeal.τ).loc Cert.KernelIdeal.main_arg0) i = (r : EReal) :=
  (reals_of_pre_all m h c).1 i

/-- Every entry of argument 1 is a real number. -/
theorem real_arg1 (h : Cert.Pre_KernelIdeal m) (c : Dev Cert.KernelIdeal.nD) (i : Cert.KernelIdeal.S1x3.Idx) :
    ∃ r : ℝ, m ((c.tc : Thread Cert.KernelIdeal.nD Cert.KernelIdeal.τ).loc Cert.KernelIdeal.main_arg1) i = (r : EReal) :=
  (reals_of_pre_all m h c).2.1 i

/-- Every entry of argument 2 is a real number. -/
theorem real_arg2 (h : Cert.Pre_KernelIdeal m) (c : Dev Cert.KernelIdeal.nD) (i : Cert.KernelIdeal.S1x1.Idx) :
    ∃ r : ℝ, m ((c.tc : Thread Cert.KernelIdeal.nD Cert.KernelIdeal.τ).loc Cert.KernelIdeal.main_arg2) i = (r : EReal) :=
  (reals_of_pre_all m h c).2.2.1 i

/-- Every entry of argument 3 is a real number. -/
theorem real_arg3 (h : Cert.Pre_KernelIdeal m) (c : Dev Cert.KernelIdeal.nD) (i : Cert.KernelIdeal.S1x1x512.Idx) :
    ∃ r : ℝ, m ((c.tc : Thread Cert.KernelIdeal.nD Cert.KernelIdeal.τ).loc Cert.KernelIdeal.main_arg3) i = (r : EReal) :=
  (reals_of_pre_all m h c).2.2.2.1 i

/-- Every entry of argument 4 is a real number. -/
theorem real_arg4 (h : Cert.Pre_KernelIdeal m) (c : Dev Cert.KernelIdeal.nD) (i : Cert.KernelIdeal.S1x1x512.Idx) :
    ∃ r : ℝ, m ((c.tc : Thread Cert.KernelIdeal.nD Cert.KernelIdeal.τ).loc Cert.KernelIdeal.main_arg4) i = (r : EReal) :=
  (reals_of_pre_all m h c).2.2.2.2.1 i

/-- Every entry of argument 5 is a real number. -/
theorem real_arg5 (h : Cert.Pre_KernelIdeal m) (c : Dev Cert.KernelIdeal.nD) (i : Cert.KernelIdeal.S100000x64.Idx) :
    ∃ r : ℝ, m ((c.tc : Thread Cert.KernelIdeal.nD Cert.KernelIdeal.τ).loc Cert.KernelIdeal.main_arg5) i = (r : EReal) :=
  (reals_of_pre_all m h c).2.2.2.2.2.1 i

/-- Every entry of argument 6 is a real number. -/
theorem real_arg6 (h : Cert.Pre_KernelIdeal m) (c : Dev Cert.KernelIdeal.nD) (i : Cert.KernelIdeal.S100000x512.Idx) :
    ∃ r : ℝ, m ((c.tc : Thread Cert.KernelIdeal.nD Cert.KernelIdeal.τ).loc Cert.KernelIdeal.main_arg6) i = (r : EReal) :=
  (reals_of_pre_all m h c).2.2.2.2.2.2.1 i

/-- Every entry of argument 7 is a real number. -/
theorem real_arg7 (h : Cert.Pre_KernelIdeal m) (c : Dev Cert.KernelIdeal.nD) (i : Cert.KernelIdeal.S32x9.Idx) :
    ∃ r : ℝ, m ((c.tc : Thread Cert.KernelIdeal.nD Cert.KernelIdeal.τ).loc Cert.KernelIdeal.main_arg7) i = (r : EReal) :=
  (reals_of_pre_all m h c).2.2.2.2.2.2.2.1 i

/-- Every entry of argument 8 is a real number. -/
theorem real_arg8 (h : Cert.Pre_KernelIdeal m) (c : Dev Cert.KernelIdeal.nD) (i : Cert.KernelIdeal.S32.Idx) :
    ∃ r : ℝ, m ((c.tc : Thread Cert.KernelIdeal.nD Cert.KernelIdeal.τ).loc Cert.KernelIdeal.main_arg8) i = (r : EReal) :=
  (reals_of_pre_all m h c).2.2.2.2.2.2.2.2.1 i

/-- Every entry of argument 9 is a real number. -/
theorem real_arg9 (h : Cert.Pre_KernelIdeal m) (c : Dev Cert.KernelIdeal.nD) (i : Cert.KernelIdeal.S64x32.Idx) :
    ∃ r : ℝ, m ((c.tc : Thread Cert.KernelIdeal.nD Cert.KernelIdeal.τ).loc Cert.KernelIdeal.main_arg9) i = (r : EReal) :=
  (reals_of_pre_all m h c).2.2.2.2.2.2.2.2.2.1 i

/-- Every entry of argument 10 is a real number. -/
theorem real_arg10 (h : Cert.Pre_KernelIdeal m) (c : Dev Cert.KernelIdeal.nD) (i : Cert.KernelIdeal.S64.Idx) :
    ∃ r : ℝ, m ((c.tc : Thread Cert.KernelIdeal.nD Cert.KernelIdeal.τ).loc Cert.KernelIdeal.main_arg10) i = (r : EReal) :=
  (reals_of_pre_all m h c).2.2.2.2.2.2.2.2.2.2.1 i

/-- Every entry of argument 11 is a real number. -/
theorem real_arg11 (h : Cert.Pre_KernelIdeal m) (c : Dev Cert.KernelIdeal.nD) (i : Cert.KernelIdeal.S2560x68.Idx) :
    ∃ r : ℝ, m ((c.tc : Thread Cert.KernelIdeal.nD Cert.KernelIdeal.τ).loc Cert.KernelIdeal.main_arg11) i = (r : EReal) :=
  (reals_of_pre_all m h c).2.2.2.2.2.2.2.2.2.2.2.1 i

/-- Every entry of argument 12 is a real number. -/
theorem real_arg12 (h : Cert.Pre_KernelIdeal m) (c : Dev Cert.KernelIdeal.nD) (i : Cert.KernelIdeal.S2560x512.Idx) :
    ∃ r : ℝ, m ((c.tc : Thread Cert.KernelIdeal.nD Cert.KernelIdeal.τ).loc Cert.KernelIdeal.main_arg12) i = (r : EReal) :=
  (reals_of_pre_all m h c).2.2.2.2.2.2.2.2.2.2.2.2.1 i

/-- Every entry of argument 13 is a real number. -/
theorem real_arg13 (h : Cert.Pre_KernelIdeal m) (c : Dev Cert.KernelIdeal.nD) (i : Cert.KernelIdeal.S2560.Idx) :
    ∃ r : ℝ, m ((c.tc : Thread Cert.KernelIdeal.nD Cert.KernelIdeal.τ).loc Cert.KernelIdeal.main_arg13) i = (r : EReal) :=
  (reals_of_pre_all m h c).2.2.2.2.2.2.2.2.2.2.2.2.2.1 i

/-- Every entry of argument 14 is a real number. -/
theorem real_arg14 (h : Cert.Pre_KernelIdeal m) (c : Dev Cert.KernelIdeal.nD) (i : Cert.KernelIdeal.S2560.Idx) :
    ∃ r : ℝ, m ((c.tc : Thread Cert.KernelIdeal.nD Cert.KernelIdeal.τ).loc Cert.KernelIdeal.main_arg14) i = (r : EReal) :=
  (reals_of_pre_all m h c).2.2.2.2.2.2.2.2.2.2.2.2.2.2.1 i

/-- Every entry of argument 15 is a real number. -/
theorem real_arg15 (h : Cert.Pre_KernelIdeal m) (c : Dev Cert.KernelIdeal.nD) (i : Cert.KernelIdeal.S3x512.Idx) :
    ∃ r : ℝ, m ((c.tc : Thread Cert.KernelIdeal.nD Cert.KernelIdeal.τ).loc Cert.KernelIdeal.main_arg15) i = (r : EReal) :=
  (reals_of_pre_all m h c).2.2.2.2.2.2.2.2.2.2.2.2.2.2.2.1 i

/-- Every entry of argument 16 is a real number. -/
theorem real_arg16 (h : Cert.Pre_KernelIdeal m) (c : Dev Cert.KernelIdeal.nD) (i : Cert.KernelIdeal.S3.Idx) :
    ∃ r : ℝ, m ((c.tc : Thread Cert.KernelIdeal.nD Cert.KernelIdeal.τ).loc Cert.KernelIdeal.main_arg16) i = (r : EReal) :=
  (reals_of_pre_all m h c).2.2.2.2.2.2.2.2.2.2.2.2.2.2.2.2.1 i

/-- Every entry of argument 17 is a real number. -/
theorem real_arg17 (h : Cert.Pre_KernelIdeal m) (c : Dev Cert.KernelIdeal.nD) (i : Cert.KernelIdeal.S1x512.Idx) :
    ∃ r : ℝ, m ((c.tc : Thread Cert.KernelIdeal.nD Cert.KernelIdeal.τ).loc Cert.KernelIdeal.main_arg17) i = (r : EReal) :=
  (reals_of_pre_all m h c).2.2.2.2.2.2.2.2.2.2.2.2.2.2.2.2.2.1 i

/-- Every entry of argument 18 is a real number. -/
theorem real_arg18 (h : Cert.Pre_KernelIdeal m) (c : Dev Cert.KernelIdeal.nD) (i : Cert.KernelIdeal.S1.Idx) :
    ∃ r : ℝ, m ((c.tc : Thread Cert.KernelIdeal.nD Cert.KernelIdeal.τ).loc Cert.KernelIdeal.main_arg18) i = (r : EReal) :=
  (reals_of_pre_all m h c).2.2.2.2.2.2.2.2.2.2.2.2.2.2.2.2.2.2 i

end Cert.FiniteInputs

end
-- ==== Proof.KernelRetrieval.lean ====
/-
  The retrieved row, kernel side against reference side.  The later lines read the three result arrays at six places:
  the two blocks of the weighted sums, and entries 0 and 128 of the normalisers and of the maxima — what the last blocks
  of the two halves left, i.e. each half's maximum and sums after its ten blocks.  The first half's rows are rows
  0 … 49999 of the memory and the second half's are rows 50000 … 99999, so merging the two by the log-sum-exp combine
  gives the maximum and the two sums over all 100000 rows, and their quotient is the softmax-weighted mean with the
  kernel's logits.  The reference's stage is the same mean: minus the squared distance is the kernel's logit minus the
  query's squared norm, which cancels against the maximum.  This needs every entry to be a real number, which the
  precondition gives for the arguments and finite sums, products and maxima preserve for the encoder's output.
-/
import proofs.«149342_j75737453298419_2_alg».proof.Proof.HalfRun
import proofs.«149342_j75737453298419_2_alg».proof.Proof.FinalArrays
import proofs.«149342_j75737453298419_2_alg».proof.Proof.FrameClaim
import proofs.«149342_j75737453298419_2_alg».proof.Proof.MergedQuotApply
import proofs.«149342_j75737453298419_2_alg».proof.Proof.MergeOneShot
import proofs.«149342_j75737453298419_2_alg».proof.Proof.ReferenceRetrieval
import proofs.«149342_j75737453298419_2_alg».proof.Proof.FiniteInputs
import proofs.«149342_j75737453298419_2_alg».proof.Proof.Gen.Pre_finite_inputs
import Idealize.ShloMosaic.Lib.StableHlo.Run

set_option maxRecDepth 16384

noncomputable section

namespace Cert.KernelIdeal.Hand

open Cert.KernelIdeal Cert.KernelIdeal.Gen Cert.KernelIdeal.Arith
open Idealize.ShloMosaic Idealize.ShloMosaic.TcCoe Idealize.ShloMosaic.ValueIdx Idealize.ShloMosaic.RunningSoftmax
open Idealize.SL Idealize.SL.Sem
open Idealize.ShloMosaic.Pipeline (Dat Cfg Window)

variable (m : (ℓ : Loc nD τ sig) → Buf (Elt Ideal) ℓ) (ρ : Dev nD → PrngReg)

open Idealize.ShloMosaic.StableHlo Cert.KernelIdeal.Facts₀ Cert.FiniteInputs Cert.ReferenceIdeal.RefValue

set_option maxHeartbeats 4000000 in
/-- The region finds the encoder's output as the reference computes it from the same argument arrays. -/
theorem V_feats (c : Dev nD) :
    V m c main_v9 = Cert.ReferenceIdeal.Read.val_main_v9 (F := Ideal) (m ((c.tc : Thread nD τ).loc main_arg0)) (m ((c.tc : Thread nD τ).loc main_arg7)) (m ((c.tc : Thread nD τ).loc main_arg8)) (m ((c.tc : Thread nD τ).loc main_arg9)) (m ((c.tc : Thread nD τ).loc main_arg10)) := by
  dsimp only [V, V0]
  simp only [pre, hostOps0, hostOps0_1, hostOps0_2, hostOps0_3, hostOps0_4, List.flatten_cons, List.flatten_nil, List.append_nil, List.cons_append, List.nil_append]
  after_results
  rfl

/-- The first half's rows are the memory's first 50000, the second half's the next 50000. -/
theorem gq_zero (c : Dev nD) : gq m c 0 = lgN m c := by funext n; unfold gq; simp
theorem gq_one (c : Dev nD) : gq m c 1 = fun n => lgN m c (50000 + n) := by funext n; unfold gq; simp
theorem vq_zero (c : Dev nD) (h : Fin 512) : vq m c 0 h = vN m c h := by funext n; unfold vq; simp
theorem vq_one (c : Dev nD) (h : Fin 512) : vq m c 1 h = fun n => vN m c h (50000 + n) := by funext n; unfold vq; simp

/-- Under the precondition the query, the keys and the values are real numbers. -/
theorem qry_real (hpre : Cert.Pre_KernelIdeal m) (c : Dev nD) (d : Fin 64) : ∃ r : ℝ, qry m c d = (r : EReal) := by
  unfold qry; rw [V_feats]
  exact feats_real _ _ _ _ _ (real_arg0 m hpre c) (real_arg7 m hpre c) (real_arg8 m hpre c) (real_arg9 m hpre c) (real_arg10 m hpre c) _
theorem key_real (hpre : Cert.Pre_KernelIdeal m) (c : Dev nD) (j : Fin 100000) (d : Fin 64) : ∃ r : ℝ, keyM m c j d = (r : EReal) := by
  unfold keyM; rw [V_arg m c main_arg5 (by simp only [argRefs, List.mem_cons, List.mem_nil_iff, or_false, true_or, or_true])]; exact real_arg5 m hpre c _
theorem val_real (hpre : Cert.Pre_KernelIdeal m) (c : Dev nD) (j : Fin 100000) (h : Fin 512) : ∃ r : ℝ, valM m c j h = (r : EReal) := by
  unfold valM; rw [V_arg m c main_arg6 (by simp only [argRefs, List.mem_cons, List.mem_nil_iff, or_false, true_or, or_true])]; exact real_arg6 m hpre c _

/-- The result arrays at a column of half q are that half's statistics after its ten blocks. -/
theorem G3_half (c : Dev nD) (q : ℕ) (hq : q < 2) (h : Fin 512) (i : S1x1024.Idx) (hi : (i 1).val = q * 512 + h.val) :
    G3 m c i = (colRun 5000 (gq m c q) (vq m c q h) 10).2 := by
  obtain ⟨r3, -, -⟩ := half_results m c q hq
  have hh : h.val < 512 := h.isLt
  exact (G3_at m c ⟨10 * q + 9, lt_N q 9 hq (by omega)⟩ (by show (10 * q + 9) % 10 = 9; omega) i h
    (by show (i 1).val = (10 * q + 9) / 10 * 512 + h.val; omega)).trans (r3 h)
theorem G4_half (c : Dev nD) (q : ℕ) (hq : q < 2) (i : S1x256.Idx) (hi : (i 1).val = q * 128 + 0) :
    G4 m c i = (colRun 5000 (gq m c q) (fun _ => 1) 10).2 := by
  obtain ⟨-, r4, -⟩ := half_results m c q hq
  exact (G4_at m c ⟨10 * q + 9, lt_N q 9 hq (by omega)⟩ (by show (10 * q + 9) % 10 = 9; omega) i (0 : Fin 128)
    (by show (i 1).val = (10 * q + 9) / 10 * 128 + 0; omega)).trans (r4 0)
theorem G5_half (c : Dev nD) (q : ℕ) (hq : q < 2) (w' : ℕ → EReal) (i : S1x256.Idx) (hi : (i 1).val = q * 128 + 0) :
    G5 m c i = (colRun 5000 (gq m c q) w' 10).1 := by
  obtain ⟨-, -, r5⟩ := half_results m c q hq
  exact (G5_at m c ⟨10 * q + 9, lt_N q 9 hq (by omega)⟩ (by show (10 * q + 9) % 10 = 9; omega) i (0 : Fin 128)
    (by show (i 1).val = (10 * q + 9) / 10 * 128 + 0; omega)).trans (r5 0 w')

/-- THE KERNEL'S RETRIEVED ROW is the softmax-weighted mean of the values with the kernel's logits. -/
theorem kernel_retrieval (hpre : Cert.Pre_KernelIdeal m) (c : Dev nD) (h : Fin 512) :
    mergedQuot (G3 m c) (G4 m c) (G5 m c) (ix2 (0 : Fin 1) h)
      = Cert.Retrieval.oneShot (qry m c) (keyM m c) (valM m c) h := by
  have hh : h.val < 512 := h.isLt
  have a0 : G3 m c (ix2 (0 : Fin 1) (⟨h.val, by omega⟩ : Fin 1024)) = (colRun 5000 (lgN m c) (vN m c h) 10).2 := by
    rw [← gq_zero, ← vq_zero]
    exact G3_half m c 0 (by norm_num) h _ (by show h.val = 0 * 512 + h.val; omega)
  have a1 : G3 m c (ix2 (0 : Fin 1) (⟨512 + h.val, by omega⟩ : Fin 1024)) = (colRun 5000 (fun n => lgN m c (50000 + n)) (fun n => vN m c h (50000 + n)) 10).2 := by
    rw [← gq_one, ← vq_one]
    exact G3_half m c 1 (by norm_num) h _ (by show 512 + h.val = 1 * 512 + h.val; omega)
  have l0 : G4 m c (ix2 (0 : Fin 1) (0 : Fin 256)) = (colRun 5000 (lgN m c) (fun _ => 1) 10).2 := by
    rw [← gq_zero]
    exact G4_half m c 0 (by norm_num) _ (by show (0 : ℕ) = 0 * 128 + 0; omega)
  have l1 : G4 m c (ix2 (0 : Fin 1) (128 : Fin 256)) = (colRun 5000 (fun n => lgN m c (50000 + n)) (fun _ => 1) 10).2 := by
    rw [← gq_one]
    exact G4_half m c 1 (by norm_num) _ (by show (128 : ℕ) = 1 * 128 + 0; omega)
  have m0 : ∀ w' : ℕ → EReal, G5 m c (ix2 (0 : Fin 1) (0 : Fin 256)) = (colRun 5000 (lgN m c) w' 10).1 := fun w' => by
    rw [← gq_zero]
    exact G5_half m c 0 (by norm_num) w' _ (by show (0 : ℕ) = 0 * 128 + 0; omega)
  have m1 : ∀ w' : ℕ → EReal, G5 m c (ix2 (0 : Fin 1) (128 : Fin 256)) = (colRun 5000 (fun n => lgN m c (50000 + n)) w' 10).1 := fun w' => by
    rw [← gq_one]
    exact G5_half m c 1 (by norm_num) w' _ (by show (128 : ℕ) = 1 * 128 + 0; omega)
  rw [mergedQuot_apply]
  exact Cert.Retrieval.merge_oneShot 10 5000 50000 100000 rfl rfl (by norm_num) (by norm_num)
    (qry m c) (keyM m c) (valM m c) (qry_real m hpre c) (key_real m hpre c) (val_real m hpre c) h
    (lgN m c) (vN m c h) (fun n hn => dif_pos hn) (fun n hn => dif_pos hn)
    _ _ _ _ _ _ m0 m1 l0 l1 a0 a1

/-- THE TWO RETRIEVED ROWS ARE EQUAL: the kernel's merged quotient of the final arrays is the reference's stage. -/
theorem retrieval_eq (hpre : Cert.Pre_KernelIdeal m) (c : Dev nD) :
    mergedQuot ((dats m 0 c).arrAt 3 cfg0.N) ((dats m 0 c).arrAt 4 cfg0.N) ((dats m 0 c).arrAt 5 cfg0.N)
      = Cert.ReferenceIdeal.Read.val_main_v29 (F := Ideal) (m ((c.tc : Thread nD τ).loc main_arg0)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  rw [final3, final4, final5]
  funext i
  obtain ⟨p, q, rfl⟩ : ∃ (p : Fin 1) (q : Fin 512), i = ix2 p q := ⟨i 0, i 1, eq_ix2 i⟩
  obtain rfl : p = 0 := Subsingleton.elim _ _
  rw [kernel_retrieval m hpre c q]
  refine Eq.trans ?_ (ref_retrieval _ _ _ _ _ _ _ (real_arg0 m hpre c) (real_arg5 m hpre c) (real_arg6 m hpre c) (real_arg7 m hpre c) (real_arg8 m hpre c) (real_arg9 m hpre c) (real_arg10 m hpre c) q).symm
  unfold qry keyM valM
  rw [V_feats, V_arg m c main_arg5 (by simp only [argRefs, List.mem_cons, List.mem_nil_iff, or_false, true_or, or_true]), V_arg m c main_arg6 (by simp only [argRefs, List.mem_cons, List.mem_nil_iff, or_false, true_or, or_true])]

end Cert.KernelIdeal.Hand

end
-- ==== Proof.ExitValues.lean ====
/-
  What the later host lines read.  At the region's exit a buffer holds: an array of the pipeline, what the run left in
  it; any other buffer, what the region found.  The later lines read the three result arrays, eleven argument arrays and
  the recurrent cell's input (the encoder's output with the previous action and reward appended), none of which a line
  before them writes after the region.
-/
import proofs.«149342_j75737453298419_2_alg».proof.Proof.FrameClaim
import Idealize.ShloMosaic.Lib.StableHlo.Run
import Idealize.ShloMosaic.Lib.ValueIdx
import proofs.«149342_j75737453298419_2_alg».proof.Proof.Gen.ReferenceIdeal.Read

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

open Idealize.ShloMosaic.StableHlo

/-- An argument array that is no array of the pipeline, at the region's exit, is as launched. -/
theorem WA_arg (c : Dev nD) (b : Ref sig .tc) (hb : b ∈ argRefs) (hne : ∀ w, Pipeline.arrRef spec0 w ≠ b) :
    Pipeline.withArrays (cfgs (0 : Fin 1)).spec c (V0 m c) (fun w => (dats m 0 c).arrAt w (cfgs (0 : Fin 1)).N) (Proc.devRef .tc b) = m ((c.tc : Thread nD τ).loc b) :=
  (Pipeline.withArrays_of_ne _ c (V0 m c) _ b hne).trans (V_arg m c b hb)

/-- The three result arrays at the region's exit are what the run left in them. -/
theorem WA_arr3 (c : Dev nD) : Pipeline.withArrays (cfgs (0 : Fin 1)).spec c (V0 m c) (fun w => (dats m 0 c).arrAt w (cfgs (0 : Fin 1)).N) (Proc.devRef .tc main_v11_0) = (dats m 0 c).arrAt 3 cfg0.N :=
  Pipeline.withArrays_arr spec0 launch0.win.arr_inj c _ _ 3
theorem WA_arr4 (c : Dev nD) : Pipeline.withArrays (cfgs (0 : Fin 1)).spec c (V0 m c) (fun w => (dats m 0 c).arrAt w (cfgs (0 : Fin 1)).N) (Proc.devRef .tc main_v11_1) = (dats m 0 c).arrAt 4 cfg0.N :=
  Pipeline.withArrays_arr spec0 launch0.win.arr_inj c _ _ 4
theorem WA_arr5 (c : Dev nD) : Pipeline.withArrays (cfgs (0 : Fin 1)).spec c (V0 m c) (fun w => (dats m 0 c).arrAt w (cfgs (0 : Fin 1)).N) (Proc.devRef .tc main_v11_2) = (dats m 0 c).arrAt 5 cfg0.N :=
  Pipeline.withArrays_arr spec0 launch0.win.arr_inj c _ _ 5

set_option maxHeartbeats 4000000 in
/-- The recurrent cell's input at the region's exit: the encoder's output, the previous action and the previous reward
    side by side, as the earlier host lines computed it from the argument arrays. -/
theorem WA_xt (c : Dev nD) : Pipeline.withArrays (cfgs (0 : Fin 1)).spec c (V0 m c) (fun w => (dats m 0 c).arrAt w (cfgs (0 : Fin 1)).N) (Proc.devRef .tc main_v10)
    = Cert.ReferenceIdeal.Read.val_main_v10 (F := Ideal) (m ((c.tc : Thread nD τ).loc main_arg0)) (m ((c.tc : Thread nD τ).loc main_arg1)) (m ((c.tc : Thread nD τ).loc main_arg2)) (m ((c.tc : Thread nD τ).loc main_arg7)) (m ((c.tc : Thread nD τ).loc main_arg8)) (m ((c.tc : Thread nD τ).loc main_arg9)) (m ((c.tc : Thread nD τ).loc main_arg10)) := by
  refine (Pipeline.withArrays_of_ne (cfgs (0 : Fin 1)).spec c (V0 m c) _ main_v10 (by decide)).trans ?_
  dsimp only [V0]
  simp only [pre, hostOps0, hostOps0_1, hostOps0_2, hostOps0_3, hostOps0_4, List.flatten_cons, List.flatten_nil, List.append_nil, List.cons_append, List.nil_append]
  after_results
  rfl

end Cert.KernelIdeal.Hand

end
-- ==== Proof.SharedTail.lean ====
/-
  The part of the reference after the retrieval stage, as a function of the retrieved vector.

  After the retrieval the reference runs a recurrent cell and two heads: the gates are affine in the concatenation of the
  feature vector with two more inputs and in the previous hidden state; the new cell state is
  f·c + i·tanh g + r·m_t with sigmoid gates f, i, r and the retrieved vector m_t; the new hidden state is o·tanh of it; and
  each head is affine in the new hidden state. Each of the program's four results is therefore ONE function of the
  nineteen argument arrays and of m_t: `tail0` … `tail3` are the program's own result terms with the retrieval stage's
  term replaced by the variable m_t, and `res_out0_eq` … `res_out3_eq` say that the results are these functions at the
  retrieval stage's value. `feats_eq`: the fifth result is the encoder stage.
-/
import proofs.«149342_j75737453298419_2_alg».proof.Proof.Gen.ReferenceIdeal.Read

noncomputable section

namespace Cert.ReferenceIdeal.Tail

open Cert.ReferenceIdeal Cert.ReferenceIdeal.Gen Cert.ReferenceIdeal.Value Cert.ReferenceIdeal.Read Idealize.ShloMosaic Idealize.ShloMosaic.TcCoe Idealize.SL.Sem Idealize.ShloMosaic.StableHlo

variable {F : FTy → Type} [FloatOps F]

set_option maxRecDepth 8192 in
/-- Result 0, the first head's output (a row of 3), as a function of the argument arrays and the retrieved vector m_t. -/
def tail0 (a0 : (⟨S1x9, .f32⟩ : BufTy).Contents (Elt F)) (a1 : (⟨S1x3, .f32⟩ : BufTy).Contents (Elt F)) (a2 : (⟨S1x1, .f32⟩ : BufTy).Contents (Elt F)) (a3 : (⟨S1x1x512, .f32⟩ : BufTy).Contents (Elt F)) (a4 : (⟨S1x1x512, .f32⟩ : BufTy).Contents (Elt F)) (a5 : (⟨S100000x64, .f32⟩ : BufTy).Contents (Elt F)) (a6 : (⟨S100000x512, .f32⟩ : BufTy).Contents (Elt F)) (a7 : (⟨S32x9, .f32⟩ : BufTy).Contents (Elt F)) (a8 : (⟨S32, .f32⟩ : BufTy).Contents (Elt F)) (a9 : (⟨S64x32, .f32⟩ : BufTy).Contents (Elt F)) (a10 : (⟨S64, .f32⟩ : BufTy).Contents (Elt F)) (a11 : (⟨S2560x68, .f32⟩ : BufTy).Contents (Elt F)) (a12 : (⟨S2560x512, .f32⟩ : BufTy).Contents (Elt F)) (a13 : (⟨S2560, .f32⟩ : BufTy).Contents (Elt F)) (a14 : (⟨S2560, .f32⟩ : BufTy).Contents (Elt F)) (a15 : (⟨S3x512, .f32⟩ : BufTy).Contents (Elt F)) (a16 : (⟨S3, .f32⟩ : BufTy).Contents (Elt F)) (a17 : (⟨S1x512, .f32⟩ : BufTy).Contents (Elt F)) (a18 : (⟨S1, .f32⟩ : BufTy).Contents (Elt F)) (mt : (⟨S1x512, .f32⟩ : BufTy).Contents (Elt F)) : (⟨S1x3, .f32⟩ : BufTy).Contents (Elt F) :=
  addf (Host.dotGeneral dot_S1x512_S512x3_S1x3_1_0_0_1_n_n none (mulf (Host.divf (broadcastInDim S1x512 ![] bcast_S_S1x512 (constant S_ .f32 0x3F800000#32)) (addf (broadcastInDim S1x512 ![] bcast_S_S1x512 (constant S_ .f32 0x3F800000#32)) (Host.exp (Host.negf (extractStridedSlice S1x512 ![0, 1536] (addf (addf (addf (Host.dotGeneral dot_S1x68_S68x2560_S1x2560_1_0_0_1_n_n none (concatenate S1x68 1 [⟨S1x64, (maximumf (addf (Host.dotGeneral dot_S1x32_S32x64_S1x64_1_0_0_1_n_n none (maximumf (addf (Host.dotGeneral dot_S1x9_S9x32_S1x32_1_0_0_1_n_n none a0 (transpose S9x32 [1, 0] a7 transposes_S32x9_S9x32_1_0)) (broadcastInDim S1x32 ![1] bcast_S32_S1x32_1 a8)) (broadcastInDim S1x32 ![] bcast_S_S1x32 (constant S_ .f32 0x00000000#32))) (transpose S32x64 [1, 0] a9 transposes_S64x32_S32x64_1_0)) (broadcastInDim S1x64 ![1] bcast_S64_S1x64_1 a10)) (broadcastInDim S1x64 ![] bcast_S_S1x64 (constant S_ .f32 0x00000000#32)))⟩, ⟨S1x3, a1⟩, ⟨S1x1, a2⟩] concatenates_S1x64_S1x3_S1x1_S1x68_d1) (transpose S68x2560 [1, 0] a11 transposes_S2560x68_S68x2560_1_0)) (broadcastInDim S1x2560 ![1] bcast_S2560_S1x2560_1 a13)) (Host.dotGeneral dot_S1x512_S512x2560_S1x2560_1_0_0_1_n_n none (shapeCast _ a3 shapeCasts_S1x1x512_S1x512) (transpose S512x2560 [1, 0] a12 transposes_S2560x512_S512x2560_1_0))) (broadcastInDim S1x2560 ![1] bcast_S2560_S1x2560_1 a14)) slices_S1x2560_S1x512_0_1536))))) (Host.tanh (addf (addf (mulf (Host.divf (broadcastInDim S1x512 ![] bcast_S_S1x512 (constant S_ .f32 0x3F800000#32)) (addf (broadcastInDim S1x512 ![] bcast_S_S1x512 (constant S_ .f32 0x3F800000#32)) (Host.exp (Host.negf (extractStridedSlice S1x512 ![0, 512] (addf (addf (addf (Host.dotGeneral dot_S1x68_S68x2560_S1x2560_1_0_0_1_n_n none (concatenate S1x68 1 [⟨S1x64, (maximumf (addf (Host.dotGeneral dot_S1x32_S32x64_S1x64_1_0_0_1_n_n none (maximumf (addf (Host.dotGeneral dot_S1x9_S9x32_S1x32_1_0_0_1_n_n none a0 (transpose S9x32 [1, 0] a7 transposes_S32x9_S9x32_1_0)) (broadcastInDim S1x32 ![1] bcast_S32_S1x32_1 a8)) (broadcastInDim S1x32 ![] bcast_S_S1x32 (constant S_ .f32 0x00000000#32))) (transpose S32x64 [1, 0] a9 transposes_S64x32_S32x64_1_0)) (broadcastInDim S1x64 ![1] bcast_S64_S1x64_1 a10)) (broadcastInDim S1x64 ![] bcast_S_S1x64 (constant S_ .f32 0x00000000#32)))⟩, ⟨S1x3, a1⟩, ⟨S1x1, a2⟩] concatenates_S1x64_S1x3_S1x1_S1x68_d1) (transpose S68x2560 [1, 0] a11 transposes_S2560x68_S68x2560_1_0)) (broadcastInDim S1x2560 ![1] bcast_S2560_S1x2560_1 a13)) (Host.dotGeneral dot_S1x512_S512x2560_S1x2560_1_0_0_1_n_n none (shapeCast _ a3 shapeCasts_S1x1x512_S1x512) (transpose S512x2560 [1, 0] a12 transposes_S2560x512_S512x2560_1_0))) (broadcastInDim S1x2560 ![1] bcast_S2560_S1x2560_1 a14)) slices_S1x2560_S1x512_0_512))))) (shapeCast _ a4 shapeCasts_S1x1x512_S1x512)) (mulf (Host.divf (broadcastInDim S1x512 ![] bcast_S_S1x512 (constant S_ .f32 0x3F800000#32)) (addf (broadcastInDim S1x512 ![] bcast_S_S1x512 (constant S_ .f32 0x3F800000#32)) (Host.exp (Host.negf (extractStridedSlice S1x512 ![0, 0] (addf (addf (addf (Host.dotGeneral dot_S1x68_S68x2560_S1x2560_1_0_0_1_n_n none (concatenate S1x68 1 [⟨S1x64, (maximumf (addf (Host.dotGeneral dot_S1x32_S32x64_S1x64_1_0_0_1_n_n none (maximumf (addf (Host.dotGeneral dot_S1x9_S9x32_S1x32_1_0_0_1_n_n none a0 (transpose S9x32 [1, 0] a7 transposes_S32x9_S9x32_1_0)) (broadcastInDim S1x32 ![1] bcast_S32_S1x32_1 a8)) (broadcastInDim S1x32 ![] bcast_S_S1x32 (constant S_ .f32 0x00000000#32))) (transpose S32x64 [1, 0] a9 transposes_S64x32_S32x64_1_0)) (broadcastInDim S1x64 ![1] bcast_S64_S1x64_1 a10)) (broadcastInDim S1x64 ![] bcast_S_S1x64 (constant S_ .f32 0x00000000#32)))⟩, ⟨S1x3, a1⟩, ⟨S1x1, a2⟩] concatenates_S1x64_S1x3_S1x1_S1x68_d1) (transpose S68x2560 [1, 0] a11 transposes_S2560x68_S68x2560_1_0)) (broadcastInDim S1x2560 ![1] bcast_S2560_S1x2560_1 a13)) (Host.dotGeneral dot_S1x512_S512x2560_S1x2560_1_0_0_1_n_n none (shapeCast _ a3 shapeCasts_S1x1x512_S1x512) (transpose S512x2560 [1, 0] a12 transposes_S2560x512_S512x2560_1_0))) (broadcastInDim S1x2560 ![1] bcast_S2560_S1x2560_1 a14)) slices_S1x2560_S1x512_0_0))))) (Host.tanh (extractStridedSlice S1x512 ![0, 1024] (addf (addf (addf (Host.dotGeneral dot_S1x68_S68x2560_S1x2560_1_0_0_1_n_n none (concatenate S1x68 1 [⟨S1x64, (maximumf (addf (Host.dotGeneral dot_S1x32_S32x64_S1x64_1_0_0_1_n_n none (maximumf (addf (Host.dotGeneral dot_S1x9_S9x32_S1x32_1_0_0_1_n_n none a0 (transpose S9x32 [1, 0] a7 transposes_S32x9_S9x32_1_0)) (broadcastInDim S1x32 ![1] bcast_S32_S1x32_1 a8)) (broadcastInDim S1x32 ![] bcast_S_S1x32 (constant S_ .f32 0x00000000#32))) (transpose S32x64 [1, 0] a9 transposes_S64x32_S32x64_1_0)) (broadcastInDim S1x64 ![1] bcast_S64_S1x64_1 a10)) (broadcastInDim S1x64 ![] bcast_S_S1x64 (constant S_ .f32 0x00000000#32)))⟩, ⟨S1x3, a1⟩, ⟨S1x1, a2⟩] concatenates_S1x64_S1x3_S1x1_S1x68_d1) (transpose S68x2560 [1, 0] a11 transposes_S2560x68_S68x2560_1_0)) (broadcastInDim S1x2560 ![1] bcast_S2560_S1x2560_1 a13)) (Host.dotGeneral dot_S1x512_S512x2560_S1x2560_1_0_0_1_n_n none (shapeCast _ a3 shapeCasts_S1x1x512_S1x512) (transpose S512x2560 [1, 0] a12 transposes_S2560x512_S512x2560_1_0))) (broadcastInDim S1x2560 ![1] bcast_S2560_S1x2560_1 a14)) slices_S1x2560_S1x512_0_1024)))) (mulf (Host.divf (broadcastInDim S1x512 ![] bcast_S_S1x512 (constant S_ .f32 0x3F800000#32)) (addf (broadcastInDim S1x512 ![] bcast_S_S1x512 (constant S_ .f32 0x3F800000#32)) (Host.exp (Host.negf (extractStridedSlice S1x512 ![0, 2048] (addf (addf (addf (Host.dotGeneral dot_S1x68_S68x2560_S1x2560_1_0_0_1_n_n none (concatenate S1x68 1 [⟨S1x64, (maximumf (addf (Host.dotGeneral dot_S1x32_S32x64_S1x64_1_0_0_1_n_n none (maximumf (addf (Host.dotGeneral dot_S1x9_S9x32_S1x32_1_0_0_1_n_n none a0 (transpose S9x32 [1, 0] a7 transposes_S32x9_S9x32_1_0)) (broadcastInDim S1x32 ![1] bcast_S32_S1x32_1 a8)) (broadcastInDim S1x32 ![] bcast_S_S1x32 (constant S_ .f32 0x00000000#32))) (transpose S32x64 [1, 0] a9 transposes_S64x32_S32x64_1_0)) (broadcastInDim S1x64 ![1] bcast_S64_S1x64_1 a10)) (broadcastInDim S1x64 ![] bcast_S_S1x64 (constant S_ .f32 0x00000000#32)))⟩, ⟨S1x3, a1⟩, ⟨S1x1, a2⟩] concatenates_S1x64_S1x3_S1x1_S1x68_d1) (transpose S68x2560 [1, 0] a11 transposes_S2560x68_S68x2560_1_0)) (broadcastInDim S1x2560 ![1] bcast_S2560_S1x2560_1 a13)) (Host.dotGeneral dot_S1x512_S512x2560_S1x2560_1_0_0_1_n_n none (shapeCast _ a3 shapeCasts_S1x1x512_S1x512) (transpose S512x2560 [1, 0] a12 transposes_S2560x512_S512x2560_1_0))) (broadcastInDim S1x2560 ![1] bcast_S2560_S1x2560_1 a14)) slices_S1x2560_S1x512_0_2048))))) mt)))) (transpose S512x3 [1, 0] a15 transposes_S3x512_S512x3_1_0)) (broadcastInDim S1x3 ![1] bcast_S3_S1x3_1 a16)

set_option maxRecDepth 8192 in
/-- Result 1, the second head's output (one number), as a function of the argument arrays and the retrieved vector m_t. -/
def tail1 (a0 : (⟨S1x9, .f32⟩ : BufTy).Contents (Elt F)) (a1 : (⟨S1x3, .f32⟩ : BufTy).Contents (Elt F)) (a2 : (⟨S1x1, .f32⟩ : BufTy).Contents (Elt F)) (a3 : (⟨S1x1x512, .f32⟩ : BufTy).Contents (Elt F)) (a4 : (⟨S1x1x512, .f32⟩ : BufTy).Contents (Elt F)) (a5 : (⟨S100000x64, .f32⟩ : BufTy).Contents (Elt F)) (a6 : (⟨S100000x512, .f32⟩ : BufTy).Contents (Elt F)) (a7 : (⟨S32x9, .f32⟩ : BufTy).Contents (Elt F)) (a8 : (⟨S32, .f32⟩ : BufTy).Contents (Elt F)) (a9 : (⟨S64x32, .f32⟩ : BufTy).Contents (Elt F)) (a10 : (⟨S64, .f32⟩ : BufTy).Contents (Elt F)) (a11 : (⟨S2560x68, .f32⟩ : BufTy).Contents (Elt F)) (a12 : (⟨S2560x512, .f32⟩ : BufTy).Contents (Elt F)) (a13 : (⟨S2560, .f32⟩ : BufTy).Contents (Elt F)) (a14 : (⟨S2560, .f32⟩ : BufTy).Contents (Elt F)) (a15 : (⟨S3x512, .f32⟩ : BufTy).Contents (Elt F)) (a16 : (⟨S3, .f32⟩ : BufTy).Contents (Elt F)) (a17 : (⟨S1x512, .f32⟩ : BufTy).Contents (Elt F)) (a18 : (⟨S1, .f32⟩ : BufTy).Contents (Elt F)) (mt : (⟨S1x512, .f32⟩ : BufTy).Contents (Elt F)) : (⟨S1x1, .f32⟩ : BufTy).Contents (Elt F) :=
  addf (Host.dotGeneral dot_S1x512_S512x1_S1x1_1_0_0_1_n_n none (mulf (Host.divf (broadcastInDim S1x512 ![] bcast_S_S1x512 (constant S_ .f32 0x3F800000#32)) (addf (broadcastInDim S1x512 ![] bcast_S_S1x512 (constant S_ .f32 0x3F800000#32)) (Host.exp (Host.negf (extractStridedSlice S1x512 ![0, 1536] (addf (addf (addf (Host.dotGeneral dot_S1x68_S68x2560_S1x2560_1_0_0_1_n_n none (concatenate S1x68 1 [⟨S1x64, (maximumf (addf (Host.dotGeneral dot_S1x32_S32x64_S1x64_1_0_0_1_n_n none (maximumf (addf (Host.dotGeneral dot_S1x9_S9x32_S1x32_1_0_0_1_n_n none a0 (transpose S9x32 [1, 0] a7 transposes_S32x9_S9x32_1_0)) (broadcastInDim S1x32 ![1] bcast_S32_S1x32_1 a8)) (broadcastInDim S1x32 ![] bcast_S_S1x32 (constant S_ .f32 0x00000000#32))) (transpose S32x64 [1, 0] a9 transposes_S64x32_S32x64_1_0)) (broadcastInDim S1x64 ![1] bcast_S64_S1x64_1 a10)) (broadcastInDim S1x64 ![] bcast_S_S1x64 (constant S_ .f32 0x00000000#32)))⟩, ⟨S1x3, a1⟩, ⟨S1x1, a2⟩] concatenates_S1x64_S1x3_S1x1_S1x68_d1) (transpose S68x2560 [1, 0] a11 transposes_S2560x68_S68x2560_1_0)) (broadcastInDim S1x2560 ![1] bcast_S2560_S1x2560_1 a13)) (Host.dotGeneral dot_S1x512_S512x2560_S1x2560_1_0_0_1_n_n none (shapeCast _ a3 shapeCasts_S1x1x512_S1x512) (transpose S512x2560 [1, 0] a12 transposes_S2560x512_S512x2560_1_0))) (broadcastInDim S1x2560 ![1] bcast_S2560_S1x2560_1 a14)) slices_S1x2560_S1x512_0_1536))))) (Host.tanh (addf (addf (mulf (Host.divf (broadcastInDim S1x512 ![] bcast_S_S1x512 (constant S_ .f32 0x3F800000#32)) (addf (broadcastInDim S1x512 ![] bcast_S_S1x512 (constant S_ .f32 0x3F800000#32)) (Host.exp (Host.negf (extractStridedSlice S1x512 ![0, 512] (addf (addf (addf (Host.dotGeneral dot_S1x68_S68x2560_S1x2560_1_0_0_1_n_n none (concatenate S1x68 1 [⟨S1x64, (maximumf (addf (Host.dotGeneral dot_S1x32_S32x64_S1x64_1_0_0_1_n_n none (maximumf (addf (Host.dotGeneral dot_S1x9_S9x32_S1x32_1_0_0_1_n_n none a0 (transpose S9x32 [1, 0] a7 transposes_S32x9_S9x32_1_0)) (broadcastInDim S1x32 ![1] bcast_S32_S1x32_1 a8)) (broadcastInDim S1x32 ![] bcast_S_S1x32 (constant S_ .f32 0x00000000#32))) (transpose S32x64 [1, 0] a9 transposes_S64x32_S32x64_1_0)) (broadcastInDim S1x64 ![1] bcast_S64_S1x64_1 a10)) (broadcastInDim S1x64 ![] bcast_S_S1x64 (constant S_ .f32 0x00000000#32)))⟩, ⟨S1x3, a1⟩, ⟨S1x1, a2⟩] concatenates_S1x64_S1x3_S1x1_S1x68_d1) (transpose S68x2560 [1, 0] a11 transposes_S2560x68_S68x2560_1_0)) (broadcastInDim S1x2560 ![1] bcast_S2560_S1x2560_1 a13)) (Host.dotGeneral dot_S1x512_S512x2560_S1x2560_1_0_0_1_n_n none (shapeCast _ a3 shapeCasts_S1x1x512_S1x512) (transpose S512x2560 [1, 0] a12 transposes_S2560x512_S512x2560_1_0))) (broadcastInDim S1x2560 ![1] bcast_S2560_S1x2560_1 a14)) slices_S1x2560_S1x512_0_512))))) (shapeCast _ a4 shapeCasts_S1x1x512_S1x512)) (mulf (Host.divf (broadcastInDim S1x512 ![] bcast_S_S1x512 (constant S_ .f32 0x3F800000#32)) (addf (broadcastInDim S1x512 ![] bcast_S_S1x512 (constant S_ .f32 0x3F800000#32)) (Host.exp (Host.negf (extractStridedSlice S1x512 ![0, 0] (addf (addf (addf (Host.dotGeneral dot_S1x68_S68x2560_S1x2560_1_0_0_1_n_n none (concatenate S1x68 1 [⟨S1x64, (maximumf (addf (Host.dotGeneral dot_S1x32_S32x64_S1x64_1_0_0_1_n_n none (maximumf (addf (Host.dotGeneral dot_S1x9_S9x32_S1x32_1_0_0_1_n_n none a0 (transpose S9x32 [1, 0] a7 transposes_S32x9_S9x32_1_0)) (broadcastInDim S1x32 ![1] bcast_S32_S1x32_1 a8)) (broadcastInDim S1x32 ![] bcast_S_S1x32 (constant S_ .f32 0x00000000#32))) (transpose S32x64 [1, 0] a9 transposes_S64x32_S32x64_1_0)) (broadcastInDim S1x64 ![1] bcast_S64_S1x64_1 a10)) (broadcastInDim S1x64 ![] bcast_S_S1x64 (constant S_ .f32 0x00000000#32)))⟩, ⟨S1x3, a1⟩, ⟨S1x1, a2⟩] concatenates_S1x64_S1x3_S1x1_S1x68_d1) (transpose S68x2560 [1, 0] a11 transposes_S2560x68_S68x2560_1_0)) (broadcastInDim S1x2560 ![1] bcast_S2560_S1x2560_1 a13)) (Host.dotGeneral dot_S1x512_S512x2560_S1x2560_1_0_0_1_n_n none (shapeCast _ a3 shapeCasts_S1x1x512_S1x512) (transpose S512x2560 [1, 0] a12 transposes_S2560x512_S512x2560_1_0))) (broadcastInDim S1x2560 ![1] bcast_S2560_S1x2560_1 a14)) slices_S1x2560_S1x512_0_0))))) (Host.tanh (extractStridedSlice S1x512 ![0, 1024] (addf (addf (addf (Host.dotGeneral dot_S1x68_S68x2560_S1x2560_1_0_0_1_n_n none (concatenate S1x68 1 [⟨S1x64, (maximumf (addf (Host.dotGeneral dot_S1x32_S32x64_S1x64_1_0_0_1_n_n none (maximumf (addf (Host.dotGeneral dot_S1x9_S9x32_S1x32_1_0_0_1_n_n none a0 (transpose S9x32 [1, 0] a7 transposes_S32x9_S9x32_1_0)) (broadcastInDim S1x32 ![1] bcast_S32_S1x32_1 a8)) (broadcastInDim S1x32 ![] bcast_S_S1x32 (constant S_ .f32 0x00000000#32))) (transpose S32x64 [1, 0] a9 transposes_S64x32_S32x64_1_0)) (broadcastInDim S1x64 ![1] bcast_S64_S1x64_1 a10)) (broadcastInDim S1x64 ![] bcast_S_S1x64 (constant S_ .f32 0x00000000#32)))⟩, ⟨S1x3, a1⟩, ⟨S1x1, a2⟩] concatenates_S1x64_S1x3_S1x1_S1x68_d1) (transpose S68x2560 [1, 0] a11 transposes_S2560x68_S68x2560_1_0)) (broadcastInDim S1x2560 ![1] bcast_S2560_S1x2560_1 a13)) (Host.dotGeneral dot_S1x512_S512x2560_S1x2560_1_0_0_1_n_n none (shapeCast _ a3 shapeCasts_S1x1x512_S1x512) (transpose S512x2560 [1, 0] a12 transposes_S2560x512_S512x2560_1_0))) (broadcastInDim S1x2560 ![1] bcast_S2560_S1x2560_1 a14)) slices_S1x2560_S1x512_0_1024)))) (mulf (Host.divf (broadcastInDim S1x512 ![] bcast_S_S1x512 (constant S_ .f32 0x3F800000#32)) (addf (broadcastInDim S1x512 ![] bcast_S_S1x512 (constant S_ .f32 0x3F800000#32)) (Host.exp (Host.negf (extractStridedSlice S1x512 ![0, 2048] (addf (addf (addf (Host.dotGeneral dot_S1x68_S68x2560_S1x2560_1_0_0_1_n_n none (concatenate S1x68 1 [⟨S1x64, (maximumf (addf (Host.dotGeneral dot_S1x32_S32x64_S1x64_1_0_0_1_n_n none (maximumf (addf (Host.dotGeneral dot_S1x9_S9x32_S1x32_1_0_0_1_n_n none a0 (transpose S9x32 [1, 0] a7 transposes_S32x9_S9x32_1_0)) (broadcastInDim S1x32 ![1] bcast_S32_S1x32_1 a8)) (broadcastInDim S1x32 ![] bcast_S_S1x32 (constant S_ .f32 0x00000000#32))) (transpose S32x64 [1, 0] a9 transposes_S64x32_S32x64_1_0)) (broadcastInDim S1x64 ![1] bcast_S64_S1x64_1 a10)) (broadcastInDim S1x64 ![] bcast_S_S1x64 (constant S_ .f32 0x00000000#32)))⟩, ⟨S1x3, a1⟩, ⟨S1x1, a2⟩] concatenates_S1x64_S1x3_S1x1_S1x68_d1) (transpose S68x2560 [1, 0] a11 transposes_S2560x68_S68x2560_1_0)) (broadcastInDim S1x2560 ![1] bcast_S2560_S1x2560_1 a13)) (Host.dotGeneral dot_S1x512_S512x2560_S1x2560_1_0_0_1_n_n none (shapeCast _ a3 shapeCasts_S1x1x512_S1x512) (transpose S512x2560 [1, 0] a12 transposes_S2560x512_S512x2560_1_0))) (broadcastInDim S1x2560 ![1] bcast_S2560_S1x2560_1 a14)) slices_S1x2560_S1x512_0_2048))))) mt)))) (transpose S512x1 [1, 0] a17 transposes_S1x512_S512x1_1_0)) (broadcastInDim S1x1 ![1] bcast_S1_S1x1_1 a18)

set_option maxRecDepth 8192 in
/-- Result 2, the new hidden state h_t, as a function of the argument arrays and the retrieved vector m_t. -/
def tail2 (a0 : (⟨S1x9, .f32⟩ : BufTy).Contents (Elt F)) (a1 : (⟨S1x3, .f32⟩ : BufTy).Contents (Elt F)) (a2 : (⟨S1x1, .f32⟩ : BufTy).Contents (Elt F)) (a3 : (⟨S1x1x512, .f32⟩ : BufTy).Contents (Elt F)) (a4 : (⟨S1x1x512, .f32⟩ : BufTy).Contents (Elt F)) (a5 : (⟨S100000x64, .f32⟩ : BufTy).Contents (Elt F)) (a6 : (⟨S100000x512, .f32⟩ : BufTy).Contents (Elt F)) (a7 : (⟨S32x9, .f32⟩ : BufTy).Contents (Elt F)) (a8 : (⟨S32, .f32⟩ : BufTy).Contents (Elt F)) (a9 : (⟨S64x32, .f32⟩ : BufTy).Contents (Elt F)) (a10 : (⟨S64, .f32⟩ : BufTy).Contents (Elt F)) (a11 : (⟨S2560x68, .f32⟩ : BufTy).Contents (Elt F)) (a12 : (⟨S2560x512, .f32⟩ : BufTy).Contents (Elt F)) (a13 : (⟨S2560, .f32⟩ : BufTy).Contents (Elt F)) (a14 : (⟨S2560, .f32⟩ : BufTy).Contents (Elt F)) (a15 : (⟨S3x512, .f32⟩ : BufTy).Contents (Elt F)) (a16 : (⟨S3, .f32⟩ : BufTy).Contents (Elt F)) (a17 : (⟨S1x512, .f32⟩ : BufTy).Contents (Elt F)) (a18 : (⟨S1, .f32⟩ : BufTy).Contents (Elt F)) (mt : (⟨S1x512, .f32⟩ : BufTy).Contents (Elt F)) : (⟨S1x1x512, .f32⟩ : BufTy).Contents (Elt F) :=
  broadcastInDim S1x1x512 ![1, 2] bcast_S1x512_S1x1x512_1_2 (mulf (Host.divf (broadcastInDim S1x512 ![] bcast_S_S1x512 (constant S_ .f32 0x3F800000#32)) (addf (broadcastInDim S1x512 ![] bcast_S_S1x512 (constant S_ .f32 0x3F800000#32)) (Host.exp (Host.negf (extractStridedSlice S1x512 ![0, 1536] (addf (addf (addf (Host.dotGeneral dot_S1x68_S68x2560_S1x2560_1_0_0_1_n_n none (concatenate S1x68 1 [⟨S1x64, (maximumf (addf (Host.dotGeneral dot_S1x32_S32x64_S1x64_1_0_0_1_n_n none (maximumf (addf (Host.dotGeneral dot_S1x9_S9x32_S1x32_1_0_0_1_n_n none a0 (transpose S9x32 [1, 0] a7 transposes_S32x9_S9x32_1_0)) (broadcastInDim S1x32 ![1] bcast_S32_S1x32_1 a8)) (broadcastInDim S1x32 ![] bcast_S_S1x32 (constant S_ .f32 0x00000000#32))) (transpose S32x64 [1, 0] a9 transposes_S64x32_S32x64_1_0)) (broadcastInDim S1x64 ![1] bcast_S64_S1x64_1 a10)) (broadcastInDim S1x64 ![] bcast_S_S1x64 (constant S_ .f32 0x00000000#32)))⟩, ⟨S1x3, a1⟩, ⟨S1x1, a2⟩] concatenates_S1x64_S1x3_S1x1_S1x68_d1) (transpose S68x2560 [1, 0] a11 transposes_S2560x68_S68x2560_1_0)) (broadcastInDim S1x2560 ![1] bcast_S2560_S1x2560_1 a13)) (Host.dotGeneral dot_S1x512_S512x2560_S1x2560_1_0_0_1_n_n none (shapeCast _ a3 shapeCasts_S1x1x512_S1x512) (transpose S512x2560 [1, 0] a12 transposes_S2560x512_S512x2560_1_0))) (broadcastInDim S1x2560 ![1] bcast_S2560_S1x2560_1 a14)) slices_S1x2560_S1x512_0_1536))))) (Host.tanh (addf (addf (mulf (Host.divf (broadcastInDim S1x512 ![] bcast_S_S1x512 (constant S_ .f32 0x3F800000#32)) (addf (broadcastInDim S1x512 ![] bcast_S_S1x512 (constant S_ .f32 0x3F800000#32)) (Host.exp (Host.negf (extractStridedSlice S1x512 ![0, 512] (addf (addf (addf (Host.dotGeneral dot_S1x68_S68x2560_S1x2560_1_0_0_1_n_n none (concatenate S1x68 1 [⟨S1x64, (maximumf (addf (Host.dotGeneral dot_S1x32_S32x64_S1x64_1_0_0_1_n_n none (maximumf (addf (Host.dotGeneral dot_S1x9_S9x32_S1x32_1_0_0_1_n_n none a0 (transpose S9x32 [1, 0] a7 transposes_S32x9_S9x32_1_0)) (broadcastInDim S1x32 ![1] bcast_S32_S1x32_1 a8)) (broadcastInDim S1x32 ![] bcast_S_S1x32 (constant S_ .f32 0x00000000#32))) (transpose S32x64 [1, 0] a9 transposes_S64x32_S32x64_1_0)) (broadcastInDim S1x64 ![1] bcast_S64_S1x64_1 a10)) (broadcastInDim S1x64 ![] bcast_S_S1x64 (constant S_ .f32 0x00000000#32)))⟩, ⟨S1x3, a1⟩, ⟨S1x1, a2⟩] concatenates_S1x64_S1x3_S1x1_S1x68_d1) (transpose S68x2560 [1, 0] a11 transposes_S2560x68_S68x2560_1_0)) (broadcastInDim S1x2560 ![1] bcast_S2560_S1x2560_1 a13)) (Host.dotGeneral dot_S1x512_S512x2560_S1x2560_1_0_0_1_n_n none (shapeCast _ a3 shapeCasts_S1x1x512_S1x512) (transpose S512x2560 [1, 0] a12 transposes_S2560x512_S512x2560_1_0))) (broadcastInDim S1x2560 ![1] bcast_S2560_S1x2560_1 a14)) slices_S1x2560_S1x512_0_512))))) (shapeCast _ a4 shapeCasts_S1x1x512_S1x512)) (mulf (Host.divf (broadcastInDim S1x512 ![] bcast_S_S1x512 (constant S_ .f32 0x3F800000#32)) (addf (broadcastInDim S1x512 ![] bcast_S_S1x512 (constant S_ .f32 0x3F800000#32)) (Host.exp (Host.negf (extractStridedSlice S1x512 ![0, 0] (addf (addf (addf (Host.dotGeneral dot_S1x68_S68x2560_S1x2560_1_0_0_1_n_n none (concatenate S1x68 1 [⟨S1x64, (maximumf (addf (Host.dotGeneral dot_S1x32_S32x64_S1x64_1_0_0_1_n_n none (maximumf (addf (Host.dotGeneral dot_S1x9_S9x32_S1x32_1_0_0_1_n_n none a0 (transpose S9x32 [1, 0] a7 transposes_S32x9_S9x32_1_0)) (broadcastInDim S1x32 ![1] bcast_S32_S1x32_1 a8)) (broadcastInDim S1x32 ![] bcast_S_S1x32 (constant S_ .f32 0x00000000#32))) (transpose S32x64 [1, 0] a9 transposes_S64x32_S32x64_1_0)) (broadcastInDim S1x64 ![1] bcast_S64_S1x64_1 a10)) (broadcastInDim S1x64 ![] bcast_S_S1x64 (constant S_ .f32 0x00000000#32)))⟩, ⟨S1x3, a1⟩, ⟨S1x1, a2⟩] concatenates_S1x64_S1x3_S1x1_S1x68_d1) (transpose S68x2560 [1, 0] a11 transposes_S2560x68_S68x2560_1_0)) (broadcastInDim S1x2560 ![1] bcast_S2560_S1x2560_1 a13)) (Host.dotGeneral dot_S1x512_S512x2560_S1x2560_1_0_0_1_n_n none (shapeCast _ a3 shapeCasts_S1x1x512_S1x512) (transpose S512x2560 [1, 0] a12 transposes_S2560x512_S512x2560_1_0))) (broadcastInDim S1x2560 ![1] bcast_S2560_S1x2560_1 a14)) slices_S1x2560_S1x512_0_0))))) (Host.tanh (extractStridedSlice S1x512 ![0, 1024] (addf (addf (addf (Host.dotGeneral dot_S1x68_S68x2560_S1x2560_1_0_0_1_n_n none (concatenate S1x68 1 [⟨S1x64, (maximumf (addf (Host.dotGeneral dot_S1x32_S32x64_S1x64_1_0_0_1_n_n none (maximumf (addf (Host.dotGeneral dot_S1x9_S9x32_S1x32_1_0_0_1_n_n none a0 (transpose S9x32 [1, 0] a7 transposes_S32x9_S9x32_1_0)) (broadcastInDim S1x32 ![1] bcast_S32_S1x32_1 a8)) (broadcastInDim S1x32 ![] bcast_S_S1x32 (constant S_ .f32 0x00000000#32))) (transpose S32x64 [1, 0] a9 transposes_S64x32_S32x64_1_0)) (broadcastInDim S1x64 ![1] bcast_S64_S1x64_1 a10)) (broadcastInDim S1x64 ![] bcast_S_S1x64 (constant S_ .f32 0x00000000#32)))⟩, ⟨S1x3, a1⟩, ⟨S1x1, a2⟩] concatenates_S1x64_S1x3_S1x1_S1x68_d1) (transpose S68x2560 [1, 0] a11 transposes_S2560x68_S68x2560_1_0)) (broadcastInDim S1x2560 ![1] bcast_S2560_S1x2560_1 a13)) (Host.dotGeneral dot_S1x512_S512x2560_S1x2560_1_0_0_1_n_n none (shapeCast _ a3 shapeCasts_S1x1x512_S1x512) (transpose S512x2560 [1, 0] a12 transposes_S2560x512_S512x2560_1_0))) (broadcastInDim S1x2560 ![1] bcast_S2560_S1x2560_1 a14)) slices_S1x2560_S1x512_0_1024)))) (mulf (Host.divf (broadcastInDim S1x512 ![] bcast_S_S1x512 (constant S_ .f32 0x3F800000#32)) (addf (broadcastInDim S1x512 ![] bcast_S_S1x512 (constant S_ .f32 0x3F800000#32)) (Host.exp (Host.negf (extractStridedSlice S1x512 ![0, 2048] (addf (addf (addf (Host.dotGeneral dot_S1x68_S68x2560_S1x2560_1_0_0_1_n_n none (concatenate S1x68 1 [⟨S1x64, (maximumf (addf (Host.dotGeneral dot_S1x32_S32x64_S1x64_1_0_0_1_n_n none (maximumf (addf (Host.dotGeneral dot_S1x9_S9x32_S1x32_1_0_0_1_n_n none a0 (transpose S9x32 [1, 0] a7 transposes_S32x9_S9x32_1_0)) (broadcastInDim S1x32 ![1] bcast_S32_S1x32_1 a8)) (broadcastInDim S1x32 ![] bcast_S_S1x32 (constant S_ .f32 0x00000000#32))) (transpose S32x64 [1, 0] a9 transposes_S64x32_S32x64_1_0)) (broadcastInDim S1x64 ![1] bcast_S64_S1x64_1 a10)) (broadcastInDim S1x64 ![] bcast_S_S1x64 (constant S_ .f32 0x00000000#32)))⟩, ⟨S1x3, a1⟩, ⟨S1x1, a2⟩] concatenates_S1x64_S1x3_S1x1_S1x68_d1) (transpose S68x2560 [1, 0] a11 transposes_S2560x68_S68x2560_1_0)) (broadcastInDim S1x2560 ![1] bcast_S2560_S1x2560_1 a13)) (Host.dotGeneral dot_S1x512_S512x2560_S1x2560_1_0_0_1_n_n none (shapeCast _ a3 shapeCasts_S1x1x512_S1x512) (transpose S512x2560 [1, 0] a12 transposes_S2560x512_S512x2560_1_0))) (broadcastInDim S1x2560 ![1] bcast_S2560_S1x2560_1 a14)) slices_S1x2560_S1x512_0_2048))))) mt))))

set_option maxRecDepth 8192 in
/-- Result 3, the new cell state c_t, as a function of the argument arrays and the retrieved vector m_t. -/
def tail3 (a0 : (⟨S1x9, .f32⟩ : BufTy).Contents (Elt F)) (a1 : (⟨S1x3, .f32⟩ : BufTy).Contents (Elt F)) (a2 : (⟨S1x1, .f32⟩ : BufTy).Contents (Elt F)) (a3 : (⟨S1x1x512, .f32⟩ : BufTy).Contents (Elt F)) (a4 : (⟨S1x1x512, .f32⟩ : BufTy).Contents (Elt F)) (a5 : (⟨S100000x64, .f32⟩ : BufTy).Contents (Elt F)) (a6 : (⟨S100000x512, .f32⟩ : BufTy).Contents (Elt F)) (a7 : (⟨S32x9, .f32⟩ : BufTy).Contents (Elt F)) (a8 : (⟨S32, .f32⟩ : BufTy).Contents (Elt F)) (a9 : (⟨S64x32, .f32⟩ : BufTy).Contents (Elt F)) (a10 : (⟨S64, .f32⟩ : BufTy).Contents (Elt F)) (a11 : (⟨S2560x68, .f32⟩ : BufTy).Contents (Elt F)) (a12 : (⟨S2560x512, .f32⟩ : BufTy).Contents (Elt F)) (a13 : (⟨S2560, .f32⟩ : BufTy).Contents (Elt F)) (a14 : (⟨S2560, .f32⟩ : BufTy).Contents (Elt F)) (a15 : (⟨S3x512, .f32⟩ : BufTy).Contents (Elt F)) (a16 : (⟨S3, .f32⟩ : BufTy).Contents (Elt F)) (a17 : (⟨S1x512, .f32⟩ : BufTy).Contents (Elt F)) (a18 : (⟨S1, .f32⟩ : BufTy).Contents (Elt F)) (mt : (⟨S1x512, .f32⟩ : BufTy).Contents (Elt F)) : (⟨S1x1x512, .f32⟩ : BufTy).Contents (Elt F) :=
  broadcastInDim S1x1x512 ![1, 2] bcast_S1x512_S1x1x512_1_2 (addf (addf (mulf (Host.divf (broadcastInDim S1x512 ![] bcast_S_S1x512 (constant S_ .f32 0x3F800000#32)) (addf (broadcastInDim S1x512 ![] bcast_S_S1x512 (constant S_ .f32 0x3F800000#32)) (Host.exp (Host.negf (extractStridedSlice S1x512 ![0, 512] (addf (addf (addf (Host.dotGeneral dot_S1x68_S68x2560_S1x2560_1_0_0_1_n_n none (concatenate S1x68 1 [⟨S1x64, (maximumf (addf (Host.dotGeneral dot_S1x32_S32x64_S1x64_1_0_0_1_n_n none (maximumf (addf (Host.dotGeneral dot_S1x9_S9x32_S1x32_1_0_0_1_n_n none a0 (transpose S9x32 [1, 0] a7 transposes_S32x9_S9x32_1_0)) (broadcastInDim S1x32 ![1] bcast_S32_S1x32_1 a8)) (broadcastInDim S1x32 ![] bcast_S_S1x32 (constant S_ .f32 0x00000000#32))) (transpose S32x64 [1, 0] a9 transposes_S64x32_S32x64_1_0)) (broadcastInDim S1x64 ![1] bcast_S64_S1x64_1 a10)) (broadcastInDim S1x64 ![] bcast_S_S1x64 (constant S_ .f32 0x00000000#32)))⟩, ⟨S1x3, a1⟩, ⟨S1x1, a2⟩] concatenates_S1x64_S1x3_S1x1_S1x68_d1) (transpose S68x2560 [1, 0] a11 transposes_S2560x68_S68x2560_1_0)) (broadcastInDim S1x2560 ![1] bcast_S2560_S1x2560_1 a13)) (Host.dotGeneral dot_S1x512_S512x2560_S1x2560_1_0_0_1_n_n none (shapeCast _ a3 shapeCasts_S1x1x512_S1x512) (transpose S512x2560 [1, 0] a12 transposes_S2560x512_S512x2560_1_0))) (broadcastInDim S1x2560 ![1] bcast_S2560_S1x2560_1 a14)) slices_S1x2560_S1x512_0_512))))) (shapeCast _ a4 shapeCasts_S1x1x512_S1x512)) (mulf (Host.divf (broadcastInDim S1x512 ![] bcast_S_S1x512 (constant S_ .f32 0x3F800000#32)) (addf (broadcastInDim S1x512 ![] bcast_S_S1x512 (constant S_ .f32 0x3F800000#32)) (Host.exp (Host.negf (extractStridedSlice S1x512 ![0, 0] (addf (addf (addf (Host.dotGeneral dot_S1x68_S68x2560_S1x2560_1_0_0_1_n_n none (concatenate S1x68 1 [⟨S1x64, (maximumf (addf (Host.dotGeneral dot_S1x32_S32x64_S1x64_1_0_0_1_n_n none (maximumf (addf (Host.dotGeneral dot_S1x9_S9x32_S1x32_1_0_0_1_n_n none a0 (transpose S9x32 [1, 0] a7 transposes_S32x9_S9x32_1_0)) (broadcastInDim S1x32 ![1] bcast_S32_S1x32_1 a8)) (broadcastInDim S1x32 ![] bcast_S_S1x32 (constant S_ .f32 0x00000000#32))) (transpose S32x64 [1, 0] a9 transposes_S64x32_S32x64_1_0)) (broadcastInDim S1x64 ![1] bcast_S64_S1x64_1 a10)) (broadcastInDim S1x64 ![] bcast_S_S1x64 (constant S_ .f32 0x00000000#32)))⟩, ⟨S1x3, a1⟩, ⟨S1x1, a2⟩] concatenates_S1x64_S1x3_S1x1_S1x68_d1) (transpose S68x2560 [1, 0] a11 transposes_S2560x68_S68x2560_1_0)) (broadcastInDim S1x2560 ![1] bcast_S2560_S1x2560_1 a13)) (Host.dotGeneral dot_S1x512_S512x2560_S1x2560_1_0_0_1_n_n none (shapeCast _ a3 shapeCasts_S1x1x512_S1x512) (transpose S512x2560 [1, 0] a12 transposes_S2560x512_S512x2560_1_0))) (broadcastInDim S1x2560 ![1] bcast_S2560_S1x2560_1 a14)) slices_S1x2560_S1x512_0_0))))) (Host.tanh (extractStridedSlice S1x512 ![0, 1024] (addf (addf (addf (Host.dotGeneral dot_S1x68_S68x2560_S1x2560_1_0_0_1_n_n none (concatenate S1x68 1 [⟨S1x64, (maximumf (addf (Host.dotGeneral dot_S1x32_S32x64_S1x64_1_0_0_1_n_n none (maximumf (addf (Host.dotGeneral dot_S1x9_S9x32_S1x32_1_0_0_1_n_n none a0 (transpose S9x32 [1, 0] a7 transposes_S32x9_S9x32_1_0)) (broadcastInDim S1x32 ![1] bcast_S32_S1x32_1 a8)) (broadcastInDim S1x32 ![] bcast_S_S1x32 (constant S_ .f32 0x00000000#32))) (transpose S32x64 [1, 0] a9 transposes_S64x32_S32x64_1_0)) (broadcastInDim S1x64 ![1] bcast_S64_S1x64_1 a10)) (broadcastInDim S1x64 ![] bcast_S_S1x64 (constant S_ .f32 0x00000000#32)))⟩, ⟨S1x3, a1⟩, ⟨S1x1, a2⟩] concatenates_S1x64_S1x3_S1x1_S1x68_d1) (transpose S68x2560 [1, 0] a11 transposes_S2560x68_S68x2560_1_0)) (broadcastInDim S1x2560 ![1] bcast_S2560_S1x2560_1 a13)) (Host.dotGeneral dot_S1x512_S512x2560_S1x2560_1_0_0_1_n_n none (shapeCast _ a3 shapeCasts_S1x1x512_S1x512) (transpose S512x2560 [1, 0] a12 transposes_S2560x512_S512x2560_1_0))) (broadcastInDim S1x2560 ![1] bcast_S2560_S1x2560_1 a14)) slices_S1x2560_S1x512_0_1024)))) (mulf (Host.divf (broadcastInDim S1x512 ![] bcast_S_S1x512 (constant S_ .f32 0x3F800000#32)) (addf (broadcastInDim S1x512 ![] bcast_S_S1x512 (constant S_ .f32 0x3F800000#32)) (Host.exp (Host.negf (extractStridedSlice S1x512 ![0, 2048] (addf (addf (addf (Host.dotGeneral dot_S1x68_S68x2560_S1x2560_1_0_0_1_n_n none (concatenate S1x68 1 [⟨S1x64, (maximumf (addf (Host.dotGeneral dot_S1x32_S32x64_S1x64_1_0_0_1_n_n none (maximumf (addf (Host.dotGeneral dot_S1x9_S9x32_S1x32_1_0_0_1_n_n none a0 (transpose S9x32 [1, 0] a7 transposes_S32x9_S9x32_1_0)) (broadcastInDim S1x32 ![1] bcast_S32_S1x32_1 a8)) (broadcastInDim S1x32 ![] bcast_S_S1x32 (constant S_ .f32 0x00000000#32))) (transpose S32x64 [1, 0] a9 transposes_S64x32_S32x64_1_0)) (broadcastInDim S1x64 ![1] bcast_S64_S1x64_1 a10)) (broadcastInDim S1x64 ![] bcast_S_S1x64 (constant S_ .f32 0x00000000#32)))⟩, ⟨S1x3, a1⟩, ⟨S1x1, a2⟩] concatenates_S1x64_S1x3_S1x1_S1x68_d1) (transpose S68x2560 [1, 0] a11 transposes_S2560x68_S68x2560_1_0)) (broadcastInDim S1x2560 ![1] bcast_S2560_S1x2560_1 a13)) (Host.dotGeneral dot_S1x512_S512x2560_S1x2560_1_0_0_1_n_n none (shapeCast _ a3 shapeCasts_S1x1x512_S1x512) (transpose S512x2560 [1, 0] a12 transposes_S2560x512_S512x2560_1_0))) (broadcastInDim S1x2560 ![1] bcast_S2560_S1x2560_1 a14)) slices_S1x2560_S1x512_0_2048))))) mt))

set_option maxRecDepth 8192 in
/-- Result 0 of the reference is `tail0` of the arguments at the retrieval stage's value. -/
theorem res_out0_eq (m : (ℓ : Loc nD τ sig) → Buf (Elt F) ℓ) (c : Dev nD) :
    res_out0 (F := F) m c = tail0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (val_main_v29 (F := F) (m ((c.tc : Thread nD τ).loc main_arg0)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))) := by
  show res_main_v81 m c = _
  unfold res_main_v81 tail0
  rfl

set_option maxRecDepth 8192 in
/-- Result 1 of the reference is `tail1` of the arguments at the retrieval stage's value. -/
theorem res_out1_eq (m : (ℓ : Loc nD τ sig) → Buf (Elt F) ℓ) (c : Dev nD) :
    res_out1 (F := F) m c = tail1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (val_main_v29 (F := F) (m ((c.tc : Thread nD τ).loc main_arg0)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))) := by
  show res_main_v85 m c = _
  unfold res_main_v85 tail1
  rfl

set_option maxRecDepth 8192 in
/-- Result 2 of the reference is `tail2` of the arguments at the retrieval stage's value. -/
theorem res_out2_eq (m : (ℓ : Loc nD τ sig) → Buf (Elt F) ℓ) (c : Dev nD) :
    res_out2 (F := F) m c = tail2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (val_main_v29 (F := F) (m ((c.tc : Thread nD τ).loc main_arg0)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))) := by
  show res_main_v86 m c = _
  unfold res_main_v86 tail2
  rfl

set_option maxRecDepth 8192 in
/-- Result 3 of the reference is `tail3` of the arguments at the retrieval stage's value. -/
theorem res_out3_eq (m : (ℓ : Loc nD τ sig) → Buf (Elt F) ℓ) (c : Dev nD) :
    res_out3 (F := F) m c = tail3 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (val_main_v29 (F := F) (m ((c.tc : Thread nD τ).loc main_arg0)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))) := by
  show res_main_v87 m c = _
  unfold res_main_v87 tail3
  rfl

/-- The fifth result, the feature vector, is the encoder stage. -/
theorem feats_eq (m : (ℓ : Loc nD τ sig) → Buf (Elt F) ℓ) (c : Dev nD) :
    maximumf (addf (Host.dotGeneral dot_S1x32_S32x64_S1x64_1_0_0_1_n_n none (maximumf (addf (Host.dotGeneral dot_S1x9_S9x32_S1x32_1_0_0_1_n_n none (m ((c.tc : Thread nD τ).loc main_arg0)) (transpose S9x32 [1, 0] (m ((c.tc : Thread nD τ).loc main_arg7)) transposes_S32x9_S9x32_1_0)) (broadcastInDim S1x32 ![1] bcast_S32_S1x32_1 (m ((c.tc : Thread nD τ).loc main_arg8)))) (broadcastInDim S1x32 ![] bcast_S_S1x32 (constant S_ .f32 0x00000000#32))) (transpose S32x64 [1, 0] (m ((c.tc : Thread nD τ).loc main_arg9)) transposes_S64x32_S32x64_1_0)) (broadcastInDim S1x64 ![1] bcast_S64_S1x64_1 (m ((c.tc : Thread nD τ).loc main_arg10)))) (broadcastInDim S1x64 ![] bcast_S_S1x64 (constant S_ .f32 0x00000000#32))
      = val_main_v9 (F := F) (m ((c.tc : Thread nD τ).loc main_arg0)) (m ((c.tc : Thread nD τ).loc main_arg7)) (m ((c.tc : Thread nD τ).loc main_arg8)) (m ((c.tc : Thread nD τ).loc main_arg9)) (m ((c.tc : Thread nD τ).loc main_arg10)) := rfl

end Cert.ReferenceIdeal.Tail

end
-- ==== Proof.KernelResult0.lean ====
/-
  The kernel's result 0 as the shared function of the retrieved row.  The later host lines are read from the valuation
  at the region's exit, kept abstract while the lines are evaluated; its few leaves are then the three result arrays as the
  run left them, the recurrent cell's input and ten argument arrays.  The first lines, which merge the two halves'
  statistics, are one function of the three result arrays; what follows is the recurrent cell and its heads, the same
  function of the retrieved row as in the reference.
-/
import proofs.«149342_j75737453298419_2_alg».proof.Proof.ExitValues
import proofs.«149342_j75737453298419_2_alg».proof.Proof.MergedQuot
import proofs.«149342_j75737453298419_2_alg».proof.Proof.SharedTail
import Idealize.ShloMosaic.Lib.StableHlo.Run
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

open Idealize.ShloMosaic.StableHlo

set_option maxHeartbeats 40000000 in
theorem kernel_result0 (c : Dev nD) :
    Pipeline.afterTail₀ cfgs (dats m) 0 (V0 m) [hostOps1] c main_v84
      = Cert.ReferenceIdeal.Tail.tail0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (mergedQuot ((dats m 0 c).arrAt 3 cfg0.N) ((dats m 0 c).arrAt 4 cfg0.N) ((dats m 0 c).arrAt 5 cfg0.N)) := by
  unfold Pipeline.afterTail₀
  show StableHlo.after hostOps1 (Pipeline.withArrays (cfgs (0 : Fin 1)).spec c (V0 m c) (fun w => (dats m 0 c).arrAt w (cfgs (0 : Fin 1)).N)) (Proc.devRef .tc main_v84) = _
  generalize hW : Pipeline.withArrays (cfgs (0 : Fin 1)).spec c (V0 m c) (fun w => (dats m 0 c).arrAt w (cfgs (0 : Fin 1)).N) = W
  have e3 : W (Proc.devRef .tc main_v11_0) = (dats m 0 c).arrAt 3 cfg0.N := by rw [← hW]; exact WA_arr3 m c
  have e4 : W (Proc.devRef .tc main_v11_1) = (dats m 0 c).arrAt 4 cfg0.N := by rw [← hW]; exact WA_arr4 m c
  have e5 : W (Proc.devRef .tc main_v11_2) = (dats m 0 c).arrAt 5 cfg0.N := by rw [← hW]; exact WA_arr5 m c
  have ex : W (Proc.devRef .tc main_v10) = Cert.ReferenceIdeal.Read.val_main_v10 (F := Ideal) (m ((c.tc : Thread nD τ).loc main_arg0)) (m ((c.tc : Thread nD τ).loc main_arg1)) (m ((c.tc : Thread nD τ).loc main_arg2)) (m ((c.tc : Thread nD τ).loc main_arg7)) (m ((c.tc : Thread nD τ).loc main_arg8)) (m ((c.tc : Thread nD τ).loc main_arg9)) (m ((c.tc : Thread nD τ).loc main_arg10)) := by rw [← hW]; exact WA_xt m c
  have ea3 : W (Proc.devRef .tc main_arg3) = m ((c.tc : Thread nD τ).loc main_arg3) := by rw [← hW]; exact WA_arg m c main_arg3 (by simp only [argRefs, List.mem_cons, List.mem_nil_iff, or_false, true_or, or_true]) (by decide)
  have ea4 : W (Proc.devRef .tc main_arg4) = m ((c.tc : Thread nD τ).loc main_arg4) := by rw [← hW]; exact WA_arg m c main_arg4 (by simp only [argRefs, List.mem_cons, List.mem_nil_iff, or_false, true_or, or_true]) (by decide)
  have ea11 : W (Proc.devRef .tc main_arg11) = m ((c.tc : Thread nD τ).loc main_arg11) := by rw [← hW]; exact WA_arg m c main_arg11 (by simp only [argRefs, List.mem_cons, List.mem_nil_iff, or_false, true_or, or_true]) (by decide)
  have ea12 : W (Proc.devRef .tc main_arg12) = m ((c.tc : Thread nD τ).loc main_arg12) := by rw [← hW]; exact WA_arg m c main_arg12 (by simp only [argRefs, List.mem_cons, List.mem_nil_iff, or_false, true_or, or_true]) (by decide)
  have ea13 : W (Proc.devRef .tc main_arg13) = m ((c.tc : Thread nD τ).loc main_arg13) := by rw [← hW]; exact WA_arg m c main_arg13 (by simp only [argRefs, List.mem_cons, List.mem_nil_iff, or_false, true_or, or_true]) (by decide)
  have ea14 : W (Proc.devRef .tc main_arg14) = m ((c.tc : Thread nD τ).loc main_arg14) := by rw [← hW]; exact WA_arg m c main_arg14 (by simp only [argRefs, List.mem_cons, List.mem_nil_iff, or_false, true_or, or_true]) (by decide)
  have ea15 : W (Proc.devRef .tc main_arg15) = m ((c.tc : Thread nD τ).loc main_arg15) := by rw [← hW]; exact WA_arg m c main_arg15 (by simp only [argRefs, List.mem_cons, List.mem_nil_iff, or_false, true_or, or_true]) (by decide)
  have ea16 : W (Proc.devRef .tc main_arg16) = m ((c.tc : Thread nD τ).loc main_arg16) := by rw [← hW]; exact WA_arg m c main_arg16 (by simp only [argRefs, List.mem_cons, List.mem_nil_iff, or_false, true_or, or_true]) (by decide)
  have ea17 : W (Proc.devRef .tc main_arg17) = m ((c.tc : Thread nD τ).loc main_arg17) := by rw [← hW]; exact WA_arg m c main_arg17 (by simp only [argRefs, List.mem_cons, List.mem_nil_iff, or_false, true_or, or_true]) (by decide)
  have ea18 : W (Proc.devRef .tc main_arg18) = m ((c.tc : Thread nD τ).loc main_arg18) := by rw [← hW]; exact WA_arg m c main_arg18 (by simp only [argRefs, List.mem_cons, List.mem_nil_iff, or_false, true_or, or_true]) (by decide)
  after_results_simp
  simp only [e3, e4, e5, ex, ea3, ea4, ea11, ea12, ea13, ea14, ea15, ea16, ea17, ea18]
  unfold Cert.ReferenceIdeal.Tail.tail0 mergedQuot
  rfl

end Cert.KernelIdeal.Hand

end
-- ==== Proof.KernelResult1.lean ====
/-
  The kernel's result 1 as the shared function of the retrieved row.  The later host lines are read from the valuation
  at the region's exit, kept abstract while the lines are evaluated; its few leaves are then the three result arrays as the
  run left them, the recurrent cell's input and ten argument arrays.  The first lines, which merge the two halves'
  statistics, are one function of the three result arrays; what follows is the recurrent cell and its heads, the same
  function of the retrieved row as in the reference.
-/
import proofs.«149342_j75737453298419_2_alg».proof.Proof.KernelResult0
import proofs.«149342_j75737453298419_2_alg».proof.Proof.MergedQuot
import proofs.«149342_j75737453298419_2_alg».proof.Proof.SharedTail
import Idealize.ShloMosaic.Lib.StableHlo.Run
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

open Idealize.ShloMosaic.StableHlo

set_option maxHeartbeats 40000000 in
theorem kernel_result1 (c : Dev nD) :
    Pipeline.afterTail₀ cfgs (dats m) 0 (V0 m) [hostOps1] c main_v88
      = Cert.ReferenceIdeal.Tail.tail1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (mergedQuot ((dats m 0 c).arrAt 3 cfg0.N) ((dats m 0 c).arrAt 4 cfg0.N) ((dats m 0 c).arrAt 5 cfg0.N)) := by
  unfold Pipeline.afterTail₀
  show StableHlo.after hostOps1 (Pipeline.withArrays (cfgs (0 : Fin 1)).spec c (V0 m c) (fun w => (dats m 0 c).arrAt w (cfgs (0 : Fin 1)).N)) (Proc.devRef .tc main_v88) = _
  generalize hW : Pipeline.withArrays (cfgs (0 : Fin 1)).spec c (V0 m c) (fun w => (dats m 0 c).arrAt w (cfgs (0 : Fin 1)).N) = W
  have e3 : W (Proc.devRef .tc main_v11_0) = (dats m 0 c).arrAt 3 cfg0.N := by rw [← hW]; exact WA_arr3 m c
  have e4 : W (Proc.devRef .tc main_v11_1) = (dats m 0 c).arrAt 4 cfg0.N := by rw [← hW]; exact WA_arr4 m c
  have e5 : W (Proc.devRef .tc main_v11_2) = (dats m 0 c).arrAt 5 cfg0.N := by rw [← hW]; exact WA_arr5 m c
  have ex : W (Proc.devRef .tc main_v10) = Cert.ReferenceIdeal.Read.val_main_v10 (F := Ideal) (m ((c.tc : Thread nD τ).loc main_arg0)) (m ((c.tc : Thread nD τ).loc main_arg1)) (m ((c.tc : Thread nD τ).loc main_arg2)) (m ((c.tc : Thread nD τ).loc main_arg7)) (m ((c.tc : Thread nD τ).loc main_arg8)) (m ((c.tc : Thread nD τ).loc main_arg9)) (m ((c.tc : Thread nD τ).loc main_arg10)) := by rw [← hW]; exact WA_xt m c
  have ea3 : W (Proc.devRef .tc main_arg3) = m ((c.tc : Thread nD τ).loc main_arg3) := by rw [← hW]; exact WA_arg m c main_arg3 (by simp only [argRefs, List.mem_cons, List.mem_nil_iff, or_false, true_or, or_true]) (by decide)
  have ea4 : W (Proc.devRef .tc main_arg4) = m ((c.tc : Thread nD τ).loc main_arg4) := by rw [← hW]; exact WA_arg m c main_arg4 (by simp only [argRefs, List.mem_cons, List.mem_nil_iff, or_false, true_or, or_true]) (by decide)
  have ea11 : W (Proc.devRef .tc main_arg11) = m ((c.tc : Thread nD τ).loc main_arg11) := by rw [← hW]; exact WA_arg m c main_arg11 (by simp only [argRefs, List.mem_cons, List.mem_nil_iff, or_false, true_or, or_true]) (by decide)
  have ea12 : W (Proc.devRef .tc main_arg12) = m ((c.tc : Thread nD τ).loc main_arg12) := by rw [← hW]; exact WA_arg m c main_arg12 (by simp only [argRefs, List.mem_cons, List.mem_nil_iff, or_false, true_or, or_true]) (by decide)
  have ea13 : W (Proc.devRef .tc main_arg13) = m ((c.tc : Thread nD τ).loc main_arg13) := by rw [← hW]; exact WA_arg m c main_arg13 (by simp only [argRefs, List.mem_cons, List.mem_nil_iff, or_false, true_or, or_true]) (by decide)
  have ea14 : W (Proc.devRef .tc main_arg14) = m ((c.tc : Thread nD τ).loc main_arg14) := by rw [← hW]; exact WA_arg m c main_arg14 (by simp only [argRefs, List.mem_cons, List.mem_nil_iff, or_false, true_or, or_true]) (by decide)
  have ea15 : W (Proc.devRef .tc main_arg15) = m ((c.tc : Thread nD τ).loc main_arg15) := by rw [← hW]; exact WA_arg m c main_arg15 (by simp only [argRefs, List.mem_cons, List.mem_nil_iff, or_false, true_or, or_true]) (by decide)
  have ea16 : W (Proc.devRef .tc main_arg16) = m ((c.tc : Thread nD τ).loc main_arg16) := by rw [← hW]; exact WA_arg m c main_arg16 (by simp only [argRefs, List.mem_cons, List.mem_nil_iff, or_false, true_or, or_true]) (by decide)
  have ea17 : W (Proc.devRef .tc main_arg17) = m ((c.tc : Thread nD τ).loc main_arg17) := by rw [← hW]; exact WA_arg m c main_arg17 (by simp only [argRefs, List.mem_cons, List.mem_nil_iff, or_false, true_or, or_true]) (by decide)
  have ea18 : W (Proc.devRef .tc main_arg18) = m ((c.tc : Thread nD τ).loc main_arg18) := by rw [← hW]; exact WA_arg m c main_arg18 (by simp only [argRefs, List.mem_cons, List.mem_nil_iff, or_false, true_or, or_true]) (by decide)
  after_results_simp
  simp only [e3, e4, e5, ex, ea3, ea4, ea11, ea12, ea13, ea14, ea15, ea16, ea17, ea18]
  unfold Cert.ReferenceIdeal.Tail.tail1 mergedQuot
  rfl

end Cert.KernelIdeal.Hand

end
-- ==== Proof.KernelResult2.lean ====
/-
  The kernel's result 2 as the shared function of the retrieved row.  The later host lines are read from the valuation
  at the region's exit, kept abstract while the lines are evaluated; its few leaves are then the three result arrays as the
  run left them, the recurrent cell's input and ten argument arrays.  The first lines, which merge the two halves'
  statistics, are one function of the three result arrays; what follows is the recurrent cell and its heads, the same
  function of the retrieved row as in the reference.
-/
import proofs.«149342_j75737453298419_2_alg».proof.Proof.KernelResult1
import proofs.«149342_j75737453298419_2_alg».proof.Proof.MergedQuot
import proofs.«149342_j75737453298419_2_alg».proof.Proof.SharedTail
import Idealize.ShloMosaic.Lib.StableHlo.Run
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

open Idealize.ShloMosaic.StableHlo

set_option maxHeartbeats 40000000 in
theorem kernel_result2 (c : Dev nD) :
    Pipeline.afterTail₀ cfgs (dats m) 0 (V0 m) [hostOps1] c main_v89
      = Cert.ReferenceIdeal.Tail.tail2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (mergedQuot ((dats m 0 c).arrAt 3 cfg0.N) ((dats m 0 c).arrAt 4 cfg0.N) ((dats m 0 c).arrAt 5 cfg0.N)) := by
  unfold Pipeline.afterTail₀
  show StableHlo.after hostOps1 (Pipeline.withArrays (cfgs (0 : Fin 1)).spec c (V0 m c) (fun w => (dats m 0 c).arrAt w (cfgs (0 : Fin 1)).N)) (Proc.devRef .tc main_v89) = _
  generalize hW : Pipeline.withArrays (cfgs (0 : Fin 1)).spec c (V0 m c) (fun w => (dats m 0 c).arrAt w (cfgs (0 : Fin 1)).N) = W
  have e3 : W (Proc.devRef .tc main_v11_0) = (dats m 0 c).arrAt 3 cfg0.N := by rw [← hW]; exact WA_arr3 m c
  have e4 : W (Proc.devRef .tc main_v11_1) = (dats m 0 c).arrAt 4 cfg0.N := by rw [← hW]; exact WA_arr4 m c
  have e5 : W (Proc.devRef .tc main_v11_2) = (dats m 0 c).arrAt 5 cfg0.N := by rw [← hW]; exact WA_arr5 m c
  have ex : W (Proc.devRef .tc main_v10) = Cert.ReferenceIdeal.Read.val_main_v10 (F := Ideal) (m ((c.tc : Thread nD τ).loc main_arg0)) (m ((c.tc : Thread nD τ).loc main_arg1)) (m ((c.tc : Thread nD τ).loc main_arg2)) (m ((c.tc : Thread nD τ).loc main_arg7)) (m ((c.tc : Thread nD τ).loc main_arg8)) (m ((c.tc : Thread nD τ).loc main_arg9)) (m ((c.tc : Thread nD τ).loc main_arg10)) := by rw [← hW]; exact WA_xt m c
  have ea3 : W (Proc.devRef .tc main_arg3) = m ((c.tc : Thread nD τ).loc main_arg3) := by rw [← hW]; exact WA_arg m c main_arg3 (by simp only [argRefs, List.mem_cons, List.mem_nil_iff, or_false, true_or, or_true]) (by decide)
  have ea4 : W (Proc.devRef .tc main_arg4) = m ((c.tc : Thread nD τ).loc main_arg4) := by rw [← hW]; exact WA_arg m c main_arg4 (by simp only [argRefs, List.mem_cons, List.mem_nil_iff, or_false, true_or, or_true]) (by decide)
  have ea11 : W (Proc.devRef .tc main_arg11) = m ((c.tc : Thread nD τ).loc main_arg11) := by rw [← hW]; exact WA_arg m c main_arg11 (by simp only [argRefs, List.mem_cons, List.mem_nil_iff, or_false, true_or, or_true]) (by decide)
  have ea12 : W (Proc.devRef .tc main_arg12) = m ((c.tc : Thread nD τ).loc main_arg12) := by rw [← hW]; exact WA_arg m c main_arg12 (by simp only [argRefs, List.mem_cons, List.mem_nil_iff, or_false, true_or, or_true]) (by decide)
  have ea13 : W (Proc.devRef .tc main_arg13) = m ((c.tc : Thread nD τ).loc main_arg13) := by rw [← hW]; exact WA_arg m c main_arg13 (by simp only [argRefs, List.mem_cons, List.mem_nil_iff, or_false, true_or, or_true]) (by decide)
  have ea14 : W (Proc.devRef .tc main_arg14) = m ((c.tc : Thread nD τ).loc main_arg14) := by rw [← hW]; exact WA_arg m c main_arg14 (by simp only [argRefs, List.mem_cons, List.mem_nil_iff, or_false, true_or, or_true]) (by decide)
  have ea15 : W (Proc.devRef .tc main_arg15) = m ((c.tc : Thread nD τ).loc main_arg15) := by rw [← hW]; exact WA_arg m c main_arg15 (by simp only [argRefs, List.mem_cons, List.mem_nil_iff, or_false, true_or, or_true]) (by decide)
  have ea16 : W (Proc.devRef .tc main_arg16) = m ((c.tc : Thread nD τ).loc main_arg16) := by rw [← hW]; exact WA_arg m c main_arg16 (by simp only [argRefs, List.mem_cons, List.mem_nil_iff, or_false, true_or, or_true]) (by decide)
  have ea17 : W (Proc.devRef .tc main_arg17) = m ((c.tc : Thread nD τ).loc main_arg17) := by rw [← hW]; exact WA_arg m c main_arg17 (by simp only [argRefs, List.mem_cons, List.mem_nil_iff, or_false, true_or, or_true]) (by decide)
  have ea18 : W (Proc.devRef .tc main_arg18) = m ((c.tc : Thread nD τ).loc main_arg18) := by rw [← hW]; exact WA_arg m c main_arg18 (by simp only [argRefs, List.mem_cons, List.mem_nil_iff, or_false, true_or, or_true]) (by decide)
  after_results_simp
  simp only [e3, e4, e5, ex, ea3, ea4, ea11, ea12, ea13, ea14, ea15, ea16, ea17, ea18]
  unfold Cert.ReferenceIdeal.Tail.tail2 mergedQuot
  rfl

end Cert.KernelIdeal.Hand

end
-- ==== Proof.KernelResult3.lean ====
/-
  The kernel's result 3 as the shared function of the retrieved row.  The later host lines are read from the valuation
  at the region's exit, kept abstract while the lines are evaluated; its few leaves are then the three result arrays as the
  run left them, the recurrent cell's input and ten argument arrays.  The first lines, which merge the two halves'
  statistics, are one function of the three result arrays; what follows is the recurrent cell and its heads, the same
  function of the retrieved row as in the reference.
-/
import proofs.«149342_j75737453298419_2_alg».proof.Proof.KernelResult2
import proofs.«149342_j75737453298419_2_alg».proof.Proof.MergedQuot
import proofs.«149342_j75737453298419_2_alg».proof.Proof.SharedTail
import Idealize.ShloMosaic.Lib.StableHlo.Run
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

open Idealize.ShloMosaic.StableHlo

set_option maxHeartbeats 40000000 in
theorem kernel_result3 (c : Dev nD) :
    Pipeline.afterTail₀ cfgs (dats m) 0 (V0 m) [hostOps1] c main_v90
      = Cert.ReferenceIdeal.Tail.tail3 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (mergedQuot ((dats m 0 c).arrAt 3 cfg0.N) ((dats m 0 c).arrAt 4 cfg0.N) ((dats m 0 c).arrAt 5 cfg0.N)) := by
  unfold Pipeline.afterTail₀
  show StableHlo.after hostOps1 (Pipeline.withArrays (cfgs (0 : Fin 1)).spec c (V0 m c) (fun w => (dats m 0 c).arrAt w (cfgs (0 : Fin 1)).N)) (Proc.devRef .tc main_v90) = _
  generalize hW : Pipeline.withArrays (cfgs (0 : Fin 1)).spec c (V0 m c) (fun w => (dats m 0 c).arrAt w (cfgs (0 : Fin 1)).N) = W
  have e3 : W (Proc.devRef .tc main_v11_0) = (dats m 0 c).arrAt 3 cfg0.N := by rw [← hW]; exact WA_arr3 m c
  have e4 : W (Proc.devRef .tc main_v11_1) = (dats m 0 c).arrAt 4 cfg0.N := by rw [← hW]; exact WA_arr4 m c
  have e5 : W (Proc.devRef .tc main_v11_2) = (dats m 0 c).arrAt 5 cfg0.N := by rw [← hW]; exact WA_arr5 m c
  have ex : W (Proc.devRef .tc main_v10) = Cert.ReferenceIdeal.Read.val_main_v10 (F := Ideal) (m ((c.tc : Thread nD τ).loc main_arg0)) (m ((c.tc : Thread nD τ).loc main_arg1)) (m ((c.tc : Thread nD τ).loc main_arg2)) (m ((c.tc : Thread nD τ).loc main_arg7)) (m ((c.tc : Thread nD τ).loc main_arg8)) (m ((c.tc : Thread nD τ).loc main_arg9)) (m ((c.tc : Thread nD τ).loc main_arg10)) := by rw [← hW]; exact WA_xt m c
  have ea3 : W (Proc.devRef .tc main_arg3) = m ((c.tc : Thread nD τ).loc main_arg3) := by rw [← hW]; exact WA_arg m c main_arg3 (by simp only [argRefs, List.mem_cons, List.mem_nil_iff, or_false, true_or, or_true]) (by decide)
  have ea4 : W (Proc.devRef .tc main_arg4) = m ((c.tc : Thread nD τ).loc main_arg4) := by rw [← hW]; exact WA_arg m c main_arg4 (by simp only [argRefs, List.mem_cons, List.mem_nil_iff, or_false, true_or, or_true]) (by decide)
  have ea11 : W (Proc.devRef .tc main_arg11) = m ((c.tc : Thread nD τ).loc main_arg11) := by rw [← hW]; exact WA_arg m c main_arg11 (by simp only [argRefs, List.mem_cons, List.mem_nil_iff, or_false, true_or, or_true]) (by decide)
  have ea12 : W (Proc.devRef .tc main_arg12) = m ((c.tc : Thread nD τ).loc main_arg12) := by rw [← hW]; exact WA_arg m c main_arg12 (by simp only [argRefs, List.mem_cons, List.mem_nil_iff, or_false, true_or, or_true]) (by decide)
  have ea13 : W (Proc.devRef .tc main_arg13) = m ((c.tc : Thread nD τ).loc main_arg13) := by rw [← hW]; exact WA_arg m c main_arg13 (by simp only [argRefs, List.mem_cons, List.mem_nil_iff, or_false, true_or, or_true]) (by decide)
  have ea14 : W (Proc.devRef .tc main_arg14) = m ((c.tc : Thread nD τ).loc main_arg14) := by rw [← hW]; exact WA_arg m c main_arg14 (by simp only [argRefs, List.mem_cons, List.mem_nil_iff, or_false, true_or, or_true]) (by decide)
  have ea15 : W (Proc.devRef .tc main_arg15) = m ((c.tc : Thread nD τ).loc main_arg15) := by rw [← hW]; exact WA_arg m c main_arg15 (by simp only [argRefs, List.mem_cons, List.mem_nil_iff, or_false, true_or, or_true]) (by decide)
  have ea16 : W (Proc.devRef .tc main_arg16) = m ((c.tc : Thread nD τ).loc main_arg16) := by rw [← hW]; exact WA_arg m c main_arg16 (by simp only [argRefs, List.mem_cons, List.mem_nil_iff, or_false, true_or, or_true]) (by decide)
  have ea17 : W (Proc.devRef .tc main_arg17) = m ((c.tc : Thread nD τ).loc main_arg17) := by rw [← hW]; exact WA_arg m c main_arg17 (by simp only [argRefs, List.mem_cons, List.mem_nil_iff, or_false, true_or, or_true]) (by decide)
  have ea18 : W (Proc.devRef .tc main_arg18) = m ((c.tc : Thread nD τ).loc main_arg18) := by rw [← hW]; exact WA_arg m c main_arg18 (by simp only [argRefs, List.mem_cons, List.mem_nil_iff, or_false, true_or, or_true]) (by decide)
  after_results_simp
  simp only [e3, e4, e5, ex, ea3, ea4, ea11, ea12, ea13, ea14, ea15, ea16, ea17, ea18]
  unfold Cert.ReferenceIdeal.Tail.tail3 mergedQuot
  rfl

end Cert.KernelIdeal.Hand

end
-- ==== Proof.Algebraic.lean ====
/-
  The algebraic claim.  Both programs run to the end from memories that agree on the arguments.  The kernel's four
  later results are the recurrent cell and its heads applied to its retrieved row, the reference's are the same
  function applied to its own; the two retrieved rows are equal; the fifth result, the encoder's output, is computed by
  the same host lines in both.  The arguments end unchanged in both (their frames).
-/
import proofs.«149342_j75737453298419_2_alg».proof.Defs
import proofs.«149342_j75737453298419_2_alg».proof.Proof.KernelRetrieval
import proofs.«149342_j75737453298419_2_alg».proof.Proof.KernelResult0
import proofs.«149342_j75737453298419_2_alg».proof.Proof.KernelResult1
import proofs.«149342_j75737453298419_2_alg».proof.Proof.KernelResult2
import proofs.«149342_j75737453298419_2_alg».proof.Proof.KernelResult3
import proofs.«149342_j75737453298419_2_alg».proof.Proof.SharedTail

set_option maxRecDepth 16384

noncomputable section

namespace Cert.KernelIdeal.Hand

open Cert.KernelIdeal Cert.KernelIdeal.Gen Cert.KernelIdeal.Arith
open Idealize.ShloMosaic Idealize.ShloMosaic.TcCoe Idealize.ShloMosaic.ValueIdx Idealize.ShloMosaic.RunningSoftmax
open Idealize.SL Idealize.SL.Sem
open Idealize.ShloMosaic.Pipeline (Dat Cfg Window)

variable (m : (ℓ : Loc nD τ sig) → Buf (Elt Ideal) ℓ) (ρ : Dev nD → PrngReg)

open Idealize.ShloMosaic.StableHlo Cert.ReferenceIdeal.Tail

set_option maxHeartbeats 40000000 in
theorem algebraic : Cert.algebraic_KernelIdeal_ReferenceIdeal := by
  intro m ρ m' ρ' hpre hagree
  refine ⟨fun c => tail0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (mergedQuot ((dats m 0 c).arrAt 3 cfg0.N) ((dats m 0 c).arrAt 4 cfg0.N) ((dats m 0 c).arrAt 5 cfg0.N)),
    fun c => tail1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (mergedQuot ((dats m 0 c).arrAt 3 cfg0.N) ((dats m 0 c).arrAt 4 cfg0.N) ((dats m 0 c).arrAt 5 cfg0.N)),
    fun c => tail2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (mergedQuot ((dats m 0 c).arrAt 3 cfg0.N) ((dats m 0 c).arrAt 4 cfg0.N) ((dats m 0 c).arrAt 5 cfg0.N)),
    fun c => tail3 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (mergedQuot ((dats m 0 c).arrAt 3 cfg0.N) ((dats m 0 c).arrAt 4 cfg0.N) ((dats m 0 c).arrAt 5 cfg0.N)),
    fun c => V m c main_v9, ?_, ?_⟩
  · -- the kernel's run
    refine (θ_run Cert.KernelIdeal.defs _ _).mono (fun r h c => ?_) (run_main (F := Ideal) m ρ)
    exact ⟨((h c).2 main_v84 (Pipeline.mem_restRefs_of main_v84 (by decide) (by decide))).trans (kernel_result0 m c),
      ((h c).2 main_v88 (Pipeline.mem_restRefs_of main_v88 (by decide) (by decide))).trans (kernel_result1 m c),
      ((h c).2 main_v89 (Pipeline.mem_restRefs_of main_v89 (by decide) (by decide))).trans (kernel_result2 m c),
      ((h c).2 main_v90 (Pipeline.mem_restRefs_of main_v90 (by decide) (by decide))).trans (kernel_result3 m c),
      ((h c).1 0).trans (((dats m 0 c).arrAt_in 0 rfl _).trans (A_eq m c 0)),
      ((h c).2 main_arg0 (Pipeline.mem_restRefs_of main_arg0 (by decide) (by decide))).trans (W_arg m (dats m) c main_arg0 (by simp only [argRefs, List.mem_cons, List.mem_nil_iff, or_false, true_or, or_true]) (by decide)),
      ((h c).2 main_arg1 (Pipeline.mem_restRefs_of main_arg1 (by decide) (by decide))).trans (W_arg m (dats m) c main_arg1 (by simp only [argRefs, List.mem_cons, List.mem_nil_iff, or_false, true_or, or_true]) (by decide)),
      ((h c).2 main_arg2 (Pipeline.mem_restRefs_of main_arg2 (by decide) (by decide))).trans (W_arg m (dats m) c main_arg2 (by simp only [argRefs, List.mem_cons, List.mem_nil_iff, or_false, true_or, or_true]) (by decide)),
      ((h c).2 main_arg3 (Pipeline.mem_restRefs_of main_arg3 (by decide) (by decide))).trans (W_arg m (dats m) c main_arg3 (by simp only [argRefs, List.mem_cons, List.mem_nil_iff, or_false, true_or, or_true]) (by decide)),
      ((h c).2 main_arg4 (Pipeline.mem_restRefs_of main_arg4 (by decide) (by decide))).trans (W_arg m (dats m) c main_arg4 (by simp only [argRefs, List.mem_cons, List.mem_nil_iff, or_false, true_or, or_true]) (by decide)),
      ((h c).1 1).trans (((dats m 0 c).arrAt_in 1 rfl _).trans ((A_eq m c 1).trans (V_arg m c main_arg5 (by simp only [argRefs, List.mem_cons, List.mem_nil_iff, or_false, true_or, or_true])))),
      ((h c).1 2).trans (((dats m 0 c).arrAt_in 2 rfl _).trans ((A_eq m c 2).trans (V_arg m c main_arg6 (by simp only [argRefs, List.mem_cons, List.mem_nil_iff, or_false, true_or, or_true])))),
      ((h c).2 main_arg7 (Pipeline.mem_restRefs_of main_arg7 (by decide) (by decide))).trans (W_arg m (dats m) c main_arg7 (by simp only [argRefs, List.mem_cons, List.mem_nil_iff, or_false, true_or, or_true]) (by decide)),
      ((h c).2 main_arg8 (Pipeline.mem_restRefs_of main_arg8 (by decide) (by decide))).trans (W_arg m (dats m) c main_arg8 (by simp only [argRefs, List.mem_cons, List.mem_nil_iff, or_false, true_or, or_true]) (by decide)),
      ((h c).2 main_arg9 (Pipeline.mem_restRefs_of main_arg9 (by decide) (by decide))).trans (W_arg m (dats m) c main_arg9 (by simp only [argRefs, List.mem_cons, List.mem_nil_iff, or_false, true_or, or_true]) (by decide)),
      ((h c).2 main_arg10 (Pipeline.mem_restRefs_of main_arg10 (by decide) (by decide))).trans (W_arg m (dats m) c main_arg10 (by simp only [argRefs, List.mem_cons, List.mem_nil_iff, or_false, true_or, or_true]) (by decide)),
      ((h c).2 main_arg11 (Pipeline.mem_restRefs_of main_arg11 (by decide) (by decide))).trans (W_arg m (dats m) c main_arg11 (by simp only [argRefs, List.mem_cons, List.mem_nil_iff, or_false, true_or, or_true]) (by decide)),
      ((h c).2 main_arg12 (Pipeline.mem_restRefs_of main_arg12 (by decide) (by decide))).trans (W_arg m (dats m) c main_arg12 (by simp only [argRefs, List.mem_cons, List.mem_nil_iff, or_false, true_or, or_true]) (by decide)),
      ((h c).2 main_arg13 (Pipeline.mem_restRefs_of main_arg13 (by decide) (by decide))).trans (W_arg m (dats m) c main_arg13 (by simp only [argRefs, List.mem_cons, List.mem_nil_iff, or_false, true_or, or_true]) (by decide)),
      ((h c).2 main_arg14 (Pipeline.mem_restRefs_of main_arg14 (by decide) (by decide))).trans (W_arg m (dats m) c main_arg14 (by simp only [argRefs, List.mem_cons, List.mem_nil_iff, or_false, true_or, or_true]) (by decide)),
      ((h c).2 main_arg15 (Pipeline.mem_restRefs_of main_arg15 (by decide) (by decide))).trans (W_arg m (dats m) c main_arg15 (by simp only [argRefs, List.mem_cons, List.mem_nil_iff, or_false, true_or, or_true]) (by decide)),
      ((h c).2 main_arg16 (Pipeline.mem_restRefs_of main_arg16 (by decide) (by decide))).trans (W_arg m (dats m) c main_arg16 (by simp only [argRefs, List.mem_cons, List.mem_nil_iff, or_false, true_or, or_true]) (by decide)),
      ((h c).2 main_arg17 (Pipeline.mem_restRefs_of main_arg17 (by decide) (by decide))).trans (W_arg m (dats m) c main_arg17 (by simp only [argRefs, List.mem_cons, List.mem_nil_iff, or_false, true_or, or_true]) (by decide)),
      ((h c).2 main_arg18 (Pipeline.mem_restRefs_of main_arg18 (by decide) (by decide))).trans (W_arg m (dats m) c main_arg18 (by simp only [argRefs, List.mem_cons, List.mem_nil_iff, or_false, true_or, or_true]) (by decide))⟩
  · -- the reference's run
    refine (θ_run Cert.ReferenceIdeal.defs _ _).mono (fun r h c => ?_) (Cert.ReferenceIdeal.Value.run (F := Ideal) m' ρ')
    have hq := retrieval_eq m hpre c
    obtain ⟨h0, h1, h2, h3, h4, hk⟩ := h c
    refine ⟨h0.trans ?_, h1.trans ?_, h2.trans ?_, h3.trans ?_, h4.trans ?_, hk⟩
    · rw [show Cert.ReferenceIdeal.Value.res_main_v81 m' c = Cert.ReferenceIdeal.Value.res_out0 m' c from rfl, res_out0_eq]
      rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2.1, (hagree c).2.2.2.2.2.2.2.2.2.2.2.2.2.2.2.2.2.1, (hagree c).2.2.2.2.2.2.2.2.2.2.2.2.2.2.2.2.2.2]
      rw [← hq]
    · rw [show Cert.ReferenceIdeal.Value.res_main_v85 m' c = Cert.ReferenceIdeal.Value.res_out1 m' c from rfl, res_out1_eq]
      rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2.1, (hagree c).2.2.2.2.2.2.2.2.2.2.2.2.2.2.2.2.2.1, (hagree c).2.2.2.2.2.2.2.2.2.2.2.2.2.2.2.2.2.2]
      rw [← hq]
    · rw [show Cert.ReferenceIdeal.Value.res_main_v86 m' c = Cert.ReferenceIdeal.Value.res_out2 m' c from rfl, res_out2_eq]
      rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2.1, (hagree c).2.2.2.2.2.2.2.2.2.2.2.2.2.2.2.2.2.1, (hagree c).2.2.2.2.2.2.2.2.2.2.2.2.2.2.2.2.2.2]
      rw [← hq]
    · rw [show Cert.ReferenceIdeal.Value.res_main_v87 m' c = Cert.ReferenceIdeal.Value.res_out3 m' c from rfl, res_out3_eq]
      rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2.1, (hagree c).2.2.2.2.2.2.2.2.2.2.2.2.2.2.2.2.2.1, (hagree c).2.2.2.2.2.2.2.2.2.2.2.2.2.2.2.2.2.2]
      rw [← hq]
    · show _ = V m c main_v9
      rw [V_feats, ← (hagree c).1, ← (hagree c).2.2.2.2.2.2.2.1, ← (hagree c).2.2.2.2.2.2.2.2.1, ← (hagree c).2.2.2.2.2.2.2.2.2.1, ← (hagree c).2.2.2.2.2.2.2.2.2.2.1]
      exact Cert.ReferenceIdeal.Tail.feats_eq m' c

end Cert.KernelIdeal.Hand

end
-- ==== Proof.lean ====
/-
  The claim of this certificate: a memory-retrieval kernel (a softmax over 100000 stored keys, streamed in two halves of
  ten blocks with running statistics, the halves merged by a log-sum-exp combine) followed by one step of a recurrent cell,
  against the same computation written with one whole softmax.  The three frames say each program runs to the end,
  faults nowhere and leaves its nineteen argument arrays as launched: for the kernel at the word level and at the ideal
  instance this is the accumulation over the grid and the host lines around it; for the reference it is its run with the
  results dropped.  The idealization rewrote nothing, so it preserves the kernel trivially.  At the ideal instance both
  programs end with equal results: the running statistics of a half are its one-shot maximum and sums, the merge of the
  two halves is the one-shot maximum and sums over all rows, the quotient of the two sums is the reference's weighted
  mean once minus the squared distance is expanded (the query's squared norm cancels against the maximum), and the rest
  of both programs is one function of that retrieved row.
-/
import proofs.«149342_j75737453298419_2_alg».proof.Defs
import proofs.«149342_j75737453298419_2_alg».proof.Proof.Gen.Kernel
import proofs.«149342_j75737453298419_2_alg».proof.Proof.Gen.KernelIdeal
import proofs.«149342_j75737453298419_2_alg».proof.Proof.Gen.ReferenceIdeal
import proofs.«149342_j75737453298419_2_alg».proof.Proof.Gen.Pre_finite_inputs
import proofs.«149342_j75737453298419_2_alg».proof.Proof.Gen.ReferenceIdeal.Run
import proofs.«149342_j75737453298419_2_alg».proof.Proof.Gen.ReferenceIdeal.Read
import proofs.«149342_j75737453298419_2_alg».proof.Proof.FrameClaim
import proofs.«149342_j75737453298419_2_alg».proof.Proof.FrameClaimKernel
import proofs.«149342_j75737453298419_2_alg».proof.Proof.Algebraic
import Idealize.ShloMosaic.Adequacy
import Idealize.ShloMosaic.Init

noncomputable section

namespace Cert.Proof

open Idealize.ShloMosaic Idealize.SL.Sem

theorem frame_p : Cert.frame_Kernel := fun m ρ _ => Cert.Kernel.Hand.frame m ρ
theorem frame_pi : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2.2.2.2.2) (Cert.ReferenceIdeal.Value.run (F := Ideal) m ρ)

theorem preserves : Cert.preserves_Kernel_KernelIdeal := trivial

theorem claim : Cert.Claim := ⟨Cert.Kernel.Gen.facts, Cert.KernelIdeal.Gen.facts, Cert.ReferenceIdeal.Gen.facts, Cert.Pre_finite_inputs.Gen.facts,
  frame_p, frame_pi, frame_ri, preserves, Cert.KernelIdeal.Hand.algebraic⟩

end Cert.Proof

end
